-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4096x4096 .f32) (main_arg5 : FVec F S4096 .f32) (main_arg6 : FVec F S1024x4096 .f32) (main_arg7 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S4096x1024 .f32) (main_arg3 : FVec F S4096 .f32) (main_arg4 : FVec F S4096x4096 .f32) (main_arg5 : FVec F S4096 .f32) (main_arg6 : FVec F S1024x4096 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S8192x4096 : Shape := ⟨2, ![8192, 4096]⟩
abbrev S1024x1024 : Shape := ⟨2, ![1024, 1024]⟩
abbrev S1x1024 : Shape := ⟨2, ![1, 1024]⟩
abbrev S8192x1 : Shape := ⟨2, ![8192, 1]⟩
abbrev S128x1024 : Shape := ⟨2, ![128, 1024]⟩
abbrev S128x4096 : Shape := ⟨2, ![128, 4096]⟩
abbrev S128x1 : Shape := ⟨2, ![128, 1]⟩
abbrev S3 : Shape := ⟨1, ![3]⟩
abbrev S1 : Shape := ⟨1, ![1]⟩
abbrev S_ : Shape := ⟨0, ![]⟩
abbrev S128 : Shape := ⟨1, ![128]⟩
abbrev S8192x1x1 : Shape := ⟨3, ![8192, 1, 1]⟩

abbrev nBuf : Space → Nat
  | .hbm => 18
  | .vmem => 43
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4096x1024, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1024x4096, .f32⟩
  | .hbm, ⟨7, _⟩ => ⟨S1024, .f32⟩
  | .hbm, ⟨8, _⟩ => ⟨S8192x4096, .f32⟩
  | .hbm, ⟨9, _⟩ => ⟨S8192x4096, .bf16⟩
  | .hbm, ⟨10, _⟩ => ⟨S8192x4096, .f32⟩
  | .hbm, ⟨11, _⟩ => ⟨S8192x4096, .bf16⟩
  | .hbm, ⟨12, _⟩ => ⟨S8192x1024, .f32⟩
  | .hbm, ⟨13, _⟩ => ⟨S4096x1024, .bf16⟩
  | .hbm, ⟨14, _⟩ => ⟨S4096x4096, .bf16⟩
  | .hbm, ⟨15, _⟩ => ⟨S1024x4096, .bf16⟩
  | .hbm, ⟨16, _⟩ => ⟨S8192x1, .f32⟩
  | .hbm, ⟨17, _⟩ => ⟨S8192x1x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024, .f32⟩
  | .local _ .vmem, ⟨16, _⟩ => ⟨S1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S128x1024, .f32⟩
  | .local _ .vmem, ⟨33, _⟩ => ⟨S128x1024, .f32⟩
  | .local _ .vmem, ⟨34, _⟩ => ⟨S128x4096, .bf16⟩
  | .local _ .vmem, ⟨35, _⟩ => ⟨S128x4096, .bf16⟩
  | .local _ .vmem, ⟨36, _⟩ => ⟨S128x4096, .bf16⟩
  | .local _ .vmem, ⟨37, _⟩ => ⟨S128x4096, .bf16⟩
  | .local _ .vmem, ⟨38, _⟩ => ⟨S128x1, .f32⟩
  | .local _ .vmem, ⟨39, _⟩ => ⟨S128x1, .f32⟩
  | .local _ .vmem, ⟨40, _⟩ => ⟨S4096x1024, .bf16⟩
  | .local _ .vmem, ⟨41, _⟩ => ⟨S4096x4096, .bf16⟩
  | .local _ .vmem, ⟨42, _⟩ => ⟨S1024x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_scratch0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_scratch0 : Ref sig .tc := ⟨.vmem, 40, rfl⟩
abbrev cc3_scratch1 : Ref sig .tc := ⟨.vmem, 41, rfl⟩
abbrev cc3_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_10 : BitVec 32 := 0#32
  let v23 : BitVec 1 := Scalar.cmpi .eq arg2 c0_i32_10
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_10 : BitVec 32 := 0#32
  let v26 : BitVec 1 := Scalar.cmpi .ne v25 c0_i32_10
  v26

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![8, 1, 4], ![false, false, false]⟩

def k2_cond2 (i : grid2.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_10 : BitVec 32 := 0#32
  let v26 : BitVec 1 := Scalar.cmpi .ne v25 c0_i32_10
  v26

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨2, ![2, 32], ![false, false]⟩

def cc3_transform_0 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc3_transform_6 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage3_0 : Fin 2 → Memref sig .tc .vmem S128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S128x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S128x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S128x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  natLt_1_32 : 1 < 32
  packedbf16_S1024x1024_S1024x1024_0_0 : (Rect.unit (s := S1024x1024) ![0, 0] S1024x1024.size inb_S1024x1024_S1024x1024_0_0).PackedRows (EltTy.packing .bf16)
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  inb_S128x1024_S128x1024_0_0 : ∀ a, (![0, 0] : Fin 2 → Nat) a + S128x1024.size a ≤ S128x1024.size a
  h_S128x1024 : 0 < S128x1024.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x4096_S1024x4096_0_0 : ∀ a, (![0, 0] : Fin 2 → Nat) a + S1024x4096.size a ≤ S1024x4096.size a
  h_S1024x4096 : 0 < S1024x4096.numel
  inb_S4096x4096_S4096x4096_0_0 : ∀ a, (![0, 0] : Fin 2 → Nat) a + S4096x4096.size a ≤ S4096x4096.size a
  h_S4096x4096 : 0 < S4096x4096.numel
  inb_S4096x1024_S4096x1024_0_0 : ∀ a, (![0, 0] : Fin 2 → Nat) a + S4096x1024.size a ≤ S4096x1024.size a
  h_S4096x1024 : 0 < S4096x1024.numel
  reduces_S128x1024_S128 : S128x1024.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S8192x1_S8192x1x1 : S8192x1.ShapeCasts S8192x1x1
  dot_S1024x1024_S1024x1024_S1024x1024_1_1_0_0_n_n_wf : DotDims.WF S1024x1024 S1024x1024 S1024x1024 [1] [1] [0] [0] [] []
  dot_S128x1024_S1024x4096_S128x4096_1_0_0_1_n_n_wf : DotDims.WF S128x1024 S1024x4096 S128x4096 [1] [0] [0] [1] [] []
  dot_S128x4096_S4096x4096_S128x4096_1_0_0_1_n_n_wf : DotDims.WF S128x4096 S4096x4096 S128x4096 [1] [0] [0] [1] [] []
  dot_S128x4096_S4096x1024_S128x1024_1_0_0_1_n_n_wf : DotDims.WF S128x4096 S4096x1024 S128x1024 [1] [0] [0] [1] [] []
  hcc3_scratch3 : 37 + S3.numel ≤ 40
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .bf16 = 32 ∨ (Rect.block (s := S8192x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .bf16 = 32 ∨ (Rect.block (s := S8192x4096) S1024x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .f32 = 32 ∨ (Rect.block (s := S8192x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x4096.size a
  hwx2_1 : ∀ i : grid2.Coords, EltTy.bits .f32 = 32 ∨ (Rect.block (s := S1024x4096) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x1024.size a
  hwx2_4 : ∀ i : grid2.Coords, EltTy.bits .f32 = 32 ∨ (Rect.block (s := S8192x1024) S1024x1024.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x1024.size a ≤ S8192x1024.size a
  hwx3_0 : ∀ i : grid3.Coords, EltTy.bits .f32 = 32 ∨ (Rect.block (s := S8192x1024) S128x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x4096.size a ≤ S8192x4096.size a
  hwx3_1 : ∀ i : grid3.Coords, EltTy.bits .bf16 = 32 ∨ (Rect.block (s := S8192x4096) S128x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x4096.size a ≤ S8192x4096.size a
  hwx3_2 : ∀ i : grid3.Coords, EltTy.bits .bf16 = 32 ∨ (Rect.block (s := S8192x4096) S128x4096.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_6 i = cc3_transform_6 i'
  hinb3_3 : ∀ (i : grid3.Coords) a, (cc3_transform_6 i a + 1) * S128x1.size a ≤ S8192x1.size a
  hwx3_3 : ∀ i : grid3.Coords, EltTy.bits .f32 = 32 ∨ (Rect.block (s := S8192x1) S128x1.size (cc3_transform_6 i) (hinb3_3 i)).WholeWords (EltTy.packing .f32)

variable [Facts₀]

abbrev cc3_scratch3 : DmaSems sig S3 := SemArray.consecutive 37 S3 hcc3_scratch3
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1024x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v1_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_arg1) S128x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0_1) S128x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1_1) S128x4096.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S128x1.size cc3_transform_6 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S8192x4096 : Shape := ⟨2, ![8192, 4096]⟩
abbrev S1x4096 : Shape := ⟨2, ![1, 4096]⟩
abbrev S_ : Shape := ⟨0, ![]⟩
abbrev S1x1024 : Shape := ⟨2, ![1, 1024]⟩
abbrev S8192x1 : Shape := ⟨2, ![8192, 1]⟩
abbrev S8192 : Shape := ⟨1, ![8192]⟩
abbrev S8192x1x1 : Shape := ⟨3, ![8192, 1, 1]⟩

abbrev nBuf : Space → Nat
  | .hbm => 213
  | .vmem => 0
  | .smem => 0
  | _ => 0

abbrev hbmTy0_0 (i : Nat) : BufTy := match i % 128 with
  | 0 => ⟨S8192x1024, .f32⟩
  | 1 => ⟨S8192x1024, .f32⟩
  | 2 => ⟨S4096x1024, .f32⟩
  | 3 => ⟨S4096, .f32⟩
  | 4 => ⟨S4096x4096, .f32⟩
  | 5 => ⟨S4096, .f32⟩
  | 6 => ⟨S1024x4096, .f32⟩
  | 7 => ⟨S1024, .f32⟩
  | 8 => ⟨S1024x4096, .f32⟩
  | 9 => ⟨S8192x4096, .f32⟩
  | 10 => ⟨S1x4096, .f32⟩
  | 11 => ⟨S8192x4096, .f32⟩
  | 12 => ⟨S8192x4096, .f32⟩
  | 13 => ⟨S_, .f32⟩
  | 14 => ⟨S8192x4096, .f32⟩
  | 15 => ⟨S8192x4096, .f32⟩
  | 16 => ⟨S_, .f32⟩
  | 17 => ⟨S8192x4096, .f32⟩
  | 18 => ⟨S8192x4096, .i1⟩
  | 19 => ⟨S_, .f32⟩
  | 20 => ⟨S8192x4096, .f32⟩
  | 21 => ⟨S4096x4096, .f32⟩
  | 22 => ⟨S8192x4096, .f32⟩
  | 23 => ⟨S1x4096, .f32⟩
  | 24 => ⟨S8192x4096, .f32⟩
  | 25 => ⟨S8192x4096, .f32⟩
  | 26 => ⟨S_, .f32⟩
  | 27 => ⟨S8192x4096, .f32⟩
  | 28 => ⟨S8192x4096, .f32⟩
  | 29 => ⟨S_, .f32⟩
  | 30 => ⟨S8192x4096, .f32⟩
  | 31 => ⟨S8192x4096, .i1⟩
  | 32 => ⟨S_, .f32⟩
  | 33 => ⟨S8192x4096, .f32⟩
  | 34 => ⟨S4096x1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S_, .f32⟩
  | 41 => ⟨S8192x1, .f32⟩
  | 42 => ⟨S8192x4096, .f32⟩
  | 43 => ⟨S_, .f32⟩
  | 44 => ⟨S8192x4096, .f32⟩
  | 45 => ⟨S8192x4096, .f32⟩
  | 46 => ⟨S8192x4096, .f32⟩
  | 47 => ⟨S_, .f32⟩
  | 48 => ⟨S8192x4096, .f32⟩
  | 49 => ⟨S8192x4096, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x4096, .f32⟩
  | 60 => ⟨S_, .f32⟩
  | 61 => ⟨S8192x4096, .f32⟩
  | 62 => ⟨S8192x4096, .f32⟩
  | 63 => ⟨S8192x4096, .f32⟩
  | 64 => ⟨S_, .f32⟩
  | 65 => ⟨S8192x4096, .f32⟩
  | 66 => ⟨S8192x4096, .f32⟩
  | 67 => ⟨S8192x1024, .f32⟩
  | 68 => ⟨S8192x1024, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x4096, .f32⟩
  | 77 => ⟨S_, .f32⟩
  | 78 => ⟨S8192x4096, .f32⟩
  | 79 => ⟨S8192x4096, .f32⟩
  | 80 => ⟨S8192x4096, .f32⟩
  | 81 => ⟨S_, .f32⟩
  | 82 => ⟨S8192x4096, .f32⟩
  | 83 => ⟨S8192x4096, .f32⟩
  | 84 => ⟨S8192x1024, .f32⟩
  | 85 => ⟨S8192x1024, .f32⟩
  | 86 => ⟨S_, .f32⟩
  | 87 => ⟨S8192, .f32⟩
  | 88 => ⟨S8192x1, .f32⟩
  | 89 => ⟨S_, .f32⟩
  | 90 => ⟨S8192x1, .f32⟩
  | 91 => ⟨S8192x1, .f32⟩
  | 92 => ⟨S8192x1, .f32⟩
  | 93 => ⟨S8192x4096, .f32⟩
  | 94 => ⟨S_, .f32⟩
  | 95 => ⟨S8192x4096, .f32⟩
  | 96 => ⟨S8192x4096, .f32⟩
  | 97 => ⟨S8192x4096, .f32⟩
  | 98 => ⟨S_, .f32⟩
  | 99 => ⟨S8192x4096, .f32⟩
  | 100 => ⟨S8192x4096, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x1, .f32⟩
  | 110 => ⟨S8192x4096, .f32⟩
  | 111 => ⟨S_, .f32⟩
  | 112 => ⟨S8192x4096, .f32⟩
  | 113 => ⟨S8192x4096, .f32⟩
  | 114 => ⟨S8192x4096, .f32⟩
  | 115 => ⟨S_, .f32⟩
  | 116 => ⟨S8192x4096, .f32⟩
  | 117 => ⟨S8192x4096, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S8192x1, .f32⟩
  | 127 => ⟨S8192x4096, .f32⟩
  | _ => ⟨S8192x1024, .f32⟩

abbrev hbmTy0_1 (i : Nat) : BufTy := match i % 128 with
  | 0 => ⟨S_, .f32⟩
  | 1 => ⟨S8192x4096, .f32⟩
  | 2 => ⟨S8192x4096, .f32⟩
  | 3 => ⟨S8192x4096, .f32⟩
  | 4 => ⟨S_, .f32⟩
  | 5 => ⟨S8192x4096, .f32⟩
  | 6 => ⟨S8192x4096, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x4096, .f32⟩
  | 17 => ⟨S_, .f32⟩
  | 18 => ⟨S8192x4096, .f32⟩
  | 19 => ⟨S8192x4096, .f32⟩
  | 20 => ⟨S8192x4096, .f32⟩
  | 21 => ⟨S_, .f32⟩
  | 22 => ⟨S8192x4096, .f32⟩
  | 23 => ⟨S8192x4096, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S8192x1, .f32⟩
  | 33 => ⟨S8192x4096, .f32⟩
  | 34 => ⟨S_, .f32⟩
  | 35 => ⟨S8192x4096, .f32⟩
  | 36 => ⟨S8192x4096, .f32⟩
  | 37 => ⟨S8192x4096, .f32⟩
  | 38 => ⟨S_, .f32⟩
  | 39 => ⟨S8192x4096, .f32⟩
  | 40 => ⟨S8192x4096, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x4096, .f32⟩
  | 51 => ⟨S_, .f32⟩
  | 52 => ⟨S8192x4096, .f32⟩
  | 53 => ⟨S8192x4096, .f32⟩
  | 54 => ⟨S8192x4096, .f32⟩
  | 55 => ⟨S_, .f32⟩
  | 56 => ⟨S8192x4096, .f32⟩
  | 57 => ⟨S8192x4096, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x4096, .f32⟩
  | 68 => ⟨S_, .f32⟩
  | 69 => ⟨S8192x4096, .f32⟩
  | 70 => ⟨S8192x4096, .f32⟩
  | 71 => ⟨S8192x4096, .f32⟩
  | 72 => ⟨S_, .f32⟩
  | 73 => ⟨S8192x4096, .f32⟩
  | 74 => ⟨S8192x4096, .f32⟩
  | 75 => ⟨S8192x1024, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S8192x1, .f32⟩
  | 84 => ⟨S8192x1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_cst : Ref sig .tc := ⟨.hbm, 26, rfl⟩
abbrev main_call1_v0 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_14 : Ref sig .tc := ⟨.hbm, 86, rfl⟩
abbrev main_v59 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_18 : Ref sig .tc := ⟨.hbm, 103, rfl⟩
abbrev main_v72 : Ref sig .tc := ⟨.hbm, 104, rfl⟩
abbrev main_v73 : Ref sig .tc := ⟨.hbm, 105, rfl⟩
abbrev main_cst_19 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_20 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_21 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_22 : Ref sig .tc := ⟨.hbm, 120, rfl⟩
abbrev main_v85 : Ref sig .tc := ⟨.hbm, 121, rfl⟩
abbrev main_v86 : Ref sig .tc := ⟨.hbm, 122, rfl⟩
abbrev main_cst_23 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_24 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_25 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_26 : Ref sig .tc := ⟨.hbm, 137, rfl⟩
abbrev main_v98 : Ref sig .tc := ⟨.hbm, 138, rfl⟩
abbrev main_v99 : Ref sig .tc := ⟨.hbm, 139, rfl⟩
abbrev main_cst_27 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_28 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_29 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_30 : Ref sig .tc := ⟨.hbm, 154, rfl⟩
abbrev main_v111 : Ref sig .tc := ⟨.hbm, 155, rfl⟩
abbrev main_v112 : Ref sig .tc := ⟨.hbm, 156, rfl⟩
abbrev main_cst_31 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_32 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_33 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_34 : Ref sig .tc := ⟨.hbm, 171, rfl⟩
abbrev main_v124 : Ref sig .tc := ⟨.hbm, 172, rfl⟩
abbrev main_v125 : Ref sig .tc := ⟨.hbm, 173, rfl⟩
abbrev main_cst_35 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_36 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_37 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_38 : Ref sig .tc := ⟨.hbm, 188, rfl⟩
abbrev main_v137 : Ref sig .tc := ⟨.hbm, 189, rfl⟩
abbrev main_v138 : Ref sig .tc := ⟨.hbm, 190, rfl⟩
abbrev main_cst_39 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_40 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_41 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_42 : Ref sig .tc := ⟨.hbm, 205, rfl⟩
abbrev main_v150 : Ref sig .tc := ⟨.hbm, 206, rfl⟩
abbrev main_v151 : Ref sig .tc := ⟨.hbm, 207, rfl⟩
abbrev main_cst_43 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  transposes_S4096x4096_S4096x4096_1_0 : S4096x4096.Transposes [1, 0] S4096x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1 : S_.BroadcastsInDim S8192x1 (![] : Fin 0 → Fin S8192x1.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  shapeCasts_S8192x1_S8192x1x1 : S8192x1.ShapeCasts S8192x1x1
  dot_S8192x1024_S1024x4096_S8192x4096_1_0_0_1_n_n_wf : DotDims.WF S8192x1024 S1024x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []
  dot_S8192x1024_S4096x1024_S8192x4096_1_1_0_0_n_n_wf : DotDims.WF S8192x1024 S4096x1024 S8192x4096 [1] [1] [0] [0] [] []
  dot_S8192x4096_S4096x4096_S8192x4096_1_1_0_0_n_n_wf : DotDims.WF S8192x4096 S4096x4096 S8192x4096 [1] [1] [0] [0] [] []
  dot_S8192x4096_S1024x4096_S8192x1024_1_1_0_0_n_n_wf : DotDims.WF S8192x4096 S1024x4096 S8192x1024 [1] [1] [0] [0] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S1024x4096_S8192x1024_1_1_0_0_n_n : DotDims S8192x4096 S1024x4096 S8192x1024 where
  lhsContracting := [1]
  rhsContracting := [1]
  lhsNonContracting := [0]
  rhsNonContracting := [0]
  lhsBatch := []
  rhsBatch := []
  wf := dot_S8192x4096_S1024x4096_S8192x1024_1_1_0_0_n_n_wf

class Facts : Prop extends Facts₀ where

variable [Facts]
-- ==== Proof.Easy.lean ====
/-
  The two conjuncts that need no kernel run.  The reference's frame is its run with the results dropped; and each of
  the six places where the kernel rounds a single-precision tile to bfloat16 and widens it back — the high parts of the
  two operands of each of the three forward matrix products — is, on the extended reals, the identity, which is what the
  idealized kernel prints there.
-/
import proofs.«172335_j35158602285651_2_alg».proof.Defs
import proofs.«172335_j35158602285651_2_alg».proof.Proof.Gen.ReferenceIdeal
import proofs.«172335_j35158602285651_2_alg».proof.Proof.Gen.Pre_finite_inputs
import proofs.«172335_j35158602285651_2_alg».proof.Proof.Gen.ReferenceIdeal.Run

noncomputable section

namespace Cert.Proof.Easy

open Idealize.ShloMosaic Idealize.SL.Sem

/-- The reference runs to the end and leaves its arguments as they were. -/
theorem frame_ri : Cert.frame_ReferenceIdeal := fun m ρ _ =>
  (θ_run Cert.ReferenceIdeal.defs _ _).mono (fun _ h c => (h c).2.2) (Cert.ReferenceIdeal.Value.run (F := Ideal) m ρ)

/-- Rounding a [1024,1024] single-precision tile to bfloat16 and back is the identity on the extended reals, six times. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

end Cert.Proof.Easy

end
-- ==== Proof.KB.R0Run.lean ====
/-
  The first forward layer's kernel body, run once on whole staging buffers.  The grid is 8 row tiles by 4 column tiles
  by ONE reduction step, so at every point both of the body's conditionals are taken: the accumulator is cleared, the
  three partial products of the row tile against the weight tile are added into it, and the bias is added, the result
  rectified into the first output and its sign pattern stored as zeros and ones into the second.  The run records, as
  lists of stored pieces, what the two output buffers and the accumulator end with.
-/
import proofs.«172335_j35158602285651_2_alg».proof.Proof.Gen.Kernel.Launch
import proofs.«172335_j35158602285651_2_alg».proof.Proof.Gen.Kernel.Skeleton
import proofs.«172335_j35158602285651_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first conditional's test, from the grid coordinates: the reduction coordinate is zero. -/
abbrev cond0_0 (i : grid0.Coords) : Prop := (Scalar.cmpi .ne (Scalar.extui (Scalar.cmpi .eq (BitVec.ofNat 32 (i 2).val) 0#32)) 0#32) = 1#1
/-- The reduction axis has one step: both tests hold at every grid point. -/
theorem hcond0_0 : ∀ t : Fin cfg0.N, cond0_0 (grid0.coords t) :=
  (by decide +kernel : ∀ t : Fin grid0.N, cond0_0 (grid0.coords t))
theorem hcond0_1 : ∀ t : Fin cfg0.N, k0_cond2 (grid0.coords t) = 1#1 :=
  (by decide +kernel : ∀ t : Fin grid0.N, k0_cond2 (grid0.coords t) = 1#1)

set_option maxHeartbeats 1000000 in
/-- The body on whole staging buffers — the row tile, the weight tile and the bias slice at given contents, the two
    outputs and the accumulator at anything — runs to the end leaving the inputs as they were and each of the other three
    with the listed pieces written. -/
noncomputable def kernelRun0 (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024 .f32) (harg5 : arg5.IsWhole) (arg6 : Memref sig .tc .vmem S1024x1024 .f32) (harg6 : arg6.IsWhole)
    (arg7 : Memref sig .tc .vmem S1024x1024 .bf16) (harg7 : arg7.IsWhole) (arg8 : Memref sig .tc .vmem S1024x1024 .f32) (harg8 : arg8.IsWhole)
    (hc0 : cond0_0 i) (hc1 : k0_cond2 i = 1#1)
    (x0 : Vec F S1024x1024 .f32) (x1 : Vec F S1024x1024 .f32) (x2 : Vec F S1024 .f32) :
    Σ' (L3 : List (View.Piece (Elt F) S1024x1024 .f32)) (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc0_kernel i arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS

end Cert.Kernel.Hand

end
-- ==== Proof.KB.R0.lean ====
/-
  The first forward layer's pallas_call as a pipeline: what each window's staging buffer holds after the body at each
  grid point, and the body's obligation at every point.  The three inputs (a row tile of the activations, a row tile of
  the weights, a slice of the bias) keep their blocks; the two outputs hold what the run's stored pieces read back to;
  the accumulator is the kernel's own scratch, cleared at every point, so between points it is held at anything.
-/
import proofs.«172335_j35158602285651_2_alg».proof.Proof.KB.R0Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section R0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, through which its contents are stated. -/
abbrev VO0_3 : View sig .tc .vmem S1024x1024 .f32 := (Memref.whole cc0_stg3_0 : Memref sig .tc .vmem S1024x1024 .f32).view
abbrev VO0_4 : View sig .tc .vmem S1024x1024 .bf16 := (Memref.whole cc0_stg4_0 : Memref sig .tc .vmem S1024x1024 .bf16).view
/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x1024 .f32 := Memref.whole cc0_scratch0

/-- The invariant between points: the accumulator at anything, the other scoped buffers untouched, the generator
    register at some state. -/
def Φ0 (c : Dev nD) : sProp 𝕄 :=
  iprop((∃ d, owns (c : Thread nD τ) scM0 fullShare d)
    ∗ Pipeline.scopedRestBut (Ix := Unit) (Name := ℕ) (U := Pipeline.UD sig nD τ) (Lvl := ℕ) (Val := Elt F) spec0 c [cc0_scratch0]
    ∗ (∃ r, prngReg c r))

/-- The stored pieces of each output tile its block, so they cover it. -/
theorem cover0_3 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) (y : S1024x1024.Idx) :
    ∃ pc ∈ (kernelRun0 c i arg3 harg3 arg4 harg4 arg5 harg5 arg6 harg6 arg7 harg7 arg8 harg8 hc0 hc1 x0 x1 x2).1, y ∈ pc.1.set :=
  View.cover_of_tiledL (kernelRun0 c i arg3 harg3 arg4 harg4 arg5 harg5 arg6 harg6 arg7 harg7 arg8 harg8 hc0 hc1 x0 x1 x2).1 S1024x1024.size (by sl_kernel_rfl) y
theorem cover0_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) (y : S1024x1024.Idx) :
    ∃ pc ∈ (kernelRun0 c i arg3 harg3 arg4 harg4 arg5 harg5 arg6 harg6 arg7 harg7 arg8 harg8 hc0 hc1 x0 x1 x2).2.1, y ∈ pc.1.set :=
  View.cover_of_tiledL (kernelRun0 c i arg3 harg3 arg4 harg4 arg5 harg5 arg6 harg6 arg7 harg7 arg8 harg8 hc0 hc1 x0 x1 x2).2.1 S1024x1024.size (by sl_kernel_rfl) y

/-- What the run leaves in each output's staging buffer: its pieces read back. -/
def out0_3 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) : Vec F S1024x1024 .f32 :=
  VO0_3.read (Elt F) (VO0_3.writes (Elt F) VO0_3.junk (kernelRun0 c i arg3 harg3 arg4 harg4 arg5 harg5 arg6 harg6 arg7 harg7 arg8 harg8 hc0 hc1 x0 x1 x2).1)
def out0_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) : Vec F S1024x1024 .bf16 :=
  VO0_4.read (Elt F) (VO0_4.writes (Elt F) VO0_4.junk (kernelRun0 c i arg3 harg3 arg4 harg4 arg5 harg5 arg6 harg6 arg7 harg7 arg8 harg8 hc0 hc1 x0 x1 x2).2.1)

/-- What the two outputs' staging buffers hold after the body at point `t`. -/
def outsAt0_3 (c : Dev nD) (t : Fin cfg0.N) : Vec F S1024x1024 .f32 :=
  out0_3 c (grid0.coords t) (ms0_0 t) (hs0_0 t) (ms0_1 t) (hs0_1 t) (ms0_2 t) (hs0_2 t) (ms0_3 t) (hs0_3 t) (ms0_4 t) (hs0_4 t) scM0 (Memref.isWhole_whole _)
    (hcond0_0 t) (hcond0_1 t) (iblk0 V c 0 t) (iblk0 V c 1 t) (iblk0 V c 2 t)
def outsAt0_4 (c : Dev nD) (t : Fin cfg0.N) : Vec F S1024x1024 .bf16 :=
  out0_4 c (grid0.coords t) (ms0_0 t) (hs0_0 t) (ms0_1 t) (hs0_1 t) (ms0_2 t) (hs0_2 t) (ms0_3 t) (hs0_3 t) (ms0_4 t) (hs0_4 t) scM0 (Memref.isWhole_whole _)
    (hcond0_0 t) (hcond0_1 t) (iblk0 V c 0 t) (iblk0 V c 1 t) (iblk0 V c 2 t)

/-- The proof data of the pipeline on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0_3 V c t
    | ⟨4, _⟩ => outsAt0_4 V c t
  Φ _ := Φ0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0_3 V c t := by dsimp only [dat0]
theorem after0_4 (c : Dev nD) (t : Fin cfg0.N) : (dat0 V c).after 4 t = outsAt0_4 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' buffers hold their blocks, so the run applies; the invariant hands the body its
    accumulator and takes it back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = Φ0 c from rfl, show (dat0 V c).Φ t.castSucc = Φ0 c from rfl,
    show (dat0 V c).owesAt () t.succ = (dat0 V c).owesAt () t.castSucc from rfl,
    after0_0, after0_1, after0_2, after0_3, after0_4]
  unfold Φ0 outsAt0_3 outsAt0_4 out0_3 out0_4
  iintro ⟨⟨HS, HR, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ (hcond0_0 t) (hcond0_1 t) (iblk0 V c 0 t) (iblk0 V c 1 t) (iblk0 V c 2 t)).2.2.2 Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, ⟨%e3, H3⟩, ⟨%e4, H4⟩, ⟨%es, HS⟩⟩
  isplitl [HS HR Hg]
  · isplitl [HS]
    · unfold owns; iexists _, _; isplitr; swap; · iexact HS
      ipureintro; rfl
    isplitl [HR]; · iexact HR
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_3 c _ _ _ _ _ _ _ _ _ _ _ _ _ _ _ _ _ _)
  unfold owns; iexists _; isplitr
  swap; · iexact H4
  ipureintro; exact View.read_writes_of_cover _ _ _ _ _ (cover0_4 c _ _ _ _ _ _ _ _ _ _ _ _ _ _ _ _ _ _)

/-- Both outputs are live at every point. -/
theorem live0_3 : ∀ t : Fin cfg0.N, idle0 3 (grid0.coords t) = false := by decide +kernel
theorem live0_4 : ∀ t : Fin cfg0.N, idle0 4 (grid0.coords t) = false := by decide +kernel

/-- The library's body obligation, at every point. -/
theorem body_obligation0 (c : Dev nD) : BodyObligation (dat0 (F := F) V c) (defs₀ (F := F)) Variants.none () Set.univ := fun t => by
  rw [bigSep_W0, bigSep_W0]
  simp only [live0_3 t, live0_4 t]
  exact sound_body0 V c t

end R0

end Cert.Kernel.Hand

end
-- ==== Proof.KB.R1Run.lean ====
/-
  The body of forward layer two's kernel, run once on whole staging buffers in each of the three situations the grid
  meets.  The grid's last axis walks the reduction in four steps of 1024: the accumulator (the kernel's own scratch
  buffer) is cleared at the first step, receives at every step the three partial products of the row tile against the
  weight tile, and at the last step the bias is added, the result rectified into the first output and its sign pattern stored into the second.
-/
import proofs.«172335_j35158602285651_2_alg».proof.Proof.Gen.Kernel.Launch
import proofs.«172335_j35158602285651_2_alg».proof.Proof.Gen.Kernel.Skeleton
import proofs.«172335_j35158602285651_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first conditional's test, from the grid coordinates: the reduction coordinate is zero. -/
abbrev cond1_0 (i : grid1.Coords) : Prop := (Scalar.cmpi .ne (Scalar.extui (Scalar.cmpi .eq (BitVec.ofNat 32 (i 2).val) 0#32)) 0#32) = 1#1
/-- It holds at the points ≡ 0 (mod 4), and the second (the reduction coordinate is three) at the points ≡ 3. -/
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, k1_cond2 (grid1.coords t) = 1#1 ↔ t.val % 4 = 3 :=
  (by decide +kernel : ∀ t : Fin grid1.N, k1_cond2 (grid1.coords t) = 1#1 ↔ t.val % 4 = 3)

set_option maxHeartbeats 1000000 in
/-- The body at the first reduction step: the accumulator is cleared, then the partial product added; nothing is stored into the outputs. -/
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬k1_cond2 i = 1#1)
    (x0 : Vec F S1024x1024 .f32) (x1 : Vec F S1024x1024 .f32) (x2 : Vec F S1024 .f32) :
    { LS : List (View.Piece (Elt F) S1024x1024 .f32) //
      ∀ (xi0 : Vec F S1024x1024 .f32) (xi1 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi0 ∗ owns (c : Thread nD τ) arg7 fullShare xi1 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi0 ∗ owns (c : Thread nD τ) arg7 fullShare xi1 ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg3 harg3 arg4 harg4 arg5 harg5 arg6 harg6 arg7 harg7 arg8 harg8) K } := by
  refine ⟨?_, fun xi0 xi1 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%g0, %hg0, G0⟩, ⟨%g1, %hg1, G1⟩, ⟨%ds, %fs, -, HS⟩, Hk⟩
    obtain rfl := harg3.eq_unread hf0; obtain rfl := harg4.eq_unread hf1; obtain rfl := harg5.eq_unread hf2; obtain rfl := harg6.eq_unread hg0; obtain rfl := harg7.eq_unread hg1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [G0]
    · iexists _; isplitr; · ipureintro; exact harg6.read_unread _
      iexact G0
    isplitl [G1]
    · iexists _; isplitr; · ipureintro; exact harg7.read_unread _
      iexact G1
    iexists _; iexact HS

set_option maxHeartbeats 1000000 in
/-- The body at a middle reduction step: the partial product is added into the accumulator as the step before left it; nothing is stored into the outputs. -/
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬k1_cond2 i = 1#1)
    (x0 : Vec F S1024x1024 .f32) (x1 : Vec F S1024x1024 .f32) (x2 : Vec F S1024 .f32) (xs : Vec F S1024x1024 .f32) :
    { LS : List (View.Piece (Elt F) S1024x1024 .f32) //
      ∀ (xi0 : Vec F S1024x1024 .f32) (xi1 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi0 ∗ owns (c : Thread nD τ) arg7 fullShare xi1 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi0 ∗ owns (c : Thread nD τ) arg7 fullShare xi1 ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg3 harg3 arg4 harg4 arg5 harg5 arg6 harg6 arg7 harg7 arg8 harg8) K } := by
  refine ⟨?_, fun xi0 xi1 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%g0, %hg0, G0⟩, ⟨%g1, %hg1, G1⟩, ⟨%fs, %hfs, HS⟩, Hk⟩
    obtain rfl := harg3.eq_unread hf0; obtain rfl := harg4.eq_unread hf1; obtain rfl := harg5.eq_unread hf2; obtain rfl := harg6.eq_unread hg0; obtain rfl := harg7.eq_unread hg1; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [G0]
    · iexists _; isplitr; · ipureintro; exact harg6.read_unread _
      iexact G0
    isplitl [G1]
    · iexists _; isplitr; · ipureintro; exact harg7.read_unread _
      iexact G1
    iexists _; iexact HS

set_option maxHeartbeats 1000000 in
/-- The body at the last reduction step: the partial product is added into the accumulator, then the bias added and the outputs stored. -/
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1)
    (x0 : Vec F S1024x1024 .f32) (x1 : Vec F S1024x1024 .f32) (x2 : Vec F S1024 .f32) (xs : Vec F S1024x1024 .f32) :
    Σ' (L0 : List (View.Piece (Elt F) S1024x1024 .f32)) (L1 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L0) ∗ (∃ f, arg7.view.loc (c : Thread nD τ) ↦[arg7.view.set]{fullShare} arg7.view.writes (Elt F) f L1) ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg3 harg3 arg4 harg4 arg5 harg5 arg6 harg6 arg7 harg7 arg8 harg8) K } := by
  refine ⟨?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d0, %g0, -, G0⟩, ⟨%d1, %g1, -, G1⟩, ⟨%fs, %hfs, HS⟩, Hk⟩
    obtain rfl := harg3.eq_unread hf0; obtain rfl := harg4.eq_unread hf1; obtain rfl := harg5.eq_unread hf2; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [G0]; · iexists _; iexact G0
    isplitl [G1]; · iexists _; iexact G1
    iexists _; iexact HS

end Cert.Kernel.Hand

end
-- ==== Proof.KB.R1.lean ====
/-
  Forward layer two's pallas_call as a pipeline.  The reduction runs over four consecutive grid points; the accumulator
  is the kernel's own scratch and is CARRIED between them, so the invariant between points names what it holds: after
  the first step the first partial sum, after each later step the sum so far (a recursion over the grid position).  The
  output windows are stored, and written back, only at the fourth step; at the other three nothing is stored there.
-/
import proofs.«172335_j35158602285651_2_alg».proof.Proof.KB.R1Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section R1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, through which its contents are stated; each window's current staging
    memref at a point; the accumulator as a memref and as a view. -/
abbrev VO1_3 : View sig .tc .vmem S1024x1024 .f32 := (Memref.whole cc1_stg3_0 : Memref sig .tc .vmem S1024x1024 .f32).view
abbrev VO1_4 : View sig .tc .vmem S1024x1024 .bf16 := (Memref.whole cc1_stg4_0 : Memref sig .tc .vmem S1024x1024 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev scM1 : Memref sig .tc .vmem S1024x1024 .f32 := Memref.whole cc1_scratch0
abbrev VS1 : View sig .tc .vmem S1024x1024 .f32 := (scM1).view

/-- In each situation the accumulator's stored pieces cover it; what they read back to. -/
theorem scover1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬k1_cond2 i = 1#1) (x0 : Vec F S1024x1024 .f32) (x1 : Vec F S1024x1024 .f32) (x2 : Vec F S1024 .f32) (y : S1024x1024.Idx) :
    ∃ pc ∈ (kernelRun1_A c i arg3 harg3 arg4 harg4 arg5 harg5 arg6 harg6 arg7 harg7 arg8 harg8 hc0 hc1 x0 x1 x2).1, y ∈ pc.1.set :=
  View.cover_of_tiledL (kernelRun1_A c i arg3 harg3 arg4 harg4 arg5 harg5 arg6 harg6 arg7 harg7 arg8 harg8 hc0 hc1 x0 x1 x2).1 S1024x1024.size (by sl_kernel_rfl) y
def sout1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬k1_cond2 i = 1#1) (x0 : Vec F S1024x1024 .f32) (x1 : Vec F S1024x1024 .f32) (x2 : Vec F S1024 .f32) : Vec F S1024x1024 .f32 :=
  VS1.read (Elt F) (VS1.writes (Elt F) VS1.junk (kernelRun1_A c i arg3 harg3 arg4 harg4 arg5 harg5 arg6 harg6 arg7 harg7 arg8 harg8 hc0 hc1 x0 x1 x2).1)
theorem scover1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬k1_cond2 i = 1#1) (x0 : Vec F S1024x1024 .f32) (x1 : Vec F S1024x1024 .f32) (x2 : Vec F S1024 .f32) (xs : Vec F S1024x1024 .f32) (y : S1024x1024.Idx) :
    ∃ pc ∈ (kernelRun1_B c i arg3 harg3 arg4 harg4 arg5 harg5 arg6 harg6 arg7 harg7 arg8 harg8 hc0 hc1 x0 x1 x2 xs).1, y ∈ pc.1.set :=
  View.cover_of_tiledL (kernelRun1_B c i arg3 harg3 arg4 harg4 arg5 harg5 arg6 harg6 arg7 harg7 arg8 harg8 hc0 hc1 x0 x1 x2 xs).1 S1024x1024.size (by sl_kernel_rfl) y
def sout1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬k1_cond2 i = 1#1) (x0 : Vec F S1024x1024 .f32) (x1 : Vec F S1024x1024 .f32) (x2 : Vec F S1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 hc0 hc1 x0 x1 x2 xs).1)
theorem scover1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 xs).2.2.1, y ∈ pc.1.set :=
  View.cover_of_tiledL (kernelRun1_C c i arg3 harg3 arg4 harg4 arg5 harg5 arg6 harg6 arg7 harg7 arg8 harg8 hc0 hc1 x0 x1 x2 xs).2.2.1 S1024x1024.size (by sl_kernel_rfl) y
def sout1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 hc0 hc1 x0 x1 x2 xs).2.2.1)
/-- At the last step the stored pieces of each output cover it; what they read back to. -/
theorem cover1_C_3 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 xs).1, y ∈ pc.1.set :=
  View.cover_of_tiledL (kernelRun1_C c i arg3 harg3 arg4 harg4 arg5 harg5 arg6 harg6 arg7 harg7 arg8 harg8 hc0 hc1 x0 x1 x2 xs).1 S1024x1024.size (by sl_kernel_rfl) y
def out1_C_3 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) : Vec F S1024x1024 .f32 :=
  VO1_3.read (Elt F) (VO1_3.writes (Elt F) VO1_3.junk (kernelRun1_C c i arg3 harg3 arg4 harg4 arg5 harg5 arg6 harg6 arg7 harg7 arg8 harg8 hc0 hc1 x0 x1 x2 xs).1)
theorem cover1_C_4 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 xs).2.1, y ∈ pc.1.set :=
  View.cover_of_tiledL (kernelRun1_C c i arg3 harg3 arg4 harg4 arg5 harg5 arg6 harg6 arg7 harg7 arg8 harg8 hc0 hc1 x0 x1 x2 xs).2.1 S1024x1024.size (by sl_kernel_rfl) y
def out1_C_4 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) : Vec F S1024x1024 .bf16 :=
  VO1_4.read (Elt F) (VO1_4.writes (Elt F) VO1_4.junk (kernelRun1_C c i arg3 harg3 arg4 harg4 arg5 harg5 arg6 harg6 arg7 harg7 arg8 harg8 hc0 hc1 x0 x1 x2 xs).2.1)

/-- What one grid point makes of the accumulator, given what the point before left in it. -/
def step1 (c : Dev nD) (t : Fin cfg1.N) (xs : Vec F S1024x1024 .f32) : Vec F S1024x1024 .f32 :=
  if h0 : t.val % 4 = 0 then
    sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => by have := (hcond1_1 t).mp h; omega) (iblk1 V c 0 t) (iblk1 V c 1 t) (iblk1 V c 2 t)
  else if h1 : t.val % 4 = 3 then
    sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have := (hcond1_0 t).mp h; omega) ((hcond1_1 t).mpr h1) (iblk1 V c 0 t) (iblk1 V c 1 t) (iblk1 V c 2 t) xs
  else
    sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) xs

/-- THE ACCUMULATION: what the accumulator holds before grid position `n` (after position `n - 1`). -/
def scAt1 (c : Dev nD) : ℕ → Vec F S1024x1024 .f32
  | 0 => VS1.read (Elt F) VS1.junk
  | n + 1 => if h : n < cfg1.N then step1 V c ⟨n, h⟩ (scAt1 c n) else VS1.read (Elt F) VS1.junk

theorem scAt1_succ (c : Dev nD) (t : Fin cfg1.N) : scAt1 V c (t.val + 1) = step1 V c t (scAt1 V c t.val) := by
  show (if h : t.val < cfg1.N then step1 V c ⟨t.val, h⟩ (scAt1 V c t.val) else _) = _
  rw [dif_pos t.isLt]

/-- What output window 3's staging buffer holds after the body at point `t`: at a last reduction step the run's pieces
    read back; elsewhere nothing is stored there and the value is not consulted. -/
def outsAt1_3 (c : Dev nD) (t : Fin cfg1.N) : Vec F S1024x1024 .f32 :=
  if h1 : t.val % 4 = 3 then
    out1_C_3 c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have := (hcond1_0 t).mp h; omega) ((hcond1_1 t).mpr h1) (iblk1 V c 0 t) (iblk1 V c 1 t) (iblk1 V c 2 t) (scAt1 V c t.val)
  else VO1_3.read (Elt F) VO1_3.junk
/-- What output window 4's staging buffer holds after the body at point `t`: at a last reduction step the run's pieces
    read back; elsewhere nothing is stored there and the value is not consulted. -/
def outsAt1_4 (c : Dev nD) (t : Fin cfg1.N) : Vec F S1024x1024 .bf16 :=
  if h1 : t.val % 4 = 3 then
    out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have := (hcond1_0 t).mp h; omega) ((hcond1_1 t).mpr h1) (iblk1 V c 0 t) (iblk1 V c 1 t) (iblk1 V c 2 t) (scAt1 V c t.val)
  else VO1_4.read (Elt F) VO1_4.junk

/-- The invariant before grid position `n`: the accumulator at the sum so far — at anything where a new reduction
    begins —, the other scoped buffers untouched, the generator register at some state. -/
def Φ1 (c : Dev nD) (n : ℕ) : sProp 𝕄 :=
  iprop((if n % 4 = 0 then iprop(∃ d, owns (c : Thread nD τ) scM1 fullShare d) else owns (c : Thread nD τ) scM1 fullShare (scAt1 V c n))
    ∗ Pipeline.scopedRestBut (Ix := Unit) (Name := ℕ) (U := Pipeline.UD sig nD τ) (Lvl := ℕ) (Val := Elt F) spec1 c [cc1_scratch0]
    ∗ (∃ r, prngReg c r))

/-- The proof data of the pipeline on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1_3 V c t
    | ⟨4, _⟩ => outsAt1_4 V c t
  Φ s := Φ1 V c s.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1_3 V c t := by dsimp only [dat1]
theorem after1_4 (c : Dev nD) (t : Fin cfg1.N) : (dat1 V c).after 4 t = outsAt1_4 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Where the output windows are stored and written back: exactly at the last reduction step. -/
theorem idle1_3_of : ∀ t : Fin cfg1.N, ¬t.val % 4 = 3 → idle1 3 (grid1.coords t) = true := by decide +kernel
theorem live1_3_of : ∀ t : Fin cfg1.N, t.val % 4 = 3 → idle1 3 (grid1.coords t) = false := by decide +kernel
theorem noflush1_3_of : ∀ t : Fin cfg1.N, ¬t.val % 4 = 3 → (win1 3).flush t = false := by decide +kernel
theorem idle1_4_of : ∀ t : Fin cfg1.N, ¬t.val % 4 = 3 → idle1 4 (grid1.coords t) = true := by decide +kernel
theorem live1_4_of : ∀ t : Fin cfg1.N, t.val % 4 = 3 → idle1 4 (grid1.coords t) = false := by decide +kernel
theorem noflush1_4_of : ∀ t : Fin cfg1.N, ¬t.val % 4 = 3 → (win1 4).flush t = false := by decide +kernel

/-- What the body is called with at point `t`, the windows one by one. -/
def bodyPre1 (c : Dev nD) (t : Fin cfg1.N) : sProp 𝕄 :=
  iprop(Φ1 V c t.val ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- What it returns at a point that is not a last step (the outputs handed back as found), -/
def bodyPostIdle1 (c : Dev nD) (t : Fin cfg1.N) : sProp 𝕄 :=
  iprop(Φ1 V c (t.val + 1) ∗ (dat1 V c).owesAt () t.castSucc
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ (∃ d, owns (c : Thread nD τ) (ms1_3 t) fullShare ((dat1 V c).before 3 t d))
    ∗ (∃ d, owns (c : Thread nD τ) (ms1_4 t) fullShare ((dat1 V c).before 4 t d)))

/-- and at a last step. -/
def bodyPostLive1 (c : Dev nD) (t : Fin cfg1.N) : sProp 𝕄 :=
  iprop(Φ1 V c (t.val + 1) ∗ (dat1 V c).owesAt () t.castSucc
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 2000000 in
/-- The body at a first reduction step. -/
theorem sound_body1_A (c : Dev nD) (t : Fin cfg1.N) (h0 : t.val % 4 = 0) :
    bodyPre1 V c t ⊢ wp frame (wpE (defs₀ (F := F)) Variants.none c none) Set.univ (bodyAt1 t) (fun _ => bodyPostIdle1 V c t) := by
  unfold bodyPre1 bodyPostIdle1 bodyAt1
  simp only [before1_0, before1_1, before1_2]
  rw [after1_0, after1_1, after1_2]
  unfold Φ1
  rw [if_pos h0, if_neg (show ¬(t.val + 1) % 4 = 0 by omega), scAt1_succ]
  unfold step1; rw [dif_pos h0]; unfold sout1_A
  iintro ⟨⟨HS, HR, Hg⟩, Ho, ⟨%d0, H0⟩, ⟨%d1, H1⟩, ⟨%d2, H2⟩, ⟨%d3, H3⟩, ⟨%d4, H4⟩⟩
  iapply ((kernelRun1_A c (grid1.coords t) _ _ _ _ _ _ _ _ _ _ _ _ ((hcond1_0 t).mpr h0) (fun h => by have := (hcond1_1 t).mp h; omega) (iblk1 V c 0 t) (iblk1 V c 1 t) (iblk1 V c 2 t)).2 _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS HR Hg]
  · isplitl [HS]
    · unfold owns; iexists _; isplitr
      swap; · iexact HS
      ipureintro; exact View.read_writes_of_cover _ _ _ _ _ (scover1_A c _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 2000000 in
/-- The body at a middle reduction step. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPostIdle1 V c t) := by
  unfold bodyPre1 bodyPostIdle1 bodyAt1
  simp only [before1_0, before1_1, before1_2]
  rw [after1_0, after1_1, after1_2]
  unfold Φ1
  rw [if_neg h0, if_neg (show ¬(t.val + 1) % 4 = 0 by omega), scAt1_succ]
  unfold step1; rw [dif_neg h0, dif_neg h1]; unfold sout1_B
  iintro ⟨⟨HS, HR, Hg⟩, Ho, ⟨%d0, H0⟩, ⟨%d1, H1⟩, ⟨%d2, H2⟩, ⟨%d3, H3⟩, ⟨%d4, H4⟩⟩
  iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (scAt1 V c t.val)).2 _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS HR Hg]
  · isplitl [HS]
    · unfold owns; iexists _; isplitr
      swap; · iexact HS
      ipureintro; exact View.read_writes_of_cover _ _ _ _ _ (scover1_B c _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 2000000 in
/-- The body at a last reduction step. -/
theorem sound_body1_C (c : Dev nD) (t : Fin cfg1.N) (h1 : t.val % 4 = 3) :
    bodyPre1 V c t ⊢ wp frame (wpE (defs₀ (F := F)) Variants.none c none) Set.univ (bodyAt1 t) (fun _ => bodyPostLive1 V c t) := by
  unfold bodyPre1 bodyPostLive1 bodyAt1
  simp only [before1_0, before1_1, before1_2]
  rw [after1_0, after1_1, after1_2, after1_3, after1_4]
  unfold Φ1 outsAt1_3 outsAt1_4
  rw [if_neg (show ¬t.val % 4 = 0 by omega), if_pos (show (t.val + 1) % 4 = 0 by omega), dif_pos h1, dif_pos h1]
  unfold out1_C_3 out1_C_4
  iintro ⟨⟨HS, HR, Hg⟩, Ho, ⟨%d0, H0⟩, ⟨%d1, H1⟩, ⟨%d2, H2⟩, ⟨%d3, H3⟩, ⟨%d4, H4⟩⟩
  iapply ((kernelRun1_C c (grid1.coords t) _ _ _ _ _ _ _ _ _ _ _ _ (fun h => by have := (hcond1_0 t).mp h; omega) ((hcond1_1 t).mpr h1) (iblk1 V c 0 t) (iblk1 V c 1 t) (iblk1 V c 2 t) (scAt1 V c t.val)).2.2.2 Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, ⟨%e3, H3⟩, ⟨%e4, H4⟩, ⟨%es, HS⟩⟩
  isplitl [HS HR Hg]
  · isplitl [HS]
    · unfold owns; iexists _, _; isplitr; swap; · iexact HS
      ipureintro; rfl
    isplitl [HR]; · iexact HR
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover1_C_3 c _ _ _ _ _ _ _ _ _ _ _ _ _ _ _ _ _ _ _)
  unfold owns; iexists _; isplitr
  swap; · iexact H4
  ipureintro; exact View.read_writes_of_cover _ _ _ _ _ (cover1_C_4 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  rw [show (dat1 V c).Φ t.castSucc = Φ1 V c t.val from rfl, show (dat1 V c).Φ t.succ = Φ1 V c (t.val + 1) from rfl,
    show (dat1 V c).owesAt () t.succ = (dat1 V c).owesAt () t.castSucc from rfl]
  by_cases h1 : t.val % 4 = 3
  · simp only [live1_3_of t h1, live1_4_of t h1]
    exact sound_body1_C V c t h1
  · simp only [idle1_3_of t h1, noflush1_3_of t h1, idle1_4_of t h1, noflush1_4_of t h1]
    by_cases h0 : t.val % 4 = 0
    · exact sound_body1_A V c t h0
    · exact sound_body1_B V c t h0 h1

end R1

end Cert.Kernel.Hand

end
-- ==== Proof.KB.R2Run.lean ====
/-
  The body of forward layer three's kernel, run once on whole staging buffers in each of the three situations the grid
  meets.  The grid's last axis walks the reduction in four steps of 1024: the accumulator (the kernel's own scratch
  buffer) is cleared at the first step, receives at every step the three partial products of the row tile against the
  weight tile, and at the last step the bias is added with the residual tile and the sum stored into the output.
-/
import proofs.«172335_j35158602285651_2_alg».proof.Proof.Gen.Kernel.Launch
import proofs.«172335_j35158602285651_2_alg».proof.Proof.Gen.Kernel.Skeleton
import proofs.«172335_j35158602285651_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first conditional's test, from the grid coordinates: the reduction coordinate is zero. -/
abbrev cond2_0 (i : grid2.Coords) : Prop := (Scalar.cmpi .ne (Scalar.extui (Scalar.cmpi .eq (BitVec.ofNat 32 (i 2).val) 0#32)) 0#32) = 1#1
/-- It holds at the points ≡ 0 (mod 4), and the second (the reduction coordinate is three) at the points ≡ 3. -/
theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, k2_cond2 (grid2.coords t) = 1#1 ↔ t.val % 4 = 3 :=
  (by decide +kernel : ∀ t : Fin grid2.N, k2_cond2 (grid2.coords t) = 1#1 ↔ t.val % 4 = 3)

set_option maxHeartbeats 1000000 in
/-- The body at the first reduction step: the accumulator is cleared, then the partial product added; nothing is stored into the outputs. -/
noncomputable def kernelRun2_A (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬k2_cond2 i = 1#1)
    (x0 : Vec F S1024x1024 .f32) (x1 : Vec F S1024x1024 .f32) (x2 : Vec F S1024 .f32) (x3 : Vec F S1024x1024 .f32) :
    { LS : List (View.Piece (Elt F) S1024x1024 .f32) //
      ∀ (xi0 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi0 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi0 ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg3 harg3 arg4 harg4 arg5 harg5 arg6 harg6 arg7 harg7 arg8 harg8) K } := by
  refine ⟨?_, fun xi0 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%g0, %hg0, G0⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hg0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [G0]
    · iexists _; isplitr; · ipureintro; exact harg7.read_unread _
      iexact G0
    iexists _; iexact HS

set_option maxHeartbeats 1000000 in
/-- The body at a middle reduction step: the partial product is added into the accumulator as the step before left it; nothing is stored into the outputs. -/
noncomputable def kernelRun2_B (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬k2_cond2 i = 1#1)
    (x0 : Vec F S1024x1024 .f32) (x1 : Vec F S1024x1024 .f32) (x2 : Vec F S1024 .f32) (x3 : Vec F S1024x1024 .f32) (xs : Vec F S1024x1024 .f32) :
    { LS : List (View.Piece (Elt F) S1024x1024 .f32) //
      ∀ (xi0 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi0 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi0 ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg3 harg3 arg4 harg4 arg5 harg5 arg6 harg6 arg7 harg7 arg8 harg8) K } := by
  refine ⟨?_, fun xi0 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%g0, %hg0, G0⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hg0; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [G0]
    · iexists _; isplitr; · ipureintro; exact harg7.read_unread _
      iexact G0
    iexists _; iexact HS

set_option maxHeartbeats 1000000 in
/-- The body at the last reduction step: the partial product is added into the accumulator, then the bias added and the outputs stored. -/
noncomputable def kernelRun2_C (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1)
    (x0 : Vec F S1024x1024 .f32) (x1 : Vec F S1024x1024 .f32) (x2 : Vec F S1024 .f32) (x3 : Vec F S1024x1024 .f32) (xs : Vec F S1024x1024 .f32) :
    Σ' (L0 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg3 harg3 arg4 harg4 arg5 harg5 arg6 harg6 arg7 harg7 arg8 harg8) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d0, %g0, -, G0⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [G0]; · iexists _; iexact G0
    iexists _; iexact HS

end Cert.Kernel.Hand

end
-- ==== Proof.KB.R2.lean ====
/-
  Forward layer three's pallas_call as a pipeline.  The reduction runs over four consecutive grid points; the accumulator
  is the kernel's own scratch and is CARRIED between them, so the invariant between points names what it holds: after
  the first step the first partial sum, after each later step the sum so far (a recursion over the grid position).  The
  output window is stored, and written back, only at the fourth step; at the other three nothing is stored there.
-/
import proofs.«172335_j35158602285651_2_alg».proof.Proof.KB.R2Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section R2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of each output window, through which its contents are stated; each window's current staging
    memref at a point; the accumulator as a memref and as a view. -/
abbrev VO2_4 : View sig .tc .vmem S1024x1024 .f32 := (Memref.whole cc2_stg4_0 : Memref sig .tc .vmem S1024x1024 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev scM2 : Memref sig .tc .vmem S1024x1024 .f32 := Memref.whole cc2_scratch0
abbrev VS2 : View sig .tc .vmem S1024x1024 .f32 := (scM2).view

/-- In each situation the accumulator's stored pieces cover it; what they read back to. -/
theorem scover2_A (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬k2_cond2 i = 1#1) (x0 : Vec F S1024x1024 .f32) (x1 : Vec F S1024x1024 .f32) (x2 : Vec F S1024 .f32) (x3 : Vec F S1024x1024 .f32) (y : S1024x1024.Idx) :
    ∃ pc ∈ (kernelRun2_A c i arg3 harg3 arg4 harg4 arg5 harg5 arg6 harg6 arg7 harg7 arg8 harg8 hc0 hc1 x0 x1 x2 x3).1, y ∈ pc.1.set :=
  View.cover_of_tiledL (kernelRun2_A c i arg3 harg3 arg4 harg4 arg5 harg5 arg6 harg6 arg7 harg7 arg8 harg8 hc0 hc1 x0 x1 x2 x3).1 S1024x1024.size (by sl_kernel_rfl) y
def sout2_A (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬k2_cond2 i = 1#1) (x0 : Vec F S1024x1024 .f32) (x1 : Vec F S1024x1024 .f32) (x2 : Vec F S1024 .f32) (x3 : Vec F S1024x1024 .f32) : Vec F S1024x1024 .f32 :=
  VS2.read (Elt F) (VS2.writes (Elt F) VS2.junk (kernelRun2_A c i arg3 harg3 arg4 harg4 arg5 harg5 arg6 harg6 arg7 harg7 arg8 harg8 hc0 hc1 x0 x1 x2 x3).1)
theorem scover2_B (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬k2_cond2 i = 1#1) (x0 : Vec F S1024x1024 .f32) (x1 : Vec F S1024x1024 .f32) (x2 : Vec F S1024 .f32) (x3 : Vec F S1024x1024 .f32) (xs : Vec F S1024x1024 .f32) (y : S1024x1024.Idx) :
    ∃ pc ∈ (kernelRun2_B c i arg3 harg3 arg4 harg4 arg5 harg5 arg6 harg6 arg7 harg7 arg8 harg8 hc0 hc1 x0 x1 x2 x3 xs).1, y ∈ pc.1.set :=
  View.cover_of_tiledL (kernelRun2_B c i arg3 harg3 arg4 harg4 arg5 harg5 arg6 harg6 arg7 harg7 arg8 harg8 hc0 hc1 x0 x1 x2 x3 xs).1 S1024x1024.size (by sl_kernel_rfl) y
def sout2_B (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬k2_cond2 i = 1#1) (x0 : Vec F S1024x1024 .f32) (x1 : Vec F S1024x1024 .f32) (x2 : Vec F S1024 .f32) (x3 : Vec F S1024x1024 .f32) (xs : Vec F S1024x1024 .f32) : Vec F S1024x1024 .f32 :=
  VS2.read (Elt F) (VS2.writes (Elt F) VS2.junk (kernelRun2_B c i arg3 harg3 arg4 harg4 arg5 harg5 arg6 harg6 arg7 harg7 arg8 harg8 hc0 hc1 x0 x1 x2 x3 xs).1)
theorem scover2_C (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1) (x0 : Vec F S1024x1024 .f32) (x1 : Vec F S1024x1024 .f32) (x2 : Vec F S1024 .f32) (x3 : Vec F S1024x1024 .f32) (xs : Vec F S1024x1024 .f32) (y : S1024x1024.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S1024x1024.size (by sl_kernel_rfl) y
def sout2_C (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1) (x0 : Vec F S1024x1024 .f32) (x1 : Vec F S1024x1024 .f32) (x2 : Vec F S1024 .f32) (x3 : Vec F S1024x1024 .f32) (xs : Vec F S1024x1024 .f32) : Vec F S1024x1024 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)
/-- At the last step the stored pieces of each output cover it; what they read back to. -/
theorem cover2_C_4 (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1) (x0 : Vec F S1024x1024 .f32) (x1 : Vec F S1024x1024 .f32) (x2 : Vec F S1024 .f32) (x3 : Vec F S1024x1024 .f32) (xs : Vec F S1024x1024 .f32) (y : S1024x1024.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S1024x1024.size (by sl_kernel_rfl) y
def out2_C_4 (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1) (x0 : Vec F S1024x1024 .f32) (x1 : Vec F S1024x1024 .f32) (x2 : Vec F S1024 .f32) (x3 : Vec F S1024x1024 .f32) (xs : Vec F S1024x1024 .f32) : Vec F S1024x1024 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs).1)

/-- What one grid point makes of the accumulator, given what the point before left in it. -/
def step2 (c : Dev nD) (t : Fin cfg2.N) (xs : Vec F S1024x1024 .f32) : Vec F S1024x1024 .f32 :=
  if h0 : t.val % 4 = 0 then
    sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => by have := (hcond2_1 t).mp h; omega) (iblk2 V c 0 t) (iblk2 V c 1 t) (iblk2 V c 2 t) (iblk2 V c 3 t)
  else if h1 : t.val % 4 = 3 then
    sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => by have := (hcond2_0 t).mp h; omega) ((hcond2_1 t).mpr h1) (iblk2 V c 0 t) (iblk2 V c 1 t) (iblk2 V c 2 t) (iblk2 V c 3 t) xs
  else
    sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs

/-- THE ACCUMULATION: what the accumulator holds before grid position `n` (after position `n - 1`). -/
def scAt2 (c : Dev nD) : ℕ → Vec F S1024x1024 .f32
  | 0 => VS2.read (Elt F) VS2.junk
  | n + 1 => if h : n < cfg2.N then step2 V c ⟨n, h⟩ (scAt2 c n) else VS2.read (Elt F) VS2.junk

theorem scAt2_succ (c : Dev nD) (t : Fin cfg2.N) : scAt2 V c (t.val + 1) = step2 V c t (scAt2 V c t.val) := by
  show (if h : t.val < cfg2.N then step2 V c ⟨t.val, h⟩ (scAt2 V c t.val) else _) = _
  rw [dif_pos t.isLt]

/-- What output window 4's staging buffer holds after the body at point `t`: at a last reduction step the run's pieces
    read back; elsewhere nothing is stored there and the value is not consulted. -/
def outsAt2_4 (c : Dev nD) (t : Fin cfg2.N) : Vec F S1024x1024 .f32 :=
  if h1 : t.val % 4 = 3 then
    out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => by have := (hcond2_0 t).mp h; omega) ((hcond2_1 t).mpr h1) (iblk2 V c 0 t) (iblk2 V c 1 t) (iblk2 V c 2 t) (iblk2 V c 3 t) (scAt2 V c t.val)
  else VO2_4.read (Elt F) VO2_4.junk

/-- The invariant before grid position `n`: the accumulator at the sum so far — at anything where a new reduction
    begins —, the other scoped buffers untouched, the generator register at some state. -/
def Φ2 (c : Dev nD) (n : ℕ) : sProp 𝕄 :=
  iprop((if n % 4 = 0 then iprop(∃ d, owns (c : Thread nD τ) scM2 fullShare d) else owns (c : Thread nD τ) scM2 fullShare (scAt2 V c n))
    ∗ Pipeline.scopedRestBut (Ix := Unit) (Name := ℕ) (U := Pipeline.UD sig nD τ) (Lvl := ℕ) (Val := Elt F) spec2 c [cc2_scratch0]
    ∗ (∃ r, prngReg c r))

/-- The proof data of the pipeline on core `c`. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2_4 V c t
  Φ s := Φ2 V c s.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2_4 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- Where the output window is stored and written back: exactly at the last reduction step. -/
theorem idle2_4_of : ∀ t : Fin cfg2.N, ¬t.val % 4 = 3 → idle2 4 (grid2.coords t) = true := by decide +kernel
theorem live2_4_of : ∀ t : Fin cfg2.N, t.val % 4 = 3 → idle2 4 (grid2.coords t) = false := by decide +kernel
theorem noflush2_4_of : ∀ t : Fin cfg2.N, ¬t.val % 4 = 3 → (win2 4).flush t = false := by decide +kernel

/-- What the body is called with at point `t`, the windows one by one. -/
def bodyPre2 (c : Dev nD) (t : Fin cfg2.N) : sProp 𝕄 :=
  iprop(Φ2 V c t.val ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- What it returns at a point that is not a last step (the outputs handed back as found), -/
def bodyPostIdle2 (c : Dev nD) (t : Fin cfg2.N) : sProp 𝕄 :=
  iprop(Φ2 V c (t.val + 1) ∗ (dat2 V c).owesAt () t.castSucc
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ (∃ d, owns (c : Thread nD τ) (ms2_4 t) fullShare ((dat2 V c).before 4 t d)))

/-- and at a last step. -/
def bodyPostLive2 (c : Dev nD) (t : Fin cfg2.N) : sProp 𝕄 :=
  iprop(Φ2 V c (t.val + 1) ∗ (dat2 V c).owesAt () t.castSucc
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 2000000 in
/-- The body at a first reduction step. -/
theorem sound_body2_A (c : Dev nD) (t : Fin cfg2.N) (h0 : t.val % 4 = 0) :
    bodyPre2 V c t ⊢ wp frame (wpE (defs₀ (F := F)) Variants.none c none) Set.univ (bodyAt2 t) (fun _ => bodyPostIdle2 V c t) := by
  unfold bodyPre2 bodyPostIdle2 bodyAt2
  simp only [before2_0, before2_1, before2_2, before2_3]
  rw [after2_0, after2_1, after2_2, after2_3]
  unfold Φ2
  rw [if_pos h0, if_neg (show ¬(t.val + 1) % 4 = 0 by omega), scAt2_succ]
  unfold step2; rw [dif_pos h0]; unfold sout2_A
  iintro ⟨⟨HS, HR, Hg⟩, Ho, ⟨%d0, H0⟩, ⟨%d1, H1⟩, ⟨%d2, H2⟩, ⟨%d3, H3⟩, ⟨%d4, H4⟩⟩
  iapply ((kernelRun2_A c (grid2.coords t) _ _ _ _ _ _ _ _ _ _ _ _ ((hcond2_0 t).mpr h0) (fun h => by have := (hcond2_1 t).mp h; omega) (iblk2 V c 0 t) (iblk2 V c 1 t) (iblk2 V c 2 t) (iblk2 V c 3 t)).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS HR Hg]
  · isplitl [HS]
    · unfold owns; iexists _; isplitr
      swap; · iexact HS
      ipureintro; exact View.read_writes_of_cover _ _ _ _ _ (scover2_A c _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
/-- The body at a middle reduction step. -/
theorem sound_body2_B (c : Dev nD) (t : Fin cfg2.N) (h0 : ¬t.val % 4 = 0) (h1 : ¬t.val % 4 = 3) :
    bodyPre2 V c t ⊢ wp frame (wpE (defs₀ (F := F)) Variants.none c none) Set.univ (bodyAt2 t) (fun _ => bodyPostIdle2 V c t) := by
  unfold bodyPre2 bodyPostIdle2 bodyAt2
  simp only [before2_0, before2_1, before2_2, before2_3]
  rw [after2_0, after2_1, after2_2, after2_3]
  unfold Φ2
  rw [if_neg h0, if_neg (show ¬(t.val + 1) % 4 = 0 by omega), scAt2_succ]
  unfold step2; rw [dif_neg h0, dif_neg h1]; unfold sout2_B
  iintro ⟨⟨HS, HR, Hg⟩, Ho, ⟨%d0, H0⟩, ⟨%d1, H1⟩, ⟨%d2, H2⟩, ⟨%d3, H3⟩, ⟨%d4, H4⟩⟩
  iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (scAt2 V c t.val)).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS HR Hg]
  · isplitl [HS]
    · unfold owns; iexists _; isplitr
      swap; · iexact HS
      ipureintro; exact View.read_writes_of_cover _ _ _ _ _ (scover2_B c _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
/-- The body at a last reduction step. -/
theorem sound_body2_C (c : Dev nD) (t : Fin cfg2.N) (h1 : t.val % 4 = 3) :
    bodyPre2 V c t ⊢ wp frame (wpE (defs₀ (F := F)) Variants.none c none) Set.univ (bodyAt2 t) (fun _ => bodyPostLive2 V c t) := by
  unfold bodyPre2 bodyPostLive2 bodyAt2
  simp only [before2_0, before2_1, before2_2, before2_3]
  rw [after2_0, after2_1, after2_2, after2_3, after2_4]
  unfold Φ2 outsAt2_4
  rw [if_neg (show ¬t.val % 4 = 0 by omega), if_pos (show (t.val + 1) % 4 = 0 by omega), dif_pos h1]
  unfold out2_C_4
  iintro ⟨⟨HS, HR, Hg⟩, Ho, ⟨%d0, H0⟩, ⟨%d1, H1⟩, ⟨%d2, H2⟩, ⟨%d3, H3⟩, ⟨%d4, H4⟩⟩
  iapply ((kernelRun2_C c (grid2.coords t) _ _ _ _ _ _ _ _ _ _ _ _ (fun h => by have := (hcond2_0 t).mp h; omega) ((hcond2_1 t).mpr h1) (iblk2 V c 0 t) (iblk2 V c 1 t) (iblk2 V c 2 t) (iblk2 V c 3 t) (scAt2 V c t.val)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS HR Hg]
  · isplitl [HS]
    · unfold owns; iexists _, _; isplitr; swap; · iexact HS
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_C_4 c _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  rw [show (dat2 V c).Φ t.castSucc = Φ2 V c t.val from rfl, show (dat2 V c).Φ t.succ = Φ2 V c (t.val + 1) from rfl,
    show (dat2 V c).owesAt () t.succ = (dat2 V c).owesAt () t.castSucc from rfl]
  by_cases h1 : t.val % 4 = 3
  · simp only [live2_4_of t h1]
    exact sound_body2_C V c t h1
  · simp only [idle2_4_of t h1, noflush2_4_of t h1]
    by_cases h0 : t.val % 4 = 0
    · exact sound_body2_A V c t h0
    · exact sound_body2_B V c t h0 h1

end R2

end Cert.Kernel.Hand

end
-- ==== Proof.KB.R3Run.lean ====
/-
  The body of the series kernel, run once on whole staging buffers in its two situations.  The grid is two halves of 32
  row tiles of 128 rows.  At the first tile of each half the body starts three copies — the three weight matrices, left
  in main memory, into three scratch buffers of its own, each on a semaphore of its own — and waits for each just before
  its first use; at every other tile the scratch buffers already hold the matrices.  Either way it then runs the ten
  steps v ↦ ((v·W3 gated)·W2 gated)·W1 from the row tile of u, adds up the ten weighted inner products with u, and
  stores the 128 sums.
-/
import proofs.«172335_j35158602285651_2_alg».proof.Proof.Gen.Kernel.Launch
import proofs.«172335_j35158602285651_2_alg».proof.Proof.Gen.Kernel.Skeleton
import proofs.«172335_j35158602285651_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The test all four conditionals of the body share: the tile coordinate is zero. -/
abbrev cond3_0 (i : grid3.Coords) : Prop := (Scalar.cmpi .ne (Scalar.extui (Scalar.cmpi .eq (BitVec.ofNat 32 (i 1).val) 0#32)) 0#32) = 1#1
/-- It holds at the points ≡ 0 (mod 32). -/
theorem hcond3_0 : ∀ t : Fin cfg3.N, cond3_0 (grid3.coords t) ↔ t.val % 32 = 0 :=
  (by decide +kernel : ∀ t : Fin grid3.N, cond3_0 (grid3.coords t) ↔ t.val % 32 = 0)

/-- A memref's buffer on core `c`: its contents type, and it held whole. -/
abbrev HbBuf3 (c : Dev nD) {sp : Space} {S : Shape} {e : EltTy} (M : Memref sig .tc sp S e) : Type := Buf (Elt F) (M.view.loc (c : Thread nD τ))
abbrev hbPt3 (c : Dev nD) {sp : Space} {S : Shape} {e : EltTy} (M : Memref sig .tc sp S e) (f : HbBuf3 (F := F) c M) : sProp 𝕄 :=
  M.view.loc (c : Thread nD τ) ↦{fullShare} f
/-- The three weight matrices left in main memory. -/
abbrev hbM3_3 : Memref sig .tc .hbm S4096x1024 .bf16 := Memref.whole main_v3
abbrev hbM3_4 : Memref sig .tc .hbm S4096x4096 .bf16 := Memref.whole main_v4
abbrev hbM3_5 : Memref sig .tc .hbm S1024x4096 .bf16 := Memref.whole main_v5

set_option maxHeartbeats 4000000 in
/-- The body at the first tile of a half: the three copies are started and waited for. -/
noncomputable def kernelRun3_A (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i)
    (x0 : Vec F S128x1024 .f32) (x1 : Vec F S128x4096 .bf16) (x2 : Vec F S128x4096 .bf16)
    (fh3 : HbBuf3 (F := F) c hbM3_3) (fh4 : HbBuf3 (F := F) c hbM3_4) (fh5 : HbBuf3 (F := F) c hbM3_5) :
    Σ' (L3 : List (View.Piece (Elt F) S128x1 .f32)) (LS9 : List (View.Piece (Elt F) S4096x1024 .bf16)) (LS10 : List (View.Piece (Elt F) S4096x4096 .bf16)),
      { LS11 : List (View.Piece (Elt F) S1024x4096 .bf16) //
      ∀ (W : Waits sig Unit) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)
            ∗ semVal ((c : Thread nD τ), SemLoc.dma 37) 0 ∗ semVal ((c : Thread nD τ), SemLoc.dma 38) 0 ∗ semVal ((c : Thread nD τ), SemLoc.dma 39) 0
            ∗ hbPt3 c hbM3_3 fh3 ∗ hbPt3 c hbM3_4 fh4 ∗ hbPt3 c hbM3_5 fh5 ∗ owes (c : Thread nD τ) 0 W
            ∗ (iprop(owns (c : Thread nD τ) arg2 fullShare x0 ∗ owns (c : Thread nD τ) arg3 fullShare x1 ∗ owns (c : Thread nD τ) arg4 fullShare x2
                ∗ (∃ f, arg8.view.loc (c : Thread nD τ) ↦[arg8.view.set]{fullShare} arg8.view.writes (Elt F) f L3)
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (∃ f, arg11.view.loc (c : Thread nD τ) ↦[arg11.view.set]{fullShare} arg11.view.writes (Elt F) f LS11)
                ∗ semVal ((c : Thread nD τ), SemLoc.dma 37) 0 ∗ semVal ((c : Thread nD τ), SemLoc.dma 38) 0 ∗ semVal ((c : Thread nD τ), SemLoc.dma 39) 0
                ∗ hbPt3 c hbM3_3 fh3 ∗ hbPt3 c hbM3_4 fh4 ∗ hbPt3 c hbM3_5 fh5 ∗ (∃ W', owes (c : Thread nD τ) 0 W')) -∗ K ⟨⟩))
          ⊢ wp frame (wpE (defs₀ (F := F)) Variants.none c none) Set.univ (cc3__backward_kernel i arg2 harg2 arg3 harg3 arg4 harg4 (Memref.whole main_v3) (Memref.isWhole_whole _) (Memref.whole main_v4) (Memref.isWhole_whole _) (Memref.whole main_v5) (Memref.isWhole_whole _) arg8 harg8 arg9 harg9 arg10 harg10 arg11 harg11 cc3_scratch3) K } := by
  refine ⟨?_, ?_, ?_, ?_, fun W K => ?run⟩
  case run =>
    simp only [cc3__backward_kernel_eq_skeleton]; unfold cc3__backward_kernel_skel
    unfold owns
    iintro ⟨⟨%f0, %hf0, H0⟩, ⟨%f1, %hf1, H1⟩, ⟨%f2, %hf2, H2⟩, ⟨%d3, %f3, -, H3⟩, ⟨%d9, %f9, -, H9⟩, ⟨%d10, %f10, -, H10⟩, ⟨%d11, %f11, -, H11⟩, Hq0, Hq1, Hq2, Hh3, Hh4, Hh5, HW, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H9]; · iexists _; iexact H9
    isplitl [H10]; · iexists _; iexact H10
    isplitl [H11]; · iexists _; iexact H11
    isplitl [Hq0]; · iexact Hq0
    isplitl [Hq1]; · iexact Hq1
    isplitl [Hq2]; · iexact Hq2
    isplitl [Hh3]; · iexact Hh3
    isplitl [Hh4]; · iexact Hh4
    isplitl [Hh5]; · iexact Hh5
    iexists _; iexact HW

set_option maxHeartbeats 4000000 in
/-- The body at a tile that is not a core's first: the three weight matrices are in the scratch buffers as the tiles
    before left them; the ten terms of the series are computed from them and the row block's sum stored. -/
noncomputable def kernelRun3_B (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : ¬cond3_0 i)
    (x0 : Vec F S128x1024 .f32) (x1 : Vec F S128x4096 .bf16) (x2 : Vec F S128x4096 .bf16)
    (xs9 : Vec F S4096x1024 .bf16) (xs10 : Vec F S4096x4096 .bf16) (xs11 : Vec F S1024x4096 .bf16) :
    { L3 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg8 fullShare d)
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2
                ∗ (∃ f, arg8.view.loc (c : Thread nD τ) ↦[arg8.view.set]{fullShare} arg8.view.writes (Elt F) f L3)
                ∗ owns (c : Thread nD τ) arg9 fullShare xs9 ∗ owns (c : Thread nD τ) arg10 fullShare xs10 ∗ owns (c : Thread nD τ) arg11 fullShare xs11) -∗ K ⟨⟩))
          ⊢ wp frame (wpE (defs₀ (F := F)) Variants.none c none) E (cc3__backward_kernel i arg2 harg2 arg3 harg3 arg4 harg4 (Memref.whole main_v3) (Memref.isWhole_whole _) (Memref.whole main_v4) (Memref.isWhole_whole _) (Memref.whole main_v5) (Memref.isWhole_whole _) arg8 harg8 arg9 harg9 arg10 harg10 arg11 harg11 cc3_scratch3) K } := by
  refine ⟨?_, fun E K => ?run⟩
  case run =>
    simp only [cc3__backward_kernel_eq_skeleton]; unfold cc3__backward_kernel_skel
    unfold owns
    iintro ⟨⟨%f0, %hf0, H0⟩, ⟨%f1, %hf1, H1⟩, ⟨%f2, %hf2, H2⟩, ⟨%d3, %f3, -, H3⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2
    obtain rfl := harg9.eq_unread hf9; obtain rfl := harg10.eq_unread hf10; obtain rfl := harg11.eq_unread hf11
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11

end Cert.Kernel.Hand

end
-- ==== Proof.KB.R3.lean ====
/-
  The series kernel's pallas_call as a pipeline.  Its three inputs (a row tile of u and the two row tiles of sign
  patterns) keep their blocks; its output tile holds what the run's stored piece reads back to.  The three weight
  matrices live in scratch buffers the kernel CARRIES from the first tile of a half to the other 31: the invariant
  between tiles names what the three hold (what the copies delivered at the last first-tile), and holds the three
  copy semaphores at zero and the three matrices in main memory as the region found them.
-/
import proofs.«172335_j35158602285651_2_alg».proof.Proof.KB.R3Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section R3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- One staging buffer of the output window; each window's current staging memref; the three scratch buffers. -/
abbrev VO3_3 : View sig .tc .vmem S128x1 .f32 := (Memref.whole cc3_stg3_0 : Memref sig .tc .vmem S128x1 .f32).view
abbrev ms3_0 (t : Fin cfg3.N) : Memref sig .tc .vmem S128x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x4096 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x4096 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x1 .f32 := win3_3.stage (cfg3.slots t 3)
abbrev hs3_3 (t : Fin cfg3.N) : (ms3_3 t).IsWhole := hstage3_3 ((cfg3.slots t 3).cast nbuf3_3)
abbrev scM9 : Memref sig .tc .vmem S4096x1024 .bf16 := Memref.whole cc3_scratch0
abbrev scM10 : Memref sig .tc .vmem S4096x4096 .bf16 := Memref.whole cc3_scratch1
abbrev scM11 : Memref sig .tc .vmem S1024x4096 .bf16 := Memref.whole cc3_scratch2
abbrev VS9 : View sig .tc .vmem S4096x1024 .bf16 := (scM9).view
abbrev VS10 : View sig .tc .vmem S4096x4096 .bf16 := (scM10).view
abbrev VS11 : View sig .tc .vmem S1024x4096 .bf16 := (scM11).view

/-- At a first tile each copy's delivery covers its scratch buffer; what it reads back to. -/
theorem scover3_A_9 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) (y : S4096x1024.Idx) :
    ∃ pc ∈ (kernelRun3_A c i arg2 harg2 arg3 harg3 arg4 harg4 arg8 harg8 arg9 harg9 arg10 harg10 arg11 harg11 hc0 x0 x1 x2 fh3 fh4 fh5).2.1, y ∈ pc.1.set :=
  View.cover_of_tiledL (kernelRun3_A c i arg2 harg2 arg3 harg3 arg4 harg4 arg8 harg8 arg9 harg9 arg10 harg10 arg11 harg11 hc0 x0 x1 x2 fh3 fh4 fh5).2.1 S4096x1024.size (by sl_kernel_rfl) y
def sout3_A_9 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) : Vec F S4096x1024 .bf16 :=
  VS9.read (Elt F) (VS9.writes (Elt F) VS9.junk (kernelRun3_A c i arg2 harg2 arg3 harg3 arg4 harg4 arg8 harg8 arg9 harg9 arg10 harg10 arg11 harg11 hc0 x0 x1 x2 fh3 fh4 fh5).2.1)
theorem scover3_A_10 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) (y : S4096x4096.Idx) :
    ∃ pc ∈ (kernelRun3_A c i arg2 harg2 arg3 harg3 arg4 harg4 arg8 harg8 arg9 harg9 arg10 harg10 arg11 harg11 hc0 x0 x1 x2 fh3 fh4 fh5).2.2.1, y ∈ pc.1.set :=
  View.cover_of_tiledL (kernelRun3_A c i arg2 harg2 arg3 harg3 arg4 harg4 arg8 harg8 arg9 harg9 arg10 harg10 arg11 harg11 hc0 x0 x1 x2 fh3 fh4 fh5).2.2.1 S4096x4096.size (by sl_kernel_rfl) y
def sout3_A_10 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) : Vec F S4096x4096 .bf16 :=
  VS10.read (Elt F) (VS10.writes (Elt F) VS10.junk (kernelRun3_A c i arg2 harg2 arg3 harg3 arg4 harg4 arg8 harg8 arg9 harg9 arg10 harg10 arg11 harg11 hc0 x0 x1 x2 fh3 fh4 fh5).2.2.1)
theorem scover3_A_11 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) (y : S1024x4096.Idx) :
    ∃ pc ∈ (kernelRun3_A c i arg2 harg2 arg3 harg3 arg4 harg4 arg8 harg8 arg9 harg9 arg10 harg10 arg11 harg11 hc0 x0 x1 x2 fh3 fh4 fh5).2.2.2.1, y ∈ pc.1.set :=
  View.cover_of_tiledL (kernelRun3_A c i arg2 harg2 arg3 harg3 arg4 harg4 arg8 harg8 arg9 harg9 arg10 harg10 arg11 harg11 hc0 x0 x1 x2 fh3 fh4 fh5).2.2.2.1 S1024x4096.size (by sl_kernel_rfl) y
def sout3_A_11 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) : Vec F S1024x4096 .bf16 :=
  VS11.read (Elt F) (VS11.writes (Elt F) VS11.junk (kernelRun3_A c i arg2 harg2 arg3 harg3 arg4 harg4 arg8 harg8 arg9 harg9 arg10 harg10 arg11 harg11 hc0 x0 x1 x2 fh3 fh4 fh5).2.2.2.1)
/-- The output's stored piece covers it, in either situation; what it reads back to. -/
theorem cover3_A (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) (y : S128x1.Idx) :
    ∃ pc ∈ (kernelRun3_A c i arg2 harg2 arg3 harg3 arg4 harg4 arg8 harg8 arg9 harg9 arg10 harg10 arg11 harg11 hc0 x0 x1 x2 fh3 fh4 fh5).1, y ∈ pc.1.set :=
  View.cover_of_tiledL (kernelRun3_A c i arg2 harg2 arg3 harg3 arg4 harg4 arg8 harg8 arg9 harg9 arg10 harg10 arg11 harg11 hc0 x0 x1 x2 fh3 fh4 fh5).1 S128x1.size (by sl_kernel_rfl) y
def out3_A (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) : Vec F S128x1 .f32 :=
  VO3_3.read (Elt F) (VO3_3.writes (Elt F) VO3_3.junk (kernelRun3_A c i arg2 harg2 arg3 harg3 arg4 harg4 arg8 harg8 arg9 harg9 arg10 harg10 arg11 harg11 hc0 x0 x1 x2 fh3 fh4 fh5).1)
theorem cover3_B (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : ¬cond3_0 i) (x0 : Vec F S128x1024 .f32) (x1 : Vec F S128x4096 .bf16) (x2 : Vec F S128x4096 .bf16) (xs9 : Vec F S4096x1024 .bf16) (xs10 : Vec F S4096x4096 .bf16) (xs11 : Vec F S1024x4096 .bf16) (y : S128x1.Idx) :
    ∃ pc ∈ (kernelRun3_B c i arg2 harg2 arg3 harg3 arg4 harg4 arg8 harg8 arg9 harg9 arg10 harg10 arg11 harg11 hc0 x0 x1 x2 xs9 xs10 xs11).1, y ∈ pc.1.set :=
  View.cover_of_tiledL (kernelRun3_B c i arg2 harg2 arg3 harg3 arg4 harg4 arg8 harg8 arg9 harg9 arg10 harg10 arg11 harg11 hc0 x0 x1 x2 xs9 xs10 xs11).1 S128x1.size (by sl_kernel_rfl) y
def out3_B (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : ¬cond3_0 i) (x0 : Vec F S128x1024 .f32) (x1 : Vec F S128x4096 .bf16) (x2 : Vec F S128x4096 .bf16) (xs9 : Vec F S4096x1024 .bf16) (xs10 : Vec F S4096x4096 .bf16) (xs11 : Vec F S1024x4096 .bf16) : Vec F S128x1 .f32 :=
  VO3_3.read (Elt F) (VO3_3.writes (Elt F) VO3_3.junk (kernelRun3_B c i arg2 harg2 arg3 harg3 arg4 harg4 arg8 harg8 arg9 harg9 arg10 harg10 arg11 harg11 hc0 x0 x1 x2 xs9 xs10 xs11).1)

/-- What each of the three scratch buffers holds before grid position `n`: what its copy at the last first-tile delivered. -/
def scAt9 (c : Dev nD) : ℕ → Vec F S4096x1024 .bf16
  | 0 => VS9.read (Elt F) VS9.junk
  | n + 1 =>
    if h : n < cfg3.N then
      if h0 : n % 32 = 0 then
        sout3_A_9 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) scM9 (Memref.isWhole_whole _) scM10 (Memref.isWhole_whole _) scM11 (Memref.isWhole_whole _) ((hcond3_0 ⟨n, h⟩).mpr h0) (iblk3 V c 0 ⟨n, h⟩) (iblk3 V c 1 ⟨n, h⟩) (iblk3 V c 2 ⟨n, h⟩) (V c main_v3) (V c main_v4) (V c main_v5)
      else scAt9 c n
    else scAt9 c n
theorem scAt9_succ_A (c : Dev nD) (t : Fin cfg3.N) (h0 : t.val % 32 = 0) : scAt9 V c (t.val + 1) =
    sout3_A_9 c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) ((hcond3_0 t).mpr h0) (iblk3 V c 0 t) (iblk3 V c 1 t) (iblk3 V c 2 t) (V c main_v3) (V c main_v4) (V c main_v5) := by
  show (if h : t.val < cfg3.N then (if h0 : t.val % 32 = 0 then _ else _) else _) = _
  rw [dif_pos t.isLt, dif_pos h0]
theorem scAt9_succ_B (c : Dev nD) (t : Fin cfg3.N) (h0 : ¬t.val % 32 = 0) : scAt9 V c (t.val + 1) = scAt9 V c t.val := by
  show (if h : t.val < cfg3.N then (if h0 : t.val % 32 = 0 then _ else _) else _) = _
  rw [dif_pos t.isLt, dif_neg h0]
def scAt10 (c : Dev nD) : ℕ → Vec F S4096x4096 .bf16
  | 0 => VS10.read (Elt F) VS10.junk
  | n + 1 =>
    if h : n < cfg3.N then
      if h0 : n % 32 = 0 then
        sout3_A_10 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) scM9 (Memref.isWhole_whole _) scM10 (Memref.isWhole_whole _) scM11 (Memref.isWhole_whole _) ((hcond3_0 ⟨n, h⟩).mpr h0) (iblk3 V c 0 ⟨n, h⟩) (iblk3 V c 1 ⟨n, h⟩) (iblk3 V c 2 ⟨n, h⟩) (V c main_v3) (V c main_v4) (V c main_v5)
      else scAt10 c n
    else scAt10 c n
theorem scAt10_succ_A (c : Dev nD) (t : Fin cfg3.N) (h0 : t.val % 32 = 0) : scAt10 V c (t.val + 1) =
    sout3_A_10 c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) ((hcond3_0 t).mpr h0) (iblk3 V c 0 t) (iblk3 V c 1 t) (iblk3 V c 2 t) (V c main_v3) (V c main_v4) (V c main_v5) := by
  show (if h : t.val < cfg3.N then (if h0 : t.val % 32 = 0 then _ else _) else _) = _
  rw [dif_pos t.isLt, dif_pos h0]
theorem scAt10_succ_B (c : Dev nD) (t : Fin cfg3.N) (h0 : ¬t.val % 32 = 0) : scAt10 V c (t.val + 1) = scAt10 V c t.val := by
  show (if h : t.val < cfg3.N then (if h0 : t.val % 32 = 0 then _ else _) else _) = _
  rw [dif_pos t.isLt, dif_neg h0]
def scAt11 (c : Dev nD) : ℕ → Vec F S1024x4096 .bf16
  | 0 => VS11.read (Elt F) VS11.junk
  | n + 1 =>
    if h : n < cfg3.N then
      if h0 : n % 32 = 0 then
        sout3_A_11 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) scM9 (Memref.isWhole_whole _) scM10 (Memref.isWhole_whole _) scM11 (Memref.isWhole_whole _) ((hcond3_0 ⟨n, h⟩).mpr h0) (iblk3 V c 0 ⟨n, h⟩) (iblk3 V c 1 ⟨n, h⟩) (iblk3 V c 2 ⟨n, h⟩) (V c main_v3) (V c main_v4) (V c main_v5)
      else scAt11 c n
    else scAt11 c n
theorem scAt11_succ_A (c : Dev nD) (t : Fin cfg3.N) (h0 : t.val % 32 = 0) : scAt11 V c (t.val + 1) =
    sout3_A_11 c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) ((hcond3_0 t).mpr h0) (iblk3 V c 0 t) (iblk3 V c 1 t) (iblk3 V c 2 t) (V c main_v3) (V c main_v4) (V c main_v5) := by
  show (if h : t.val < cfg3.N then (if h0 : t.val % 32 = 0 then _ else _) else _) = _
  rw [dif_pos t.isLt, dif_pos h0]
theorem scAt11_succ_B (c : Dev nD) (t : Fin cfg3.N) (h0 : ¬t.val % 32 = 0) : scAt11 V c (t.val + 1) = scAt11 V c t.val := by
  show (if h : t.val < cfg3.N then (if h0 : t.val % 32 = 0 then _ else _) else _) = _
  rw [dif_pos t.isLt, dif_neg h0]

/-- What the output window's staging buffer holds after the body at point `t`. -/
def outsAt3 (c : Dev nD) (t : Fin cfg3.N) : Vec F S128x1 .f32 :=
  if h0 : t.val % 32 = 0 then
    out3_A c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) ((hcond3_0 t).mpr h0) (iblk3 V c 0 t) (iblk3 V c 1 t) (iblk3 V c 2 t) (V c main_v3) (V c main_v4) (V c main_v5)
  else
    out3_B c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) (fun h => h0 ((hcond3_0 t).mp h)) (iblk3 V c 0 t) (iblk3 V c 1 t) (iblk3 V c 2 t) (scAt9 V c t.val) (scAt10 V c t.val) (scAt11 V c t.val)

/-- The invariant before grid position `n`. -/
def Φ3 (c : Dev nD) (n : ℕ) : sProp 𝕄 :=
  iprop((if n % 32 = 0 then iprop((∃ d, owns (c : Thread nD τ) scM9 fullShare d) ∗ (∃ d, owns (c : Thread nD τ) scM10 fullShare d) ∗ (∃ d, owns (c : Thread nD τ) scM11 fullShare d))
      else iprop(owns (c : Thread nD τ) scM9 fullShare (scAt9 V c n) ∗ owns (c : Thread nD τ) scM10 fullShare (scAt10 V c n) ∗ owns (c : Thread nD τ) scM11 fullShare (scAt11 V c n)))
    ∗ Pipeline.scopedRestBut (Ix := Unit) (Name := ℕ) (U := Pipeline.UD sig nD τ) (Lvl := ℕ) (Val := Elt F) spec3 c [cc3_scratch0, cc3_scratch1, cc3_scratch2]
    ∗ (∃ r, prngReg c r)
    ∗ semVal ((c : Thread nD τ), SemLoc.dma 37) 0 ∗ semVal ((c : Thread nD τ), SemLoc.dma 38) 0 ∗ semVal ((c : Thread nD τ), SemLoc.dma 39) 0
    ∗ hbPt3 c hbM3_3 (V c main_v3) ∗ hbPt3 c hbM3_4 (V c main_v4) ∗ hbPt3 c hbM3_5 (V c main_v5))

/-- The proof data of the pipeline on core `c`. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outsAt3 V c t
  Φ s := Φ3 V c s.val
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outsAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, and what it returns. -/
def bodyPre3 (c : Dev nD) (t : Fin cfg3.N) : sProp 𝕄 :=
  iprop(Φ3 V c t.val ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))
def bodyPost3 (c : Dev nD) (t : Fin cfg3.N) : sProp 𝕄 :=
  iprop(Φ3 V c (t.val + 1) ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

set_option maxHeartbeats 4000000 in
/-- The body at the first tile of a half. -/
theorem sound_body3_A (c : Dev nD) (t : Fin cfg3.N) (h0 : t.val % 32 = 0) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [after3_0, after3_1, after3_2, after3_3]
  unfold Φ3 outsAt3
  rw [if_pos h0, if_neg (show ¬(t.val + 1) % 32 = 0 by omega), scAt9_succ_A V c t h0, scAt10_succ_A V c t h0, scAt11_succ_A V c t h0, dif_pos h0]
  unfold out3_A sout3_A_9 sout3_A_10 sout3_A_11
  unfold Dat.owesAt Pipeline.owesWithin
  rw [show (dat3 V c).owed t.castSucc = 0 from rfl, show (dat3 V c).owed t.succ = 0 from rfl]
  iintro ⟨⟨⟨HS9, HS10, HS11⟩, HR, Hg, Hq0, Hq1, Hq2, Hh3, Hh4, Hh5⟩, ⟨%W, -, HW⟩, ⟨%d0, H0⟩, ⟨%d1, H1⟩, ⟨%d2, H2⟩, ⟨%d3, H3⟩⟩
  iapply ((kernelRun3_A c (grid3.coords t) _ _ _ _ _ _ _ _ _ _ _ _ _ _ ((hcond3_0 t).mpr h0) (iblk3 V c 0 t) (iblk3 V c 1 t) (iblk3 V c 2 t) (V c main_v3) (V c main_v4) (V c main_v5)).2.2.2.2 W _)
  isplitl [H0]; · iexact H0
  isplitl [H1]; · iexact H1
  isplitl [H2]; · iexact H2
  isplitl [H3]; · iexists _; iexact H3
  isplitl [HS9]; · iexact HS9
  isplitl [HS10]; · iexact HS10
  isplitl [HS11]; · iexact HS11
  isplitl [Hq0]; · iexact Hq0
  isplitl [Hq1]; · iexact Hq1
  isplitl [Hq2]; · iexact Hq2
  isplitl [Hh3]; · iexact Hh3
  isplitl [Hh4]; · iexact Hh4
  isplitl [Hh5]; · iexact Hh5
  isplitl [HW]; · iexact HW
  iintro ⟨H0, H1, H2, ⟨%e3, H3⟩, ⟨%e9, HS9⟩, ⟨%e10, HS10⟩, ⟨%e11, HS11⟩, Hq0, Hq1, Hq2, Hh3, Hh4, Hh5, ⟨%W', HW'⟩⟩
  isplitl [HS9 HS10 HS11 HR Hg Hq0 Hq1 Hq2 Hh3 Hh4 Hh5]
  · isplitl [HS9 HS10 HS11]
    · isplitl [HS9]
      · unfold owns; iexists _; isplitr
        swap; · iexact HS9
        ipureintro; exact View.read_writes_of_cover _ _ _ _ _ (scover3_A_9 c _ _ _ _ _ _ _ _ _ _ _ _ _ _ _ _ _ _ _ _ _ _)
      isplitl [HS10]
      · unfold owns; iexists _; isplitr
        swap; · iexact HS10
        ipureintro; exact View.read_writes_of_cover _ _ _ _ _ (scover3_A_10 c _ _ _ _ _ _ _ _ _ _ _ _ _ _ _ _ _ _ _ _ _ _)
      unfold owns; iexists _; isplitr
      swap; · iexact HS11
      ipureintro; exact View.read_writes_of_cover _ _ _ _ _ (scover3_A_11 c _ _ _ _ _ _ _ _ _ _ _ _ _ _ _ _ _ _ _ _ _ _)
    isplitl [HR]; · iexact HR
    isplitl [Hg]; · iexact Hg
    isplitl [Hq0]; · iexact Hq0
    isplitl [Hq1]; · iexact Hq1
    isplitl [Hq2]; · iexact Hq2
    isplitl [Hh3]; · iexact Hh3
    isplitl [Hh4]; · iexact Hh4
    iexact Hh5
  isplitl [HW']
  · iexists W'; isplitr; · ipureintro; exact fun _ _ => Or.inl trivial
    iexact HW'
  isplitl [H0]; · iexact H0
  isplitl [H1]; · iexact H1
  isplitl [H2]; · iexact H2
  unfold owns; iexists _; isplitr
  swap; · iexact H3
  ipureintro; exact View.read_writes_of_cover _ _ _ _ _ (cover3_A c _ _ _ _ _ _ _ _ _ _ _ _ _ _ _ _ _ _ _ _ _ _)

set_option maxHeartbeats 4000000 in
/-- The body at any other tile. -/
theorem sound_body3_B (c : Dev nD) (t : Fin cfg3.N) (h0 : ¬t.val % 32 = 0) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [after3_0, after3_1, after3_2, after3_3]
  rw [show (dat3 V c).owesAt () t.succ = (dat3 V c).owesAt () t.castSucc from rfl]
  unfold Φ3 outsAt3
  rw [if_neg h0, scAt9_succ_B V c t h0, scAt10_succ_B V c t h0, scAt11_succ_B V c t h0, dif_neg h0]
  unfold out3_B
  iintro ⟨⟨⟨HS9, HS10, HS11⟩, HR, Hg, Hq0, Hq1, Hq2, Hh3, Hh4, Hh5⟩, Ho, ⟨%d0, H0⟩, ⟨%d1, H1⟩, ⟨%d2, H2⟩, ⟨%d3, H3⟩⟩
  iapply ((kernelRun3_B c (grid3.coords t) _ _ _ _ _ _ _ _ _ _ _ _ _ _ (fun h => h0 ((hcond3_0 t).mp h)) (iblk3 V c 0 t) (iblk3 V c 1 t) (iblk3 V c 2 t) (scAt9 V c t.val) (scAt10 V c t.val) (scAt11 V c t.val)).2 Set.univ _)
  isplitl [H0]; · iexact H0
  isplitl [H1]; · iexact H1
  isplitl [H2]; · iexact H2
  isplitl [H3]; · iexists _; iexact H3
  isplitl [HS9]; · iexact HS9
  isplitl [HS10]; · iexact HS10
  isplitl [HS11]; · iexact HS11
  iintro ⟨H0, H1, H2, ⟨%e3, H3⟩, HS9, HS10, HS11⟩
  isplitl [HS9 HS10 HS11 HR Hg Hq0 Hq1 Hq2 Hh3 Hh4 Hh5]
  · isplitl [HS9 HS10 HS11]
    · by_cases hn : (t.val + 1) % 32 = 0
      · rw [if_pos hn]
        isplitl [HS9]; · iexists _; iexact HS9
        isplitl [HS10]; · iexists _; iexact HS10
        iexists _; iexact HS11
      · rw [if_neg hn]
        isplitl [HS9]; · iexact HS9
        isplitl [HS10]; · iexact HS10
        iexact HS11
    isplitl [HR]; · iexact HR
    isplitl [Hg]; · iexact Hg
    isplitl [Hq0]; · iexact Hq0
    isplitl [Hq1]; · iexact Hq1
    isplitl [Hq2]; · iexact Hq2
    isplitl [Hh3]; · iexact Hh3
    isplitl [Hh4]; · iexact Hh4
    iexact Hh5
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_B c _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  rw [show (dat3 V c).Φ t.castSucc = Φ3 V c t.val from rfl, show (dat3 V c).Φ t.succ = Φ3 V c (t.val + 1) from rfl]
  by_cases h0 : t.val % 32 = 0
  · exact sound_body3_A V c t h0
  · exact sound_body3_B V c t h0

end R3

end Cert.Kernel.Hand

end
-- ==== Proof.KB.Run.lean ====
/-
  The whole program as a list of segments: the three forward layers' regions, the three conversions of the weights to
  bfloat16, the series kernel's region, the final reshape.  Between two segments a core holds every unscoped buffer at
  contents computed by a fold from the launch memory: a region replaces its windows' arrays by what its write-backs
  leave, a stretch of host operations applies them.  The run ends with every unscoped buffer at the last fold.
-/
import proofs.«172335_j35158602285651_2_alg».proof.Proof.KB.R0
import proofs.«172335_j35158602285651_2_alg».proof.Proof.KB.R1
import proofs.«172335_j35158602285651_2_alg».proof.Proof.KB.R2
import proofs.«172335_j35158602285651_2_alg».proof.Proof.KB.R3

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After the three conversions. -/
abbrev W4 : Dev nD → Valuation τ sig (Elt F) := fun c => StableHlo.after hostOps3 (W3 m ρ c)
abbrev V4 : (c : Dev nD) → (b : Ref sig .tc) → Buf (Elt F) ((c : Thread nD τ).loc b) := fun c b => W4 m ρ c b
/-- At region 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After the final reshape. -/
abbrev W6 : Dev nD → Valuation τ sig (Elt F) := fun c => StableHlo.after hostOps4 (W5 m ρ c)

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Forward layer 1's region over the thread state "every unscoped buffer at the boundary's contents": its arrays split
    out of the unscoped buffers and put back at what the write-backs leave; the generator register and the kernel's
    scratch into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Φ0 c from rfl]; unfold Φ0
    have hs : (Pipeline.scopedRest (Ix := Unit) (Name := ℕ) (U := Pipeline.UD sig nD τ) (Lvl := ℕ) (Val := Elt F) (Pipeline.pin (pcfgs (F := F)) adm 0).spec c : sProp 𝕄) = _ := scopedRest0_split c
    rw [hs]
    simp only [scM0, owns_whole]
    iintro ⟨Hp, -, ⟨HS, HR⟩⟩
    isplitl [HS]; · iexact HS
    isplitl [HR]; · iexact HR
    iexact Hp
  hout c := by
    rw [Pipeline.ownSems0_none, show (pdats m ρ 0 c).Φ (Fin.last _) = Φ0 c from rfl]; unfold Φ0
    have hs : (Pipeline.scopedRest (Ix := Unit) (Name := ℕ) (U := Pipeline.UD sig nD τ) (Lvl := ℕ) (Val := Elt F) (Pipeline.pin (pcfgs (F := F)) adm 0).spec c : sProp 𝕄) = _ := scopedRest0_split c
    rw [hs]
    simp only [scM0, owns_whole]
    iintro ⟨HS, HR, Hp⟩
    isplitl [Hp]; · iexact Hp
    isplitr; · iempintro
    isplitl [HS]; · iexact HS
    iexact HR
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Forward layer 2's region over the thread state "every unscoped buffer at the boundary's contents": its arrays split
    out of the unscoped buffers and put back at what the write-backs leave; the generator register and the kernel's
    scratch into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V1 m ρ) c 0 from rfl]; unfold Φ1
    have hs : (Pipeline.scopedRest (Ix := Unit) (Name := ℕ) (U := Pipeline.UD sig nD τ) (Lvl := ℕ) (Val := Elt F) (Pipeline.pin (pcfgs (F := F)) adm 1).spec c : sProp 𝕄) = _ := scopedRest1_split c
    rw [hs, if_pos (Nat.zero_mod _)]
    simp only [scM1, owns_whole]
    iintro ⟨Hp, -, ⟨HS, HR⟩⟩
    isplitl [HS]; · iexact HS
    isplitl [HR]; · iexact HR
    iexact Hp
  hout c := by
    rw [Pipeline.ownSems0_none, show (pdats m ρ 1 c).Φ (Fin.last _) = Φ1 (V1 m ρ) c 128 from rfl]; unfold Φ1
    have hs : (Pipeline.scopedRest (Ix := Unit) (Name := ℕ) (U := Pipeline.UD sig nD τ) (Lvl := ℕ) (Val := Elt F) (Pipeline.pin (pcfgs (F := F)) adm 1).spec c : sProp 𝕄) = _ := scopedRest1_split c
    rw [hs, if_pos (show 128 % 4 = 0 by decide)]
    simp only [scM1, owns_whole]
    iintro ⟨HS, HR, Hp⟩
    isplitl [Hp]; · iexact Hp
    isplitr; · iempintro
    isplitl [HS]; · iexact HS
    iexact HR
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Forward layer 3's region over the thread state "every unscoped buffer at the boundary's contents": its arrays split
    out of the unscoped buffers and put back at what the write-backs leave; the generator register and the kernel's
    scratch into the invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Φ2 (V2 m ρ) c 0 from rfl]; unfold Φ2
    have hs : (Pipeline.scopedRest (Ix := Unit) (Name := ℕ) (U := Pipeline.UD sig nD τ) (Lvl := ℕ) (Val := Elt F) (Pipeline.pin (pcfgs (F := F)) adm 2).spec c : sProp 𝕄) = _ := scopedRest2_split c
    rw [hs, if_pos (Nat.zero_mod _)]
    simp only [scM2, owns_whole]
    iintro ⟨Hp, -, ⟨HS, HR⟩⟩
    isplitl [HS]; · iexact HS
    isplitl [HR]; · iexact HR
    iexact Hp
  hout c := by
    rw [Pipeline.ownSems0_none, show (pdats m ρ 2 c).Φ (Fin.last _) = Φ2 (V2 m ρ) c 32 from rfl]; unfold Φ2
    have hs : (Pipeline.scopedRest (Ix := Unit) (Name := ℕ) (U := Pipeline.UD sig nD τ) (Lvl := ℕ) (Val := Elt F) (Pipeline.pin (pcfgs (F := F)) adm 2).spec c : sProp 𝕄) = _ := scopedRest2_split c
    rw [hs, if_pos (show 32 % 4 = 0 by decide)]
    simp only [scM2, owns_whole]
    iintro ⟨HS, HR, Hp⟩
    isplitl [Hp]; · iexact Hp
    isplitr; · iempintro
    isplitl [HS]; · iexact HS
    iexact HR
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The series kernel's own three copy semaphores, and the three matrices it copies from main memory. -/
abbrev osem3 : Fin 3 → SemLoc sig := fun j => (![SemLoc.dma 37, SemLoc.dma 38, SemLoc.dma 39] : Fin 3 → SemLoc sig) j
theorem ownSemFacts3 : Pipeline.OwnSemFacts spec3 osem3 := by decide
theorem ownSems03_eq (c : Dev nD) :
    (Pipeline.ownSems0 (Ix := Unit) (Name := ℕ) (U := Pipeline.UD sig nD τ) (Lvl := ℕ) (Val := Elt F) (τ := τ) osem3 c : sProp 𝕄)
      = iprop(semVal ((c : Thread nD τ), SemLoc.dma 37) 0 ∗ semVal ((c : Thread nD τ), SemLoc.dma 38) 0 ∗ semVal ((c : Thread nD τ), SemLoc.dma 39) 0) := by
  rw [Pipeline.ownSems0_eq_of_list c osem3 [0, 1, 2] (by decide) (by decide)]; rfl
def H3 : Finset (Ref sig .tc) := {main_v3, main_v4, main_v5}
theorem H3_sub : H3 ⊆ Pipeline.restRefs sig spec3 := by decide
theorem hbmPts3_eq (V : (c : Dev nD) → (b : Ref sig .tc) → Buf (Elt F) ((c : Thread nD τ).loc b)) (c : Dev nD) :
    (bigSep H3 (fun b => ((c : Thread nD τ).loc b) ↦{fullShare} V c b) : sProp 𝕄)
      = iprop(hbPt3 c hbM3_3 (V c main_v3) ∗ hbPt3 c hbM3_4 (V c main_v4) ∗ hbPt3 c hbM3_5 (V c main_v5)) := by
  rw [BI.bigSep_eq_bigSepL_of_eq [main_v3, main_v4, main_v5] (by decide) (by decide)]; rfl

set_option backward.isDefEq.respectTransparency.types false in
/-- The series kernel's region: as the forward ones, and besides its own three semaphores (at zero from the boundary
    and back) and the three matrices it copies itself (split out of the bypassing buffers and rejoined). -/
def reg3 : Pipeline.RegionSeg (pcfgs (F := F)) adm (pdats m ρ) () defs₀ 𝒱₀ L lv 3 where
  win := launch3.win.to₀
  block_pos := launch3.block_pos
  stage_whole := launch3.stage_whole
  K := Fin 3
  osem := osem3
  ho := ownSemFacts3
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop((∃ r, prngReg c r) ∗ Pipeline.ownSems0 (Ix := Unit) (Name := ℕ) (U := Pipeline.UD sig nD τ) (Lvl := ℕ) (Val := Elt F) (τ := τ) osem3 c ∗ (bigSep H3 fun b => (((c : Thread nD τ)).loc b) ↦{fullShare} V4 m ρ c b))
  Y c := iprop((∃ r, prngReg c r) ∗ (bigSep H3 fun b => (((c : Thread nD τ)).loc b) ↦{fullShare} V4 m ρ c b))
  Z c := bigSep (Pipeline.restRefs sig spec3 \ H3) fun b => (((c : Thread nD τ)).loc b) ↦{fullShare} V4 m ρ c b
  hentry c := by
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    have hH : (Pipeline.unscopedRest (Ix := Unit) (Name := ℕ) (U := Pipeline.UD sig nD τ) (Lvl := ℕ) spec3 c (V4 m ρ c) : sProp 𝕄)
        = iprop((bigSep H3 fun b => (((c : Thread nD τ)).loc b) ↦{fullShare} V4 m ρ c b) ∗ (bigSep (Pipeline.restRefs sig spec3 \ H3) fun b => (((c : Thread nD τ)).loc b) ↦{fullShare} V4 m ρ c b)) := by
      unfold Pipeline.unscopedRest; exact BI.bigSep_sdiff_split H3_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 3 c).Φ 0 = Φ3 (V4 m ρ) c 0 from rfl]; unfold Φ3
    have hs : (Pipeline.scopedRest (Ix := Unit) (Name := ℕ) (U := Pipeline.UD sig nD τ) (Lvl := ℕ) (Val := Elt F) (Pipeline.pin (pcfgs (F := F)) adm 3).spec c : sProp 𝕄) = _ := scopedRest3_split c
    rw [hs, if_pos (Nat.zero_mod _), ownSems03_eq, hbmPts3_eq]
    simp only [scM9, scM10, scM11, owns_whole]
    iintro ⟨⟨Hp, ⟨Hq0, Hq1, Hq2⟩, ⟨Hh3, Hh4, Hh5⟩⟩, -, ⟨⟨HS9, HS10, HS11⟩, HR⟩⟩
    isplitl [HS9 HS10 HS11]
    · isplitl [HS9]; · iexact HS9
      isplitl [HS10]; · iexact HS10
      iexact HS11
    isplitl [HR]; · iexact HR
    isplitl [Hp]; · iexact Hp
    isplitl [Hq0]; · iexact Hq0
    isplitl [Hq1]; · iexact Hq1
    isplitl [Hq2]; · iexact Hq2
    isplitl [Hh3]; · iexact Hh3
    isplitl [Hh4]; · iexact Hh4
    iexact Hh5
  hout c := by
    rw [show (pdats m ρ 3 c).Φ (Fin.last _) = Φ3 (V4 m ρ) c 64 from rfl]; unfold Φ3
    have hs : (Pipeline.scopedRest (Ix := Unit) (Name := ℕ) (U := Pipeline.UD sig nD τ) (Lvl := ℕ) (Val := Elt F) (Pipeline.pin (pcfgs (F := F)) adm 3).spec c : sProp 𝕄) = _ := scopedRest3_split c
    rw [hs, if_pos (show 64 % 32 = 0 by decide), ownSems03_eq, hbmPts3_eq]
    simp only [scM9, scM10, scM11, owns_whole]
    iintro ⟨⟨HS9, HS10, HS11⟩, HR, Hp, Hq0, Hq1, Hq2, Hh3, Hh4, Hh5⟩
    isplitl [Hp Hh3 Hh4 Hh5]
    · isplitl [Hp]; · iexact Hp
      isplitl [Hh3]; · iexact Hh3
      isplitl [Hh4]; · iexact Hh4
      iexact Hh5
    isplitl [Hq0 Hq1 Hq2]
    · isplitl [Hq0]; · iexact Hq0
      isplitl [Hq1]; · iexact Hq1
      iexact Hq2
    isplitl [HS9 HS10 HS11]
    · isplitl [HS9]; · iexact HS9
      isplitl [HS10]; · iexact HS10
      iexact HS11
    iexact HR
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    have hH : (Pipeline.unscopedRest (Ix := Unit) (Name := ℕ) (U := Pipeline.UD sig nD τ) (Lvl := ℕ) spec3 c (V4 m ρ c) : sProp 𝕄)
        = iprop((bigSep H3 fun b => (((c : Thread nD τ)).loc b) ↦{fullShare} V4 m ρ c b) ∗ (bigSep (Pipeline.restRefs sig spec3 \ H3) fun b => (((c : Thread nD τ)).loc b) ↦{fullShare} V4 m ρ c b)) := by
      unfold Pipeline.unscopedRest; exact BI.bigSep_sdiff_split H3_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segs : List (Pipeline.Seg (pcfgs (F := F)) adm (pdats m ρ) () defs₀ 𝒱₀ L lv) :=
  [ .region (reg0 m ρ), .region (reg1 m ρ), .region (reg2 m ρ),
    .host (hseg hostOps3 hostOps3_sub hostOps3_fresh' (W3 m ρ)),
    .region (reg3 m ρ),
    .host (hseg hostOps4 hostOps4_sub hostOps4_fresh' (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ (∃ r, prngReg c r) ∗ ∃ W, owes (c : Thread nD τ) (0 : CellTallies nD τ sig Unit) W)
        ⊢ (iprop((StableHlo.held (c : Thread nD τ) (Pipeline.ucRefs τ sig) (W6 m ρ c) ∗ ∃ r, prngReg c r) ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.KB.Fold.lean ====
/-
  Walking the fold of buffer contents through the program: a region changes only its output windows' arrays, a stretch
  of host operations only the buffers it writes.  So every argument array ends as launched, the first result is what
  the third forward layer's write-backs leave, and the second result is the reshape of what the series kernel's leave.
-/
import proofs.«172335_j35158602285651_2_alg».proof.Proof.KB.Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Region 0 changes only its output arrays: an input window's array is written back never, and every other buffer
    bypasses the region. -/
theorem keep0 (c : Dev nD) (b : Ref sig .tc) (h3 : b ≠ main_v0_0) (h4 : b ≠ main_v0_1) : V1 m ρ c b = V0 m ρ c b := by
  by_cases h : ∃ w, Pipeline.arrRef spec0 w = b
  · obtain ⟨w, rfl⟩ := h
    match w with
    | ⟨0, _⟩ => exact (W1_arr m ρ c 0).trans (((dat0 (V0 m ρ) c).arrAt_in 0 rfl _).trans (A_eq0 (V0 m ρ) c 0))
    | ⟨1, _⟩ => exact (W1_arr m ρ c 1).trans (((dat0 (V0 m ρ) c).arrAt_in 1 rfl _).trans (A_eq0 (V0 m ρ) c 1))
    | ⟨2, _⟩ => exact (W1_arr m ρ c 2).trans (((dat0 (V0 m ρ) c).arrAt_in 2 rfl _).trans (A_eq0 (V0 m ρ) c 2))
    | ⟨3, _⟩ => exact absurd rfl h3
    | ⟨4, _⟩ => exact absurd rfl h4
  · exact W1_of_ne m ρ c b (fun w e => h ⟨w, e⟩)
/-- and its output arrays end at what the write-backs leave. -/
theorem V1_main_v0_0 (c : Dev nD) : V1 m ρ c main_v0_0 = (dat0 (V0 m ρ) c).arrAt 3 cfg0.N := W1_arr m ρ c 3
theorem V1_main_v0_1 (c : Dev nD) : V1 m ρ c main_v0_1 = (dat0 (V0 m ρ) c).arrAt 4 cfg0.N := W1_arr m ρ c 4

/-- Region 1 changes only its output arrays: an input window's array is written back never, and every other buffer
    bypasses the region. -/
theorem keep1 (c : Dev nD) (b : Ref sig .tc) (h3 : b ≠ main_v1_0) (h4 : b ≠ main_v1_1) : V2 m ρ c b = V1 m ρ c b := by
  by_cases h : ∃ w, Pipeline.arrRef spec1 w = b
  · obtain ⟨w, rfl⟩ := h
    match w with
    | ⟨0, _⟩ => exact (W2_arr m ρ c 0).trans (((dat1 (V1 m ρ) c).arrAt_in 0 rfl _).trans (A_eq1 (V1 m ρ) c 0))
    | ⟨1, _⟩ => exact (W2_arr m ρ c 1).trans (((dat1 (V1 m ρ) c).arrAt_in 1 rfl _).trans (A_eq1 (V1 m ρ) c 1))
    | ⟨2, _⟩ => exact (W2_arr m ρ c 2).trans (((dat1 (V1 m ρ) c).arrAt_in 2 rfl _).trans (A_eq1 (V1 m ρ) c 2))
    | ⟨3, _⟩ => exact absurd rfl h3
    | ⟨4, _⟩ => exact absurd rfl h4
  · exact W2_of_ne m ρ c b (fun w e => h ⟨w, e⟩)
/-- and its output arrays end at what the write-backs leave. -/
theorem V2_main_v1_0 (c : Dev nD) : V2 m ρ c main_v1_0 = (dat1 (V1 m ρ) c).arrAt 3 cfg1.N := W2_arr m ρ c 3
theorem V2_main_v1_1 (c : Dev nD) : V2 m ρ c main_v1_1 = (dat1 (V1 m ρ) c).arrAt 4 cfg1.N := W2_arr m ρ c 4

/-- Region 2 changes only its output array: an input window's array is written back never, and every other buffer
    bypasses the region. -/
theorem keep2 (c : Dev nD) (b : Ref sig .tc) (h4 : b ≠ main_v2) : V3 m ρ c b = V2 m ρ c b := by
  by_cases h : ∃ w, Pipeline.arrRef spec2 w = b
  · obtain ⟨w, rfl⟩ := h
    match w with
    | ⟨0, _⟩ => exact (W3_arr m ρ c 0).trans (((dat2 (V2 m ρ) c).arrAt_in 0 rfl _).trans (A_eq2 (V2 m ρ) c 0))
    | ⟨1, _⟩ => exact (W3_arr m ρ c 1).trans (((dat2 (V2 m ρ) c).arrAt_in 1 rfl _).trans (A_eq2 (V2 m ρ) c 1))
    | ⟨2, _⟩ => exact (W3_arr m ρ c 2).trans (((dat2 (V2 m ρ) c).arrAt_in 2 rfl _).trans (A_eq2 (V2 m ρ) c 2))
    | ⟨3, _⟩ => exact (W3_arr m ρ c 3).trans (((dat2 (V2 m ρ) c).arrAt_in 3 rfl _).trans (A_eq2 (V2 m ρ) c 3))
    | ⟨4, _⟩ => exact absurd rfl h4
  · exact W3_of_ne m ρ c b (fun w e => h ⟨w, e⟩)
/-- and its output arrays end at what the write-backs leave. -/
theorem V3_main_v2 (c : Dev nD) : V3 m ρ c main_v2 = (dat2 (V2 m ρ) c).arrAt 4 cfg2.N := W3_arr m ρ c 4

/-- Region 3 changes only its output array: an input window's array is written back never, and every other buffer
    bypasses the region. -/
theorem keep3 (c : Dev nD) (b : Ref sig .tc) (h3 : b ≠ main_v6) : V5 m ρ c b = V4 m ρ c b := by
  by_cases h : ∃ w, Pipeline.arrRef spec3 w = b
  · obtain ⟨w, rfl⟩ := h
    match w with
    | ⟨0, _⟩ => exact (W5_arr m ρ c 0).trans (((dat3 (V4 m ρ) c).arrAt_in 0 rfl _).trans (A_eq3 (V4 m ρ) c 0))
    | ⟨1, _⟩ => exact (W5_arr m ρ c 1).trans (((dat3 (V4 m ρ) c).arrAt_in 1 rfl _).trans (A_eq3 (V4 m ρ) c 1))
    | ⟨2, _⟩ => exact (W5_arr m ρ c 2).trans (((dat3 (V4 m ρ) c).arrAt_in 2 rfl _).trans (A_eq3 (V4 m ρ) c 2))
    | ⟨3, _⟩ => exact absurd rfl h3
  · exact W5_of_ne m ρ c b (fun w e => h ⟨w, e⟩)
/-- and its output arrays end at what the write-backs leave. -/
theorem V5_main_v6 (c : Dev nD) : V5 m ρ c main_v6 = (dat3 (V4 m ρ) c).arrAt 3 cfg3.N := W5_arr m ρ c 3

/-- The three conversions write only the three converted matrices, -/
theorem keepH3 (c : Dev nD) (b : Ref sig .tc) (h3 : b ≠ main_v3) (h4 : b ≠ main_v4) (h5 : b ≠ main_v5) : V4 m ρ c b = V3 m ρ c b :=
  StableHlo.after_of_forall_not_mem (b := Proc.devRef .tc b) _ _ (List.forall_iff_forall_mem.mp (by
    simp only [hostOps3, List.Forall, StableHlo.unary_writes, Finset.mem_singleton]
    exact ⟨StableHlo.devRef_ne_of_ne h3, StableHlo.devRef_ne_of_ne h4, StableHlo.devRef_ne_of_ne h5⟩))
/-- and the reshape only the second result. -/
theorem keepH4 (c : Dev nD) (b : Ref sig .tc) (h7 : b ≠ main_v7) : W6 m ρ c b = V5 m ρ c b :=
  StableHlo.after_of_forall_not_mem (b := Proc.devRef .tc b) _ _ (List.forall_iff_forall_mem.mp (by
    simp only [hostOps4, List.Forall, StableHlo.reshape_writes, Finset.mem_singleton]
    exact StableHlo.devRef_ne_of_ne h7))

/-- Every argument array ends as launched. -/
theorem W6_main_arg0 (c : Dev nD) : W6 m ρ c main_arg0 = m ((c : Thread nD τ).loc main_arg0) :=
  (keepH4 m ρ c main_arg0 (by decide)).trans <| (keep3 m ρ c main_arg0 (by decide)).trans <|
    (keepH3 m ρ c main_arg0 (by decide) (by decide) (by decide)).trans <| (keep2 m ρ c main_arg0 (by decide)).trans <|
    (keep1 m ρ c main_arg0 (by decide) (by decide)).trans <| (keep0 m ρ c main_arg0 (by decide) (by decide)).trans rfl
theorem W6_main_arg1 (c : Dev nD) : W6 m ρ c main_arg1 = m ((c : Thread nD τ).loc main_arg1) :=
  (keepH4 m ρ c main_arg1 (by decide)).trans <| (keep3 m ρ c main_arg1 (by decide)).trans <|
    (keepH3 m ρ c main_arg1 (by decide) (by decide) (by decide)).trans <| (keep2 m ρ c main_arg1 (by decide)).trans <|
    (keep1 m ρ c main_arg1 (by decide) (by decide)).trans <| (keep0 m ρ c main_arg1 (by decide) (by decide)).trans rfl
theorem W6_main_arg2 (c : Dev nD) : W6 m ρ c main_arg2 = m ((c : Thread nD τ).loc main_arg2) :=
  (keepH4 m ρ c main_arg2 (by decide)).trans <| (keep3 m ρ c main_arg2 (by decide)).trans <|
    (keepH3 m ρ c main_arg2 (by decide) (by decide) (by decide)).trans <| (keep2 m ρ c main_arg2 (by decide)).trans <|
    (keep1 m ρ c main_arg2 (by decide) (by decide)).trans <| (keep0 m ρ c main_arg2 (by decide) (by decide)).trans rfl
theorem W6_main_arg3 (c : Dev nD) : W6 m ρ c main_arg3 = m ((c : Thread nD τ).loc main_arg3) :=
  (keepH4 m ρ c main_arg3 (by decide)).trans <| (keep3 m ρ c main_arg3 (by decide)).trans <|
    (keepH3 m ρ c main_arg3 (by decide) (by decide) (by decide)).trans <| (keep2 m ρ c main_arg3 (by decide)).trans <|
    (keep1 m ρ c main_arg3 (by decide) (by decide)).trans <| (keep0 m ρ c main_arg3 (by decide) (by decide)).trans rfl
theorem W6_main_arg4 (c : Dev nD) : W6 m ρ c main_arg4 = m ((c : Thread nD τ).loc main_arg4) :=
  (keepH4 m ρ c main_arg4 (by decide)).trans <| (keep3 m ρ c main_arg4 (by decide)).trans <|
    (keepH3 m ρ c main_arg4 (by decide) (by decide) (by decide)).trans <| (keep2 m ρ c main_arg4 (by decide)).trans <|
    (keep1 m ρ c main_arg4 (by decide) (by decide)).trans <| (keep0 m ρ c main_arg4 (by decide) (by decide)).trans rfl
theorem W6_main_arg5 (c : Dev nD) : W6 m ρ c main_arg5 = m ((c : Thread nD τ).loc main_arg5) :=
  (keepH4 m ρ c main_arg5 (by decide)).trans <| (keep3 m ρ c main_arg5 (by decide)).trans <|
    (keepH3 m ρ c main_arg5 (by decide) (by decide) (by decide)).trans <| (keep2 m ρ c main_arg5 (by decide)).trans <|
    (keep1 m ρ c main_arg5 (by decide) (by decide)).trans <| (keep0 m ρ c main_arg5 (by decide) (by decide)).trans rfl
theorem W6_main_arg6 (c : Dev nD) : W6 m ρ c main_arg6 = m ((c : Thread nD τ).loc main_arg6) :=
  (keepH4 m ρ c main_arg6 (by decide)).trans <| (keep3 m ρ c main_arg6 (by decide)).trans <|
    (keepH3 m ρ c main_arg6 (by decide) (by decide) (by decide)).trans <| (keep2 m ρ c main_arg6 (by decide)).trans <|
    (keep1 m ρ c main_arg6 (by decide) (by decide)).trans <| (keep0 m ρ c main_arg6 (by decide) (by decide)).trans rfl
theorem W6_main_arg7 (c : Dev nD) : W6 m ρ c main_arg7 = m ((c : Thread nD τ).loc main_arg7) :=
  (keepH4 m ρ c main_arg7 (by decide)).trans <| (keep3 m ρ c main_arg7 (by decide)).trans <|
    (keepH3 m ρ c main_arg7 (by decide) (by decide) (by decide)).trans <| (keep2 m ρ c main_arg7 (by decide)).trans <|
    (keep1 m ρ c main_arg7 (by decide) (by decide)).trans <| (keep0 m ρ c main_arg7 (by decide) (by decide)).trans rfl

/-- The first result ends at what the third forward layer's write-backs leave. -/
theorem W6_main_v2 (c : Dev nD) : W6 m ρ c main_v2 = (dat2 (V2 m ρ) c).arrAt 4 cfg2.N :=
  (keepH4 m ρ c main_v2 (by decide)).trans <| (keep3 m ρ c main_v2 (by decide)).trans <|
    (keepH3 m ρ c main_v2 (by decide) (by decide) (by decide)).trans (V3_main_v2 m ρ c)

/-- THE FRAME: every weakly fair execution terminates, nothing faulting, with the eight argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.Kernel.Hand

end
-- ==== Proof.KI.R0Run.lean ====
/-
  The first forward layer's kernel body, run once on whole staging buffers.  The grid is 8 row tiles by 4 column tiles
  by ONE reduction step, so at every point both of the body's conditionals are taken: the accumulator is cleared, the
  three partial products of the row tile against the weight tile are added into it, and the bias is added, the result
  rectified into the first output and its sign pattern stored as zeros and ones into the second.  The run records, as
  lists of stored pieces, what the two output buffers and the accumulator end with.
-/
import proofs.«172335_j35158602285651_2_alg».proof.Proof.Gen.KernelIdeal.Launch
import proofs.«172335_j35158602285651_2_alg».proof.Proof.Gen.KernelIdeal.Skeleton
import proofs.«172335_j35158602285651_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first conditional's test, from the grid coordinates: the reduction coordinate is zero. -/
abbrev cond0_0 (i : grid0.Coords) : Prop := (Scalar.cmpi .ne (Scalar.extui (Scalar.cmpi .eq (BitVec.ofNat 32 (i 2).val) 0#32)) 0#32) = 1#1
/-- The reduction axis has one step: both tests hold at every grid point. -/
theorem hcond0_0 : ∀ t : Fin cfg0.N, cond0_0 (grid0.coords t) :=
  (by decide +kernel : ∀ t : Fin grid0.N, cond0_0 (grid0.coords t))
theorem hcond0_1 : ∀ t : Fin cfg0.N, k0_cond2 (grid0.coords t) = 1#1 :=
  (by decide +kernel : ∀ t : Fin grid0.N, k0_cond2 (grid0.coords t) = 1#1)

set_option maxHeartbeats 1000000 in
/-- The body on whole staging buffers — the row tile, the weight tile and the bias slice at given contents, the two
    outputs and the accumulator at anything — runs to the end leaving the inputs as they were and each of the other three
    with the listed pieces written. -/
noncomputable def kernelRun0 (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024 .f32) (harg5 : arg5.IsWhole) (arg6 : Memref sig .tc .vmem S1024x1024 .f32) (harg6 : arg6.IsWhole)
    (arg7 : Memref sig .tc .vmem S1024x1024 .bf16) (harg7 : arg7.IsWhole) (arg8 : Memref sig .tc .vmem S1024x1024 .f32) (harg8 : arg8.IsWhole)
    (hc0 : cond0_0 i) (hc1 : k0_cond2 i = 1#1)
    (x0 : Vec F S1024x1024 .f32) (x1 : Vec F S1024x1024 .f32) (x2 : Vec F S1024 .f32) :
    Σ' (L3 : List (View.Piece (Elt F) S1024x1024 .f32)) (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc0_kernel i arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS

end Cert.KernelIdeal.Hand

end
-- ==== Proof.KI.R0.lean ====
/-
  The first forward layer's pallas_call as a pipeline: what each window's staging buffer holds after the body at each
  grid point, and the body's obligation at every point.  The three inputs (a row tile of the activations, a row tile of
  the weights, a slice of the bias) keep their blocks; the two outputs hold what the run's stored pieces read back to;
  the accumulator is the kernel's own scratch, cleared at every point, so between points it is held at anything.
-/
import proofs.«172335_j35158602285651_2_alg».proof.Proof.KI.R0Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section R0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, through which its contents are stated. -/
abbrev VO0_3 : View sig .tc .vmem S1024x1024 .f32 := (Memref.whole cc0_stg3_0 : Memref sig .tc .vmem S1024x1024 .f32).view
abbrev VO0_4 : View sig .tc .vmem S1024x1024 .bf16 := (Memref.whole cc0_stg4_0 : Memref sig .tc .vmem S1024x1024 .bf16).view
/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1024x1024 .f32 := Memref.whole cc0_scratch0

/-- The invariant between points: the accumulator at anything, the other scoped buffers untouched, the generator
    register at some state. -/
def Φ0 (c : Dev nD) : sProp 𝕄 :=
  iprop((∃ d, owns (c : Thread nD τ) scM0 fullShare d)
    ∗ Pipeline.scopedRestBut (Ix := Unit) (Name := ℕ) (U := Pipeline.UD sig nD τ) (Lvl := ℕ) (Val := Elt F) spec0 c [cc0_scratch0]
    ∗ (∃ r, prngReg c r))

/-- The stored pieces of each output tile its block, so they cover it. -/
theorem cover0_3 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) (y : S1024x1024.Idx) :
    ∃ pc ∈ (kernelRun0 c i arg3 harg3 arg4 harg4 arg5 harg5 arg6 harg6 arg7 harg7 arg8 harg8 hc0 hc1 x0 x1 x2).1, y ∈ pc.1.set :=
  View.cover_of_tiledL (kernelRun0 c i arg3 harg3 arg4 harg4 arg5 harg5 arg6 harg6 arg7 harg7 arg8 harg8 hc0 hc1 x0 x1 x2).1 S1024x1024.size (by sl_kernel_rfl) y
theorem cover0_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) (y : S1024x1024.Idx) :
    ∃ pc ∈ (kernelRun0 c i arg3 harg3 arg4 harg4 arg5 harg5 arg6 harg6 arg7 harg7 arg8 harg8 hc0 hc1 x0 x1 x2).2.1, y ∈ pc.1.set :=
  View.cover_of_tiledL (kernelRun0 c i arg3 harg3 arg4 harg4 arg5 harg5 arg6 harg6 arg7 harg7 arg8 harg8 hc0 hc1 x0 x1 x2).2.1 S1024x1024.size (by sl_kernel_rfl) y

/-- What the run leaves in each output's staging buffer: its pieces read back. -/
def out0_3 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) : Vec F S1024x1024 .f32 :=
  VO0_3.read (Elt F) (VO0_3.writes (Elt F) VO0_3.junk (kernelRun0 c i arg3 harg3 arg4 harg4 arg5 harg5 arg6 harg6 arg7 harg7 arg8 harg8 hc0 hc1 x0 x1 x2).1)
def out0_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) : Vec F S1024x1024 .bf16 :=
  VO0_4.read (Elt F) (VO0_4.writes (Elt F) VO0_4.junk (kernelRun0 c i arg3 harg3 arg4 harg4 arg5 harg5 arg6 harg6 arg7 harg7 arg8 harg8 hc0 hc1 x0 x1 x2).2.1)

/-- What the two outputs' staging buffers hold after the body at point `t`. -/
def outsAt0_3 (c : Dev nD) (t : Fin cfg0.N) : Vec F S1024x1024 .f32 :=
  out0_3 c (grid0.coords t) (ms0_0 t) (hs0_0 t) (ms0_1 t) (hs0_1 t) (ms0_2 t) (hs0_2 t) (ms0_3 t) (hs0_3 t) (ms0_4 t) (hs0_4 t) scM0 (Memref.isWhole_whole _)
    (hcond0_0 t) (hcond0_1 t) (iblk0 V c 0 t) (iblk0 V c 1 t) (iblk0 V c 2 t)
def outsAt0_4 (c : Dev nD) (t : Fin cfg0.N) : Vec F S1024x1024 .bf16 :=
  out0_4 c (grid0.coords t) (ms0_0 t) (hs0_0 t) (ms0_1 t) (hs0_1 t) (ms0_2 t) (hs0_2 t) (ms0_3 t) (hs0_3 t) (ms0_4 t) (hs0_4 t) scM0 (Memref.isWhole_whole _)
    (hcond0_0 t) (hcond0_1 t) (iblk0 V c 0 t) (iblk0 V c 1 t) (iblk0 V c 2 t)

/-- The proof data of the pipeline on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0_3 V c t
    | ⟨4, _⟩ => outsAt0_4 V c t
  Φ _ := Φ0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0_3 V c t := by dsimp only [dat0]
theorem after0_4 (c : Dev nD) (t : Fin cfg0.N) : (dat0 V c).after 4 t = outsAt0_4 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' buffers hold their blocks, so the run applies; the invariant hands the body its
    accumulator and takes it back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = Φ0 c from rfl, show (dat0 V c).Φ t.castSucc = Φ0 c from rfl,
    show (dat0 V c).owesAt () t.succ = (dat0 V c).owesAt () t.castSucc from rfl,
    after0_0, after0_1, after0_2, after0_3, after0_4]
  unfold Φ0 outsAt0_3 outsAt0_4 out0_3 out0_4
  iintro ⟨⟨HS, HR, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ (hcond0_0 t) (hcond0_1 t) (iblk0 V c 0 t) (iblk0 V c 1 t) (iblk0 V c 2 t)).2.2.2 Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, ⟨%e3, H3⟩, ⟨%e4, H4⟩, ⟨%es, HS⟩⟩
  isplitl [HS HR Hg]
  · isplitl [HS]
    · unfold owns; iexists _, _; isplitr; swap; · iexact HS
      ipureintro; rfl
    isplitl [HR]; · iexact HR
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_3 c _ _ _ _ _ _ _ _ _ _ _ _ _ _ _ _ _ _)
  unfold owns; iexists _; isplitr
  swap; · iexact H4
  ipureintro; exact View.read_writes_of_cover _ _ _ _ _ (cover0_4 c _ _ _ _ _ _ _ _ _ _ _ _ _ _ _ _ _ _)

/-- Both outputs are live at every point. -/
theorem live0_3 : ∀ t : Fin cfg0.N, idle0 3 (grid0.coords t) = false := by decide +kernel
theorem live0_4 : ∀ t : Fin cfg0.N, idle0 4 (grid0.coords t) = false := by decide +kernel

/-- The library's body obligation, at every point. -/
theorem body_obligation0 (c : Dev nD) : BodyObligation (dat0 (F := F) V c) (defs₀ (F := F)) Variants.none () Set.univ := fun t => by
  rw [bigSep_W0, bigSep_W0]
  simp only [live0_3 t, live0_4 t]
  exact sound_body0 V c t

end R0

end Cert.KernelIdeal.Hand

end
-- ==== Proof.KI.R1Run.lean ====
/-
  The body of forward layer two's kernel, run once on whole staging buffers in each of the three situations the grid
  meets.  The grid's last axis walks the reduction in four steps of 1024: the accumulator (the kernel's own scratch
  buffer) is cleared at the first step, receives at every step the three partial products of the row tile against the
  weight tile, and at the last step the bias is added, the result rectified into the first output and its sign pattern stored into the second.
-/
import proofs.«172335_j35158602285651_2_alg».proof.Proof.Gen.KernelIdeal.Launch
import proofs.«172335_j35158602285651_2_alg».proof.Proof.Gen.KernelIdeal.Skeleton
import proofs.«172335_j35158602285651_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first conditional's test, from the grid coordinates: the reduction coordinate is zero. -/
abbrev cond1_0 (i : grid1.Coords) : Prop := (Scalar.cmpi .ne (Scalar.extui (Scalar.cmpi .eq (BitVec.ofNat 32 (i 2).val) 0#32)) 0#32) = 1#1
/-- It holds at the points ≡ 0 (mod 4), and the second (the reduction coordinate is three) at the points ≡ 3. -/
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, k1_cond2 (grid1.coords t) = 1#1 ↔ t.val % 4 = 3 :=
  (by decide +kernel : ∀ t : Fin grid1.N, k1_cond2 (grid1.coords t) = 1#1 ↔ t.val % 4 = 3)

set_option maxHeartbeats 1000000 in
/-- The body at the first reduction step: the accumulator is cleared, then the partial product added; nothing is stored into the outputs. -/
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬k1_cond2 i = 1#1)
    (x0 : Vec F S1024x1024 .f32) (x1 : Vec F S1024x1024 .f32) (x2 : Vec F S1024 .f32) :
    { LS : List (View.Piece (Elt F) S1024x1024 .f32) //
      ∀ (xi0 : Vec F S1024x1024 .f32) (xi1 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi0 ∗ owns (c : Thread nD τ) arg7 fullShare xi1 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi0 ∗ owns (c : Thread nD τ) arg7 fullShare xi1 ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg3 harg3 arg4 harg4 arg5 harg5 arg6 harg6 arg7 harg7 arg8 harg8) K } := by
  refine ⟨?_, fun xi0 xi1 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%g0, %hg0, G0⟩, ⟨%g1, %hg1, G1⟩, ⟨%ds, %fs, -, HS⟩, Hk⟩
    obtain rfl := harg3.eq_unread hf0; obtain rfl := harg4.eq_unread hf1; obtain rfl := harg5.eq_unread hf2; obtain rfl := harg6.eq_unread hg0; obtain rfl := harg7.eq_unread hg1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [G0]
    · iexists _; isplitr; · ipureintro; exact harg6.read_unread _
      iexact G0
    isplitl [G1]
    · iexists _; isplitr; · ipureintro; exact harg7.read_unread _
      iexact G1
    iexists _; iexact HS

set_option maxHeartbeats 1000000 in
/-- The body at a middle reduction step: the partial product is added into the accumulator as the step before left it; nothing is stored into the outputs. -/
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬k1_cond2 i = 1#1)
    (x0 : Vec F S1024x1024 .f32) (x1 : Vec F S1024x1024 .f32) (x2 : Vec F S1024 .f32) (xs : Vec F S1024x1024 .f32) :
    { LS : List (View.Piece (Elt F) S1024x1024 .f32) //
      ∀ (xi0 : Vec F S1024x1024 .f32) (xi1 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi0 ∗ owns (c : Thread nD τ) arg7 fullShare xi1 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi0 ∗ owns (c : Thread nD τ) arg7 fullShare xi1 ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg3 harg3 arg4 harg4 arg5 harg5 arg6 harg6 arg7 harg7 arg8 harg8) K } := by
  refine ⟨?_, fun xi0 xi1 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%g0, %hg0, G0⟩, ⟨%g1, %hg1, G1⟩, ⟨%fs, %hfs, HS⟩, Hk⟩
    obtain rfl := harg3.eq_unread hf0; obtain rfl := harg4.eq_unread hf1; obtain rfl := harg5.eq_unread hf2; obtain rfl := harg6.eq_unread hg0; obtain rfl := harg7.eq_unread hg1; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [G0]
    · iexists _; isplitr; · ipureintro; exact harg6.read_unread _
      iexact G0
    isplitl [G1]
    · iexists _; isplitr; · ipureintro; exact harg7.read_unread _
      iexact G1
    iexists _; iexact HS

set_option maxHeartbeats 1000000 in
/-- The body at the last reduction step: the partial product is added into the accumulator, then the bias added and the outputs stored. -/
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1)
    (x0 : Vec F S1024x1024 .f32) (x1 : Vec F S1024x1024 .f32) (x2 : Vec F S1024 .f32) (xs : Vec F S1024x1024 .f32) :
    Σ' (L0 : List (View.Piece (Elt F) S1024x1024 .f32)) (L1 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L0) ∗ (∃ f, arg7.view.loc (c : Thread nD τ) ↦[arg7.view.set]{fullShare} arg7.view.writes (Elt F) f L1) ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg3 harg3 arg4 harg4 arg5 harg5 arg6 harg6 arg7 harg7 arg8 harg8) K } := by
  refine ⟨?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d0, %g0, -, G0⟩, ⟨%d1, %g1, -, G1⟩, ⟨%fs, %hfs, HS⟩, Hk⟩
    obtain rfl := harg3.eq_unread hf0; obtain rfl := harg4.eq_unread hf1; obtain rfl := harg5.eq_unread hf2; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [G0]; · iexists _; iexact G0
    isplitl [G1]; · iexists _; iexact G1
    iexists _; iexact HS

end Cert.KernelIdeal.Hand

end
-- ==== Proof.KI.R1.lean ====
/-
  Forward layer two's pallas_call as a pipeline.  The reduction runs over four consecutive grid points; the accumulator
  is the kernel's own scratch and is CARRIED between them, so the invariant between points names what it holds: after
  the first step the first partial sum, after each later step the sum so far (a recursion over the grid position).  The
  output windows are stored, and written back, only at the fourth step; at the other three nothing is stored there.
-/
import proofs.«172335_j35158602285651_2_alg».proof.Proof.KI.R1Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section R1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, through which its contents are stated; each window's current staging
    memref at a point; the accumulator as a memref and as a view. -/
abbrev VO1_3 : View sig .tc .vmem S1024x1024 .f32 := (Memref.whole cc1_stg3_0 : Memref sig .tc .vmem S1024x1024 .f32).view
abbrev VO1_4 : View sig .tc .vmem S1024x1024 .bf16 := (Memref.whole cc1_stg4_0 : Memref sig .tc .vmem S1024x1024 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev scM1 : Memref sig .tc .vmem S1024x1024 .f32 := Memref.whole cc1_scratch0
abbrev VS1 : View sig .tc .vmem S1024x1024 .f32 := (scM1).view

/-- In each situation the accumulator's stored pieces cover it; what they read back to. -/
theorem scover1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬k1_cond2 i = 1#1) (x0 : Vec F S1024x1024 .f32) (x1 : Vec F S1024x1024 .f32) (x2 : Vec F S1024 .f32) (y : S1024x1024.Idx) :
    ∃ pc ∈ (kernelRun1_A c i arg3 harg3 arg4 harg4 arg5 harg5 arg6 harg6 arg7 harg7 arg8 harg8 hc0 hc1 x0 x1 x2).1, y ∈ pc.1.set :=
  View.cover_of_tiledL (kernelRun1_A c i arg3 harg3 arg4 harg4 arg5 harg5 arg6 harg6 arg7 harg7 arg8 harg8 hc0 hc1 x0 x1 x2).1 S1024x1024.size (by sl_kernel_rfl) y
def sout1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬k1_cond2 i = 1#1) (x0 : Vec F S1024x1024 .f32) (x1 : Vec F S1024x1024 .f32) (x2 : Vec F S1024 .f32) : Vec F S1024x1024 .f32 :=
  VS1.read (Elt F) (VS1.writes (Elt F) VS1.junk (kernelRun1_A c i arg3 harg3 arg4 harg4 arg5 harg5 arg6 harg6 arg7 harg7 arg8 harg8 hc0 hc1 x0 x1 x2).1)
theorem scover1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬k1_cond2 i = 1#1) (x0 : Vec F S1024x1024 .f32) (x1 : Vec F S1024x1024 .f32) (x2 : Vec F S1024 .f32) (xs : Vec F S1024x1024 .f32) (y : S1024x1024.Idx) :
    ∃ pc ∈ (kernelRun1_B c i arg3 harg3 arg4 harg4 arg5 harg5 arg6 harg6 arg7 harg7 arg8 harg8 hc0 hc1 x0 x1 x2 xs).1, y ∈ pc.1.set :=
  View.cover_of_tiledL (kernelRun1_B c i arg3 harg3 arg4 harg4 arg5 harg5 arg6 harg6 arg7 harg7 arg8 harg8 hc0 hc1 x0 x1 x2 xs).1 S1024x1024.size (by sl_kernel_rfl) y
def sout1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬k1_cond2 i = 1#1) (x0 : Vec F S1024x1024 .f32) (x1 : Vec F S1024x1024 .f32) (x2 : Vec F S1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 hc0 hc1 x0 x1 x2 xs).1)
theorem scover1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 xs).2.2.1, y ∈ pc.1.set :=
  View.cover_of_tiledL (kernelRun1_C c i arg3 harg3 arg4 harg4 arg5 harg5 arg6 harg6 arg7 harg7 arg8 harg8 hc0 hc1 x0 x1 x2 xs).2.2.1 S1024x1024.size (by sl_kernel_rfl) y
def sout1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 hc0 hc1 x0 x1 x2 xs).2.2.1)
/-- At the last step the stored pieces of each output cover it; what they read back to. -/
theorem cover1_C_3 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 xs).1, y ∈ pc.1.set :=
  View.cover_of_tiledL (kernelRun1_C c i arg3 harg3 arg4 harg4 arg5 harg5 arg6 harg6 arg7 harg7 arg8 harg8 hc0 hc1 x0 x1 x2 xs).1 S1024x1024.size (by sl_kernel_rfl) y
def out1_C_3 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) : Vec F S1024x1024 .f32 :=
  VO1_3.read (Elt F) (VO1_3.writes (Elt F) VO1_3.junk (kernelRun1_C c i arg3 harg3 arg4 harg4 arg5 harg5 arg6 harg6 arg7 harg7 arg8 harg8 hc0 hc1 x0 x1 x2 xs).1)
theorem cover1_C_4 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 xs).2.1, y ∈ pc.1.set :=
  View.cover_of_tiledL (kernelRun1_C c i arg3 harg3 arg4 harg4 arg5 harg5 arg6 harg6 arg7 harg7 arg8 harg8 hc0 hc1 x0 x1 x2 xs).2.1 S1024x1024.size (by sl_kernel_rfl) y
def out1_C_4 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1) (x0 : Vec F S1024x1024 .f32) (x1 : Vec F S1024x1024 .f32) (x2 : Vec F S1024 .f32) (xs : Vec F S1024x1024 .f32) : Vec F S1024x1024 .bf16 :=
  VO1_4.read (Elt F) (VO1_4.writes (Elt F) VO1_4.junk (kernelRun1_C c i arg3 harg3 arg4 harg4 arg5 harg5 arg6 harg6 arg7 harg7 arg8 harg8 hc0 hc1 x0 x1 x2 xs).2.1)

/-- What one grid point makes of the accumulator, given what the point before left in it. -/
def step1 (c : Dev nD) (t : Fin cfg1.N) (xs : Vec F S1024x1024 .f32) : Vec F S1024x1024 .f32 :=
  if h0 : t.val % 4 = 0 then
    sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => by have := (hcond1_1 t).mp h; omega) (iblk1 V c 0 t) (iblk1 V c 1 t) (iblk1 V c 2 t)
  else if h1 : t.val % 4 = 3 then
    sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have := (hcond1_0 t).mp h; omega) ((hcond1_1 t).mpr h1) (iblk1 V c 0 t) (iblk1 V c 1 t) (iblk1 V c 2 t) xs
  else
    sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) xs

/-- THE ACCUMULATION: what the accumulator holds before grid position `n` (after position `n - 1`). -/
def scAt1 (c : Dev nD) : ℕ → Vec F S1024x1024 .f32
  | 0 => VS1.read (Elt F) VS1.junk
  | n + 1 => if h : n < cfg1.N then step1 V c ⟨n, h⟩ (scAt1 c n) else VS1.read (Elt F) VS1.junk

theorem scAt1_succ (c : Dev nD) (t : Fin cfg1.N) : scAt1 V c (t.val + 1) = step1 V c t (scAt1 V c t.val) := by
  show (if h : t.val < cfg1.N then step1 V c ⟨t.val, h⟩ (scAt1 V c t.val) else _) = _
  rw [dif_pos t.isLt]

/-- What output window 3's staging buffer holds after the body at point `t`: at a last reduction step the run's pieces
    read back; elsewhere nothing is stored there and the value is not consulted. -/
def outsAt1_3 (c : Dev nD) (t : Fin cfg1.N) : Vec F S1024x1024 .f32 :=
  if h1 : t.val % 4 = 3 then
    out1_C_3 c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have := (hcond1_0 t).mp h; omega) ((hcond1_1 t).mpr h1) (iblk1 V c 0 t) (iblk1 V c 1 t) (iblk1 V c 2 t) (scAt1 V c t.val)
  else VO1_3.read (Elt F) VO1_3.junk
/-- What output window 4's staging buffer holds after the body at point `t`: at a last reduction step the run's pieces
    read back; elsewhere nothing is stored there and the value is not consulted. -/
def outsAt1_4 (c : Dev nD) (t : Fin cfg1.N) : Vec F S1024x1024 .bf16 :=
  if h1 : t.val % 4 = 3 then
    out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have := (hcond1_0 t).mp h; omega) ((hcond1_1 t).mpr h1) (iblk1 V c 0 t) (iblk1 V c 1 t) (iblk1 V c 2 t) (scAt1 V c t.val)
  else VO1_4.read (Elt F) VO1_4.junk

/-- The invariant before grid position `n`: the accumulator at the sum so far — at anything where a new reduction
    begins —, the other scoped buffers untouched, the generator register at some state. -/
def Φ1 (c : Dev nD) (n : ℕ) : sProp 𝕄 :=
  iprop((if n % 4 = 0 then iprop(∃ d, owns (c : Thread nD τ) scM1 fullShare d) else owns (c : Thread nD τ) scM1 fullShare (scAt1 V c n))
    ∗ Pipeline.scopedRestBut (Ix := Unit) (Name := ℕ) (U := Pipeline.UD sig nD τ) (Lvl := ℕ) (Val := Elt F) spec1 c [cc1_scratch0]
    ∗ (∃ r, prngReg c r))

/-- The proof data of the pipeline on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1_3 V c t
    | ⟨4, _⟩ => outsAt1_4 V c t
  Φ s := Φ1 V c s.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1_3 V c t := by dsimp only [dat1]
theorem after1_4 (c : Dev nD) (t : Fin cfg1.N) : (dat1 V c).after 4 t = outsAt1_4 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Where the output windows are stored and written back: exactly at the last reduction step. -/
theorem idle1_3_of : ∀ t : Fin cfg1.N, ¬t.val % 4 = 3 → idle1 3 (grid1.coords t) = true := by decide +kernel
theorem live1_3_of : ∀ t : Fin cfg1.N, t.val % 4 = 3 → idle1 3 (grid1.coords t) = false := by decide +kernel
theorem noflush1_3_of : ∀ t : Fin cfg1.N, ¬t.val % 4 = 3 → (win1 3).flush t = false := by decide +kernel
theorem idle1_4_of : ∀ t : Fin cfg1.N, ¬t.val % 4 = 3 → idle1 4 (grid1.coords t) = true := by decide +kernel
theorem live1_4_of : ∀ t : Fin cfg1.N, t.val % 4 = 3 → idle1 4 (grid1.coords t) = false := by decide +kernel
theorem noflush1_4_of : ∀ t : Fin cfg1.N, ¬t.val % 4 = 3 → (win1 4).flush t = false := by decide +kernel

/-- What the body is called with at point `t`, the windows one by one. -/
def bodyPre1 (c : Dev nD) (t : Fin cfg1.N) : sProp 𝕄 :=
  iprop(Φ1 V c t.val ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- What it returns at a point that is not a last step (the outputs handed back as found), -/
def bodyPostIdle1 (c : Dev nD) (t : Fin cfg1.N) : sProp 𝕄 :=
  iprop(Φ1 V c (t.val + 1) ∗ (dat1 V c).owesAt () t.castSucc
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ (∃ d, owns (c : Thread nD τ) (ms1_3 t) fullShare ((dat1 V c).before 3 t d))
    ∗ (∃ d, owns (c : Thread nD τ) (ms1_4 t) fullShare ((dat1 V c).before 4 t d)))

/-- and at a last step. -/
def bodyPostLive1 (c : Dev nD) (t : Fin cfg1.N) : sProp 𝕄 :=
  iprop(Φ1 V c (t.val + 1) ∗ (dat1 V c).owesAt () t.castSucc
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 2000000 in
/-- The body at a first reduction step. -/
theorem sound_body1_A (c : Dev nD) (t : Fin cfg1.N) (h0 : t.val % 4 = 0) :
    bodyPre1 V c t ⊢ wp frame (wpE (defs₀ (F := F)) Variants.none c none) Set.univ (bodyAt1 t) (fun _ => bodyPostIdle1 V c t) := by
  unfold bodyPre1 bodyPostIdle1 bodyAt1
  simp only [before1_0, before1_1, before1_2]
  rw [after1_0, after1_1, after1_2]
  unfold Φ1
  rw [if_pos h0, if_neg (show ¬(t.val + 1) % 4 = 0 by omega), scAt1_succ]
  unfold step1; rw [dif_pos h0]; unfold sout1_A
  iintro ⟨⟨HS, HR, Hg⟩, Ho, ⟨%d0, H0⟩, ⟨%d1, H1⟩, ⟨%d2, H2⟩, ⟨%d3, H3⟩, ⟨%d4, H4⟩⟩
  iapply ((kernelRun1_A c (grid1.coords t) _ _ _ _ _ _ _ _ _ _ _ _ ((hcond1_0 t).mpr h0) (fun h => by have := (hcond1_1 t).mp h; omega) (iblk1 V c 0 t) (iblk1 V c 1 t) (iblk1 V c 2 t)).2 _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS HR Hg]
  · isplitl [HS]
    · unfold owns; iexists _; isplitr
      swap; · iexact HS
      ipureintro; exact View.read_writes_of_cover _ _ _ _ _ (scover1_A c _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 2000000 in
/-- The body at a middle reduction step. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPostIdle1 V c t) := by
  unfold bodyPre1 bodyPostIdle1 bodyAt1
  simp only [before1_0, before1_1, before1_2]
  rw [after1_0, after1_1, after1_2]
  unfold Φ1
  rw [if_neg h0, if_neg (show ¬(t.val + 1) % 4 = 0 by omega), scAt1_succ]
  unfold step1; rw [dif_neg h0, dif_neg h1]; unfold sout1_B
  iintro ⟨⟨HS, HR, Hg⟩, Ho, ⟨%d0, H0⟩, ⟨%d1, H1⟩, ⟨%d2, H2⟩, ⟨%d3, H3⟩, ⟨%d4, H4⟩⟩
  iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (scAt1 V c t.val)).2 _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS HR Hg]
  · isplitl [HS]
    · unfold owns; iexists _; isplitr
      swap; · iexact HS
      ipureintro; exact View.read_writes_of_cover _ _ _ _ _ (scover1_B c _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 2000000 in
/-- The body at a last reduction step. -/
theorem sound_body1_C (c : Dev nD) (t : Fin cfg1.N) (h1 : t.val % 4 = 3) :
    bodyPre1 V c t ⊢ wp frame (wpE (defs₀ (F := F)) Variants.none c none) Set.univ (bodyAt1 t) (fun _ => bodyPostLive1 V c t) := by
  unfold bodyPre1 bodyPostLive1 bodyAt1
  simp only [before1_0, before1_1, before1_2]
  rw [after1_0, after1_1, after1_2, after1_3, after1_4]
  unfold Φ1 outsAt1_3 outsAt1_4
  rw [if_neg (show ¬t.val % 4 = 0 by omega), if_pos (show (t.val + 1) % 4 = 0 by omega), dif_pos h1, dif_pos h1]
  unfold out1_C_3 out1_C_4
  iintro ⟨⟨HS, HR, Hg⟩, Ho, ⟨%d0, H0⟩, ⟨%d1, H1⟩, ⟨%d2, H2⟩, ⟨%d3, H3⟩, ⟨%d4, H4⟩⟩
  iapply ((kernelRun1_C c (grid1.coords t) _ _ _ _ _ _ _ _ _ _ _ _ (fun h => by have := (hcond1_0 t).mp h; omega) ((hcond1_1 t).mpr h1) (iblk1 V c 0 t) (iblk1 V c 1 t) (iblk1 V c 2 t) (scAt1 V c t.val)).2.2.2 Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, ⟨%e3, H3⟩, ⟨%e4, H4⟩, ⟨%es, HS⟩⟩
  isplitl [HS HR Hg]
  · isplitl [HS]
    · unfold owns; iexists _, _; isplitr; swap; · iexact HS
      ipureintro; rfl
    isplitl [HR]; · iexact HR
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover1_C_3 c _ _ _ _ _ _ _ _ _ _ _ _ _ _ _ _ _ _ _)
  unfold owns; iexists _; isplitr
  swap; · iexact H4
  ipureintro; exact View.read_writes_of_cover _ _ _ _ _ (cover1_C_4 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  rw [show (dat1 V c).Φ t.castSucc = Φ1 V c t.val from rfl, show (dat1 V c).Φ t.succ = Φ1 V c (t.val + 1) from rfl,
    show (dat1 V c).owesAt () t.succ = (dat1 V c).owesAt () t.castSucc from rfl]
  by_cases h1 : t.val % 4 = 3
  · simp only [live1_3_of t h1, live1_4_of t h1]
    exact sound_body1_C V c t h1
  · simp only [idle1_3_of t h1, noflush1_3_of t h1, idle1_4_of t h1, noflush1_4_of t h1]
    by_cases h0 : t.val % 4 = 0
    · exact sound_body1_A V c t h0
    · exact sound_body1_B V c t h0 h1

end R1

end Cert.KernelIdeal.Hand

end
-- ==== Proof.KI.R2Run.lean ====
/-
  The body of forward layer three's kernel, run once on whole staging buffers in each of the three situations the grid
  meets.  The grid's last axis walks the reduction in four steps of 1024: the accumulator (the kernel's own scratch
  buffer) is cleared at the first step, receives at every step the three partial products of the row tile against the
  weight tile, and at the last step the bias is added with the residual tile and the sum stored into the output.
-/
import proofs.«172335_j35158602285651_2_alg».proof.Proof.Gen.KernelIdeal.Launch
import proofs.«172335_j35158602285651_2_alg».proof.Proof.Gen.KernelIdeal.Skeleton
import proofs.«172335_j35158602285651_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first conditional's test, from the grid coordinates: the reduction coordinate is zero. -/
abbrev cond2_0 (i : grid2.Coords) : Prop := (Scalar.cmpi .ne (Scalar.extui (Scalar.cmpi .eq (BitVec.ofNat 32 (i 2).val) 0#32)) 0#32) = 1#1
/-- It holds at the points ≡ 0 (mod 4), and the second (the reduction coordinate is three) at the points ≡ 3. -/
theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, k2_cond2 (grid2.coords t) = 1#1 ↔ t.val % 4 = 3 :=
  (by decide +kernel : ∀ t : Fin grid2.N, k2_cond2 (grid2.coords t) = 1#1 ↔ t.val % 4 = 3)

set_option maxHeartbeats 1000000 in
/-- The body at the first reduction step: the accumulator is cleared, then the partial product added; nothing is stored into the outputs. -/
noncomputable def kernelRun2_A (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬k2_cond2 i = 1#1)
    (x0 : Vec F S1024x1024 .f32) (x1 : Vec F S1024x1024 .f32) (x2 : Vec F S1024 .f32) (x3 : Vec F S1024x1024 .f32) :
    { LS : List (View.Piece (Elt F) S1024x1024 .f32) //
      ∀ (xi0 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi0 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi0 ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg3 harg3 arg4 harg4 arg5 harg5 arg6 harg6 arg7 harg7 arg8 harg8) K } := by
  refine ⟨?_, fun xi0 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%g0, %hg0, G0⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hg0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [G0]
    · iexists _; isplitr; · ipureintro; exact harg7.read_unread _
      iexact G0
    iexists _; iexact HS

set_option maxHeartbeats 1000000 in
/-- The body at a middle reduction step: the partial product is added into the accumulator as the step before left it; nothing is stored into the outputs. -/
noncomputable def kernelRun2_B (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬k2_cond2 i = 1#1)
    (x0 : Vec F S1024x1024 .f32) (x1 : Vec F S1024x1024 .f32) (x2 : Vec F S1024 .f32) (x3 : Vec F S1024x1024 .f32) (xs : Vec F S1024x1024 .f32) :
    { LS : List (View.Piece (Elt F) S1024x1024 .f32) //
      ∀ (xi0 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi0 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi0 ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg3 harg3 arg4 harg4 arg5 harg5 arg6 harg6 arg7 harg7 arg8 harg8) K } := by
  refine ⟨?_, fun xi0 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%g0, %hg0, G0⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hg0; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [G0]
    · iexists _; isplitr; · ipureintro; exact harg7.read_unread _
      iexact G0
    iexists _; iexact HS

set_option maxHeartbeats 1000000 in
/-- The body at the last reduction step: the partial product is added into the accumulator, then the bias added and the outputs stored. -/
noncomputable def kernelRun2_C (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1)
    (x0 : Vec F S1024x1024 .f32) (x1 : Vec F S1024x1024 .f32) (x2 : Vec F S1024 .f32) (x3 : Vec F S1024x1024 .f32) (xs : Vec F S1024x1024 .f32) :
    Σ' (L0 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg3 harg3 arg4 harg4 arg5 harg5 arg6 harg6 arg7 harg7 arg8 harg8) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d0, %g0, -, G0⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [G0]; · iexists _; iexact G0
    iexists _; iexact HS

end Cert.KernelIdeal.Hand

end
-- ==== Proof.KI.R2.lean ====
/-
  Forward layer three's pallas_call as a pipeline.  The reduction runs over four consecutive grid points; the accumulator
  is the kernel's own scratch and is CARRIED between them, so the invariant between points names what it holds: after
  the first step the first partial sum, after each later step the sum so far (a recursion over the grid position).  The
  output window is stored, and written back, only at the fourth step; at the other three nothing is stored there.
-/
import proofs.«172335_j35158602285651_2_alg».proof.Proof.KI.R2Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section R2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of each output window, through which its contents are stated; each window's current staging
    memref at a point; the accumulator as a memref and as a view. -/
abbrev VO2_4 : View sig .tc .vmem S1024x1024 .f32 := (Memref.whole cc2_stg4_0 : Memref sig .tc .vmem S1024x1024 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev scM2 : Memref sig .tc .vmem S1024x1024 .f32 := Memref.whole cc2_scratch0
abbrev VS2 : View sig .tc .vmem S1024x1024 .f32 := (scM2).view

/-- In each situation the accumulator's stored pieces cover it; what they read back to. -/
theorem scover2_A (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬k2_cond2 i = 1#1) (x0 : Vec F S1024x1024 .f32) (x1 : Vec F S1024x1024 .f32) (x2 : Vec F S1024 .f32) (x3 : Vec F S1024x1024 .f32) (y : S1024x1024.Idx) :
    ∃ pc ∈ (kernelRun2_A c i arg3 harg3 arg4 harg4 arg5 harg5 arg6 harg6 arg7 harg7 arg8 harg8 hc0 hc1 x0 x1 x2 x3).1, y ∈ pc.1.set :=
  View.cover_of_tiledL (kernelRun2_A c i arg3 harg3 arg4 harg4 arg5 harg5 arg6 harg6 arg7 harg7 arg8 harg8 hc0 hc1 x0 x1 x2 x3).1 S1024x1024.size (by sl_kernel_rfl) y
def sout2_A (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬k2_cond2 i = 1#1) (x0 : Vec F S1024x1024 .f32) (x1 : Vec F S1024x1024 .f32) (x2 : Vec F S1024 .f32) (x3 : Vec F S1024x1024 .f32) : Vec F S1024x1024 .f32 :=
  VS2.read (Elt F) (VS2.writes (Elt F) VS2.junk (kernelRun2_A c i arg3 harg3 arg4 harg4 arg5 harg5 arg6 harg6 arg7 harg7 arg8 harg8 hc0 hc1 x0 x1 x2 x3).1)
theorem scover2_B (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬k2_cond2 i = 1#1) (x0 : Vec F S1024x1024 .f32) (x1 : Vec F S1024x1024 .f32) (x2 : Vec F S1024 .f32) (x3 : Vec F S1024x1024 .f32) (xs : Vec F S1024x1024 .f32) (y : S1024x1024.Idx) :
    ∃ pc ∈ (kernelRun2_B c i arg3 harg3 arg4 harg4 arg5 harg5 arg6 harg6 arg7 harg7 arg8 harg8 hc0 hc1 x0 x1 x2 x3 xs).1, y ∈ pc.1.set :=
  View.cover_of_tiledL (kernelRun2_B c i arg3 harg3 arg4 harg4 arg5 harg5 arg6 harg6 arg7 harg7 arg8 harg8 hc0 hc1 x0 x1 x2 x3 xs).1 S1024x1024.size (by sl_kernel_rfl) y
def sout2_B (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬k2_cond2 i = 1#1) (x0 : Vec F S1024x1024 .f32) (x1 : Vec F S1024x1024 .f32) (x2 : Vec F S1024 .f32) (x3 : Vec F S1024x1024 .f32) (xs : Vec F S1024x1024 .f32) : Vec F S1024x1024 .f32 :=
  VS2.read (Elt F) (VS2.writes (Elt F) VS2.junk (kernelRun2_B c i arg3 harg3 arg4 harg4 arg5 harg5 arg6 harg6 arg7 harg7 arg8 harg8 hc0 hc1 x0 x1 x2 x3 xs).1)
theorem scover2_C (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1) (x0 : Vec F S1024x1024 .f32) (x1 : Vec F S1024x1024 .f32) (x2 : Vec F S1024 .f32) (x3 : Vec F S1024x1024 .f32) (xs : Vec F S1024x1024 .f32) (y : S1024x1024.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S1024x1024.size (by sl_kernel_rfl) y
def sout2_C (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1) (x0 : Vec F S1024x1024 .f32) (x1 : Vec F S1024x1024 .f32) (x2 : Vec F S1024 .f32) (x3 : Vec F S1024x1024 .f32) (xs : Vec F S1024x1024 .f32) : Vec F S1024x1024 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)
/-- At the last step the stored pieces of each output cover it; what they read back to. -/
theorem cover2_C_4 (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1) (x0 : Vec F S1024x1024 .f32) (x1 : Vec F S1024x1024 .f32) (x2 : Vec F S1024 .f32) (x3 : Vec F S1024x1024 .f32) (xs : Vec F S1024x1024 .f32) (y : S1024x1024.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S1024x1024.size (by sl_kernel_rfl) y
def out2_C_4 (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1) (x0 : Vec F S1024x1024 .f32) (x1 : Vec F S1024x1024 .f32) (x2 : Vec F S1024 .f32) (x3 : Vec F S1024x1024 .f32) (xs : Vec F S1024x1024 .f32) : Vec F S1024x1024 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs).1)

/-- What one grid point makes of the accumulator, given what the point before left in it. -/
def step2 (c : Dev nD) (t : Fin cfg2.N) (xs : Vec F S1024x1024 .f32) : Vec F S1024x1024 .f32 :=
  if h0 : t.val % 4 = 0 then
    sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => by have := (hcond2_1 t).mp h; omega) (iblk2 V c 0 t) (iblk2 V c 1 t) (iblk2 V c 2 t) (iblk2 V c 3 t)
  else if h1 : t.val % 4 = 3 then
    sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => by have := (hcond2_0 t).mp h; omega) ((hcond2_1 t).mpr h1) (iblk2 V c 0 t) (iblk2 V c 1 t) (iblk2 V c 2 t) (iblk2 V c 3 t) xs
  else
    sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) xs

/-- THE ACCUMULATION: what the accumulator holds before grid position `n` (after position `n - 1`). -/
def scAt2 (c : Dev nD) : ℕ → Vec F S1024x1024 .f32
  | 0 => VS2.read (Elt F) VS2.junk
  | n + 1 => if h : n < cfg2.N then step2 V c ⟨n, h⟩ (scAt2 c n) else VS2.read (Elt F) VS2.junk

theorem scAt2_succ (c : Dev nD) (t : Fin cfg2.N) : scAt2 V c (t.val + 1) = step2 V c t (scAt2 V c t.val) := by
  show (if h : t.val < cfg2.N then step2 V c ⟨t.val, h⟩ (scAt2 V c t.val) else _) = _
  rw [dif_pos t.isLt]

/-- What output window 4's staging buffer holds after the body at point `t`: at a last reduction step the run's pieces
    read back; elsewhere nothing is stored there and the value is not consulted. -/
def outsAt2_4 (c : Dev nD) (t : Fin cfg2.N) : Vec F S1024x1024 .f32 :=
  if h1 : t.val % 4 = 3 then
    out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => by have := (hcond2_0 t).mp h; omega) ((hcond2_1 t).mpr h1) (iblk2 V c 0 t) (iblk2 V c 1 t) (iblk2 V c 2 t) (iblk2 V c 3 t) (scAt2 V c t.val)
  else VO2_4.read (Elt F) VO2_4.junk

/-- The invariant before grid position `n`: the accumulator at the sum so far — at anything where a new reduction
    begins —, the other scoped buffers untouched, the generator register at some state. -/
def Φ2 (c : Dev nD) (n : ℕ) : sProp 𝕄 :=
  iprop((if n % 4 = 0 then iprop(∃ d, owns (c : Thread nD τ) scM2 fullShare d) else owns (c : Thread nD τ) scM2 fullShare (scAt2 V c n))
    ∗ Pipeline.scopedRestBut (Ix := Unit) (Name := ℕ) (U := Pipeline.UD sig nD τ) (Lvl := ℕ) (Val := Elt F) spec2 c [cc2_scratch0]
    ∗ (∃ r, prngReg c r))

/-- The proof data of the pipeline on core `c`. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2_4 V c t
  Φ s := Φ2 V c s.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2_4 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- Where the output window is stored and written back: exactly at the last reduction step. -/
theorem idle2_4_of : ∀ t : Fin cfg2.N, ¬t.val % 4 = 3 → idle2 4 (grid2.coords t) = true := by decide +kernel
theorem live2_4_of : ∀ t : Fin cfg2.N, t.val % 4 = 3 → idle2 4 (grid2.coords t) = false := by decide +kernel
theorem noflush2_4_of : ∀ t : Fin cfg2.N, ¬t.val % 4 = 3 → (win2 4).flush t = false := by decide +kernel

/-- What the body is called with at point `t`, the windows one by one. -/
def bodyPre2 (c : Dev nD) (t : Fin cfg2.N) : sProp 𝕄 :=
  iprop(Φ2 V c t.val ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- What it returns at a point that is not a last step (the outputs handed back as found), -/
def bodyPostIdle2 (c : Dev nD) (t : Fin cfg2.N) : sProp 𝕄 :=
  iprop(Φ2 V c (t.val + 1) ∗ (dat2 V c).owesAt () t.castSucc
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ (∃ d, owns (c : Thread nD τ) (ms2_4 t) fullShare ((dat2 V c).before 4 t d)))

/-- and at a last step. -/
def bodyPostLive2 (c : Dev nD) (t : Fin cfg2.N) : sProp 𝕄 :=
  iprop(Φ2 V c (t.val + 1) ∗ (dat2 V c).owesAt () t.castSucc
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 2000000 in
/-- The body at a first reduction step. -/
theorem sound_body2_A (c : Dev nD) (t : Fin cfg2.N) (h0 : t.val % 4 = 0) :
    bodyPre2 V c t ⊢ wp frame (wpE (defs₀ (F := F)) Variants.none c none) Set.univ (bodyAt2 t) (fun _ => bodyPostIdle2 V c t) := by
  unfold bodyPre2 bodyPostIdle2 bodyAt2
  simp only [before2_0, before2_1, before2_2, before2_3]
  rw [after2_0, after2_1, after2_2, after2_3]
  unfold Φ2
  rw [if_pos h0, if_neg (show ¬(t.val + 1) % 4 = 0 by omega), scAt2_succ]
  unfold step2; rw [dif_pos h0]; unfold sout2_A
  iintro ⟨⟨HS, HR, Hg⟩, Ho, ⟨%d0, H0⟩, ⟨%d1, H1⟩, ⟨%d2, H2⟩, ⟨%d3, H3⟩, ⟨%d4, H4⟩⟩
  iapply ((kernelRun2_A c (grid2.coords t) _ _ _ _ _ _ _ _ _ _ _ _ ((hcond2_0 t).mpr h0) (fun h => by have := (hcond2_1 t).mp h; omega) (iblk2 V c 0 t) (iblk2 V c 1 t) (iblk2 V c 2 t) (iblk2 V c 3 t)).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS HR Hg]
  · isplitl [HS]
    · unfold owns; iexists _; isplitr
      swap; · iexact HS
      ipureintro; exact View.read_writes_of_cover _ _ _ _ _ (scover2_A c _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
/-- The body at a middle reduction step. -/
theorem sound_body2_B (c : Dev nD) (t : Fin cfg2.N) (h0 : ¬t.val % 4 = 0) (h1 : ¬t.val % 4 = 3) :
    bodyPre2 V c t ⊢ wp frame (wpE (defs₀ (F := F)) Variants.none c none) Set.univ (bodyAt2 t) (fun _ => bodyPostIdle2 V c t) := by
  unfold bodyPre2 bodyPostIdle2 bodyAt2
  simp only [before2_0, before2_1, before2_2, before2_3]
  rw [after2_0, after2_1, after2_2, after2_3]
  unfold Φ2
  rw [if_neg h0, if_neg (show ¬(t.val + 1) % 4 = 0 by omega), scAt2_succ]
  unfold step2; rw [dif_neg h0, dif_neg h1]; unfold sout2_B
  iintro ⟨⟨HS, HR, Hg⟩, Ho, ⟨%d0, H0⟩, ⟨%d1, H1⟩, ⟨%d2, H2⟩, ⟨%d3, H3⟩, ⟨%d4, H4⟩⟩
  iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (scAt2 V c t.val)).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%es, HS⟩⟩
  isplitl [HS HR Hg]
  · isplitl [HS]
    · unfold owns; iexists _; isplitr
      swap; · iexact HS
      ipureintro; exact View.read_writes_of_cover _ _ _ _ _ (scover2_B c _ _ _ _ _ _ _ _ _ _ _ _ _ _ _ _ _ _ _ _)
    isplitl [HR]; · iexact HR
    iexact Hg
  isplitl [Ho]; · iexact Ho
  isplitl [H0]; · iexact H0
  isplitl [H1]; · iexact H1
  isplitl [H2]; · iexact H2
  isplitl [H3]; · iexact H3
  iexists _; iexact H4

set_option maxHeartbeats 2000000 in
/-- The body at a last reduction step. -/
theorem sound_body2_C (c : Dev nD) (t : Fin cfg2.N) (h1 : t.val % 4 = 3) :
    bodyPre2 V c t ⊢ wp frame (wpE (defs₀ (F := F)) Variants.none c none) Set.univ (bodyAt2 t) (fun _ => bodyPostLive2 V c t) := by
  unfold bodyPre2 bodyPostLive2 bodyAt2
  simp only [before2_0, before2_1, before2_2, before2_3]
  rw [after2_0, after2_1, after2_2, after2_3, after2_4]
  unfold Φ2 outsAt2_4
  rw [if_neg (show ¬t.val % 4 = 0 by omega), if_pos (show (t.val + 1) % 4 = 0 by omega), dif_pos h1]
  unfold out2_C_4
  iintro ⟨⟨HS, HR, Hg⟩, Ho, ⟨%d0, H0⟩, ⟨%d1, H1⟩, ⟨%d2, H2⟩, ⟨%d3, H3⟩, ⟨%d4, H4⟩⟩
  iapply ((kernelRun2_C c (grid2.coords t) _ _ _ _ _ _ _ _ _ _ _ _ (fun h => by have := (hcond2_0 t).mp h; omega) ((hcond2_1 t).mpr h1) (iblk2 V c 0 t) (iblk2 V c 1 t) (iblk2 V c 2 t) (iblk2 V c 3 t) (scAt2 V c t.val)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS HR Hg]
  · isplitl [HS]
    · unfold owns; iexists _, _; isplitr; swap; · iexact HS
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_C_4 c _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  rw [show (dat2 V c).Φ t.castSucc = Φ2 V c t.val from rfl, show (dat2 V c).Φ t.succ = Φ2 V c (t.val + 1) from rfl,
    show (dat2 V c).owesAt () t.succ = (dat2 V c).owesAt () t.castSucc from rfl]
  by_cases h1 : t.val % 4 = 3
  · simp only [live2_4_of t h1]
    exact sound_body2_C V c t h1
  · simp only [idle2_4_of t h1, noflush2_4_of t h1]
    by_cases h0 : t.val % 4 = 0
    · exact sound_body2_A V c t h0
    · exact sound_body2_B V c t h0 h1

end R2

end Cert.KernelIdeal.Hand

end
-- ==== Proof.KI.R3Run.lean ====
/-
  The body of the series kernel, run once on whole staging buffers in its two situations.  The grid is two halves of 32
  row tiles of 128 rows.  At the first tile of each half the body starts three copies — the three weight matrices, left
  in main memory, into three scratch buffers of its own, each on a semaphore of its own — and waits for each just before
  its first use; at every other tile the scratch buffers already hold the matrices.  Either way it then runs the ten
  steps v ↦ ((v·W3 gated)·W2 gated)·W1 from the row tile of u, adds up the ten weighted inner products with u, and
  stores the 128 sums.
-/
import proofs.«172335_j35158602285651_2_alg».proof.Proof.Gen.KernelIdeal.Launch
import proofs.«172335_j35158602285651_2_alg».proof.Proof.Gen.KernelIdeal.Skeleton
import proofs.«172335_j35158602285651_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The test all four conditionals of the body share: the tile coordinate is zero. -/
abbrev cond3_0 (i : grid3.Coords) : Prop := (Scalar.cmpi .ne (Scalar.extui (Scalar.cmpi .eq (BitVec.ofNat 32 (i 1).val) 0#32)) 0#32) = 1#1
/-- It holds at the points ≡ 0 (mod 32). -/
theorem hcond3_0 : ∀ t : Fin cfg3.N, cond3_0 (grid3.coords t) ↔ t.val % 32 = 0 :=
  (by decide +kernel : ∀ t : Fin grid3.N, cond3_0 (grid3.coords t) ↔ t.val % 32 = 0)

/-- A memref's buffer on core `c`: its contents type, and it held whole. -/
abbrev HbBuf3 (c : Dev nD) {sp : Space} {S : Shape} {e : EltTy} (M : Memref sig .tc sp S e) : Type := Buf (Elt F) (M.view.loc (c : Thread nD τ))
abbrev hbPt3 (c : Dev nD) {sp : Space} {S : Shape} {e : EltTy} (M : Memref sig .tc sp S e) (f : HbBuf3 (F := F) c M) : sProp 𝕄 :=
  M.view.loc (c : Thread nD τ) ↦{fullShare} f
/-- The three weight matrices left in main memory. -/
abbrev hbM3_3 : Memref sig .tc .hbm S4096x1024 .bf16 := Memref.whole main_v3
abbrev hbM3_4 : Memref sig .tc .hbm S4096x4096 .bf16 := Memref.whole main_v4
abbrev hbM3_5 : Memref sig .tc .hbm S1024x4096 .bf16 := Memref.whole main_v5

set_option maxHeartbeats 4000000 in
/-- The body at the first tile of a half: the three copies are started and waited for. -/
noncomputable def kernelRun3_A (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i)
    (x0 : Vec F S128x1024 .f32) (x1 : Vec F S128x4096 .bf16) (x2 : Vec F S128x4096 .bf16)
    (fh3 : HbBuf3 (F := F) c hbM3_3) (fh4 : HbBuf3 (F := F) c hbM3_4) (fh5 : HbBuf3 (F := F) c hbM3_5) :
    Σ' (L3 : List (View.Piece (Elt F) S128x1 .f32)) (LS9 : List (View.Piece (Elt F) S4096x1024 .bf16)) (LS10 : List (View.Piece (Elt F) S4096x4096 .bf16)),
      { LS11 : List (View.Piece (Elt F) S1024x4096 .bf16) //
      ∀ (W : Waits sig Unit) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg8 fullShare d)
            ∗ (∃ d, owns (c : Thread nD τ) arg9 fullShare d) ∗ (∃ d, owns (c : Thread nD τ) arg10 fullShare d) ∗ (∃ d, owns (c : Thread nD τ) arg11 fullShare d)
            ∗ semVal ((c : Thread nD τ), SemLoc.dma 37) 0 ∗ semVal ((c : Thread nD τ), SemLoc.dma 38) 0 ∗ semVal ((c : Thread nD τ), SemLoc.dma 39) 0
            ∗ hbPt3 c hbM3_3 fh3 ∗ hbPt3 c hbM3_4 fh4 ∗ hbPt3 c hbM3_5 fh5 ∗ owes (c : Thread nD τ) 0 W
            ∗ (iprop(owns (c : Thread nD τ) arg2 fullShare x0 ∗ owns (c : Thread nD τ) arg3 fullShare x1 ∗ owns (c : Thread nD τ) arg4 fullShare x2
                ∗ (∃ f, arg8.view.loc (c : Thread nD τ) ↦[arg8.view.set]{fullShare} arg8.view.writes (Elt F) f L3)
                ∗ (∃ f, arg9.view.loc (c : Thread nD τ) ↦[arg9.view.set]{fullShare} arg9.view.writes (Elt F) f LS9)
                ∗ (∃ f, arg10.view.loc (c : Thread nD τ) ↦[arg10.view.set]{fullShare} arg10.view.writes (Elt F) f LS10)
                ∗ (∃ f, arg11.view.loc (c : Thread nD τ) ↦[arg11.view.set]{fullShare} arg11.view.writes (Elt F) f LS11)
                ∗ semVal ((c : Thread nD τ), SemLoc.dma 37) 0 ∗ semVal ((c : Thread nD τ), SemLoc.dma 38) 0 ∗ semVal ((c : Thread nD τ), SemLoc.dma 39) 0
                ∗ hbPt3 c hbM3_3 fh3 ∗ hbPt3 c hbM3_4 fh4 ∗ hbPt3 c hbM3_5 fh5 ∗ (∃ W', owes (c : Thread nD τ) 0 W')) -∗ K ⟨⟩))
          ⊢ wp frame (wpE (defs₀ (F := F)) Variants.none c none) Set.univ (cc3__backward_kernel i arg2 harg2 arg3 harg3 arg4 harg4 (Memref.whole main_v3) (Memref.isWhole_whole _) (Memref.whole main_v4) (Memref.isWhole_whole _) (Memref.whole main_v5) (Memref.isWhole_whole _) arg8 harg8 arg9 harg9 arg10 harg10 arg11 harg11 cc3_scratch3) K } := by
  refine ⟨?_, ?_, ?_, ?_, fun W K => ?run⟩
  case run =>
    simp only [cc3__backward_kernel_eq_skeleton]; unfold cc3__backward_kernel_skel
    unfold owns
    iintro ⟨⟨%f0, %hf0, H0⟩, ⟨%f1, %hf1, H1⟩, ⟨%f2, %hf2, H2⟩, ⟨%d3, %f3, -, H3⟩, ⟨%d9, %f9, -, H9⟩, ⟨%d10, %f10, -, H10⟩, ⟨%d11, %f11, -, H11⟩, Hq0, Hq1, Hq2, Hh3, Hh4, Hh5, HW, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H9]; · iexists _; iexact H9
    isplitl [H10]; · iexists _; iexact H10
    isplitl [H11]; · iexists _; iexact H11
    isplitl [Hq0]; · iexact Hq0
    isplitl [Hq1]; · iexact Hq1
    isplitl [Hq2]; · iexact Hq2
    isplitl [Hh3]; · iexact Hh3
    isplitl [Hh4]; · iexact Hh4
    isplitl [Hh5]; · iexact Hh5
    iexists _; iexact HW

set_option maxHeartbeats 4000000 in
/-- The body at a tile that is not a core's first: the three weight matrices are in the scratch buffers as the tiles
    before left them; the ten terms of the series are computed from them and the row block's sum stored. -/
noncomputable def kernelRun3_B (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : ¬cond3_0 i)
    (x0 : Vec F S128x1024 .f32) (x1 : Vec F S128x4096 .bf16) (x2 : Vec F S128x4096 .bf16)
    (xs9 : Vec F S4096x1024 .bf16) (xs10 : Vec F S4096x4096 .bf16) (xs11 : Vec F S1024x4096 .bf16) :
    { L3 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg8 fullShare d)
            ∗ owns (c : Thread nD τ) arg9 fullShare xs9 ∗ owns (c : Thread nD τ) arg10 fullShare xs10 ∗ owns (c : Thread nD τ) arg11 fullShare xs11
            ∗ (iprop(owns (c : Thread nD τ) arg2 fullShare x0 ∗ owns (c : Thread nD τ) arg3 fullShare x1 ∗ owns (c : Thread nD τ) arg4 fullShare x2
                ∗ (∃ f, arg8.view.loc (c : Thread nD τ) ↦[arg8.view.set]{fullShare} arg8.view.writes (Elt F) f L3)
                ∗ owns (c : Thread nD τ) arg9 fullShare xs9 ∗ owns (c : Thread nD τ) arg10 fullShare xs10 ∗ owns (c : Thread nD τ) arg11 fullShare xs11) -∗ K ⟨⟩))
          ⊢ wp frame (wpE (defs₀ (F := F)) Variants.none c none) E (cc3__backward_kernel i arg2 harg2 arg3 harg3 arg4 harg4 (Memref.whole main_v3) (Memref.isWhole_whole _) (Memref.whole main_v4) (Memref.isWhole_whole _) (Memref.whole main_v5) (Memref.isWhole_whole _) arg8 harg8 arg9 harg9 arg10 harg10 arg11 harg11 cc3_scratch3) K } := by
  refine ⟨?_, fun E K => ?run⟩
  case run =>
    simp only [cc3__backward_kernel_eq_skeleton]; unfold cc3__backward_kernel_skel
    unfold owns
    iintro ⟨⟨%f0, %hf0, H0⟩, ⟨%f1, %hf1, H1⟩, ⟨%f2, %hf2, H2⟩, ⟨%d3, %f3, -, H3⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2
    obtain rfl := harg9.eq_unread hf9; obtain rfl := harg10.eq_unread hf10; obtain rfl := harg11.eq_unread hf11
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11

end Cert.KernelIdeal.Hand

end
-- ==== Proof.KI.R3.lean ====
/-
  The series kernel's pallas_call as a pipeline.  Its three inputs (a row tile of u and the two row tiles of sign
  patterns) keep their blocks; its output tile holds what the run's stored piece reads back to.  The three weight
  matrices live in scratch buffers the kernel CARRIES from the first tile of a half to the other 31: the invariant
  between tiles names what the three hold (what the copies delivered at the last first-tile), and holds the three
  copy semaphores at zero and the three matrices in main memory as the region found them.
-/
import proofs.«172335_j35158602285651_2_alg».proof.Proof.KI.R3Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section R3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- One staging buffer of the output window; each window's current staging memref; the three scratch buffers. -/
abbrev VO3_3 : View sig .tc .vmem S128x1 .f32 := (Memref.whole cc3_stg3_0 : Memref sig .tc .vmem S128x1 .f32).view
abbrev ms3_0 (t : Fin cfg3.N) : Memref sig .tc .vmem S128x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x4096 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x4096 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x1 .f32 := win3_3.stage (cfg3.slots t 3)
abbrev hs3_3 (t : Fin cfg3.N) : (ms3_3 t).IsWhole := hstage3_3 ((cfg3.slots t 3).cast nbuf3_3)
abbrev scM9 : Memref sig .tc .vmem S4096x1024 .bf16 := Memref.whole cc3_scratch0
abbrev scM10 : Memref sig .tc .vmem S4096x4096 .bf16 := Memref.whole cc3_scratch1
abbrev scM11 : Memref sig .tc .vmem S1024x4096 .bf16 := Memref.whole cc3_scratch2
abbrev VS9 : View sig .tc .vmem S4096x1024 .bf16 := (scM9).view
abbrev VS10 : View sig .tc .vmem S4096x4096 .bf16 := (scM10).view
abbrev VS11 : View sig .tc .vmem S1024x4096 .bf16 := (scM11).view

/-- At a first tile each copy's delivery covers its scratch buffer; what it reads back to. -/
theorem scover3_A_9 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) (y : S4096x1024.Idx) :
    ∃ pc ∈ (kernelRun3_A c i arg2 harg2 arg3 harg3 arg4 harg4 arg8 harg8 arg9 harg9 arg10 harg10 arg11 harg11 hc0 x0 x1 x2 fh3 fh4 fh5).2.1, y ∈ pc.1.set :=
  View.cover_of_tiledL (kernelRun3_A c i arg2 harg2 arg3 harg3 arg4 harg4 arg8 harg8 arg9 harg9 arg10 harg10 arg11 harg11 hc0 x0 x1 x2 fh3 fh4 fh5).2.1 S4096x1024.size (by sl_kernel_rfl) y
def sout3_A_9 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) : Vec F S4096x1024 .bf16 :=
  VS9.read (Elt F) (VS9.writes (Elt F) VS9.junk (kernelRun3_A c i arg2 harg2 arg3 harg3 arg4 harg4 arg8 harg8 arg9 harg9 arg10 harg10 arg11 harg11 hc0 x0 x1 x2 fh3 fh4 fh5).2.1)
theorem scover3_A_10 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) (y : S4096x4096.Idx) :
    ∃ pc ∈ (kernelRun3_A c i arg2 harg2 arg3 harg3 arg4 harg4 arg8 harg8 arg9 harg9 arg10 harg10 arg11 harg11 hc0 x0 x1 x2 fh3 fh4 fh5).2.2.1, y ∈ pc.1.set :=
  View.cover_of_tiledL (kernelRun3_A c i arg2 harg2 arg3 harg3 arg4 harg4 arg8 harg8 arg9 harg9 arg10 harg10 arg11 harg11 hc0 x0 x1 x2 fh3 fh4 fh5).2.2.1 S4096x4096.size (by sl_kernel_rfl) y
def sout3_A_10 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) : Vec F S4096x4096 .bf16 :=
  VS10.read (Elt F) (VS10.writes (Elt F) VS10.junk (kernelRun3_A c i arg2 harg2 arg3 harg3 arg4 harg4 arg8 harg8 arg9 harg9 arg10 harg10 arg11 harg11 hc0 x0 x1 x2 fh3 fh4 fh5).2.2.1)
theorem scover3_A_11 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) (y : S1024x4096.Idx) :
    ∃ pc ∈ (kernelRun3_A c i arg2 harg2 arg3 harg3 arg4 harg4 arg8 harg8 arg9 harg9 arg10 harg10 arg11 harg11 hc0 x0 x1 x2 fh3 fh4 fh5).2.2.2.1, y ∈ pc.1.set :=
  View.cover_of_tiledL (kernelRun3_A c i arg2 harg2 arg3 harg3 arg4 harg4 arg8 harg8 arg9 harg9 arg10 harg10 arg11 harg11 hc0 x0 x1 x2 fh3 fh4 fh5).2.2.2.1 S1024x4096.size (by sl_kernel_rfl) y
def sout3_A_11 (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) : Vec F S1024x4096 .bf16 :=
  VS11.read (Elt F) (VS11.writes (Elt F) VS11.junk (kernelRun3_A c i arg2 harg2 arg3 harg3 arg4 harg4 arg8 harg8 arg9 harg9 arg10 harg10 arg11 harg11 hc0 x0 x1 x2 fh3 fh4 fh5).2.2.2.1)
/-- The output's stored piece covers it, in either situation; what it reads back to. -/
theorem cover3_A (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) (y : S128x1.Idx) :
    ∃ pc ∈ (kernelRun3_A c i arg2 harg2 arg3 harg3 arg4 harg4 arg8 harg8 arg9 harg9 arg10 harg10 arg11 harg11 hc0 x0 x1 x2 fh3 fh4 fh5).1, y ∈ pc.1.set :=
  View.cover_of_tiledL (kernelRun3_A c i arg2 harg2 arg3 harg3 arg4 harg4 arg8 harg8 arg9 harg9 arg10 harg10 arg11 harg11 hc0 x0 x1 x2 fh3 fh4 fh5).1 S128x1.size (by sl_kernel_rfl) y
def out3_A (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i) (x0 : Vec F S128x1024 .f32) (x1 : Vec F S128x4096 .bf16) (x2 : Vec F S128x4096 .bf16) (fh3 : HbBuf3 (F := F) c hbM3_3) (fh4 : HbBuf3 (F := F) c hbM3_4) (fh5 : HbBuf3 (F := F) c hbM3_5) : Vec F S128x1 .f32 :=
  VO3_3.read (Elt F) (VO3_3.writes (Elt F) VO3_3.junk (kernelRun3_A c i arg2 harg2 arg3 harg3 arg4 harg4 arg8 harg8 arg9 harg9 arg10 harg10 arg11 harg11 hc0 x0 x1 x2 fh3 fh4 fh5).1)
theorem cover3_B (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : ¬cond3_0 i) (x0 : Vec F S128x1024 .f32) (x1 : Vec F S128x4096 .bf16) (x2 : Vec F S128x4096 .bf16) (xs9 : Vec F S4096x1024 .bf16) (xs10 : Vec F S4096x4096 .bf16) (xs11 : Vec F S1024x4096 .bf16) (y : S128x1.Idx) :
    ∃ pc ∈ (kernelRun3_B c i arg2 harg2 arg3 harg3 arg4 harg4 arg8 harg8 arg9 harg9 arg10 harg10 arg11 harg11 hc0 x0 x1 x2 xs9 xs10 xs11).1, y ∈ pc.1.set :=
  View.cover_of_tiledL (kernelRun3_B c i arg2 harg2 arg3 harg3 arg4 harg4 arg8 harg8 arg9 harg9 arg10 harg10 arg11 harg11 hc0 x0 x1 x2 xs9 xs10 xs11).1 S128x1.size (by sl_kernel_rfl) y
def out3_B (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : ¬cond3_0 i) (x0 : Vec F S128x1024 .f32) (x1 : Vec F S128x4096 .bf16) (x2 : Vec F S128x4096 .bf16) (xs9 : Vec F S4096x1024 .bf16) (xs10 : Vec F S4096x4096 .bf16) (xs11 : Vec F S1024x4096 .bf16) : Vec F S128x1 .f32 :=
  VO3_3.read (Elt F) (VO3_3.writes (Elt F) VO3_3.junk (kernelRun3_B c i arg2 harg2 arg3 harg3 arg4 harg4 arg8 harg8 arg9 harg9 arg10 harg10 arg11 harg11 hc0 x0 x1 x2 xs9 xs10 xs11).1)

/-- What each of the three scratch buffers holds before grid position `n`: what its copy at the last first-tile delivered. -/
def scAt9 (c : Dev nD) : ℕ → Vec F S4096x1024 .bf16
  | 0 => VS9.read (Elt F) VS9.junk
  | n + 1 =>
    if h : n < cfg3.N then
      if h0 : n % 32 = 0 then
        sout3_A_9 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) scM9 (Memref.isWhole_whole _) scM10 (Memref.isWhole_whole _) scM11 (Memref.isWhole_whole _) ((hcond3_0 ⟨n, h⟩).mpr h0) (iblk3 V c 0 ⟨n, h⟩) (iblk3 V c 1 ⟨n, h⟩) (iblk3 V c 2 ⟨n, h⟩) (V c main_v3) (V c main_v4) (V c main_v5)
      else scAt9 c n
    else scAt9 c n
theorem scAt9_succ_A (c : Dev nD) (t : Fin cfg3.N) (h0 : t.val % 32 = 0) : scAt9 V c (t.val + 1) =
    sout3_A_9 c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) ((hcond3_0 t).mpr h0) (iblk3 V c 0 t) (iblk3 V c 1 t) (iblk3 V c 2 t) (V c main_v3) (V c main_v4) (V c main_v5) := by
  show (if h : t.val < cfg3.N then (if h0 : t.val % 32 = 0 then _ else _) else _) = _
  rw [dif_pos t.isLt, dif_pos h0]
theorem scAt9_succ_B (c : Dev nD) (t : Fin cfg3.N) (h0 : ¬t.val % 32 = 0) : scAt9 V c (t.val + 1) = scAt9 V c t.val := by
  show (if h : t.val < cfg3.N then (if h0 : t.val % 32 = 0 then _ else _) else _) = _
  rw [dif_pos t.isLt, dif_neg h0]
def scAt10 (c : Dev nD) : ℕ → Vec F S4096x4096 .bf16
  | 0 => VS10.read (Elt F) VS10.junk
  | n + 1 =>
    if h : n < cfg3.N then
      if h0 : n % 32 = 0 then
        sout3_A_10 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) scM9 (Memref.isWhole_whole _) scM10 (Memref.isWhole_whole _) scM11 (Memref.isWhole_whole _) ((hcond3_0 ⟨n, h⟩).mpr h0) (iblk3 V c 0 ⟨n, h⟩) (iblk3 V c 1 ⟨n, h⟩) (iblk3 V c 2 ⟨n, h⟩) (V c main_v3) (V c main_v4) (V c main_v5)
      else scAt10 c n
    else scAt10 c n
theorem scAt10_succ_A (c : Dev nD) (t : Fin cfg3.N) (h0 : t.val % 32 = 0) : scAt10 V c (t.val + 1) =
    sout3_A_10 c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) ((hcond3_0 t).mpr h0) (iblk3 V c 0 t) (iblk3 V c 1 t) (iblk3 V c 2 t) (V c main_v3) (V c main_v4) (V c main_v5) := by
  show (if h : t.val < cfg3.N then (if h0 : t.val % 32 = 0 then _ else _) else _) = _
  rw [dif_pos t.isLt, dif_pos h0]
theorem scAt10_succ_B (c : Dev nD) (t : Fin cfg3.N) (h0 : ¬t.val % 32 = 0) : scAt10 V c (t.val + 1) = scAt10 V c t.val := by
  show (if h : t.val < cfg3.N then (if h0 : t.val % 32 = 0 then _ else _) else _) = _
  rw [dif_pos t.isLt, dif_neg h0]
def scAt11 (c : Dev nD) : ℕ → Vec F S1024x4096 .bf16
  | 0 => VS11.read (Elt F) VS11.junk
  | n + 1 =>
    if h : n < cfg3.N then
      if h0 : n % 32 = 0 then
        sout3_A_11 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) scM9 (Memref.isWhole_whole _) scM10 (Memref.isWhole_whole _) scM11 (Memref.isWhole_whole _) ((hcond3_0 ⟨n, h⟩).mpr h0) (iblk3 V c 0 ⟨n, h⟩) (iblk3 V c 1 ⟨n, h⟩) (iblk3 V c 2 ⟨n, h⟩) (V c main_v3) (V c main_v4) (V c main_v5)
      else scAt11 c n
    else scAt11 c n
theorem scAt11_succ_A (c : Dev nD) (t : Fin cfg3.N) (h0 : t.val % 32 = 0) : scAt11 V c (t.val + 1) =
    sout3_A_11 c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) ((hcond3_0 t).mpr h0) (iblk3 V c 0 t) (iblk3 V c 1 t) (iblk3 V c 2 t) (V c main_v3) (V c main_v4) (V c main_v5) := by
  show (if h : t.val < cfg3.N then (if h0 : t.val % 32 = 0 then _ else _) else _) = _
  rw [dif_pos t.isLt, dif_pos h0]
theorem scAt11_succ_B (c : Dev nD) (t : Fin cfg3.N) (h0 : ¬t.val % 32 = 0) : scAt11 V c (t.val + 1) = scAt11 V c t.val := by
  show (if h : t.val < cfg3.N then (if h0 : t.val % 32 = 0 then _ else _) else _) = _
  rw [dif_pos t.isLt, dif_neg h0]

/-- What the output window's staging buffer holds after the body at point `t`. -/
def outsAt3 (c : Dev nD) (t : Fin cfg3.N) : Vec F S128x1 .f32 :=
  if h0 : t.val % 32 = 0 then
    out3_A c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) ((hcond3_0 t).mpr h0) (iblk3 V c 0 t) (iblk3 V c 1 t) (iblk3 V c 2 t) (V c main_v3) (V c main_v4) (V c main_v5)
  else
    out3_B c (grid3.coords t) (ms3_0 t) (hs3_0 t) (ms3_1 t) (hs3_1 t) (ms3_2 t) (hs3_2 t) (ms3_3 t) (hs3_3 t) scM9 (Memref.isWhole_whole _) scM10 (Memref.isWhole_whole _) scM11 (Memref.isWhole_whole _) (fun h => h0 ((hcond3_0 t).mp h)) (iblk3 V c 0 t) (iblk3 V c 1 t) (iblk3 V c 2 t) (scAt9 V c t.val) (scAt10 V c t.val) (scAt11 V c t.val)

/-- The invariant before grid position `n`. -/
def Φ3 (c : Dev nD) (n : ℕ) : sProp 𝕄 :=
  iprop((if n % 32 = 0 then iprop((∃ d, owns (c : Thread nD τ) scM9 fullShare d) ∗ (∃ d, owns (c : Thread nD τ) scM10 fullShare d) ∗ (∃ d, owns (c : Thread nD τ) scM11 fullShare d))
      else iprop(owns (c : Thread nD τ) scM9 fullShare (scAt9 V c n) ∗ owns (c : Thread nD τ) scM10 fullShare (scAt10 V c n) ∗ owns (c : Thread nD τ) scM11 fullShare (scAt11 V c n)))
    ∗ Pipeline.scopedRestBut (Ix := Unit) (Name := ℕ) (U := Pipeline.UD sig nD τ) (Lvl := ℕ) (Val := Elt F) spec3 c [cc3_scratch0, cc3_scratch1, cc3_scratch2]
    ∗ (∃ r, prngReg c r)
    ∗ semVal ((c : Thread nD τ), SemLoc.dma 37) 0 ∗ semVal ((c : Thread nD τ), SemLoc.dma 38) 0 ∗ semVal ((c : Thread nD τ), SemLoc.dma 39) 0
    ∗ hbPt3 c hbM3_3 (V c main_v3) ∗ hbPt3 c hbM3_4 (V c main_v4) ∗ hbPt3 c hbM3_5 (V c main_v5))

/-- The proof data of the pipeline on core `c`. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outsAt3 V c t
  Φ s := Φ3 V c s.val
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outsAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, and what it returns. -/
def bodyPre3 (c : Dev nD) (t : Fin cfg3.N) : sProp 𝕄 :=
  iprop(Φ3 V c t.val ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))
def bodyPost3 (c : Dev nD) (t : Fin cfg3.N) : sProp 𝕄 :=
  iprop(Φ3 V c (t.val + 1) ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

set_option maxHeartbeats 4000000 in
/-- The body at the first tile of a half. -/
theorem sound_body3_A (c : Dev nD) (t : Fin cfg3.N) (h0 : t.val % 32 = 0) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [after3_0, after3_1, after3_2, after3_3]
  unfold Φ3 outsAt3
  rw [if_pos h0, if_neg (show ¬(t.val + 1) % 32 = 0 by omega), scAt9_succ_A V c t h0, scAt10_succ_A V c t h0, scAt11_succ_A V c t h0, dif_pos h0]
  unfold out3_A sout3_A_9 sout3_A_10 sout3_A_11
  unfold Dat.owesAt Pipeline.owesWithin
  rw [show (dat3 V c).owed t.castSucc = 0 from rfl, show (dat3 V c).owed t.succ = 0 from rfl]
  iintro ⟨⟨⟨HS9, HS10, HS11⟩, HR, Hg, Hq0, Hq1, Hq2, Hh3, Hh4, Hh5⟩, ⟨%W, -, HW⟩, ⟨%d0, H0⟩, ⟨%d1, H1⟩, ⟨%d2, H2⟩, ⟨%d3, H3⟩⟩
  iapply ((kernelRun3_A c (grid3.coords t) _ _ _ _ _ _ _ _ _ _ _ _ _ _ ((hcond3_0 t).mpr h0) (iblk3 V c 0 t) (iblk3 V c 1 t) (iblk3 V c 2 t) (V c main_v3) (V c main_v4) (V c main_v5)).2.2.2.2 W _)
  isplitl [H0]; · iexact H0
  isplitl [H1]; · iexact H1
  isplitl [H2]; · iexact H2
  isplitl [H3]; · iexists _; iexact H3
  isplitl [HS9]; · iexact HS9
  isplitl [HS10]; · iexact HS10
  isplitl [HS11]; · iexact HS11
  isplitl [Hq0]; · iexact Hq0
  isplitl [Hq1]; · iexact Hq1
  isplitl [Hq2]; · iexact Hq2
  isplitl [Hh3]; · iexact Hh3
  isplitl [Hh4]; · iexact Hh4
  isplitl [Hh5]; · iexact Hh5
  isplitl [HW]; · iexact HW
  iintro ⟨H0, H1, H2, ⟨%e3, H3⟩, ⟨%e9, HS9⟩, ⟨%e10, HS10⟩, ⟨%e11, HS11⟩, Hq0, Hq1, Hq2, Hh3, Hh4, Hh5, ⟨%W', HW'⟩⟩
  isplitl [HS9 HS10 HS11 HR Hg Hq0 Hq1 Hq2 Hh3 Hh4 Hh5]
  · isplitl [HS9 HS10 HS11]
    · isplitl [HS9]
      · unfold owns; iexists _; isplitr
        swap; · iexact HS9
        ipureintro; exact View.read_writes_of_cover _ _ _ _ _ (scover3_A_9 c _ _ _ _ _ _ _ _ _ _ _ _ _ _ _ _ _ _ _ _ _ _)
      isplitl [HS10]
      · unfold owns; iexists _; isplitr
        swap; · iexact HS10
        ipureintro; exact View.read_writes_of_cover _ _ _ _ _ (scover3_A_10 c _ _ _ _ _ _ _ _ _ _ _ _ _ _ _ _ _ _ _ _ _ _)
      unfold owns; iexists _; isplitr
      swap; · iexact HS11
      ipureintro; exact View.read_writes_of_cover _ _ _ _ _ (scover3_A_11 c _ _ _ _ _ _ _ _ _ _ _ _ _ _ _ _ _ _ _ _ _ _)
    isplitl [HR]; · iexact HR
    isplitl [Hg]; · iexact Hg
    isplitl [Hq0]; · iexact Hq0
    isplitl [Hq1]; · iexact Hq1
    isplitl [Hq2]; · iexact Hq2
    isplitl [Hh3]; · iexact Hh3
    isplitl [Hh4]; · iexact Hh4
    iexact Hh5
  isplitl [HW']
  · iexists W'; isplitr; · ipureintro; exact fun _ _ => Or.inl trivial
    iexact HW'
  isplitl [H0]; · iexact H0
  isplitl [H1]; · iexact H1
  isplitl [H2]; · iexact H2
  unfold owns; iexists _; isplitr
  swap; · iexact H3
  ipureintro; exact View.read_writes_of_cover _ _ _ _ _ (cover3_A c _ _ _ _ _ _ _ _ _ _ _ _ _ _ _ _ _ _ _ _ _ _)

set_option maxHeartbeats 4000000 in
/-- The body at any other tile. -/
theorem sound_body3_B (c : Dev nD) (t : Fin cfg3.N) (h0 : ¬t.val % 32 = 0) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [after3_0, after3_1, after3_2, after3_3]
  rw [show (dat3 V c).owesAt () t.succ = (dat3 V c).owesAt () t.castSucc from rfl]
  unfold Φ3 outsAt3
  rw [if_neg h0, scAt9_succ_B V c t h0, scAt10_succ_B V c t h0, scAt11_succ_B V c t h0, dif_neg h0]
  unfold out3_B
  iintro ⟨⟨⟨HS9, HS10, HS11⟩, HR, Hg, Hq0, Hq1, Hq2, Hh3, Hh4, Hh5⟩, Ho, ⟨%d0, H0⟩, ⟨%d1, H1⟩, ⟨%d2, H2⟩, ⟨%d3, H3⟩⟩
  iapply ((kernelRun3_B c (grid3.coords t) _ _ _ _ _ _ _ _ _ _ _ _ _ _ (fun h => h0 ((hcond3_0 t).mp h)) (iblk3 V c 0 t) (iblk3 V c 1 t) (iblk3 V c 2 t) (scAt9 V c t.val) (scAt10 V c t.val) (scAt11 V c t.val)).2 Set.univ _)
  isplitl [H0]; · iexact H0
  isplitl [H1]; · iexact H1
  isplitl [H2]; · iexact H2
  isplitl [H3]; · iexists _; iexact H3
  isplitl [HS9]; · iexact HS9
  isplitl [HS10]; · iexact HS10
  isplitl [HS11]; · iexact HS11
  iintro ⟨H0, H1, H2, ⟨%e3, H3⟩, HS9, HS10, HS11⟩
  isplitl [HS9 HS10 HS11 HR Hg Hq0 Hq1 Hq2 Hh3 Hh4 Hh5]
  · isplitl [HS9 HS10 HS11]
    · by_cases hn : (t.val + 1) % 32 = 0
      · rw [if_pos hn]
        isplitl [HS9]; · iexists _; iexact HS9
        isplitl [HS10]; · iexists _; iexact HS10
        iexists _; iexact HS11
      · rw [if_neg hn]
        isplitl [HS9]; · iexact HS9
        isplitl [HS10]; · iexact HS10
        iexact HS11
    isplitl [HR]; · iexact HR
    isplitl [Hg]; · iexact Hg
    isplitl [Hq0]; · iexact Hq0
    isplitl [Hq1]; · iexact Hq1
    isplitl [Hq2]; · iexact Hq2
    isplitl [Hh3]; · iexact Hh3
    isplitl [Hh4]; · iexact Hh4
    iexact Hh5
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_B c _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  rw [show (dat3 V c).Φ t.castSucc = Φ3 V c t.val from rfl, show (dat3 V c).Φ t.succ = Φ3 V c (t.val + 1) from rfl]
  by_cases h0 : t.val % 32 = 0
  · exact sound_body3_A V c t h0
  · exact sound_body3_B V c t h0

end R3

end Cert.KernelIdeal.Hand

end
-- ==== Proof.KI.Run.lean ====
/-
  The whole program as a list of segments: the three forward layers' regions, the three conversions of the weights to
  bfloat16, the series kernel's region, the final reshape.  Between two segments a core holds every unscoped buffer at
  contents computed by a fold from the launch memory: a region replaces its windows' arrays by what its write-backs
  leave, a stretch of host operations applies them.  The run ends with every unscoped buffer at the last fold.
-/
import proofs.«172335_j35158602285651_2_alg».proof.Proof.KI.R0
import proofs.«172335_j35158602285651_2_alg».proof.Proof.KI.R1
import proofs.«172335_j35158602285651_2_alg».proof.Proof.KI.R2
import proofs.«172335_j35158602285651_2_alg».proof.Proof.KI.R3

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After the three conversions. -/
abbrev W4 : Dev nD → Valuation τ sig (Elt F) := fun c => StableHlo.after hostOps3 (W3 m ρ c)
abbrev V4 : (c : Dev nD) → (b : Ref sig .tc) → Buf (Elt F) ((c : Thread nD τ).loc b) := fun c b => W4 m ρ c b
/-- At region 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After the final reshape. -/
abbrev W6 : Dev nD → Valuation τ sig (Elt F) := fun c => StableHlo.after hostOps4 (W5 m ρ c)

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Forward layer 1's region over the thread state "every unscoped buffer at the boundary's contents": its arrays split
    out of the unscoped buffers and put back at what the write-backs leave; the generator register and the kernel's
    scratch into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Φ0 c from rfl]; unfold Φ0
    have hs : (Pipeline.scopedRest (Ix := Unit) (Name := ℕ) (U := Pipeline.UD sig nD τ) (Lvl := ℕ) (Val := Elt F) (Pipeline.pin (pcfgs (F := F)) adm 0).spec c : sProp 𝕄) = _ := scopedRest0_split c
    rw [hs]
    simp only [scM0, owns_whole]
    iintro ⟨Hp, -, ⟨HS, HR⟩⟩
    isplitl [HS]; · iexact HS
    isplitl [HR]; · iexact HR
    iexact Hp
  hout c := by
    rw [Pipeline.ownSems0_none, show (pdats m ρ 0 c).Φ (Fin.last _) = Φ0 c from rfl]; unfold Φ0
    have hs : (Pipeline.scopedRest (Ix := Unit) (Name := ℕ) (U := Pipeline.UD sig nD τ) (Lvl := ℕ) (Val := Elt F) (Pipeline.pin (pcfgs (F := F)) adm 0).spec c : sProp 𝕄) = _ := scopedRest0_split c
    rw [hs]
    simp only [scM0, owns_whole]
    iintro ⟨HS, HR, Hp⟩
    isplitl [Hp]; · iexact Hp
    isplitr; · iempintro
    isplitl [HS]; · iexact HS
    iexact HR
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Forward layer 2's region over the thread state "every unscoped buffer at the boundary's contents": its arrays split
    out of the unscoped buffers and put back at what the write-backs leave; the generator register and the kernel's
    scratch into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V1 m ρ) c 0 from rfl]; unfold Φ1
    have hs : (Pipeline.scopedRest (Ix := Unit) (Name := ℕ) (U := Pipeline.UD sig nD τ) (Lvl := ℕ) (Val := Elt F) (Pipeline.pin (pcfgs (F := F)) adm 1).spec c : sProp 𝕄) = _ := scopedRest1_split c
    rw [hs, if_pos (Nat.zero_mod _)]
    simp only [scM1, owns_whole]
    iintro ⟨Hp, -, ⟨HS, HR⟩⟩
    isplitl [HS]; · iexact HS
    isplitl [HR]; · iexact HR
    iexact Hp
  hout c := by
    rw [Pipeline.ownSems0_none, show (pdats m ρ 1 c).Φ (Fin.last _) = Φ1 (V1 m ρ) c 128 from rfl]; unfold Φ1
    have hs : (Pipeline.scopedRest (Ix := Unit) (Name := ℕ) (U := Pipeline.UD sig nD τ) (Lvl := ℕ) (Val := Elt F) (Pipeline.pin (pcfgs (F := F)) adm 1).spec c : sProp 𝕄) = _ := scopedRest1_split c
    rw [hs, if_pos (show 128 % 4 = 0 by decide)]
    simp only [scM1, owns_whole]
    iintro ⟨HS, HR, Hp⟩
    isplitl [Hp]; · iexact Hp
    isplitr; · iempintro
    isplitl [HS]; · iexact HS
    iexact HR
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Forward layer 3's region over the thread state "every unscoped buffer at the boundary's contents": its arrays split
    out of the unscoped buffers and put back at what the write-backs leave; the generator register and the kernel's
    scratch into the invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Φ2 (V2 m ρ) c 0 from rfl]; unfold Φ2
    have hs : (Pipeline.scopedRest (Ix := Unit) (Name := ℕ) (U := Pipeline.UD sig nD τ) (Lvl := ℕ) (Val := Elt F) (Pipeline.pin (pcfgs (F := F)) adm 2).spec c : sProp 𝕄) = _ := scopedRest2_split c
    rw [hs, if_pos (Nat.zero_mod _)]
    simp only [scM2, owns_whole]
    iintro ⟨Hp, -, ⟨HS, HR⟩⟩
    isplitl [HS]; · iexact HS
    isplitl [HR]; · iexact HR
    iexact Hp
  hout c := by
    rw [Pipeline.ownSems0_none, show (pdats m ρ 2 c).Φ (Fin.last _) = Φ2 (V2 m ρ) c 32 from rfl]; unfold Φ2
    have hs : (Pipeline.scopedRest (Ix := Unit) (Name := ℕ) (U := Pipeline.UD sig nD τ) (Lvl := ℕ) (Val := Elt F) (Pipeline.pin (pcfgs (F := F)) adm 2).spec c : sProp 𝕄) = _ := scopedRest2_split c
    rw [hs, if_pos (show 32 % 4 = 0 by decide)]
    simp only [scM2, owns_whole]
    iintro ⟨HS, HR, Hp⟩
    isplitl [Hp]; · iexact Hp
    isplitr; · iempintro
    isplitl [HS]; · iexact HS
    iexact HR
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The series kernel's own three copy semaphores, and the three matrices it copies from main memory. -/
abbrev osem3 : Fin 3 → SemLoc sig := fun j => (![SemLoc.dma 37, SemLoc.dma 38, SemLoc.dma 39] : Fin 3 → SemLoc sig) j
theorem ownSemFacts3 : Pipeline.OwnSemFacts spec3 osem3 := by decide
theorem ownSems03_eq (c : Dev nD) :
    (Pipeline.ownSems0 (Ix := Unit) (Name := ℕ) (U := Pipeline.UD sig nD τ) (Lvl := ℕ) (Val := Elt F) (τ := τ) osem3 c : sProp 𝕄)
      = iprop(semVal ((c : Thread nD τ), SemLoc.dma 37) 0 ∗ semVal ((c : Thread nD τ), SemLoc.dma 38) 0 ∗ semVal ((c : Thread nD τ), SemLoc.dma 39) 0) := by
  rw [Pipeline.ownSems0_eq_of_list c osem3 [0, 1, 2] (by decide) (by decide)]; rfl
def H3 : Finset (Ref sig .tc) := {main_v3, main_v4, main_v5}
theorem H3_sub : H3 ⊆ Pipeline.restRefs sig spec3 := by decide
theorem hbmPts3_eq (V : (c : Dev nD) → (b : Ref sig .tc) → Buf (Elt F) ((c : Thread nD τ).loc b)) (c : Dev nD) :
    (bigSep H3 (fun b => ((c : Thread nD τ).loc b) ↦{fullShare} V c b) : sProp 𝕄)
      = iprop(hbPt3 c hbM3_3 (V c main_v3) ∗ hbPt3 c hbM3_4 (V c main_v4) ∗ hbPt3 c hbM3_5 (V c main_v5)) := by
  rw [BI.bigSep_eq_bigSepL_of_eq [main_v3, main_v4, main_v5] (by decide) (by decide)]; rfl

set_option backward.isDefEq.respectTransparency.types false in
/-- The series kernel's region: as the forward ones, and besides its own three semaphores (at zero from the boundary
    and back) and the three matrices it copies itself (split out of the bypassing buffers and rejoined). -/
def reg3 : Pipeline.RegionSeg (pcfgs (F := F)) adm (pdats m ρ) () defs₀ 𝒱₀ L lv 3 where
  win := launch3.win.to₀
  block_pos := launch3.block_pos
  stage_whole := launch3.stage_whole
  K := Fin 3
  osem := osem3
  ho := ownSemFacts3
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop((∃ r, prngReg c r) ∗ Pipeline.ownSems0 (Ix := Unit) (Name := ℕ) (U := Pipeline.UD sig nD τ) (Lvl := ℕ) (Val := Elt F) (τ := τ) osem3 c ∗ (bigSep H3 fun b => (((c : Thread nD τ)).loc b) ↦{fullShare} V4 m ρ c b))
  Y c := iprop((∃ r, prngReg c r) ∗ (bigSep H3 fun b => (((c : Thread nD τ)).loc b) ↦{fullShare} V4 m ρ c b))
  Z c := bigSep (Pipeline.restRefs sig spec3 \ H3) fun b => (((c : Thread nD τ)).loc b) ↦{fullShare} V4 m ρ c b
  hentry c := by
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    have hH : (Pipeline.unscopedRest (Ix := Unit) (Name := ℕ) (U := Pipeline.UD sig nD τ) (Lvl := ℕ) spec3 c (V4 m ρ c) : sProp 𝕄)
        = iprop((bigSep H3 fun b => (((c : Thread nD τ)).loc b) ↦{fullShare} V4 m ρ c b) ∗ (bigSep (Pipeline.restRefs sig spec3 \ H3) fun b => (((c : Thread nD τ)).loc b) ↦{fullShare} V4 m ρ c b)) := by
      unfold Pipeline.unscopedRest; exact BI.bigSep_sdiff_split H3_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 3 c).Φ 0 = Φ3 (V4 m ρ) c 0 from rfl]; unfold Φ3
    have hs : (Pipeline.scopedRest (Ix := Unit) (Name := ℕ) (U := Pipeline.UD sig nD τ) (Lvl := ℕ) (Val := Elt F) (Pipeline.pin (pcfgs (F := F)) adm 3).spec c : sProp 𝕄) = _ := scopedRest3_split c
    rw [hs, if_pos (Nat.zero_mod _), ownSems03_eq, hbmPts3_eq]
    simp only [scM9, scM10, scM11, owns_whole]
    iintro ⟨⟨Hp, ⟨Hq0, Hq1, Hq2⟩, ⟨Hh3, Hh4, Hh5⟩⟩, -, ⟨⟨HS9, HS10, HS11⟩, HR⟩⟩
    isplitl [HS9 HS10 HS11]
    · isplitl [HS9]; · iexact HS9
      isplitl [HS10]; · iexact HS10
      iexact HS11
    isplitl [HR]; · iexact HR
    isplitl [Hp]; · iexact Hp
    isplitl [Hq0]; · iexact Hq0
    isplitl [Hq1]; · iexact Hq1
    isplitl [Hq2]; · iexact Hq2
    isplitl [Hh3]; · iexact Hh3
    isplitl [Hh4]; · iexact Hh4
    iexact Hh5
  hout c := by
    rw [show (pdats m ρ 3 c).Φ (Fin.last _) = Φ3 (V4 m ρ) c 64 from rfl]; unfold Φ3
    have hs : (Pipeline.scopedRest (Ix := Unit) (Name := ℕ) (U := Pipeline.UD sig nD τ) (Lvl := ℕ) (Val := Elt F) (Pipeline.pin (pcfgs (F := F)) adm 3).spec c : sProp 𝕄) = _ := scopedRest3_split c
    rw [hs, if_pos (show 64 % 32 = 0 by decide), ownSems03_eq, hbmPts3_eq]
    simp only [scM9, scM10, scM11, owns_whole]
    iintro ⟨⟨HS9, HS10, HS11⟩, HR, Hp, Hq0, Hq1, Hq2, Hh3, Hh4, Hh5⟩
    isplitl [Hp Hh3 Hh4 Hh5]
    · isplitl [Hp]; · iexact Hp
      isplitl [Hh3]; · iexact Hh3
      isplitl [Hh4]; · iexact Hh4
      iexact Hh5
    isplitl [Hq0 Hq1 Hq2]
    · isplitl [Hq0]; · iexact Hq0
      isplitl [Hq1]; · iexact Hq1
      iexact Hq2
    isplitl [HS9 HS10 HS11]
    · isplitl [HS9]; · iexact HS9
      isplitl [HS10]; · iexact HS10
      iexact HS11
    iexact HR
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    have hH : (Pipeline.unscopedRest (Ix := Unit) (Name := ℕ) (U := Pipeline.UD sig nD τ) (Lvl := ℕ) spec3 c (V4 m ρ c) : sProp 𝕄)
        = iprop((bigSep H3 fun b => (((c : Thread nD τ)).loc b) ↦{fullShare} V4 m ρ c b) ∗ (bigSep (Pipeline.restRefs sig spec3 \ H3) fun b => (((c : Thread nD τ)).loc b) ↦{fullShare} V4 m ρ c b)) := by
      unfold Pipeline.unscopedRest; exact BI.bigSep_sdiff_split H3_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segs : List (Pipeline.Seg (pcfgs (F := F)) adm (pdats m ρ) () defs₀ 𝒱₀ L lv) :=
  [ .region (reg0 m ρ), .region (reg1 m ρ), .region (reg2 m ρ),
    .host (hseg hostOps3 hostOps3_sub hostOps3_fresh' (W3 m ρ)),
    .region (reg3 m ρ),
    .host (hseg hostOps4 hostOps4_sub hostOps4_fresh' (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ (∃ r, prngReg c r) ∗ ∃ W, owes (c : Thread nD τ) (0 : CellTallies nD τ sig Unit) W)
        ⊢ (iprop((StableHlo.held (c : Thread nD τ) (Pipeline.ucRefs τ sig) (W6 m ρ c) ∗ ∃ r, prngReg c r) ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.Fold.lean ====
/-
  Walking the fold of buffer contents through the program: a region changes only its output windows' arrays, a stretch
  of host operations only the buffers it writes.  So every argument array ends as launched, the first result is what
  the third forward layer's write-backs leave, and the second result is the reshape of what the series kernel's leave.
-/
import proofs.«172335_j35158602285651_2_alg».proof.Proof.KI.Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Region 0 changes only its output arrays: an input window's array is written back never, and every other buffer
    bypasses the region. -/
theorem keep0 (c : Dev nD) (b : Ref sig .tc) (h3 : b ≠ main_v0_0) (h4 : b ≠ main_v0_1) : V1 m ρ c b = V0 m ρ c b := by
  by_cases h : ∃ w, Pipeline.arrRef spec0 w = b
  · obtain ⟨w, rfl⟩ := h
    match w with
    | ⟨0, _⟩ => exact (W1_arr m ρ c 0).trans (((dat0 (V0 m ρ) c).arrAt_in 0 rfl _).trans (A_eq0 (V0 m ρ) c 0))
    | ⟨1, _⟩ => exact (W1_arr m ρ c 1).trans (((dat0 (V0 m ρ) c).arrAt_in 1 rfl _).trans (A_eq0 (V0 m ρ) c 1))
    | ⟨2, _⟩ => exact (W1_arr m ρ c 2).trans (((dat0 (V0 m ρ) c).arrAt_in 2 rfl _).trans (A_eq0 (V0 m ρ) c 2))
    | ⟨3, _⟩ => exact absurd rfl h3
    | ⟨4, _⟩ => exact absurd rfl h4
  · exact W1_of_ne m ρ c b (fun w e => h ⟨w, e⟩)
/-- and its output arrays end at what the write-backs leave. -/
theorem V1_main_v0_0 (c : Dev nD) : V1 m ρ c main_v0_0 = (dat0 (V0 m ρ) c).arrAt 3 cfg0.N := W1_arr m ρ c 3
theorem V1_main_v0_1 (c : Dev nD) : V1 m ρ c main_v0_1 = (dat0 (V0 m ρ) c).arrAt 4 cfg0.N := W1_arr m ρ c 4

/-- Region 1 changes only its output arrays: an input window's array is written back never, and every other buffer
    bypasses the region. -/
theorem keep1 (c : Dev nD) (b : Ref sig .tc) (h3 : b ≠ main_v1_0) (h4 : b ≠ main_v1_1) : V2 m ρ c b = V1 m ρ c b := by
  by_cases h : ∃ w, Pipeline.arrRef spec1 w = b
  · obtain ⟨w, rfl⟩ := h
    match w with
    | ⟨0, _⟩ => exact (W2_arr m ρ c 0).trans (((dat1 (V1 m ρ) c).arrAt_in 0 rfl _).trans (A_eq1 (V1 m ρ) c 0))
    | ⟨1, _⟩ => exact (W2_arr m ρ c 1).trans (((dat1 (V1 m ρ) c).arrAt_in 1 rfl _).trans (A_eq1 (V1 m ρ) c 1))
    | ⟨2, _⟩ => exact (W2_arr m ρ c 2).trans (((dat1 (V1 m ρ) c).arrAt_in 2 rfl _).trans (A_eq1 (V1 m ρ) c 2))
    | ⟨3, _⟩ => exact absurd rfl h3
    | ⟨4, _⟩ => exact absurd rfl h4
  · exact W2_of_ne m ρ c b (fun w e => h ⟨w, e⟩)
/-- and its output arrays end at what the write-backs leave. -/
theorem V2_main_v1_0 (c : Dev nD) : V2 m ρ c main_v1_0 = (dat1 (V1 m ρ) c).arrAt 3 cfg1.N := W2_arr m ρ c 3
theorem V2_main_v1_1 (c : Dev nD) : V2 m ρ c main_v1_1 = (dat1 (V1 m ρ) c).arrAt 4 cfg1.N := W2_arr m ρ c 4

/-- Region 2 changes only its output array: an input window's array is written back never, and every other buffer
    bypasses the region. -/
theorem keep2 (c : Dev nD) (b : Ref sig .tc) (h4 : b ≠ main_v2) : V3 m ρ c b = V2 m ρ c b := by
  by_cases h : ∃ w, Pipeline.arrRef spec2 w = b
  · obtain ⟨w, rfl⟩ := h
    match w with
    | ⟨0, _⟩ => exact (W3_arr m ρ c 0).trans (((dat2 (V2 m ρ) c).arrAt_in 0 rfl _).trans (A_eq2 (V2 m ρ) c 0))
    | ⟨1, _⟩ => exact (W3_arr m ρ c 1).trans (((dat2 (V2 m ρ) c).arrAt_in 1 rfl _).trans (A_eq2 (V2 m ρ) c 1))
    | ⟨2, _⟩ => exact (W3_arr m ρ c 2).trans (((dat2 (V2 m ρ) c).arrAt_in 2 rfl _).trans (A_eq2 (V2 m ρ) c 2))
    | ⟨3, _⟩ => exact (W3_arr m ρ c 3).trans (((dat2 (V2 m ρ) c).arrAt_in 3 rfl _).trans (A_eq2 (V2 m ρ) c 3))
    | ⟨4, _⟩ => exact absurd rfl h4
  · exact W3_of_ne m ρ c b (fun w e => h ⟨w, e⟩)
/-- and its output arrays end at what the write-backs leave. -/
theorem V3_main_v2 (c : Dev nD) : V3 m ρ c main_v2 = (dat2 (V2 m ρ) c).arrAt 4 cfg2.N := W3_arr m ρ c 4

/-- Region 3 changes only its output array: an input window's array is written back never, and every other buffer
    bypasses the region. -/
theorem keep3 (c : Dev nD) (b : Ref sig .tc) (h3 : b ≠ main_v6) : V5 m ρ c b = V4 m ρ c b := by
  by_cases h : ∃ w, Pipeline.arrRef spec3 w = b
  · obtain ⟨w, rfl⟩ := h
    match w with
    | ⟨0, _⟩ => exact (W5_arr m ρ c 0).trans (((dat3 (V4 m ρ) c).arrAt_in 0 rfl _).trans (A_eq3 (V4 m ρ) c 0))
    | ⟨1, _⟩ => exact (W5_arr m ρ c 1).trans (((dat3 (V4 m ρ) c).arrAt_in 1 rfl _).trans (A_eq3 (V4 m ρ) c 1))
    | ⟨2, _⟩ => exact (W5_arr m ρ c 2).trans (((dat3 (V4 m ρ) c).arrAt_in 2 rfl _).trans (A_eq3 (V4 m ρ) c 2))
    | ⟨3, _⟩ => exact absurd rfl h3
  · exact W5_of_ne m ρ c b (fun w e => h ⟨w, e⟩)
/-- and its output arrays end at what the write-backs leave. -/
theorem V5_main_v6 (c : Dev nD) : V5 m ρ c main_v6 = (dat3 (V4 m ρ) c).arrAt 3 cfg3.N := W5_arr m ρ c 3

/-- The three conversions write only the three converted matrices, -/
theorem keepH3 (c : Dev nD) (b : Ref sig .tc) (h3 : b ≠ main_v3) (h4 : b ≠ main_v4) (h5 : b ≠ main_v5) : V4 m ρ c b = V3 m ρ c b :=
  StableHlo.after_of_forall_not_mem (b := Proc.devRef .tc b) _ _ (List.forall_iff_forall_mem.mp (by
    simp only [hostOps3, List.Forall, StableHlo.unary_writes, Finset.mem_singleton]
    exact ⟨StableHlo.devRef_ne_of_ne h3, StableHlo.devRef_ne_of_ne h4, StableHlo.devRef_ne_of_ne h5⟩))
/-- and the reshape only the second result. -/
theorem keepH4 (c : Dev nD) (b : Ref sig .tc) (h7 : b ≠ main_v7) : W6 m ρ c b = V5 m ρ c b :=
  StableHlo.after_of_forall_not_mem (b := Proc.devRef .tc b) _ _ (List.forall_iff_forall_mem.mp (by
    simp only [hostOps4, List.Forall, StableHlo.reshape_writes, Finset.mem_singleton]
    exact StableHlo.devRef_ne_of_ne h7))

/-- Every argument array ends as launched. -/
theorem W6_main_arg0 (c : Dev nD) : W6 m ρ c main_arg0 = m ((c : Thread nD τ).loc main_arg0) :=
  (keepH4 m ρ c main_arg0 (by decide)).trans <| (keep3 m ρ c main_arg0 (by decide)).trans <|
    (keepH3 m ρ c main_arg0 (by decide) (by decide) (by decide)).trans <| (keep2 m ρ c main_arg0 (by decide)).trans <|
    (keep1 m ρ c main_arg0 (by decide) (by decide)).trans <| (keep0 m ρ c main_arg0 (by decide) (by decide)).trans rfl
theorem W6_main_arg1 (c : Dev nD) : W6 m ρ c main_arg1 = m ((c : Thread nD τ).loc main_arg1) :=
  (keepH4 m ρ c main_arg1 (by decide)).trans <| (keep3 m ρ c main_arg1 (by decide)).trans <|
    (keepH3 m ρ c main_arg1 (by decide) (by decide) (by decide)).trans <| (keep2 m ρ c main_arg1 (by decide)).trans <|
    (keep1 m ρ c main_arg1 (by decide) (by decide)).trans <| (keep0 m ρ c main_arg1 (by decide) (by decide)).trans rfl
theorem W6_main_arg2 (c : Dev nD) : W6 m ρ c main_arg2 = m ((c : Thread nD τ).loc main_arg2) :=
  (keepH4 m ρ c main_arg2 (by decide)).trans <| (keep3 m ρ c main_arg2 (by decide)).trans <|
    (keepH3 m ρ c main_arg2 (by decide) (by decide) (by decide)).trans <| (keep2 m ρ c main_arg2 (by decide)).trans <|
    (keep1 m ρ c main_arg2 (by decide) (by decide)).trans <| (keep0 m ρ c main_arg2 (by decide) (by decide)).trans rfl
theorem W6_main_arg3 (c : Dev nD) : W6 m ρ c main_arg3 = m ((c : Thread nD τ).loc main_arg3) :=
  (keepH4 m ρ c main_arg3 (by decide)).trans <| (keep3 m ρ c main_arg3 (by decide)).trans <|
    (keepH3 m ρ c main_arg3 (by decide) (by decide) (by decide)).trans <| (keep2 m ρ c main_arg3 (by decide)).trans <|
    (keep1 m ρ c main_arg3 (by decide) (by decide)).trans <| (keep0 m ρ c main_arg3 (by decide) (by decide)).trans rfl
theorem W6_main_arg4 (c : Dev nD) : W6 m ρ c main_arg4 = m ((c : Thread nD τ).loc main_arg4) :=
  (keepH4 m ρ c main_arg4 (by decide)).trans <| (keep3 m ρ c main_arg4 (by decide)).trans <|
    (keepH3 m ρ c main_arg4 (by decide) (by decide) (by decide)).trans <| (keep2 m ρ c main_arg4 (by decide)).trans <|
    (keep1 m ρ c main_arg4 (by decide) (by decide)).trans <| (keep0 m ρ c main_arg4 (by decide) (by decide)).trans rfl
theorem W6_main_arg5 (c : Dev nD) : W6 m ρ c main_arg5 = m ((c : Thread nD τ).loc main_arg5) :=
  (keepH4 m ρ c main_arg5 (by decide)).trans <| (keep3 m ρ c main_arg5 (by decide)).trans <|
    (keepH3 m ρ c main_arg5 (by decide) (by decide) (by decide)).trans <| (keep2 m ρ c main_arg5 (by decide)).trans <|
    (keep1 m ρ c main_arg5 (by decide) (by decide)).trans <| (keep0 m ρ c main_arg5 (by decide) (by decide)).trans rfl
theorem W6_main_arg6 (c : Dev nD) : W6 m ρ c main_arg6 = m ((c : Thread nD τ).loc main_arg6) :=
  (keepH4 m ρ c main_arg6 (by decide)).trans <| (keep3 m ρ c main_arg6 (by decide)).trans <|
    (keepH3 m ρ c main_arg6 (by decide) (by decide) (by decide)).trans <| (keep2 m ρ c main_arg6 (by decide)).trans <|
    (keep1 m ρ c main_arg6 (by decide) (by decide)).trans <| (keep0 m ρ c main_arg6 (by decide) (by decide)).trans rfl
theorem W6_main_arg7 (c : Dev nD) : W6 m ρ c main_arg7 = m ((c : Thread nD τ).loc main_arg7) :=
  (keepH4 m ρ c main_arg7 (by decide)).trans <| (keep3 m ρ c main_arg7 (by decide)).trans <|
    (keepH3 m ρ c main_arg7 (by decide) (by decide) (by decide)).trans <| (keep2 m ρ c main_arg7 (by decide)).trans <|
    (keep1 m ρ c main_arg7 (by decide) (by decide)).trans <| (keep0 m ρ c main_arg7 (by decide) (by decide)).trans rfl

/-- The first result ends at what the third forward layer's write-backs leave. -/
theorem W6_main_v2 (c : Dev nD) : W6 m ρ c main_v2 = (dat2 (V2 m ρ) c).arrAt 4 cfg2.N :=
  (keepH4 m ρ c main_v2 (by decide)).trans <| (keep3 m ρ c main_v2 (by decide)).trans <|
    (keepH3 m ρ c main_v2 (by decide) (by decide) (by decide)).trans (V3_main_v2 m ρ c)

/-- THE FRAME: every weakly fair execution terminates, nothing faulting, with the eight argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.KernelIdeal.Hand

end
-- ==== Proof.KI.Host.lean ====
/-
  What the host operations between and after the regions write, read at the buffers the value claim follows: the three
  conversions of the weight matrices to bfloat16 (on the extended reals the identity, entry by entry) and the final
  reshape of the column of sums.
-/
import proofs.«172335_j35158602285651_2_alg».proof.Proof.KI.Fold
import Idealize.ShloMosaic.Lib.StableHlo.Run

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem V4_main_v3 (c : Dev nD) : V4 m ρ c main_v3 = truncf .bf16 (V3 m ρ c main_arg2) bitsLt_bf16_f32 := by
  show StableHlo.after hostOps3 (W3 m ρ c) (Proc.devRef .tc main_v3) = _
  after_results
  try rfl
theorem V4_main_v4 (c : Dev nD) : V4 m ρ c main_v4 = truncf .bf16 (V3 m ρ c main_arg4) bitsLt_bf16_f32 := by
  show StableHlo.after hostOps3 (W3 m ρ c) (Proc.devRef .tc main_v4) = _
  after_results
  try rfl
theorem V4_main_v5 (c : Dev nD) : V4 m ρ c main_v5 = truncf .bf16 (V3 m ρ c main_arg6) bitsLt_bf16_f32 := by
  show StableHlo.after hostOps3 (W3 m ρ c) (Proc.devRef .tc main_v5) = _
  after_results
  try rfl
theorem W6_main_v7 (c : Dev nD) : W6 m ρ c main_v7 = shapeCast _ (V5 m ρ c main_v6) shapeCasts_S8192x1_S8192x1x1 := by
  show StableHlo.after hostOps4 (W5 m ρ c) (Proc.devRef .tc main_v7) = _
  after_results
  try rfl

end Cert.KernelIdeal.Hand

end
-- ==== Proof.KI.V0.lean ====
/-
  The first forward layer's stored pieces read back.  Every store of the body writes a whole buffer, so what a buffer
  ends with is its last store's value, and each load of the accumulator reads the value stored just before it: the two
  output tiles are the last step's values of the once-accumulated product over the cleared accumulator.
-/
import proofs.«172335_j35158602285651_2_alg».proof.Proof.KI.R0

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle, at rank two and rank one. -/
theorem hz2_0 : (![0, 0] : Fin 2 → Nat) = fun _ => 0 := funext fun a => by fin_cases a <;> rfl
theorem hz1_0 : (![0] : Fin 1 → Nat) = fun _ => 0 := funext fun a => by fin_cases a <;> rfl

/-- The first output's tile after the body: the accumulator is cleared, one product is added, and the bias is added
    and rectified; each load of the accumulator reads what the store just before it left. -/
theorem out0_3_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) :
    out0_3 c i arg3 harg3 arg4 harg4 arg5 harg5 arg6 harg6 arg7 harg7 arg8 harg8 hc0 hc1 x0 x1 x2 = k0_pay5 (k0_pay2 (k0_pay1 (F := F)) x0 x1) x2 := by
  unfold out0_3
  rw [View.read_writes_eq_canon _ _ _ (cover0_3 c i arg3 harg3 arg4 harg4 arg5 harg5 arg6 harg6 arg7 harg7 arg8 harg8 hc0 hc1 x0 x1 x2)]
  unfold kernelRun0
  dsimp only
  sl_unfold_words
  rw [View.canon_unit_zero hz2_0]
  simp only [View.readCov_cons_toLoadRect, View.readAt_eq_ld, harg3.read_unread, harg4.read_unread, harg5.read_unread,
    View.ld_unit_zero (S := S1024x1024) hz2_0, View.ld_unit_zero (S := S1024) hz1_0]

/-- The second output's tile after the body: the same sum's sign pattern as zeros and ones. -/
theorem out0_4_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : k0_cond2 i = 1#1)
    (x0 : Vec F S1024x1024 .f32) (x1 : Vec F S1024x1024 .f32) (x2 : Vec F S1024 .f32) :
    out0_4 c i arg3 harg3 arg4 harg4 arg5 harg5 arg6 harg6 arg7 harg7 arg8 harg8 hc0 hc1 x0 x1 x2 = k0_pay6 (k0_pay2 (k0_pay1 (F := F)) x0 x1) x2 := by
  unfold out0_4
  rw [View.read_writes_eq_canon _ _ _ (cover0_4 c i arg3 harg3 arg4 harg4 arg5 harg5 arg6 harg6 arg7 harg7 arg8 harg8 hc0 hc1 x0 x1 x2)]
  unfold kernelRun0
  dsimp only
  sl_unfold_words
  rw [View.canon_unit_zero hz2_0]
  simp only [View.readCov_cons_toLoadRect, View.readAt_eq_ld, harg3.read_unread, harg4.read_unread, harg5.read_unread,
    View.ld_unit_zero (S := S1024x1024) hz2_0, View.ld_unit_zero (S := S1024) hz1_0]

end Cert.KernelIdeal.Hand

end
-- ==== Proof.Spec.lean ====
/-
  The mathematics both programs compute, on the extended reals, over abstract sizes: a batch of B rows, width D, hidden
  width H.  A residual block y = x + g(x), g = W3·relu(W2·relu(W1·x + b1) + b2) + b3 row by row, and the truncated
  power series Σ_{n<10} c_n · ⟨(Jᵀ)^{n+1} u, u⟩ of log det(I + J) per row, J the Jacobian of g at the row: one
  application of Jᵀ to a row vector v is W3ᵀ-contract, gate by the second layer's active set, W2ᵀ-contract, gate by the
  first layer's active set, W1ᵀ-contract (`back`).
-/
import Idealize.ShloMosaic.PureOps.Ideal
import Idealize.ShloMosaic.Lib.ValueIdx

noncomputable section

open scoped BigOperators

namespace Cert.Spec

open Idealize.ShloMosaic

variable {B D H : ℕ}

/-- A rank-2 array as a function of its two coordinates, -/
def mat {a b : ℕ} (A : (⟨2, ![a, b]⟩ : Shape).Idx → EReal) (r : Fin a) (k : Fin b) : EReal := A (ValueIdx.ix2 r k)
/-- and a rank-1 array as a function of its coordinate. -/
def vec {a : ℕ} (A : (⟨1, ![a]⟩ : Shape).Idx → EReal) (r : Fin a) : EReal := A (ValueIdx.ix1 r)

/-- An affine layer read at an entry: row `r` of `a` against row `j` of `W`, plus the bias. -/
def lin {K N : ℕ} (a : Fin B → Fin K → EReal) (W : Fin N → Fin K → EReal) (b : Fin N → EReal) (r : Fin B) (j : Fin N) : EReal :=
  (∑ k : Fin K, a r k * W j k) + b j

/-- The rectifier. -/
def relu (z : EReal) : EReal := if 0 < z then z else 0

/-- A value let through where the pre-activation is positive, zero elsewhere. -/
def gate (z t : EReal) : EReal := if 0 < z then t else 0

section Net

variable (x u : Fin B → Fin D → EReal) (W1 : Fin H → Fin D → EReal) (b1 : Fin H → EReal)
  (W2 : Fin H → Fin H → EReal) (b2 : Fin H → EReal) (W3 : Fin D → Fin H → EReal) (b3 : Fin D → EReal)

/-- First layer's pre-activation and activation. -/
def z1 (r : Fin B) (j : Fin H) : EReal := lin x W1 b1 r j
def h1 (r : Fin B) (j : Fin H) : EReal := relu (z1 x W1 b1 r j)
/-- Second layer's. -/
def z2 (r : Fin B) (j : Fin H) : EReal := lin (h1 x W1 b1) W2 b2 r j
def h2 (r : Fin B) (j : Fin H) : EReal := relu (z2 x W1 b1 W2 b2 r j)
/-- The block's output: the input plus the third layer. -/
def y (r : Fin B) (i : Fin D) : EReal := x r i + lin (h2 x W1 b1 W2 b2) W3 b3 r i

/-- One application of the transposed Jacobian of g at row `r` to the row vector `v r`. -/
def back (v : Fin B → Fin D → EReal) (r : Fin B) (i : Fin D) : EReal :=
  ∑ j : Fin H, gate (z1 x W1 b1 r j)
      (∑ k : Fin H, gate (z2 x W1 b1 W2 b2 r k) (∑ l : Fin D, v r l * W3 l k) * W2 k j) * W1 j i

/-- The iterates (Jᵀ)^n u. -/
def ut : ℕ → Fin B → Fin D → EReal
  | 0 => u
  | n + 1 => back x W1 b1 W2 b2 W3 (ut n)

/-- ⟨(Jᵀ)^{n+1} u, u⟩ at row `r`. -/
def tr (n : ℕ) (r : Fin B) : EReal := ∑ i : Fin D, ut x u W1 b1 W2 b2 W3 (n + 1) r i * u r i

/-- The ten-term series with coefficients `c`, summed left to right from zero. -/
def logdet (c : Fin 10 → EReal) (r : Fin B) : EReal :=
  0 + c 0 * tr x u W1 b1 W2 b2 W3 0 r + c 1 * tr x u W1 b1 W2 b2 W3 1 r + c 2 * tr x u W1 b1 W2 b2 W3 2 r
    + c 3 * tr x u W1 b1 W2 b2 W3 3 r + c 4 * tr x u W1 b1 W2 b2 W3 4 r + c 5 * tr x u W1 b1 W2 b2 W3 5 r
    + c 6 * tr x u W1 b1 W2 b2 W3 6 r + c 7 * tr x u W1 b1 W2 b2 W3 7 r + c 8 * tr x u W1 b1 W2 b2 W3 8 r
    + c 9 * tr x u W1 b1 W2 b2 W3 9 r

end Net

/-- The series' coefficients (-1)^n/(n+1) as the single-precision patterns both programs carry. -/
def coeff : Fin 10 → EReal
  | 0 => Ideal.ofBits .f32 0x3F800000#32
  | 1 => Ideal.ofBits .f32 0xBF000000#32
  | 2 => Ideal.ofBits .f32 0x3EAAAAAB#32
  | 3 => Ideal.ofBits .f32 0xBE800000#32
  | 4 => Ideal.ofBits .f32 0x3E4CCCCD#32
  | 5 => Ideal.ofBits .f32 0xBE2AAAAB#32
  | 6 => Ideal.ofBits .f32 0x3E124925#32
  | 7 => Ideal.ofBits .f32 0xBE000000#32
  | 8 => Ideal.ofBits .f32 0x3DE38E39#32
  | 9 => Ideal.ofBits .f32 0xBDCCCCCD#32

end Cert.Spec

end
-- ==== Proof.PayReal.lean ====
/-
  Finiteness on the extended reals.  An extended real is REAL when it is neither infinity.  Sums, differences and
  products of real values are real; so are the rectifier of a real value and the constants 0 and 1.  On a real value
  the difference z - z is 0 (on an infinity it is not: the difference of an infinity with itself is again an infinity).
-/
import proofs.«172335_j35158602285651_2_alg».proof.Proof.Spec
import Mathlib.Data.EReal.Operations

noncomputable section

open scoped BigOperators

namespace Cert.PayFwd

/-- Neither infinity. -/
def IsReal (z : EReal) : Prop := z ≠ ⊤ ∧ z ≠ ⊥

/-- A real number, seen as an extended real, is real. -/
theorem isReal_coe (r : ℝ) : IsReal (r : EReal) := ⟨EReal.coe_ne_top r, EReal.coe_ne_bot r⟩

/-- The real values are exactly the images of the real numbers. -/
theorem isReal_iff {z : EReal} : IsReal z ↔ ∃ r : ℝ, z = (r : EReal) :=
  ⟨fun h => ⟨z.toReal, (EReal.coe_toReal h.1 h.2).symm⟩, fun ⟨r, hr⟩ => hr ▸ isReal_coe r⟩

theorem isReal_zero : IsReal (0 : EReal) := EReal.coe_zero ▸ isReal_coe 0

theorem isReal_one : IsReal (1 : EReal) := EReal.coe_one ▸ isReal_coe 1

theorem isReal_add {x y : EReal} (hx : IsReal x) (hy : IsReal y) : IsReal (x + y) := by
  obtain ⟨a, rfl⟩ := isReal_iff.mp hx
  obtain ⟨b, rfl⟩ := isReal_iff.mp hy
  rw [← EReal.coe_add]; exact isReal_coe _

theorem isReal_sub {x y : EReal} (hx : IsReal x) (hy : IsReal y) : IsReal (x - y) := by
  obtain ⟨a, rfl⟩ := isReal_iff.mp hx
  obtain ⟨b, rfl⟩ := isReal_iff.mp hy
  rw [← EReal.coe_sub]; exact isReal_coe _

theorem isReal_mul {x y : EReal} (hx : IsReal x) (hy : IsReal y) : IsReal (x * y) := by
  obtain ⟨a, rfl⟩ := isReal_iff.mp hx
  obtain ⟨b, rfl⟩ := isReal_iff.mp hy
  rw [← EReal.coe_mul]; exact isReal_coe _

/-- A finite sum of real values is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- A choice between two real values is real. -/
theorem isReal_ite {c : Prop} [Decidable c] {x y : EReal} (hx : IsReal x) (hy : IsReal y) :
    IsReal (if c then x else y) := by
  split
  · exact hx
  · exact hy

/-- The rectifier of a real value is real. -/
theorem isReal_relu {z : EReal} (h : IsReal z) : IsReal (Cert.Spec.relu z) := isReal_ite h isReal_zero

/-- A gated real value is real, whatever the gate. -/
theorem isReal_gate (z : EReal) {t : EReal} (h : IsReal t) : IsReal (Cert.Spec.gate z t) := isReal_ite h isReal_zero

/-- On a real value the difference with itself is zero. -/
theorem sub_self_of_isReal {z : EReal} (h : IsReal z) : z - z = 0 := by
  obtain ⟨a, rfl⟩ := isReal_iff.mp h
  rw [← EReal.coe_sub, sub_self, EReal.coe_zero]

end Cert.PayFwd

end
-- ==== Proof.PayLib.lean ====
/-
  What the forward kernels' arithmetic is, entry by entry, on the extended reals: the matrix unit's product against a
  transposed right operand read as a sum over the contracted axis; the three-product split of the two operands into a
  high part and a remainder collapsing to the plain product on real tiles; the bias row repeated down the rows; and the
  comparison with zero, the select on it and the 0/1 pattern it is stored as.
-/
import proofs.«172335_j35158602285651_2_alg».proof.Proof.Gen.KernelIdeal.Skeleton
import proofs.«172335_j35158602285651_2_alg».proof.Proof.Spec
import proofs.«172335_j35158602285651_2_alg».proof.Proof.PayReal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PayFwd

open Cert.KernelIdeal Cert.KernelIdeal.Gen Idealize.ShloMosaic Idealize.ShloMosaic.ValueIdx

/-! ## The contraction read at an entry -/

/-- The contraction's record: both operands contract their second axis, so the result's entry (p, q) pairs row p of
    the left operand with row q of the right one. -/
abbrev dotT : DotDims S1024x1024 S1024x1024 S1024x1024 := dot_S1024x1024_S1024x1024_S1024x1024_1_1_0_0_n_n

theorem lhs_row (i : S1024x1024.Idx) (k : dotT.contr.Idx) : (dotT.lhsIdx i k 0).val = (i 0).val := by
  unfold DotDims.lhsIdx
  rw [dif_neg (show ¬(0 : Fin S1024x1024.rank) ∈ dotT.lhsBatch by decide),
    dif_pos (show (0 : Fin S1024x1024.rank) ∈ dotT.lhsNonContracting by decide)]
  rfl

theorem lhs_col (i : S1024x1024.Idx) (k : dotT.contr.Idx) : (dotT.lhsIdx i k 1).val = (k ⟨0, by decide⟩).val :=
  dotT.lhsIdx_val_of_single rfl i k

theorem rhs_row (i : S1024x1024.Idx) (k : dotT.contr.Idx) : (dotT.rhsIdx i k 0).val = (i 1).val := by
  unfold DotDims.rhsIdx
  rw [dif_neg (show ¬(0 : Fin S1024x1024.rank) ∈ dotT.rhsBatch by decide),
    dif_pos (show (0 : Fin S1024x1024.rank) ∈ dotT.rhsNonContracting by decide)]
  rfl

theorem rhs_col (i : S1024x1024.Idx) (k : dotT.contr.Idx) : (dotT.rhsIdx i k 1).val = (k ⟨0, by decide⟩).val :=
  dotT.rhsIdx_val_of_single rfl i k

/-- The matrix unit's product into a zero accumulator, read at an entry: row p of the left operand against row q of
    the right one. -/
theorem mm_at {φ₁ φ₂ : FTy} (A : FVec Ideal S1024x1024 φ₁) (W : FVec Ideal S1024x1024 φ₂) (p q : Fin 1024) :
    matmul dotT none A W (constant (F := Ideal) S1024x1024 .f32 0x00000000#32) (ix2 p q)
      = ∑ l : Fin 1024, A (ix2 p l) * W (ix2 q l) := by
  simp only [matmul]
  rw [Ideal.matmul_constant_zero_apply, ← Equiv.sum_comp (contrEquiv1 dotT 1024 rfl rfl).symm]
  refine Finset.sum_congr rfl fun k _ => ?_
  have hk := contrEquiv1_symm_val dotT 1024 rfl rfl k
  have el : dotT.lhsIdx (ix2 p q) ((contrEquiv1 dotT 1024 rfl rfl).symm k) = ix2 p k := funext fun a => Fin.ext (by
    match a with
    | ⟨0, _⟩ => exact lhs_row _ _
    | ⟨1, _⟩ => exact (lhs_col _ _).trans hk)
  have er : dotT.rhsIdx (ix2 p q) ((contrEquiv1 dotT 1024 rfl rfl).symm k) = ix2 q k := funext fun a => Fin.ext (by
    match a with
    | ⟨0, _⟩ => exact rhs_row _ _
    | ⟨1, _⟩ => exact (rhs_col _ _).trans hk)
  rw [el, er]

/-- The three products of the split operands, added to the accumulator.  With hi(x) = x and lo(x) = x - x, and both
    tiles real, lo vanishes entry by entry, the two cross products are sums of zeros, and what is left is the
    accumulator plus the plain product. -/
theorem split_at (acc a w : S1024x1024.Idx → EReal) (ha : ∀ j, IsReal (a j)) (hw : ∀ j, IsReal (w j)) (p q : Fin 1024) :
    acc (ix2 p q) + ((∑ l : Fin 1024, a (ix2 p l) * w (ix2 q l)
        + ∑ l : Fin 1024, a (ix2 p l) * (w (ix2 q l) - w (ix2 q l)))
        + ∑ l : Fin 1024, (a (ix2 p l) - a (ix2 p l)) * w (ix2 q l))
      = acc (ix2 p q) + ∑ l : Fin 1024, a (ix2 p l) * w (ix2 q l) := by
  have h1 : ∑ l : Fin 1024, a (ix2 p l) * (w (ix2 q l) - w (ix2 q l)) = 0 :=
    Finset.sum_eq_zero fun l _ => by rw [sub_self_of_isReal (hw _), mul_zero]
  have h2 : ∑ l : Fin 1024, (a (ix2 p l) - a (ix2 p l)) * w (ix2 q l) = 0 :=
    Finset.sum_eq_zero fun l _ => by rw [sub_self_of_isReal (ha _), zero_mul]
  rw [h1, h2, add_zero, add_zero]

/-! ## The bias row and the rectifier read at an entry -/

/-- The bias vector, made a one-row matrix and repeated down the rows, read at an entry: the bias at the column. -/
theorem bias_at {α : Type} (b : S1024.Idx → α) (h1 : S1024.ShapeCasts S1x1024) (h2 : S1x1024.Broadcasts S1024x1024)
    (p q : Fin 1024) : broadcastTo S1024x1024 (shapeCast S1x1024 b h1) h2 (ix2 p q) = b (ix1 q) := by
  rw [broadcastTo_1b_ab_apply, shapeCast_a_1a_apply]

/-- The comparison "greater than zero" on the extended reals, as a bit. -/
theorem cmp_ogt_zero (z : EReal) :
    FloatOps.cmpf (F := Ideal) (φ := .f32) .ogt z (Scalar.ofBits (F := Ideal) .f32 0x00000000#32) = BitVec.ofBool (decide (0 < z)) := by
  show Ideal.cmp .ogt z (Ideal.ofBits .f32 0x00000000#32) = _
  rw [Ideal.ofBits_zero_f32]; rfl

/-- A select on the bit of a decided proposition is the if-then-else. -/
theorem select_ofBool {α : Type} (c : Prop) [Decidable c] (x y : α) :
    Scalar.select (BitVec.ofBool (decide c)) x y = if c then x else y := by
  by_cases h : c
  · rw [if_pos h, decide_eq_true h]; exact select_one x y
  · rw [if_neg h, decide_eq_false h]; exact select_zero x y

/-- The bit of a decided proposition, widened to a word and read as a signed integer, is 1 or 0. -/
theorem sitofp_ofBool (c : Prop) [Decidable c] :
    FloatOps.sitofp (F := Ideal) .f32 ((BitVec.ofBool (decide c)).setWidth 32) = if c then (1 : EReal) else 0 := by
  by_cases h : c
  · rw [if_pos h, decide_eq_true h]
    show (((BitVec.setWidth 32 (BitVec.ofBool true)).toInt : ℝ) : EReal) = 1
    rw [show (BitVec.setWidth 32 (BitVec.ofBool true)).toInt = 1 by decide]; simp
  · rw [if_neg h, decide_eq_false h]
    show (((BitVec.setWidth 32 (BitVec.ofBool false)).toInt : ℝ) : EReal) = 0
    rw [show (BitVec.setWidth 32 (BitVec.ofBool false)).toInt = 0 by decide]; simp

end Cert.PayFwd

end
-- ==== Proof.PayK0.lean ====
/-
  The first layer's stored values read at an entry: the cleared accumulator is 0; one step adds the product of the two
  loaded tiles (row p of the activations against row q of the weights) to the accumulator; the last step adds the bias
  at the column and stores the rectified sum and, as 0/1, whether the sum is positive.
-/
import proofs.«172335_j35158602285651_2_alg».proof.Proof.Gen.KernelIdeal.Skeleton
import proofs.«172335_j35158602285651_2_alg».proof.Proof.Spec
import proofs.«172335_j35158602285651_2_alg».proof.Proof.PayLib
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PayFwd

open Cert.KernelIdeal Cert.KernelIdeal.Gen Idealize.ShloMosaic Idealize.ShloMosaic.ValueIdx

/-! ## The first layer's payloads -/

theorem k0_pay1_at (p q : Fin 1024) : k0_pay1 (F := Ideal) (ix2 p q) = 0 := by
  unfold k0_pay1
  rw [shapeCast_self, broadcast_apply]
  exact Ideal.ofBits_zero_f32

theorem k0_pay2_at (acc a w : Vec Ideal S1024x1024 .f32) (ha : ∀ j, IsReal (a j)) (hw : ∀ j, IsReal (w j))
    (p q : Fin 1024) :
    k0_pay2 (F := Ideal) acc a w (ix2 p q) = acc (ix2 p q) + ∑ l : Fin 1024, a (ix2 p l) * w (ix2 q l) := by
  unfold k0_pay2
  rw [shapeCast_self]
  simp only [addf_apply]
  rw [mm_at, mm_at, mm_at]
  simp only [truncf_apply, subf_apply]
  exact split_at acc a w ha hw p q

theorem k0_pay3_at (acc : Vec Ideal S1024x1024 .f32) (b : Vec Ideal S1024 .f32) (p q : Fin 1024) :
    k0_pay3 (F := Ideal) acc b (ix2 p q) = acc (ix2 p q) + b (ix1 q) := by
  unfold k0_pay3
  rw [addf_apply, bias_at]

theorem k0_pay4_at (acc : Vec Ideal S1024x1024 .f32) (b : Vec Ideal S1024 .f32) (p q : Fin 1024) :
    k0_pay4 (F := Ideal) acc b (ix2 p q) = BitVec.ofBool (decide (0 < acc (ix2 p q) + b (ix1 q))) := by
  unfold k0_pay4
  rw [cmpf_apply, k0_pay3_at, broadcast_apply]
  exact cmp_ogt_zero _

theorem k0_pay5_at (acc : Vec Ideal S1024x1024 .f32) (b : Vec Ideal S1024 .f32) (p q : Fin 1024) :
    k0_pay5 (F := Ideal) acc b (ix2 p q) = Cert.Spec.relu (acc (ix2 p q) + b (ix1 q)) := by
  unfold k0_pay5
  rw [select_apply, k0_pay4_at, k0_pay3_at, broadcast_apply, select_ofBool]
  show (if _ then _ else Ideal.ofBits .f32 0x00000000#32) = _
  rw [Ideal.ofBits_zero_f32]; rfl

theorem k0_pay6_at (acc : Vec Ideal S1024x1024 .f32) (b : Vec Ideal S1024 .f32) (p q : Fin 1024) :
    k0_pay6 (F := Ideal) acc b (ix2 p q) = if 0 < acc (ix2 p q) + b (ix1 q) then 1 else 0 := by
  unfold k0_pay6
  rw [truncf_apply, sitofp_apply, extui_apply, k0_pay4_at]
  exact sitofp_ofBool _

end Cert.PayFwd

end
-- ==== Proof.KI.F0.lean ====
import proofs.«172335_j35158602285651_2_alg».proof.Proof.KI.R0
import proofs.«172335_j35158602285651_2_alg».proof.Proof.KI.V0
import proofs.«172335_j35158602285651_2_alg».proof.Proof.PayK0
import proofs.«172335_j35158602285651_2_alg».proof.Proof.PayReal
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open Cert.PayFwd (IsReal)

/-! From blocks to the array for the first layer's call: each of the 32 grid points writes one [1024,1024] block of the
    activation and of its 0/1 pattern, computed from a row tile of the input, a row tile of the weights and a slice of the
    bias; the blocks tile the two [8192,4096] arrays. -/

section F0
variable (V : (c : Dev nD) → (b : Ref sig .tc) → Buf (Elt Ideal) ((c : Thread nD τ).loc b))

/-- The printed index maps over the grid: point t is block row t / 4 and block column t % 4. -/
theorem idx_facts0 : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 1) = t.val % 4
    ∧ win0_3.index t (0 : Fin 2) = t.val / 4 ∧ win0_3.index t (1 : Fin 2) = t.val % 4
    ∧ win0_4.index t (0 : Fin 2) = t.val / 4 ∧ win0_4.index t (1 : Fin 2) = t.val % 4 :=
  (by decide +kernel : ∀ t : Fin grid0.N, _)

/-- The block's stored activation at an entry, for tiles known by what they read from the arrays. -/
theorem point0_3 (A0 : S8192x1024.Idx → EReal) (A1 : S4096x1024.Idx → EReal) (A2 : S4096.Idx → EReal)
    (x0 x1 : Vec Ideal S1024x1024 .f32) (x2 : Vec Ideal S1024 .f32) (r : Fin 1024 → Fin 8192) (s : Fin 1024 → Fin 4096)
    (h0 : ∀ p l, x0 (ix2 p l) = A0 (ix2 (r p) l)) (h1 : ∀ q l, x1 (ix2 q l) = A1 (ix2 (s q) l))
    (h2 : ∀ q, x2 (ix1 q) = A2 (ix1 (s q))) (hr0 : ∀ y, IsReal (x0 y)) (hr1 : ∀ y, IsReal (x1 y)) (p q : Fin 1024) :
    k0_pay5 (k0_pay2 (k0_pay1 (F := Ideal)) x0 x1) x2 (ix2 p q)
      = Cert.Spec.h1 (Cert.Spec.mat A0) (Cert.Spec.mat A1) (Cert.Spec.vec A2) (r p) (s q) := by
  rw [Cert.PayFwd.k0_pay5_at, Cert.PayFwd.k0_pay2_at _ _ _ hr0 hr1, Cert.PayFwd.k0_pay1_at, zero_add]
  unfold Cert.Spec.h1 Cert.Spec.z1 Cert.Spec.lin
  refine congrArg Cert.Spec.relu (congrArg₂ (· + ·) (Finset.sum_congr rfl fun l _ => ?_) (h2 q))
  rw [h0, h1]
  rfl

/-- The block's stored 0/1 pattern at an entry. -/
theorem point0_4 (A0 : S8192x1024.Idx → EReal) (A1 : S4096x1024.Idx → EReal) (A2 : S4096.Idx → EReal)
    (x0 x1 : Vec Ideal S1024x1024 .f32) (x2 : Vec Ideal S1024 .f32) (r : Fin 1024 → Fin 8192) (s : Fin 1024 → Fin 4096)
    (h0 : ∀ p l, x0 (ix2 p l) = A0 (ix2 (r p) l)) (h1 : ∀ q l, x1 (ix2 q l) = A1 (ix2 (s q) l))
    (h2 : ∀ q, x2 (ix1 q) = A2 (ix1 (s q))) (hr0 : ∀ y, IsReal (x0 y)) (hr1 : ∀ y, IsReal (x1 y)) (p q : Fin 1024) :
    k0_pay6 (k0_pay2 (k0_pay1 (F := Ideal)) x0 x1) x2 (ix2 p q)
      = if 0 < Cert.Spec.z1 (Cert.Spec.mat A0) (Cert.Spec.mat A1) (Cert.Spec.vec A2) (r p) (s q) then (1 : EReal) else 0 := by
  rw [Cert.PayFwd.k0_pay6_at, Cert.PayFwd.k0_pay2_at _ _ _ hr0 hr1, Cert.PayFwd.k0_pay1_at, zero_add]
  unfold Cert.Spec.z1 Cert.Spec.lin
  have e : (∑ l : Fin 1024, x0 (ix2 p l) * x1 (ix2 q l)) + x2 (ix1 q)
      = (∑ k : Fin 1024, Cert.Spec.mat A0 (r p) k * Cert.Spec.mat A1 (s q) k) + Cert.Spec.vec A2 (s q) :=
    congrArg₂ (· + ·) (Finset.sum_congr rfl fun l _ => by rw [h0, h1]; rfl) (h2 q)
  rw [e]

/-- The grid has 32 points. -/
theorem t_lt0 (t : Fin cfg0.N) : t.val < 32 := lt_of_lt_of_eq t.isLt N_0

/-- The array row of row p of block row t / 4, and the array column of column q of block column t % 4. -/
def row0 (t : Fin cfg0.N) (p : Fin 1024) : Fin 8192 := ⟨1024 * (t.val / 4) + p.val, by have := t_lt0 t; have := p.isLt; omega⟩
def col0 (t : Fin cfg0.N) (q : Fin 1024) : Fin 4096 := ⟨1024 * (t.val % 4) + q.val, by have := q.isLt; omega⟩

/-- Row tile t / 4 of the input, read at an entry. -/
theorem blk0_0_at (c : Dev nD) (t : Fin cfg0.N) (p l : Fin 1024) :
    iblk0 V c 0 t (ix2 p l) = V c main_arg0 (ix2 (row0 t p) l) := by
  obtain ⟨e00, e01, -⟩ := idx_facts0 t
  show V c main_arg0 (((cfg0.win 0).blk t).view.emb (ix2 p l)) = _
  refine congrArg (V c main_arg0) (funext fun a => Fin.ext ?_)
  match a with
  | ⟨0, _⟩ => show win0_0.index t (0 : Fin 2) * 1024 + 1 * p.val = 1024 * (t.val / 4) + p.val; omega
  | ⟨1, _⟩ => show win0_0.index t (1 : Fin 2) * 1024 + 1 * l.val = l.val; omega

/-- Row tile t % 4 of the weights, read at an entry. -/
theorem blk0_1_at (c : Dev nD) (t : Fin cfg0.N) (q l : Fin 1024) :
    iblk0 V c 1 t (ix2 q l) = V c main_arg2 (ix2 (col0 t q) l) := by
  obtain ⟨-, -, e10, e11, -⟩ := idx_facts0 t
  show V c main_arg2 (((cfg0.win 1).blk t).view.emb (ix2 q l)) = _
  refine congrArg (V c main_arg2) (funext fun a => Fin.ext ?_)
  match a with
  | ⟨0, _⟩ => show win0_1.index t (0 : Fin 2) * 1024 + 1 * q.val = 1024 * (t.val % 4) + q.val; omega
  | ⟨1, _⟩ => show win0_1.index t (1 : Fin 2) * 1024 + 1 * l.val = l.val; omega

/-- Slice t % 4 of the bias, read at an entry. -/
theorem blk0_2_at (c : Dev nD) (t : Fin cfg0.N) (q : Fin 1024) :
    iblk0 V c 2 t (ix1 q) = V c main_arg3 (ix1 (col0 t q)) := by
  obtain ⟨-, -, -, -, e20, -⟩ := idx_facts0 t
  show V c main_arg3 (((cfg0.win 2).blk t).view.emb (ix1 q)) = _
  refine congrArg (V c main_arg3) (funext fun a => Fin.ext ?_)
  match a with
  | ⟨0, _⟩ => show win0_2.index t (0 : Fin 1) * 1024 + 1 * q.val = 1024 * (t.val % 4) + q.val; omega

/-- The activation, and its 0/1 pattern, as arrays. -/
def G0_3 (c : Dev nD) : S8192x4096.Idx → EReal := fun idx =>
  Cert.Spec.h1 (Cert.Spec.mat (V c main_arg0)) (Cert.Spec.mat (V c main_arg2)) (Cert.Spec.vec (V c main_arg3)) (idx 0) (idx 1)
def G0_4 (c : Dev nD) : S8192x4096.Idx → EReal := fun idx =>
  if 0 < Cert.Spec.z1 (Cert.Spec.mat (V c main_arg0)) (Cert.Spec.mat (V c main_arg2)) (Cert.Spec.vec (V c main_arg3)) (idx 0) (idx 1) then (1 : EReal) else 0

section Blocks

/-- What the two outputs' staging buffers hold after the body at point t, as the body's payloads of the three blocks. -/
theorem hout3 (c : Dev nD) (t : Fin cfg0.N) : outsAt0_3 V c t = k0_pay5 (k0_pay2 (k0_pay1 (F := Ideal)) (iblk0 V c 0 t) (iblk0 V c 1 t)) (iblk0 V c 2 t) := by
  unfold outsAt0_3
  exact out0_3_eq _ _ _ _ _ _ _ _ _ _ _ _ _ _ _ _ _ _ _
theorem hout4 (c : Dev nD) (t : Fin cfg0.N) : outsAt0_4 V c t = k0_pay6 (k0_pay2 (k0_pay1 (F := Ideal)) (iblk0 V c 0 t) (iblk0 V c 1 t)) (iblk0 V c 2 t) := by
  unfold outsAt0_4
  exact out0_4_eq _ _ _ _ _ _ _ _ _ _ _ _ _ _ _ _ _ _ _

/-- What point t writes back to the activation's array is block t of the activation. -/
theorem flushed0_3_eq (c : Dev nD) (hx : ∀ j, IsReal (V c main_arg0 j)) (hw : ∀ j, IsReal (V c main_arg2 j)) (t : Fin cfg0.N) :
    (dat0 V c).flushed 3 t = ((cfg0.win 3).blk t).view.read (Elt Ideal) (G0_3 V c) := by
  show (cfg0.win 3).cut (grid0.coords t) ((dat0 V c).after 3 t) = _
  rw [after0_3, hout3 V c t]
  obtain ⟨-, -, -, -, -, e30, e31, -, -⟩ := idx_facts0 t
  funext y
  show k0_pay5 (k0_pay2 (k0_pay1 (F := Ideal)) (iblk0 V c 0 t) (iblk0 V c 1 t)) (iblk0 V c 2 t) ((cfg0.win 3).xinj (grid0.coords t) y) = G0_3 V c (((cfg0.win 3).blk t).view.emb y)
  have hy : (cfg0.win 3).xinj (grid0.coords t) y
      = ix2 (⟨(y 0).val, (y 0).isLt⟩ : Fin 1024) (⟨(y 1).val, (y 1).isLt⟩ : Fin 1024) :=
    funext fun a => by match a with | ⟨0, _⟩ => rfl | ⟨1, _⟩ => rfl
  refine ((congrArg (k0_pay5 (k0_pay2 (k0_pay1 (F := Ideal)) (iblk0 V c 0 t) (iblk0 V c 1 t)) (iblk0 V c 2 t)) hy).trans
    (point0_3 (V c main_arg0) (V c main_arg2) (V c main_arg3) (iblk0 V c 0 t) (iblk0 V c 1 t) (iblk0 V c 2 t)
      (row0 t) (col0 t) (blk0_0_at V c t) (blk0_1_at V c t) (blk0_2_at V c t)
      (fun z => hx (((cfg0.win 0).blk t).view.emb z)) (fun z => hw (((cfg0.win 1).blk t).view.emb z)) _ _)).trans ?_
  refine congrArg₂ (Cert.Spec.h1 (Cert.Spec.mat (V c main_arg0)) (Cert.Spec.mat (V c main_arg2)) (Cert.Spec.vec (V c main_arg3))) (Fin.ext ?_) (Fin.ext ?_)
  · show 1024 * (t.val / 4) + (y 0).val = win0_3.index t (0 : Fin 2) * 1024 + 1 * (y 0).val; omega
  · show 1024 * (t.val % 4) + (y 1).val = win0_3.index t (1 : Fin 2) * 1024 + 1 * (y 1).val; omega

/-- What point t writes back to the pattern's array is block t of the pattern. -/
theorem flushed0_4_eq (c : Dev nD) (hx : ∀ j, IsReal (V c main_arg0 j)) (hw : ∀ j, IsReal (V c main_arg2 j)) (t : Fin cfg0.N) :
    (dat0 V c).flushed 4 t = ((cfg0.win 4).blk t).view.read (Elt Ideal) (G0_4 V c) := by
  show (cfg0.win 4).cut (grid0.coords t) ((dat0 V c).after 4 t) = _
  rw [after0_4, hout4 V c t]
  obtain ⟨-, -, -, -, -, -, -, e40, e41⟩ := idx_facts0 t
  funext y
  show k0_pay6 (k0_pay2 (k0_pay1 (F := Ideal)) (iblk0 V c 0 t) (iblk0 V c 1 t)) (iblk0 V c 2 t) ((cfg0.win 4).xinj (grid0.coords t) y) = G0_4 V c (((cfg0.win 4).blk t).view.emb y)
  have hy : (cfg0.win 4).xinj (grid0.coords t) y
      = ix2 (⟨(y 0).val, (y 0).isLt⟩ : Fin 1024) (⟨(y 1).val, (y 1).isLt⟩ : Fin 1024) :=
    funext fun a => by match a with | ⟨0, _⟩ => rfl | ⟨1, _⟩ => rfl
  refine ((congrArg (k0_pay6 (k0_pay2 (k0_pay1 (F := Ideal)) (iblk0 V c 0 t) (iblk0 V c 1 t)) (iblk0 V c 2 t)) hy).trans
    (point0_4 (V c main_arg0) (V c main_arg2) (V c main_arg3) (iblk0 V c 0 t) (iblk0 V c 1 t) (iblk0 V c 2 t)
      (row0 t) (col0 t) (blk0_0_at V c t) (blk0_1_at V c t) (blk0_2_at V c t)
      (fun z => hx (((cfg0.win 0).blk t).view.emb z)) (fun z => hw (((cfg0.win 1).blk t).view.emb z)) _ _)).trans ?_
  have er : row0 t (⟨(y 0).val, (y 0).isLt⟩ : Fin 1024) = ((((cfg0.win 4).blk t).view.emb y) 0 : Fin 8192) := Fin.ext (by
    show 1024 * (t.val / 4) + (y 0).val = win0_4.index t (0 : Fin 2) * 1024 + 1 * (y 0).val; omega)
  have ec : col0 t (⟨(y 1).val, (y 1).isLt⟩ : Fin 1024) = ((((cfg0.win 4).blk t).view.emb y) 1 : Fin 4096) := Fin.ext (by
    show 1024 * (t.val % 4) + (y 1).val = win0_4.index t (1 : Fin 2) * 1024 + 1 * (y 1).val; omega)
  rw [er, ec]
  rfl

/-- An index of an [8192,4096] output is in point t's block iff each coordinate is in the block's range on its axis. -/
theorem mem_blk0_3 (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0_0).slice (win0_3.rect t)).set ↔ _
  rw [View.set_slice_whole, Rect.mem_set_unit]
  exact Iff.rfl
theorem mem_blk0_4 (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v0_1).slice (win0_4.rect t)).set ↔ _
  rw [View.set_slice_whole, Rect.mem_set_unit]
  exact Iff.rfl

/-- The point whose block holds entry (r, q): block row r / 1024, block column q / 1024. -/
def pointOf0 (i : S8192x4096.Idx) : Fin cfg0.N :=
  ⟨4 * ((i 0).val / 1024) + (i 1).val / 1024, by
    have h0 : (i 0).val < 8192 := (i 0).isLt
    have h1 : (i 1).val < 4096 := (i 1).isLt
    rw [show cfg0.N = 32 from N_0]; omega⟩

/-- The 32 blocks tile each output. -/
theorem tiles0_3 (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  obtain ⟨-, -, -, -, -, e30, e31, -, -⟩ := idx_facts0 (pointOf0 i)
  have tv : (pointOf0 i).val = 4 * ((i 0).val / 1024) + (i 1).val / 1024 := rfl
  refine ⟨pointOf0 i, flush0_3 _, ?_⟩
  rw [mem_blk0_3]
  intro a
  match a with
  | ⟨0, _⟩ =>
    show win0_3.index (pointOf0 i) (0 : Fin 2) * 1024 ≤ (i 0).val ∧ (i 0).val < win0_3.index (pointOf0 i) (0 : Fin 2) * 1024 + 1024
    omega
  | ⟨1, _⟩ =>
    show win0_3.index (pointOf0 i) (1 : Fin 2) * 1024 ≤ (i 1).val ∧ (i 1).val < win0_3.index (pointOf0 i) (1 : Fin 2) * 1024 + 1024
    omega
theorem tiles0_4 (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  obtain ⟨-, -, -, -, -, -, -, e40, e41⟩ := idx_facts0 (pointOf0 i)
  have tv : (pointOf0 i).val = 4 * ((i 0).val / 1024) + (i 1).val / 1024 := rfl
  refine ⟨pointOf0 i, flush0_4 _, ?_⟩
  rw [mem_blk0_4]
  intro a
  match a with
  | ⟨0, _⟩ =>
    show win0_4.index (pointOf0 i) (0 : Fin 2) * 1024 ≤ (i 0).val ∧ (i 0).val < win0_4.index (pointOf0 i) (0 : Fin 2) * 1024 + 1024
    omega
  | ⟨1, _⟩ =>
    show win0_4.index (pointOf0 i) (1 : Fin 2) * 1024 ≤ (i 1).val ∧ (i 1).val < win0_4.index (pointOf0 i) (1 : Fin 2) * 1024 + 1024
    omega

/-- After the call the first output array is the first layer's activation. -/
theorem final0_3 (c : Dev nD) (hx : ∀ j, IsReal (V c main_arg0 j)) (hw : ∀ j, IsReal (V c main_arg2 j)) :
    (dat0 (F := Ideal) V c).arrAt 3 cfg0.N = fun idx : S8192x4096.Idx =>
      Cert.Spec.h1 (Cert.Spec.mat (V c main_arg0)) (Cert.Spec.mat (V c main_arg2)) (Cert.Spec.vec (V c main_arg3)) (idx 0) (idx 1) :=
  (dat0 V c).arrAt_eq_of_cover 3 (G0_3 V c) (fun t _ => flushed0_3_eq V c hx hw t) tiles0_3

/-- After the call the second output array is the 0/1 pattern of "the first layer's pre-activation is positive". -/
theorem final0_4 (c : Dev nD) (hx : ∀ j, IsReal (V c main_arg0 j)) (hw : ∀ j, IsReal (V c main_arg2 j)) :
    (dat0 (F := Ideal) V c).arrAt 4 cfg0.N = fun idx : S8192x4096.Idx =>
      if 0 < Cert.Spec.z1 (Cert.Spec.mat (V c main_arg0)) (Cert.Spec.mat (V c main_arg2)) (Cert.Spec.vec (V c main_arg3)) (idx 0) (idx 1) then (1 : EReal) else 0 :=
  (dat0 V c).arrAt_eq_of_cover 4 (G0_4 V c) (fun t _ => flushed0_4_eq V c hx hw t) tiles0_4

end Blocks

end F0

end Cert.KernelIdeal.Hand
-- ==== Proof.KI.V1.lean ====
/-
  The second forward layer's stored pieces read back, in each of the body's three situations (first, middle and last
  reduction step).  Every store writes a whole buffer, so what a buffer ends with is its last store's value, and each
  load of the accumulator reads the value stored just before it, or what the step before left when nothing was stored.
-/
import proofs.«172335_j35158602285651_2_alg».proof.Proof.KI.R1

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle, at rank two and rank one. -/
theorem hz2_1 : (![0, 0] : Fin 2 → Nat) = fun _ => 0 := funext fun a => by fin_cases a <;> rfl
theorem hz1_1 : (![0] : Fin 1 → Nat) = fun _ => 0 := funext fun a => by fin_cases a <;> rfl

/-- The accumulator after the first reduction step: cleared, then the step's product added. -/
theorem sout1_A_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬k1_cond2 i = 1#1)
    (x0 : Vec F S1024x1024 .f32) (x1 : Vec F S1024x1024 .f32) (x2 : Vec F S1024 .f32) :
    sout1_A c i arg3 harg3 arg4 harg4 arg5 harg5 arg6 harg6 arg7 harg7 arg8 harg8 hc0 hc1 x0 x1 x2 = k1_pay2 (k1_pay1 (F := F)) x0 x1 := by
  unfold sout1_A
  rw [View.read_writes_eq_canon _ _ _ (scover1_A c i arg3 harg3 arg4 harg4 arg5 harg5 arg6 harg6 arg7 harg7 arg8 harg8 hc0 hc1 x0 x1 x2)]
  unfold kernelRun1_A
  dsimp only
  sl_unfold_words
  rw [View.canon_cons_unit_zero hz2_1]
  simp only [View.readCov_cons_toLoadRect, View.readAt_eq_ld, harg3.read_unread, harg4.read_unread, harg5.read_unread,
    harg6.read_unread, harg8.read_unread, View.ld_unit_zero (S := S1024x1024) hz2_1, View.ld_unit_zero (S := S1024) hz1_1]

/-- The accumulator after a middle reduction step: the step's product added to what the step before left. -/
theorem sout1_B_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬k1_cond2 i = 1#1)
    (x0 : Vec F S1024x1024 .f32) (x1 : Vec F S1024x1024 .f32) (x2 : Vec F S1024 .f32) (xs : Vec F S1024x1024 .f32) :
    sout1_B c i arg3 harg3 arg4 harg4 arg5 harg5 arg6 harg6 arg7 harg7 arg8 harg8 hc0 hc1 x0 x1 x2 xs = k1_pay2 xs x0 x1 := by
  unfold sout1_B
  rw [View.read_writes_eq_canon _ _ _ (scover1_B c i arg3 harg3 arg4 harg4 arg5 harg5 arg6 harg6 arg7 harg7 arg8 harg8 hc0 hc1 x0 x1 x2 xs)]
  unfold kernelRun1_B
  dsimp only
  sl_unfold_words
  rw [View.canon_cons_unit_zero hz2_1]
  simp only [View.readCov_cons_toLoadRect, View.readAt_eq_ld, harg3.read_unread, harg4.read_unread, harg5.read_unread,
    harg6.read_unread, harg8.read_unread, View.ld_unit_zero (S := S1024x1024) hz2_1, View.ld_unit_zero (S := S1024) hz1_1]

/-- The accumulator after the last reduction step: the step's product added to what the step before left. -/
theorem sout1_C_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1)
    (x0 : Vec F S1024x1024 .f32) (x1 : Vec F S1024x1024 .f32) (x2 : Vec F S1024 .f32) (xs : Vec F S1024x1024 .f32) :
    sout1_C c i arg3 harg3 arg4 harg4 arg5 harg5 arg6 harg6 arg7 harg7 arg8 harg8 hc0 hc1 x0 x1 x2 xs = k1_pay2 xs x0 x1 := by
  unfold sout1_C
  rw [View.read_writes_eq_canon _ _ _ (scover1_C c i arg3 harg3 arg4 harg4 arg5 harg5 arg6 harg6 arg7 harg7 arg8 harg8 hc0 hc1 x0 x1 x2 xs)]
  unfold kernelRun1_C
  dsimp only
  sl_unfold_words
  rw [View.canon_cons_unit_zero hz2_1]
  simp only [View.readCov_cons_toLoadRect, View.readAt_eq_ld, harg3.read_unread, harg4.read_unread, harg5.read_unread,
    harg6.read_unread, harg8.read_unread, View.ld_unit_zero (S := S1024x1024) hz2_1, View.ld_unit_zero (S := S1024) hz1_1]

/-- The first output's tile after the last step: the bias added to the finished accumulator and the sum rectified. -/
theorem out1_C_3_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1)
    (x0 : Vec F S1024x1024 .f32) (x1 : Vec F S1024x1024 .f32) (x2 : Vec F S1024 .f32) (xs : Vec F S1024x1024 .f32) :
    out1_C_3 c i arg3 harg3 arg4 harg4 arg5 harg5 arg6 harg6 arg7 harg7 arg8 harg8 hc0 hc1 x0 x1 x2 xs = k1_pay5 (k1_pay2 xs x0 x1) x2 := by
  unfold out1_C_3
  rw [View.read_writes_eq_canon _ _ _ (cover1_C_3 c i arg3 harg3 arg4 harg4 arg5 harg5 arg6 harg6 arg7 harg7 arg8 harg8 hc0 hc1 x0 x1 x2 xs)]
  unfold kernelRun1_C
  dsimp only
  sl_unfold_words
  rw [View.canon_cons_unit_zero hz2_1]
  simp only [View.readCov_cons_toLoadRect, View.readAt_eq_ld, harg3.read_unread, harg4.read_unread, harg5.read_unread,
    harg6.read_unread, harg8.read_unread, View.ld_unit_zero (S := S1024x1024) hz2_1, View.ld_unit_zero (S := S1024) hz1_1]

/-- The second output's tile after the last step: the same sum's sign pattern as zeros and ones. -/
theorem out1_C_4_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : k1_cond2 i = 1#1)
    (x0 : Vec F S1024x1024 .f32) (x1 : Vec F S1024x1024 .f32) (x2 : Vec F S1024 .f32) (xs : Vec F S1024x1024 .f32) :
    out1_C_4 c i arg3 harg3 arg4 harg4 arg5 harg5 arg6 harg6 arg7 harg7 arg8 harg8 hc0 hc1 x0 x1 x2 xs = k1_pay6 (k1_pay2 xs x0 x1) x2 := by
  unfold out1_C_4
  rw [View.read_writes_eq_canon _ _ _ (cover1_C_4 c i arg3 harg3 arg4 harg4 arg5 harg5 arg6 harg6 arg7 harg7 arg8 harg8 hc0 hc1 x0 x1 x2 xs)]
  unfold kernelRun1_C
  dsimp only
  sl_unfold_words
  rw [View.canon_cons_unit_zero hz2_1]
  simp only [View.readCov_cons_toLoadRect, View.readAt_eq_ld, harg3.read_unread, harg4.read_unread, harg5.read_unread,
    harg6.read_unread, harg8.read_unread, View.ld_unit_zero (S := S1024x1024) hz2_1, View.ld_unit_zero (S := S1024) hz1_1]

end Cert.KernelIdeal.Hand

end
-- ==== Proof.PayK1.lean ====
/-
  The second layer's stored values read at an entry: the cleared accumulator is 0; one step adds the product of the two
  loaded tiles (row p of the activations against row q of the weights) to the accumulator; the last step adds the bias
  at the column and stores the rectified sum and, as 0/1, whether the sum is positive.
-/
import proofs.«172335_j35158602285651_2_alg».proof.Proof.Gen.KernelIdeal.Skeleton
import proofs.«172335_j35158602285651_2_alg».proof.Proof.Spec
import proofs.«172335_j35158602285651_2_alg».proof.Proof.PayLib
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PayFwd

open Cert.KernelIdeal Cert.KernelIdeal.Gen Idealize.ShloMosaic Idealize.ShloMosaic.ValueIdx

/-! ## The second layer's payloads -/

theorem k1_pay1_at (p q : Fin 1024) : k1_pay1 (F := Ideal) (ix2 p q) = 0 := by
  unfold k1_pay1
  rw [shapeCast_self, broadcast_apply]
  exact Ideal.ofBits_zero_f32

theorem k1_pay2_at (acc a w : Vec Ideal S1024x1024 .f32) (ha : ∀ j, IsReal (a j)) (hw : ∀ j, IsReal (w j))
    (p q : Fin 1024) :
    k1_pay2 (F := Ideal) acc a w (ix2 p q) = acc (ix2 p q) + ∑ l : Fin 1024, a (ix2 p l) * w (ix2 q l) := by
  unfold k1_pay2
  simp only [shapeCast_self]
  simp only [addf_apply]
  rw [mm_at, mm_at, mm_at]
  simp only [truncf_apply, subf_apply]
  exact split_at acc a w ha hw p q

theorem k1_pay3_at (acc : Vec Ideal S1024x1024 .f32) (b : Vec Ideal S1024 .f32) (p q : Fin 1024) :
    k1_pay3 (F := Ideal) acc b (ix2 p q) = acc (ix2 p q) + b (ix1 q) := by
  unfold k1_pay3
  rw [addf_apply, bias_at]

theorem k1_pay4_at (acc : Vec Ideal S1024x1024 .f32) (b : Vec Ideal S1024 .f32) (p q : Fin 1024) :
    k1_pay4 (F := Ideal) acc b (ix2 p q) = BitVec.ofBool (decide (0 < acc (ix2 p q) + b (ix1 q))) := by
  unfold k1_pay4
  rw [cmpf_apply, k1_pay3_at, broadcast_apply]
  exact cmp_ogt_zero _

theorem k1_pay5_at (acc : Vec Ideal S1024x1024 .f32) (b : Vec Ideal S1024 .f32) (p q : Fin 1024) :
    k1_pay5 (F := Ideal) acc b (ix2 p q) = Cert.Spec.relu (acc (ix2 p q) + b (ix1 q)) := by
  unfold k1_pay5
  rw [select_apply, k1_pay4_at, k1_pay3_at, broadcast_apply, select_ofBool]
  show (if _ then _ else Ideal.ofBits .f32 0x00000000#32) = _
  rw [Ideal.ofBits_zero_f32]; rfl

theorem k1_pay6_at (acc : Vec Ideal S1024x1024 .f32) (b : Vec Ideal S1024 .f32) (p q : Fin 1024) :
    k1_pay6 (F := Ideal) acc b (ix2 p q) = if 0 < acc (ix2 p q) + b (ix1 q) then 1 else 0 := by
  unfold k1_pay6
  rw [truncf_apply, sitofp_apply, extui_apply, k1_pay4_at]
  exact sitofp_ofBool _

end Cert.PayFwd

end
-- ==== Proof.PayK2.lean ====
/-
  The third layer's stored values read at an entry: the cleared accumulator is 0; one step adds the product of the two
  loaded tiles (row p of the activations against row q of the weights) to the accumulator; the last step adds the bias
  at the column and then the residual tile's entry.
-/
import proofs.«172335_j35158602285651_2_alg».proof.Proof.Gen.KernelIdeal.Skeleton
import proofs.«172335_j35158602285651_2_alg».proof.Proof.Spec
import proofs.«172335_j35158602285651_2_alg».proof.Proof.PayLib
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PayFwd

open Cert.KernelIdeal Cert.KernelIdeal.Gen Idealize.ShloMosaic Idealize.ShloMosaic.ValueIdx

/-! ## The third layer's payloads -/

theorem k2_pay1_at (p q : Fin 1024) : k2_pay1 (F := Ideal) (ix2 p q) = 0 := by
  unfold k2_pay1
  rw [shapeCast_self, broadcast_apply]
  exact Ideal.ofBits_zero_f32

theorem k2_pay2_at (acc a w : Vec Ideal S1024x1024 .f32) (ha : ∀ j, IsReal (a j)) (hw : ∀ j, IsReal (w j))
    (p q : Fin 1024) :
    k2_pay2 (F := Ideal) acc a w (ix2 p q) = acc (ix2 p q) + ∑ l : Fin 1024, a (ix2 p l) * w (ix2 q l) := by
  unfold k2_pay2
  simp only [shapeCast_self]
  simp only [addf_apply]
  rw [mm_at, mm_at, mm_at]
  simp only [truncf_apply, subf_apply]
  exact split_at acc a w ha hw p q

theorem k2_pay3_at (acc : Vec Ideal S1024x1024 .f32) (b : Vec Ideal S1024 .f32) (res : Vec Ideal S1024x1024 .f32)
    (p q : Fin 1024) :
    k2_pay3 (F := Ideal) acc b res (ix2 p q) = acc (ix2 p q) + b (ix1 q) + res (ix2 p q) := by
  unfold k2_pay3
  rw [addf_apply, addf_apply, bias_at]

end Cert.PayFwd

end
-- ==== Proof.PayAcc.lean ====
/-
  Four accumulation steps as one sum.  A reduction over a contracted axis of length 4096 is run as four steps over
  blocks of 1024: the accumulator starts at zero and each step adds the product of that step's two tiles.  Entry by
  entry, after n steps the accumulator is the sum over the first n blocks of the blocks' products, and the blocked
  double sum over (block, position) is the single sum over the whole axis, position 1024·s + l.
-/
import proofs.«172335_j35158602285651_2_alg».proof.Proof.PayK1
import proofs.«172335_j35158602285651_2_alg».proof.Proof.PayK2

noncomputable section

open scoped BigOperators

namespace Cert.PayFwd

open Cert.KernelIdeal Cert.KernelIdeal.Gen Idealize.ShloMosaic Idealize.ShloMosaic.ValueIdx

/-! ## The blocked sum is the whole sum -/

/-- A sum over 4 blocks of 1024 consecutive naturals is the sum over the first 4096 naturals. -/
theorem sum_blocks {M : Type*} [AddCommMonoid M] (f : ℕ → M) :
    ∑ s : Fin 4, ∑ l : Fin 1024, f (1024 * s.val + l.val) = ∑ k : Fin 4096, f k.val := by
  have e := Equiv.sum_comp (finProdFinEquiv (m := 4) (n := 1024)) (fun k : Fin (4 * 1024) => f k.val)
  rw [Fintype.sum_prod_type] at e
  refine Eq.trans ?_ e
  refine Finset.sum_congr rfl fun s _ => Finset.sum_congr rfl fun l _ => ?_
  show f (1024 * s.val + l.val) = f (l.val + 1024 * s.val)
  rw [Nat.add_comm]

/-- Position l of block s lies on the axis. -/
theorem blk_lt (s : Fin 4) (l : Fin 1024) : 1024 * s.val + l.val < 4096 := by
  have := s.isLt; have := l.isLt; omega

/-- The same over the axis' own index type. -/
theorem sum_blocks_fin {M : Type*} [AddCommMonoid M] (g : Fin 4096 → M) :
    ∑ s : Fin 4, ∑ l : Fin 1024, g ⟨1024 * s.val + l.val, blk_lt s l⟩ = ∑ k : Fin 4096, g k := by
  have e := sum_blocks (fun n => if h : n < 4096 then g ⟨n, h⟩ else 0)
  refine Eq.trans ?_ (e.trans ?_)
  · refine Finset.sum_congr rfl fun s _ => Finset.sum_congr rfl fun l _ => ?_
    show g ⟨1024 * s.val + l.val, blk_lt s l⟩
      = if h : 1024 * s.val + l.val < 4096 then g ⟨1024 * s.val + l.val, h⟩ else 0
    rw [dif_pos (blk_lt s l)]
  · refine Finset.sum_congr rfl fun k _ => ?_
    show (if h : k.val < 4096 then g ⟨k.val, h⟩ else 0) = g k
    rw [dif_pos k.isLt]

/-! ## The second layer's accumulator after n steps -/

/-- The accumulator after n steps over the tile sequences a, w: cleared, then one product added per step. -/
def acc1 (a w : ℕ → Vec Ideal S1024x1024 .f32) : ℕ → Vec Ideal S1024x1024 .f32
  | 0 => k1_pay1 (F := Ideal)
  | n + 1 => k1_pay2 (F := Ideal) (acc1 a w n) (a n) (w n)

theorem acc1_at (a w : ℕ → Vec Ideal S1024x1024 .f32) (ha : ∀ s j, IsReal (a s j)) (hw : ∀ s j, IsReal (w s j))
    (n : ℕ) (p q : Fin 1024) :
    acc1 a w n (ix2 p q) = ∑ s ∈ Finset.range n, ∑ l : Fin 1024, a s (ix2 p l) * w s (ix2 q l) := by
  induction n with
  | zero => rw [Finset.sum_range_zero]; exact k1_pay1_at p q
  | succ n ih =>
    rw [Finset.sum_range_succ, ← ih]
    exact k1_pay2_at (acc1 a w n) (a n) (w n) (ha n) (hw n) p q

/-- Four steps from the cleared accumulator, written out: the sum over the four blocks. -/
theorem k1_acc4_at (a w : Fin 4 → Vec Ideal S1024x1024 .f32) (ha : ∀ s j, IsReal (a s j)) (hw : ∀ s j, IsReal (w s j))
    (p q : Fin 1024) :
    k1_pay2 (F := Ideal) (k1_pay2 (F := Ideal) (k1_pay2 (F := Ideal) (k1_pay2 (F := Ideal) (k1_pay1 (F := Ideal))
      (a 0) (w 0)) (a 1) (w 1)) (a 2) (w 2)) (a 3) (w 3) (ix2 p q)
      = ∑ s : Fin 4, ∑ l : Fin 1024, a s (ix2 p l) * w s (ix2 q l) := by
  rw [k1_pay2_at _ _ _ (ha 3) (hw 3), k1_pay2_at _ _ _ (ha 2) (hw 2), k1_pay2_at _ _ _ (ha 1) (hw 1),
    k1_pay2_at _ _ _ (ha 0) (hw 0), k1_pay1_at, zero_add, Fin.sum_univ_four]

/-! ## The third layer's accumulator after n steps -/

/-- The accumulator after n steps over the tile sequences a, w: cleared, then one product added per step. -/
def acc2 (a w : ℕ → Vec Ideal S1024x1024 .f32) : ℕ → Vec Ideal S1024x1024 .f32
  | 0 => k2_pay1 (F := Ideal)
  | n + 1 => k2_pay2 (F := Ideal) (acc2 a w n) (a n) (w n)

theorem acc2_at (a w : ℕ → Vec Ideal S1024x1024 .f32) (ha : ∀ s j, IsReal (a s j)) (hw : ∀ s j, IsReal (w s j))
    (n : ℕ) (p q : Fin 1024) :
    acc2 a w n (ix2 p q) = ∑ s ∈ Finset.range n, ∑ l : Fin 1024, a s (ix2 p l) * w s (ix2 q l) := by
  induction n with
  | zero => rw [Finset.sum_range_zero]; exact k2_pay1_at p q
  | succ n ih =>
    rw [Finset.sum_range_succ, ← ih]
    exact k2_pay2_at (acc2 a w n) (a n) (w n) (ha n) (hw n) p q

/-- Four steps from the cleared accumulator, written out: the sum over the four blocks. -/
theorem k2_acc4_at (a w : Fin 4 → Vec Ideal S1024x1024 .f32) (ha : ∀ s j, IsReal (a s j)) (hw : ∀ s j, IsReal (w s j))
    (p q : Fin 1024) :
    k2_pay2 (F := Ideal) (k2_pay2 (F := Ideal) (k2_pay2 (F := Ideal) (k2_pay2 (F := Ideal) (k2_pay1 (F := Ideal))
      (a 0) (w 0)) (a 1) (w 1)) (a 2) (w 2)) (a 3) (w 3) (ix2 p q)
      = ∑ s : Fin 4, ∑ l : Fin 1024, a s (ix2 p l) * w s (ix2 q l) := by
  rw [k2_pay2_at _ _ _ (ha 3) (hw 3), k2_pay2_at _ _ _ (ha 2) (hw 2), k2_pay2_at _ _ _ (ha 1) (hw 1),
    k2_pay2_at _ _ _ (ha 0) (hw 0), k2_pay1_at, zero_add, Fin.sum_univ_four]

end Cert.PayFwd

end
-- ==== Proof.KI.F1.lean ====
/-
  From blocks to the array, forward layer two.  The matrix product is accumulated over four consecutive grid points:
  after step j of a reduction the accumulator is j + 1 tile products from cleared; at the fourth step the bias is added
  and the rectified sum and its sign pattern are stored and written back.  The four tile sums join into the whole
  contraction, the blocks written back tile the two arrays, so the arrays end at the rectified affine layer and at the
  indicator of where it is positive.
-/
import proofs.«172335_j35158602285651_2_alg».proof.Proof.KI.R1
import proofs.«172335_j35158602285651_2_alg».proof.Proof.KI.V1
import proofs.«172335_j35158602285651_2_alg».proof.Proof.PayAcc
import proofs.«172335_j35158602285651_2_alg».proof.Proof.PayReal
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.PayFwd
open Idealize.ShloMosaic Idealize.ShloMosaic.TcCoe Idealize.ShloMosaic.ValueIdx
open Idealize.SL Idealize.SL.Sem
open Idealize.ShloMosaic.Pipeline (Dat Cfg Window)

/-- The block indices of the five windows at a grid point, from the point's position. -/
theorem idx1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4
    ∧ win1_4.index t (0 : Fin 2) = t.val / 16 ∧ win1_4.index t (1 : Fin 2) = t.val / 4 % 4 :=
  (by decide +kernel : ∀ t : Fin grid1.N, _)

section Blocks
variable {F : FTy → Type} [FloatOps F]
variable (V : (c : Dev nD) → (b : Ref sig .tc) → Buf (Elt F) ((c : Thread nD τ).loc b))

/-- The activation tile at a point: rows of row block t / 16, columns of reduction block t % 4. -/
theorem iblk1_0_at (c : Dev nD) (t : Fin cfg1.N) (p l : Fin 1024) (r : Fin 8192) (k : Fin 4096)
    (hr : r.val = 1024 * (t.val / 16) + p.val) (hk : k.val = 1024 * (t.val % 4) + l.val) :
    (iblk1 V c 0 t : Vec F S1024x1024 .f32) (ix2 p l) = (V c main_v0_0 : S8192x4096.Idx → Elt F .f32) (ix2 r k) := by
  obtain ⟨e0, e1, -⟩ := idx1 t
  unfold iblk1
  rw [View.read_apply]
  show V c main_v0_0 _ = V c main_v0_0 _
  congr 1
  funext a
  apply Fin.ext
  match a with
  | ⟨0, _⟩ => show win1_0.index t 0 * 1024 + 1 * p.val = r.val; rw [e0, hr]; omega
  | ⟨1, _⟩ => show win1_0.index t 1 * 1024 + 1 * l.val = k.val; rw [e1, hk]; omega

/-- The weight tile at a point: rows of column block t / 4 % 4, columns of reduction block t % 4. -/
theorem iblk1_1_at (c : Dev nD) (t : Fin cfg1.N) (q l : Fin 1024) (r : Fin 4096) (k : Fin 4096)
    (hr : r.val = 1024 * (t.val / 4 % 4) + q.val) (hk : k.val = 1024 * (t.val % 4) + l.val) :
    (iblk1 V c 1 t : Vec F S1024x1024 .f32) (ix2 q l) = (V c main_arg4 : S4096x4096.Idx → Elt F .f32) (ix2 r k) := by
  obtain ⟨-, -, e0, e1, -⟩ := idx1 t
  unfold iblk1
  rw [View.read_apply]
  show V c main_arg4 _ = V c main_arg4 _
  congr 1
  funext a
  apply Fin.ext
  match a with
  | ⟨0, _⟩ => show win1_1.index t 0 * 1024 + 1 * q.val = r.val; rw [e0, hr]; omega
  | ⟨1, _⟩ => show win1_1.index t 1 * 1024 + 1 * l.val = k.val; rw [e1, hk]; omega

/-- The bias tile at a point: the entries of column block t / 4 % 4. -/
theorem iblk1_2_at (c : Dev nD) (t : Fin cfg1.N) (q : Fin 1024) (r : Fin 4096)
    (hr : r.val = 1024 * (t.val / 4 % 4) + q.val) :
    (iblk1 V c 2 t : Vec F S1024 .f32) (ix1 q) = (V c main_arg5 : S4096.Idx → Elt F .f32) (ix1 r) := by
  obtain ⟨-, -, -, -, e0, -⟩ := idx1 t
  unfold iblk1
  rw [View.read_apply]
  show V c main_arg5 _ = V c main_arg5 _
  congr 1
  funext a
  apply Fin.ext
  match a with
  | ⟨0, _⟩ => show win1_2.index t 0 * 1024 + 1 * q.val = r.val; rw [e0, hr]; omega

/-- What a first, a later and a last reduction step make of the accumulator, and what a last step stores. -/
theorem step1_first (c : Dev nD) (t : Fin cfg1.N) (h0 : t.val % 4 = 0) (xs : Vec F S1024x1024 .f32) :
    step1 V c t xs = k1_pay2 (k1_pay1 (F := F)) (iblk1 V c 0 t) (iblk1 V c 1 t) := by
  unfold step1
  rw [dif_pos h0]
  exact sout1_A_eq c (grid1.coords t) (ms1_0 t) (hs1_0 t) (ms1_1 t) (hs1_1 t) (ms1_2 t) (hs1_2 t) (ms1_3 t) (hs1_3 t) (ms1_4 t) (hs1_4 t) scM1 (Memref.isWhole_whole _) _ _ (iblk1 V c 0 t) (iblk1 V c 1 t) (iblk1 V c 2 t)

theorem step1_later (c : Dev nD) (t : Fin cfg1.N) (h0 : ¬t.val % 4 = 0) (xs : Vec F S1024x1024 .f32) :
    step1 V c t xs = k1_pay2 xs (iblk1 V c 0 t) (iblk1 V c 1 t) := by
  unfold step1
  rw [dif_neg h0]
  by_cases h1 : t.val % 4 = 3
  · rw [dif_pos h1]
    exact sout1_C_eq c (grid1.coords t) (ms1_0 t) (hs1_0 t) (ms1_1 t) (hs1_1 t) (ms1_2 t) (hs1_2 t) (ms1_3 t) (hs1_3 t) (ms1_4 t) (hs1_4 t) scM1 (Memref.isWhole_whole _) _ _ (iblk1 V c 0 t) (iblk1 V c 1 t) (iblk1 V c 2 t) xs
  · rw [dif_neg h1]
    exact sout1_B_eq c (grid1.coords t) (ms1_0 t) (hs1_0 t) (ms1_1 t) (hs1_1 t) (ms1_2 t) (hs1_2 t) (ms1_3 t) (hs1_3 t) (ms1_4 t) (hs1_4 t) scM1 (Memref.isWhole_whole _) _ _ (iblk1 V c 0 t) (iblk1 V c 1 t) (iblk1 V c 2 t) xs

theorem outsAt1_3_last (c : Dev nD) (t : Fin cfg1.N) (h1 : t.val % 4 = 3) :
    outsAt1_3 V c t = k1_pay5 (k1_pay2 (scAt1 V c t.val) (iblk1 V c 0 t) (iblk1 V c 1 t)) (iblk1 V c 2 t) := by
  unfold outsAt1_3
  rw [dif_pos h1]
  exact out1_C_3_eq c (grid1.coords t) (ms1_0 t) (hs1_0 t) (ms1_1 t) (hs1_1 t) (ms1_2 t) (hs1_2 t) (ms1_3 t) (hs1_3 t) (ms1_4 t) (hs1_4 t) scM1 (Memref.isWhole_whole _) _ _ (iblk1 V c 0 t) (iblk1 V c 1 t) (iblk1 V c 2 t) (scAt1 V c t.val)

theorem outsAt1_4_last (c : Dev nD) (t : Fin cfg1.N) (h1 : t.val % 4 = 3) :
    outsAt1_4 V c t = k1_pay6 (k1_pay2 (scAt1 V c t.val) (iblk1 V c 0 t) (iblk1 V c 1 t)) (iblk1 V c 2 t) := by
  unfold outsAt1_4
  rw [dif_pos h1]
  exact out1_C_4_eq c (grid1.coords t) (ms1_0 t) (hs1_0 t) (ms1_1 t) (hs1_1 t) (ms1_2 t) (hs1_2 t) (ms1_3 t) (hs1_3 t) (ms1_4 t) (hs1_4 t) scM1 (Memref.isWhole_whole _) _ _ (iblk1 V c 0 t) (iblk1 V c 1 t) (iblk1 V c 2 t) (scAt1 V c t.val)

end Blocks

section Acc
variable (V : (c : Dev nD) → (b : Ref sig .tc) → Buf (Elt Ideal) ((c : Thread nD τ).loc b))

/-- The two tiles the reduction step at grid position n loads, as sequences over positions (past the grid: the
    cleared accumulator, never consulted). -/
def tA1 (c : Dev nD) (n : ℕ) : Vec Ideal S1024x1024 .f32 :=
  if h : n < cfg1.N then iblk1 V c 0 ⟨n, h⟩ else k1_pay1 (F := Ideal)
def tW1 (c : Dev nD) (n : ℕ) : Vec Ideal S1024x1024 .f32 :=
  if h : n < cfg1.N then iblk1 V c 1 ⟨n, h⟩ else k1_pay1 (F := Ideal)

theorem tA1_of_lt (c : Dev nD) (n : ℕ) (h : n < cfg1.N) : tA1 V c n = iblk1 V c 0 ⟨n, h⟩ := dif_pos h
theorem tW1_of_lt (c : Dev nD) (n : ℕ) (h : n < cfg1.N) : tW1 V c n = iblk1 V c 1 ⟨n, h⟩ := dif_pos h

theorem acc1_succ (a w : ℕ → Vec Ideal S1024x1024 .f32) (n : ℕ) :
    acc1 a w (n + 1) = k1_pay2 (F := Ideal) (acc1 a w n) (a n) (w n) := rfl

/-- THE ACCUMULATOR IN CLOSED FORM: after the step at position n, which is step j = n % 4 of its reduction, the
    accumulator is j + 1 steps from cleared over the tiles of positions n - j … n. -/
theorem scAt1_closed (c : Dev nD) : ∀ (j n : ℕ), n < cfg1.N → n % 4 = j →
    scAt1 V c (n + 1) = acc1 (fun s => tA1 V c (n - j + s)) (fun s => tW1 V c (n - j + s)) (j + 1)
  | 0, n, hn, hj => by
    refine (scAt1_succ V c ⟨n, hn⟩).trans ?_
    rw [step1_first V c ⟨n, hn⟩ hj, acc1_succ]
    show _ = k1_pay2 (F := Ideal) (k1_pay1 (F := Ideal)) (tA1 V c (n - 0 + 0)) (tW1 V c (n - 0 + 0))
    rw [Nat.sub_zero, Nat.add_zero, tA1_of_lt V c n hn, tW1_of_lt V c n hn]
  | j + 1, n, hn, hj => by
    obtain ⟨m, rfl⟩ : ∃ m, n = m + 1 := ⟨n - 1, by omega⟩
    have hm : m < cfg1.N := Nat.lt_of_succ_lt hn
    have ih := scAt1_closed c j m hm (by omega)
    refine (scAt1_succ V c ⟨m + 1, hn⟩).trans ?_
    rw [step1_later V c ⟨m + 1, hn⟩ (by show ¬(m + 1) % 4 = 0; omega)]
    rw [acc1_succ, Nat.add_sub_add_right]
    have e : m - j + (j + 1) = m + 1 := by omega
    show k1_pay2 (F := Ideal) (scAt1 V c (m + 1)) _ _ = k1_pay2 (F := Ideal) _ (tA1 V c (m - j + (j + 1))) (tW1 V c (m - j + (j + 1)))
    rw [ih, e, tA1_of_lt V c _ hn, tW1_of_lt V c _ hn]

theorem tA1_real (c : Dev nD) (ha : ∀ j, IsReal (V c main_v0_0 j)) (n : ℕ) (j : S1024x1024.Idx) : IsReal (tA1 V c n j) := by
  unfold tA1
  split
  · unfold iblk1
    rw [View.read_apply]
    exact ha _
  · obtain ⟨p, q, rfl⟩ : ∃ (p q : Fin 1024), j = ix2 p q := ⟨j 0, j 1, eq_ix2 j⟩
    rw [k1_pay1_at]; exact isReal_zero

theorem tW1_real (c : Dev nD) (hw : ∀ j, IsReal (V c main_arg4 j)) (n : ℕ) (j : S1024x1024.Idx) : IsReal (tW1 V c n j) := by
  unfold tW1
  split
  · unfold iblk1
    rw [View.read_apply]
    exact hw _
  · obtain ⟨p, q, rfl⟩ : ∃ (p q : Fin 1024), j = ix2 p q := ⟨j 0, j 1, eq_ix2 j⟩
    rw [k1_pay1_at]; exact isReal_zero

/-- At a last reduction step the accumulator with the step's product added is the whole contraction: row r of the
    activations against row cq of the weights. -/
theorem acc1_full (c : Dev nD) (ha : ∀ j, IsReal (V c main_v0_0 j)) (hw : ∀ j, IsReal (V c main_arg4 j))
    (t : Fin cfg1.N) (h3 : t.val % 4 = 3) (p q : Fin 1024) (r : Fin 8192) (cq : Fin 4096)
    (hr : r.val = 1024 * (t.val / 16) + p.val) (hq : cq.val = 1024 * (t.val / 4 % 4) + q.val) :
    k1_pay2 (F := Ideal) (scAt1 V c t.val) (iblk1 V c 0 t) (iblk1 V c 1 t) (ix2 p q)
      = ∑ k : Fin 4096, Cert.Spec.mat (V c main_v0_0) r k * Cert.Spec.mat (V c main_arg4) cq k := by
  have e : k1_pay2 (F := Ideal) (scAt1 V c t.val) (iblk1 V c 0 t) (iblk1 V c 1 t) = scAt1 V c (t.val + 1) :=
    ((scAt1_succ V c t).trans (step1_later V c t (by omega) _)).symm
  rw [e, scAt1_closed V c 3 t.val t.isLt h3, acc1_at _ _ (fun s j => tA1_real V c ha _ j) (fun s j => tW1_real V c hw _ j),
    Finset.sum_range,
    ← sum_blocks_fin (fun k => Cert.Spec.mat (V c main_v0_0) r k * Cert.Spec.mat (V c main_arg4) cq k)]
  refine Finset.sum_congr rfl fun s _ => Finset.sum_congr rfl fun l _ => ?_
  have hs := s.isLt
  have ht := t.isLt
  have hlt : t.val - 3 + s.val < cfg1.N := by omega
  have eA : tA1 V c (t.val - 3 + s.val) (ix2 p l) = Cert.Spec.mat (V c main_v0_0) r ⟨1024 * s.val + l.val, blk_lt s l⟩ := by
    rw [tA1_of_lt V c _ hlt]
    exact iblk1_0_at V c ⟨_, hlt⟩ p l r _ (by show r.val = 1024 * ((t.val - 3 + s.val) / 16) + p.val; omega)
      (by show 1024 * s.val + l.val = 1024 * ((t.val - 3 + s.val) % 4) + l.val; omega)
  have eW : tW1 V c (t.val - 3 + s.val) (ix2 q l) = Cert.Spec.mat (V c main_arg4) cq ⟨1024 * s.val + l.val, blk_lt s l⟩ := by
    rw [tW1_of_lt V c _ hlt]
    exact iblk1_1_at V c ⟨_, hlt⟩ q l cq _ (by show cq.val = 1024 * ((t.val - 3 + s.val) / 4 % 4) + q.val; omega)
      (by show 1024 * s.val + l.val = 1024 * ((t.val - 3 + s.val) % 4) + l.val; omega)
  show tA1 V c (t.val - 3 + s.val) (ix2 p l) * tW1 V c (t.val - 3 + s.val) (ix2 q l) = _
  rw [eA, eW]

end Acc

section Final
variable (V : (c : Dev nD) → (b : Ref sig .tc) → Buf (Elt Ideal) ((c : Thread nD τ).loc b))

/-- The two output arrays as functions of the argument arrays: the rectified affine layer, and where it is positive. -/
def G1_3 (c : Dev nD) : S8192x4096.Idx → EReal := fun idx =>
  Cert.Spec.relu (Cert.Spec.lin (Cert.Spec.mat (V c main_v0_0)) (Cert.Spec.mat (V c main_arg4)) (Cert.Spec.vec (V c main_arg5)) (idx 0) (idx 1))
def G1_4 (c : Dev nD) : S8192x4096.Idx → EReal := fun idx =>
  if 0 < Cert.Spec.lin (Cert.Spec.mat (V c main_v0_0)) (Cert.Spec.mat (V c main_arg4)) (Cert.Spec.vec (V c main_arg5)) (idx 0) (idx 1) then (1 : EReal) else 0

/-- What a last reduction step stores in each output tile, entry by entry. -/
theorem outsAt1_3_at (c : Dev nD) (ha : ∀ j, IsReal (V c main_v0_0 j)) (hw : ∀ j, IsReal (V c main_arg4 j))
    (t : Fin cfg1.N) (h3 : t.val % 4 = 3) (j : S1024x1024.Idx) (i : S8192x4096.Idx)
    (h0 : (i 0).val = 1024 * (t.val / 16) + (j 0).val) (h1 : (i 1).val = 1024 * (t.val / 4 % 4) + (j 1).val) :
    outsAt1_3 V c t j = G1_3 V c i := by
  obtain ⟨p, q, rfl⟩ : ∃ (p q : Fin 1024), j = ix2 p q := ⟨j 0, j 1, eq_ix2 j⟩
  obtain ⟨r, cq, rfl⟩ : ∃ (r : Fin 8192) (cq : Fin 4096), i = ix2 r cq := ⟨i 0, i 1, eq_ix2 i⟩
  rw [outsAt1_3_last V c t h3, k1_pay5_at, acc1_full V c ha hw t h3 p q r cq h0 h1, iblk1_2_at V c t q cq h1]
  rfl

theorem outsAt1_4_at (c : Dev nD) (ha : ∀ j, IsReal (V c main_v0_0 j)) (hw : ∀ j, IsReal (V c main_arg4 j))
    (t : Fin cfg1.N) (h3 : t.val % 4 = 3) (j : S1024x1024.Idx) (i : S8192x4096.Idx)
    (h0 : (i 0).val = 1024 * (t.val / 16) + (j 0).val) (h1 : (i 1).val = 1024 * (t.val / 4 % 4) + (j 1).val) :
    outsAt1_4 V c t j = G1_4 V c i := by
  obtain ⟨p, q, rfl⟩ : ∃ (p q : Fin 1024), j = ix2 p q := ⟨j 0, j 1, eq_ix2 j⟩
  obtain ⟨r, cq, rfl⟩ : ∃ (r : Fin 8192) (cq : Fin 4096), i = ix2 r cq := ⟨i 0, i 1, eq_ix2 i⟩
  rw [outsAt1_4_last V c t h3, k1_pay6_at, acc1_full V c ha hw t h3 p q r cq h0 h1, iblk1_2_at V c t q cq h1]
  rfl

/-- WHAT A LAST REDUCTION STEP WRITES BACK is its block of the output function. -/
theorem flushed1_3_eq (c : Dev nD) (ha : ∀ j, IsReal (V c main_v0_0 j)) (hw : ∀ j, IsReal (V c main_arg4 j))
    (t : Fin cfg1.N) (hf : (cfg1.win 3).flush t = true) :
    (dat1 V c).flushed 3 t = ((cfg1.win 3).blk t).view.read (Elt Ideal) (G1_3 V c) := by
  have h3 : t.val % 4 = 3 := (flush1_3 t).mp hf
  obtain ⟨-, -, -, -, -, e0, e1, -⟩ := idx1 t
  show (cfg1.win 3).cut (grid1.coords t) ((dat1 V c).after 3 t) = _
  rw [after1_3]
  funext j
  show outsAt1_3 V c t j = G1_3 V c (((cfg1.win 3).blk t).view.emb j)
  refine outsAt1_3_at V c ha hw t h3 j _ ?_ ?_
  · show win1_3.index t 0 * 1024 + 1 * (j 0).val = 1024 * (t.val / 16) + (j 0).val; rw [e0]; omega
  · show win1_3.index t 1 * 1024 + 1 * (j 1).val = 1024 * (t.val / 4 % 4) + (j 1).val; rw [e1]; omega

theorem flushed1_4_eq (c : Dev nD) (ha : ∀ j, IsReal (V c main_v0_0 j)) (hw : ∀ j, IsReal (V c main_arg4 j))
    (t : Fin cfg1.N) (hf : (cfg1.win 4).flush t = true) :
    (dat1 V c).flushed 4 t = ((cfg1.win 4).blk t).view.read (Elt Ideal) (G1_4 V c) := by
  have h3 : t.val % 4 = 3 := (flush1_4 t).mp hf
  obtain ⟨-, -, -, -, -, -, -, e0, e1⟩ := idx1 t
  show (cfg1.win 4).cut (grid1.coords t) ((dat1 V c).after 4 t) = _
  rw [after1_4]
  funext j
  show outsAt1_4 V c t j = G1_4 V c (((cfg1.win 4).blk t).view.emb j)
  refine outsAt1_4_at V c ha hw t h3 j _ ?_ ?_
  · show win1_4.index t 0 * 1024 + 1 * (j 0).val = 1024 * (t.val / 16) + (j 0).val; rw [e0]; omega
  · show win1_4.index t 1 * 1024 + 1 * (j 1).val = 1024 * (t.val / 4 % 4) + (j 1).val; rw [e1]; omega

/-- An index of the array is in point t's block iff each coordinate is in the block's range on its axis. -/
theorem mem_blk1_3 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v1_0).slice (win1_3.rect t)).set ↔ _
  rw [View.set_slice_whole, Rect.mem_set_unit]
  exact Iff.rfl
theorem mem_blk1_4 (t : Fin cfg1.N) (i : S8192x4096.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v1_1).slice (win1_4.rect t)).set ↔ _
  rw [View.set_slice_whole, Rect.mem_set_unit]
  exact Iff.rfl

/-- Entry (r, q) is written back by the last step of the reduction of tile (r / 1024, q / 1024). -/
theorem cover1_3 (i : S8192x4096.Idx) : ∃ t : Fin cfg1.N, (cfg1.win 3).flush t = true ∧ i ∈ ((cfg1.win 3).blk t).view.set := by
  have h0 : (i 0).val < 8192 := (i 0).isLt
  have h1 : (i 1).val < 4096 := (i 1).isLt
  have hN : cfg1.N = 128 := N_1
  have hlt : 16 * ((i 0).val / 1024) + 4 * ((i 1).val / 1024) + 3 < cfg1.N := by rw [hN]; omega
  obtain ⟨-, -, -, -, -, e0, e1, -⟩ := idx1 ⟨_, hlt⟩
  refine ⟨⟨_, hlt⟩, (flush1_3 _).mpr (by show (16 * ((i 0).val / 1024) + 4 * ((i 1).val / 1024) + 3) % 4 = 3; omega), ?_⟩
  rw [mem_blk1_3]
  intro a
  match a with
  | ⟨0, _⟩ =>
    show win1_3.index ⟨_, hlt⟩ 0 * 1024 ≤ (i 0).val ∧ (i 0).val < win1_3.index ⟨_, hlt⟩ 0 * 1024 + 1024
    rw [e0]; show (16 * ((i 0).val / 1024) + 4 * ((i 1).val / 1024) + 3) / 16 * 1024 ≤ (i 0).val ∧ (i 0).val < (16 * ((i 0).val / 1024) + 4 * ((i 1).val / 1024) + 3) / 16 * 1024 + 1024; omega
  | ⟨1, _⟩ =>
    show win1_3.index ⟨_, hlt⟩ 1 * 1024 ≤ (i 1).val ∧ (i 1).val < win1_3.index ⟨_, hlt⟩ 1 * 1024 + 1024
    rw [e1]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024; omega

theorem cover1_4 (i : S8192x4096.Idx) : ∃ t : Fin cfg1.N, (cfg1.win 4).flush t = true ∧ i ∈ ((cfg1.win 4).blk t).view.set := by
  have h0 : (i 0).val < 8192 := (i 0).isLt
  have h1 : (i 1).val < 4096 := (i 1).isLt
  have hN : cfg1.N = 128 := N_1
  have hlt : 16 * ((i 0).val / 1024) + 4 * ((i 1).val / 1024) + 3 < cfg1.N := by rw [hN]; omega
  obtain ⟨-, -, -, -, -, -, -, e0, e1⟩ := idx1 ⟨_, hlt⟩
  refine ⟨⟨_, hlt⟩, (flush1_4 _).mpr (by show (16 * ((i 0).val / 1024) + 4 * ((i 1).val / 1024) + 3) % 4 = 3; omega), ?_⟩
  rw [mem_blk1_4]
  intro a
  match a with
  | ⟨0, _⟩ =>
    show win1_4.index ⟨_, hlt⟩ 0 * 1024 ≤ (i 0).val ∧ (i 0).val < win1_4.index ⟨_, hlt⟩ 0 * 1024 + 1024
    rw [e0]; show (16 * ((i 0).val / 1024) + 4 * ((i 1).val / 1024) + 3) / 16 * 1024 ≤ (i 0).val ∧ (i 0).val < (16 * ((i 0).val / 1024) + 4 * ((i 1).val / 1024) + 3) / 16 * 1024 + 1024; omega
  | ⟨1, _⟩ =>
    show win1_4.index ⟨_, hlt⟩ 1 * 1024 ≤ (i 1).val ∧ (i 1).val < win1_4.index ⟨_, hlt⟩ 1 * 1024 + 1024
    rw [e1]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024; omega

/-- THE ARRAYS after the region: the rectified second layer, and its sign pattern. -/
theorem final1_3 (c : Dev nD) (ha : ∀ j, IsReal (V c main_v0_0 j)) (hw : ∀ j, IsReal (V c main_arg4 j)) :
    (dat1 (F := Ideal) V c).arrAt 3 cfg1.N = fun idx : S8192x4096.Idx =>
      Cert.Spec.relu (Cert.Spec.lin (Cert.Spec.mat (V c main_v0_0)) (Cert.Spec.mat (V c main_arg4)) (Cert.Spec.vec (V c main_arg5)) (idx 0) (idx 1)) :=
  (dat1 (F := Ideal) V c).arrAt_eq_of_cover 3 (G1_3 V c) (flushed1_3_eq V c ha hw) cover1_3

theorem final1_4 (c : Dev nD) (ha : ∀ j, IsReal (V c main_v0_0 j)) (hw : ∀ j, IsReal (V c main_arg4 j)) :
    (dat1 (F := Ideal) V c).arrAt 4 cfg1.N = fun idx : S8192x4096.Idx =>
      if 0 < Cert.Spec.lin (Cert.Spec.mat (V c main_v0_0)) (Cert.Spec.mat (V c main_arg4)) (Cert.Spec.vec (V c main_arg5)) (idx 0) (idx 1) then (1 : EReal) else 0 :=
  (dat1 (F := Ideal) V c).arrAt_eq_of_cover 4 (G1_4 V c) (flushed1_4_eq V c ha hw) cover1_4

end Final

end Cert.KernelIdeal.Hand

end
-- ==== Proof.KI.V2.lean ====
/-
  The third forward layer's stored pieces read back, in each of the body's three situations (first, middle and last
  reduction step).  Every store writes a whole buffer, so what a buffer ends with is its last store's value, and each
  load of the accumulator reads the value stored just before it, or what the step before left when nothing was stored.
-/
import proofs.«172335_j35158602285651_2_alg».proof.Proof.KI.R2

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle, at rank two and rank one. -/
theorem hz2_2 : (![0, 0] : Fin 2 → Nat) = fun _ => 0 := funext fun a => by fin_cases a <;> rfl
theorem hz1_2 : (![0] : Fin 1 → Nat) = fun _ => 0 := funext fun a => by fin_cases a <;> rfl

/-- The accumulator after the first reduction step: cleared, then the step's product added. -/
theorem sout2_A_eq (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond2_0 i) (hc1 : ¬k2_cond2 i = 1#1)
    (x0 : Vec F S1024x1024 .f32) (x1 : Vec F S1024x1024 .f32) (x2 : Vec F S1024 .f32) (x3 : Vec F S1024x1024 .f32) :
    sout2_A c i arg3 harg3 arg4 harg4 arg5 harg5 arg6 harg6 arg7 harg7 arg8 harg8 hc0 hc1 x0 x1 x2 x3 = k2_pay2 (k2_pay1 (F := F)) x0 x1 := by
  unfold sout2_A
  rw [View.read_writes_eq_canon _ _ _ (scover2_A c i arg3 harg3 arg4 harg4 arg5 harg5 arg6 harg6 arg7 harg7 arg8 harg8 hc0 hc1 x0 x1 x2 x3)]
  unfold kernelRun2_A
  dsimp only
  sl_unfold_words
  rw [View.canon_cons_unit_zero hz2_2]
  simp only [View.readCov_cons_toLoadRect, View.readAt_eq_ld, harg3.read_unread, harg4.read_unread, harg5.read_unread,
    harg6.read_unread, harg8.read_unread, View.ld_unit_zero (S := S1024x1024) hz2_2, View.ld_unit_zero (S := S1024) hz1_2]

/-- The accumulator after a middle reduction step: the step's product added to what the step before left. -/
theorem sout2_B_eq (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : ¬k2_cond2 i = 1#1)
    (x0 : Vec F S1024x1024 .f32) (x1 : Vec F S1024x1024 .f32) (x2 : Vec F S1024 .f32) (x3 : Vec F S1024x1024 .f32) (xs : Vec F S1024x1024 .f32) :
    sout2_B c i arg3 harg3 arg4 harg4 arg5 harg5 arg6 harg6 arg7 harg7 arg8 harg8 hc0 hc1 x0 x1 x2 x3 xs = k2_pay2 xs x0 x1 := by
  unfold sout2_B
  rw [View.read_writes_eq_canon _ _ _ (scover2_B c i arg3 harg3 arg4 harg4 arg5 harg5 arg6 harg6 arg7 harg7 arg8 harg8 hc0 hc1 x0 x1 x2 x3 xs)]
  unfold kernelRun2_B
  dsimp only
  sl_unfold_words
  rw [View.canon_cons_unit_zero hz2_2]
  simp only [View.readCov_cons_toLoadRect, View.readAt_eq_ld, harg3.read_unread, harg4.read_unread, harg5.read_unread,
    harg6.read_unread, harg8.read_unread, View.ld_unit_zero (S := S1024x1024) hz2_2, View.ld_unit_zero (S := S1024) hz1_2]

/-- The accumulator after the last reduction step: the step's product added to what the step before left. -/
theorem sout2_C_eq (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1)
    (x0 : Vec F S1024x1024 .f32) (x1 : Vec F S1024x1024 .f32) (x2 : Vec F S1024 .f32) (x3 : Vec F S1024x1024 .f32) (xs : Vec F S1024x1024 .f32) :
    sout2_C c i arg3 harg3 arg4 harg4 arg5 harg5 arg6 harg6 arg7 harg7 arg8 harg8 hc0 hc1 x0 x1 x2 x3 xs = k2_pay2 xs x0 x1 := by
  unfold sout2_C
  rw [View.read_writes_eq_canon _ _ _ (scover2_C c i arg3 harg3 arg4 harg4 arg5 harg5 arg6 harg6 arg7 harg7 arg8 harg8 hc0 hc1 x0 x1 x2 x3 xs)]
  unfold kernelRun2_C
  dsimp only
  sl_unfold_words
  rw [View.canon_cons_unit_zero hz2_2]
  simp only [View.readCov_cons_toLoadRect, View.readAt_eq_ld, harg3.read_unread, harg4.read_unread, harg5.read_unread,
    harg6.read_unread, harg8.read_unread, View.ld_unit_zero (S := S1024x1024) hz2_2, View.ld_unit_zero (S := S1024) hz1_2]

/-- The output's tile after the last step: the bias and then the residual tile added to the finished accumulator. -/
theorem out2_C_4_eq (c : Dev nD) (i : grid2.Coords) (arg3 : Memref sig .tc .vmem S1024x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond2_0 i) (hc1 : k2_cond2 i = 1#1)
    (x0 : Vec F S1024x1024 .f32) (x1 : Vec F S1024x1024 .f32) (x2 : Vec F S1024 .f32) (x3 : Vec F S1024x1024 .f32) (xs : Vec F S1024x1024 .f32) :
    out2_C_4 c i arg3 harg3 arg4 harg4 arg5 harg5 arg6 harg6 arg7 harg7 arg8 harg8 hc0 hc1 x0 x1 x2 x3 xs = k2_pay3 (k2_pay2 xs x0 x1) x2 x3 := by
  unfold out2_C_4
  rw [View.read_writes_eq_canon _ _ _ (cover2_C_4 c i arg3 harg3 arg4 harg4 arg5 harg5 arg6 harg6 arg7 harg7 arg8 harg8 hc0 hc1 x0 x1 x2 x3 xs)]
  unfold kernelRun2_C
  dsimp only
  sl_unfold_words
  rw [View.canon_cons_unit_zero hz2_2]
  simp only [View.readCov_cons_toLoadRect, View.readAt_eq_ld, harg3.read_unread, harg4.read_unread, harg5.read_unread,
    harg6.read_unread, harg8.read_unread, View.ld_unit_zero (S := S1024x1024) hz2_2, View.ld_unit_zero (S := S1024) hz1_2]

end Cert.KernelIdeal.Hand

end
-- ==== Proof.KI.F2.lean ====
/-
  From blocks to the array, forward layer three.  The matrix product is accumulated over four consecutive grid points:
  after step j of a reduction the accumulator is j + 1 tile products from cleared; at the fourth step the bias and the
  residual tile are added and the sum is stored and written back.  The four tile sums join into the whole contraction,
  the blocks written back tile the array, so the array ends at the affine layer plus the residual.
-/
import proofs.«172335_j35158602285651_2_alg».proof.Proof.KI.R2
import proofs.«172335_j35158602285651_2_alg».proof.Proof.KI.V2
import proofs.«172335_j35158602285651_2_alg».proof.Proof.PayAcc
import proofs.«172335_j35158602285651_2_alg».proof.Proof.PayReal
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.PayFwd
open Idealize.ShloMosaic Idealize.ShloMosaic.TcCoe Idealize.ShloMosaic.ValueIdx
open Idealize.SL Idealize.SL.Sem
open Idealize.ShloMosaic.Pipeline (Dat Cfg Window)

/-- The block indices of the five windows at a grid point, from the point's position. -/
theorem idx2 : ∀ t : Fin cfg2.N,
    win2_0.index t (0 : Fin 2) = t.val / 4 ∧ win2_0.index t (1 : Fin 2) = t.val % 4
    ∧ win2_1.index t (0 : Fin 2) = 0 ∧ win2_1.index t (1 : Fin 2) = t.val % 4
    ∧ win2_2.index t (0 : Fin 1) = 0
    ∧ win2_3.index t (0 : Fin 2) = t.val / 4 ∧ win2_3.index t (1 : Fin 2) = 0
    ∧ win2_4.index t (0 : Fin 2) = t.val / 4 ∧ win2_4.index t (1 : Fin 2) = 0 :=
  (by decide +kernel : ∀ t : Fin grid2.N, _)

section Blocks
variable {F : FTy → Type} [FloatOps F]
variable (V : (c : Dev nD) → (b : Ref sig .tc) → Buf (Elt F) ((c : Thread nD τ).loc b))

/-- The activation tile at a point: rows of row block t / 4, columns of reduction block t % 4. -/
theorem iblk2_0_at (c : Dev nD) (t : Fin cfg2.N) (p l : Fin 1024) (r : Fin 8192) (k : Fin 4096)
    (hr : r.val = 1024 * (t.val / 4) + p.val) (hk : k.val = 1024 * (t.val % 4) + l.val) :
    (iblk2 V c 0 t : Vec F S1024x1024 .f32) (ix2 p l) = (V c main_v1_0 : S8192x4096.Idx → Elt F .f32) (ix2 r k) := by
  obtain ⟨e0, e1, -⟩ := idx2 t
  unfold iblk2
  rw [View.read_apply]
  show V c main_v1_0 _ = V c main_v1_0 _
  congr 1
  funext a
  apply Fin.ext
  match a with
  | ⟨0, _⟩ => show win2_0.index t 0 * 1024 + 1 * p.val = r.val; rw [e0, hr]; omega
  | ⟨1, _⟩ => show win2_0.index t 1 * 1024 + 1 * l.val = k.val; rw [e1, hk]; omega

/-- The weight tile at a point: all 1024 rows, columns of reduction block t % 4. -/
theorem iblk2_1_at (c : Dev nD) (t : Fin cfg2.N) (q l : Fin 1024) (r : Fin 1024) (k : Fin 4096)
    (hr : r.val = q.val) (hk : k.val = 1024 * (t.val % 4) + l.val) :
    (iblk2 V c 1 t : Vec F S1024x1024 .f32) (ix2 q l) = (V c main_arg6 : S1024x4096.Idx → Elt F .f32) (ix2 r k) := by
  obtain ⟨-, -, e0, e1, -⟩ := idx2 t
  unfold iblk2
  rw [View.read_apply]
  show V c main_arg6 _ = V c main_arg6 _
  congr 1
  funext a
  apply Fin.ext
  match a with
  | ⟨0, _⟩ => show win2_1.index t 0 * 1024 + 1 * q.val = r.val; rw [e0, hr]; omega
  | ⟨1, _⟩ => show win2_1.index t 1 * 1024 + 1 * l.val = k.val; rw [e1, hk]; omega

/-- The bias tile is the whole bias. -/
theorem iblk2_2_at (c : Dev nD) (t : Fin cfg2.N) (q : Fin 1024) (r : Fin 1024) (hr : r.val = q.val) :
    (iblk2 V c 2 t : Vec F S1024 .f32) (ix1 q) = (V c main_arg7 : S1024.Idx → Elt F .f32) (ix1 r) := by
  obtain ⟨-, -, -, -, e0, -⟩ := idx2 t
  unfold iblk2
  rw [View.read_apply]
  show V c main_arg7 _ = V c main_arg7 _
  congr 1
  funext a
  apply Fin.ext
  match a with
  | ⟨0, _⟩ => show win2_2.index t 0 * 1024 + 1 * q.val = r.val; rw [e0, hr]; omega

/-- The residual tile at a point: rows of row block t / 4, all 1024 columns. -/
theorem iblk2_3_at (c : Dev nD) (t : Fin cfg2.N) (p q : Fin 1024) (r : Fin 8192) (cq : Fin 1024)
    (hr : r.val = 1024 * (t.val / 4) + p.val) (hq : cq.val = q.val) :
    (iblk2 V c 3 t : Vec F S1024x1024 .f32) (ix2 p q) = (V c main_arg0 : S8192x1024.Idx → Elt F .f32) (ix2 r cq) := by
  obtain ⟨-, -, -, -, -, e0, e1, -⟩ := idx2 t
  unfold iblk2
  rw [View.read_apply]
  show V c main_arg0 _ = V c main_arg0 _
  congr 1
  funext a
  apply Fin.ext
  match a with
  | ⟨0, _⟩ => show win2_3.index t 0 * 1024 + 1 * p.val = r.val; rw [e0, hr]; omega
  | ⟨1, _⟩ => show win2_3.index t 1 * 1024 + 1 * q.val = cq.val; rw [e1, hq]; omega

/-- What a first and a later reduction step make of the accumulator, and what a last step stores. -/
theorem step2_first (c : Dev nD) (t : Fin cfg2.N) (h0 : t.val % 4 = 0) (xs : Vec F S1024x1024 .f32) :
    step2 V c t xs = k2_pay2 (k2_pay1 (F := F)) (iblk2 V c 0 t) (iblk2 V c 1 t) := by
  unfold step2
  rw [dif_pos h0]
  exact sout2_A_eq c (grid2.coords t) (ms2_0 t) (hs2_0 t) (ms2_1 t) (hs2_1 t) (ms2_2 t) (hs2_2 t) (ms2_3 t) (hs2_3 t) (ms2_4 t) (hs2_4 t) scM2 (Memref.isWhole_whole _) _ _ (iblk2 V c 0 t) (iblk2 V c 1 t) (iblk2 V c 2 t) (iblk2 V c 3 t)

theorem step2_later (c : Dev nD) (t : Fin cfg2.N) (h0 : ¬t.val % 4 = 0) (xs : Vec F S1024x1024 .f32) :
    step2 V c t xs = k2_pay2 xs (iblk2 V c 0 t) (iblk2 V c 1 t) := by
  unfold step2
  rw [dif_neg h0]
  by_cases h1 : t.val % 4 = 3
  · rw [dif_pos h1]
    exact sout2_C_eq c (grid2.coords t) (ms2_0 t) (hs2_0 t) (ms2_1 t) (hs2_1 t) (ms2_2 t) (hs2_2 t) (ms2_3 t) (hs2_3 t) (ms2_4 t) (hs2_4 t) scM2 (Memref.isWhole_whole _) _ _ (iblk2 V c 0 t) (iblk2 V c 1 t) (iblk2 V c 2 t) (iblk2 V c 3 t) xs
  · rw [dif_neg h1]
    exact sout2_B_eq c (grid2.coords t) (ms2_0 t) (hs2_0 t) (ms2_1 t) (hs2_1 t) (ms2_2 t) (hs2_2 t) (ms2_3 t) (hs2_3 t) (ms2_4 t) (hs2_4 t) scM2 (Memref.isWhole_whole _) _ _ (iblk2 V c 0 t) (iblk2 V c 1 t) (iblk2 V c 2 t) (iblk2 V c 3 t) xs

theorem outsAt2_4_last (c : Dev nD) (t : Fin cfg2.N) (h1 : t.val % 4 = 3) :
    outsAt2_4 V c t = k2_pay3 (k2_pay2 (scAt2 V c t.val) (iblk2 V c 0 t) (iblk2 V c 1 t)) (iblk2 V c 2 t) (iblk2 V c 3 t) := by
  unfold outsAt2_4
  rw [dif_pos h1]
  exact out2_C_4_eq c (grid2.coords t) (ms2_0 t) (hs2_0 t) (ms2_1 t) (hs2_1 t) (ms2_2 t) (hs2_2 t) (ms2_3 t) (hs2_3 t) (ms2_4 t) (hs2_4 t) scM2 (Memref.isWhole_whole _) _ _ (iblk2 V c 0 t) (iblk2 V c 1 t) (iblk2 V c 2 t) (iblk2 V c 3 t) (scAt2 V c t.val)

end Blocks

section Acc
variable (V : (c : Dev nD) → (b : Ref sig .tc) → Buf (Elt Ideal) ((c : Thread nD τ).loc b))

/-- The two tiles the reduction step at grid position n loads, as sequences over positions (past the grid: the
    cleared accumulator, never consulted). -/
def tA2 (c : Dev nD) (n : ℕ) : Vec Ideal S1024x1024 .f32 :=
  if h : n < cfg2.N then iblk2 V c 0 ⟨n, h⟩ else k2_pay1 (F := Ideal)
def tW2 (c : Dev nD) (n : ℕ) : Vec Ideal S1024x1024 .f32 :=
  if h : n < cfg2.N then iblk2 V c 1 ⟨n, h⟩ else k2_pay1 (F := Ideal)

theorem tA2_of_lt (c : Dev nD) (n : ℕ) (h : n < cfg2.N) : tA2 V c n = iblk2 V c 0 ⟨n, h⟩ := dif_pos h
theorem tW2_of_lt (c : Dev nD) (n : ℕ) (h : n < cfg2.N) : tW2 V c n = iblk2 V c 1 ⟨n, h⟩ := dif_pos h

theorem acc2_succ (a w : ℕ → Vec Ideal S1024x1024 .f32) (n : ℕ) :
    acc2 a w (n + 1) = k2_pay2 (F := Ideal) (acc2 a w n) (a n) (w n) := rfl

/-- THE ACCUMULATOR IN CLOSED FORM: after the step at position n, which is step j = n % 4 of its reduction, the
    accumulator is j + 1 steps from cleared over the tiles of positions n - j … n. -/
theorem scAt2_closed (c : Dev nD) : ∀ (j n : ℕ), n < cfg2.N → n % 4 = j →
    scAt2 V c (n + 1) = acc2 (fun s => tA2 V c (n - j + s)) (fun s => tW2 V c (n - j + s)) (j + 1)
  | 0, n, hn, hj => by
    refine (scAt2_succ V c ⟨n, hn⟩).trans ?_
    rw [step2_first V c ⟨n, hn⟩ hj, acc2_succ]
    show _ = k2_pay2 (F := Ideal) (k2_pay1 (F := Ideal)) (tA2 V c (n - 0 + 0)) (tW2 V c (n - 0 + 0))
    rw [Nat.sub_zero, Nat.add_zero, tA2_of_lt V c n hn, tW2_of_lt V c n hn]
  | j + 1, n, hn, hj => by
    obtain ⟨m, rfl⟩ : ∃ m, n = m + 1 := ⟨n - 1, by omega⟩
    have hm : m < cfg2.N := Nat.lt_of_succ_lt hn
    have ih := scAt2_closed c j m hm (by omega)
    refine (scAt2_succ V c ⟨m + 1, hn⟩).trans ?_
    rw [step2_later V c ⟨m + 1, hn⟩ (by show ¬(m + 1) % 4 = 0; omega)]
    rw [acc2_succ, Nat.add_sub_add_right]
    have e : m - j + (j + 1) = m + 1 := by omega
    show k2_pay2 (F := Ideal) (scAt2 V c (m + 1)) _ _ = k2_pay2 (F := Ideal) _ (tA2 V c (m - j + (j + 1))) (tW2 V c (m - j + (j + 1)))
    rw [ih, e, tA2_of_lt V c _ hn, tW2_of_lt V c _ hn]

theorem tA2_real (c : Dev nD) (ha : ∀ j, IsReal (V c main_v1_0 j)) (n : ℕ) (j : S1024x1024.Idx) : IsReal (tA2 V c n j) := by
  unfold tA2
  split
  · unfold iblk2
    rw [View.read_apply]
    exact ha _
  · obtain ⟨p, q, rfl⟩ : ∃ (p q : Fin 1024), j = ix2 p q := ⟨j 0, j 1, eq_ix2 j⟩
    rw [k2_pay1_at]; exact isReal_zero

theorem tW2_real (c : Dev nD) (hw : ∀ j, IsReal (V c main_arg6 j)) (n : ℕ) (j : S1024x1024.Idx) : IsReal (tW2 V c n j) := by
  unfold tW2
  split
  · unfold iblk2
    rw [View.read_apply]
    exact hw _
  · obtain ⟨p, q, rfl⟩ : ∃ (p q : Fin 1024), j = ix2 p q := ⟨j 0, j 1, eq_ix2 j⟩
    rw [k2_pay1_at]; exact isReal_zero

/-- At a last reduction step the accumulator with the step's product added is the whole contraction: row r of the
    activations against row cq of the weights. -/
theorem acc2_full (c : Dev nD) (ha : ∀ j, IsReal (V c main_v1_0 j)) (hw : ∀ j, IsReal (V c main_arg6 j))
    (t : Fin cfg2.N) (h3 : t.val % 4 = 3) (p q : Fin 1024) (r : Fin 8192) (cq : Fin 1024)
    (hr : r.val = 1024 * (t.val / 4) + p.val) (hq : cq.val = q.val) :
    k2_pay2 (F := Ideal) (scAt2 V c t.val) (iblk2 V c 0 t) (iblk2 V c 1 t) (ix2 p q)
      = ∑ k : Fin 4096, Cert.Spec.mat (V c main_v1_0) r k * Cert.Spec.mat (V c main_arg6) cq k := by
  have e : k2_pay2 (F := Ideal) (scAt2 V c t.val) (iblk2 V c 0 t) (iblk2 V c 1 t) = scAt2 V c (t.val + 1) :=
    ((scAt2_succ V c t).trans (step2_later V c t (by omega) _)).symm
  rw [e, scAt2_closed V c 3 t.val t.isLt h3, acc2_at _ _ (fun s j => tA2_real V c ha _ j) (fun s j => tW2_real V c hw _ j),
    Finset.sum_range,
    ← sum_blocks_fin (fun k => Cert.Spec.mat (V c main_v1_0) r k * Cert.Spec.mat (V c main_arg6) cq k)]
  refine Finset.sum_congr rfl fun s _ => Finset.sum_congr rfl fun l _ => ?_
  have hs := s.isLt
  have ht := t.isLt
  have hlt : t.val - 3 + s.val < cfg2.N := by omega
  have eA : tA2 V c (t.val - 3 + s.val) (ix2 p l) = Cert.Spec.mat (V c main_v1_0) r ⟨1024 * s.val + l.val, blk_lt s l⟩ := by
    rw [tA2_of_lt V c _ hlt]
    exact iblk2_0_at V c ⟨_, hlt⟩ p l r _ (by show r.val = 1024 * ((t.val - 3 + s.val) / 4) + p.val; omega)
      (by show 1024 * s.val + l.val = 1024 * ((t.val - 3 + s.val) % 4) + l.val; omega)
  have eW : tW2 V c (t.val - 3 + s.val) (ix2 q l) = Cert.Spec.mat (V c main_arg6) cq ⟨1024 * s.val + l.val, blk_lt s l⟩ := by
    rw [tW2_of_lt V c _ hlt]
    exact iblk2_1_at V c ⟨_, hlt⟩ q l cq _ hq
      (by show 1024 * s.val + l.val = 1024 * ((t.val - 3 + s.val) % 4) + l.val; omega)
  show tA2 V c (t.val - 3 + s.val) (ix2 p l) * tW2 V c (t.val - 3 + s.val) (ix2 q l) = _
  rw [eA, eW]

end Acc

section Final
variable (V : (c : Dev nD) → (b : Ref sig .tc) → Buf (Elt Ideal) ((c : Thread nD τ).loc b))

/-- The output array as a function of the argument arrays: the affine layer plus the residual. -/
def G2_4 (c : Dev nD) : S8192x1024.Idx → EReal := fun idx =>
  Cert.Spec.lin (Cert.Spec.mat (V c main_v1_0)) (Cert.Spec.mat (V c main_arg6)) (Cert.Spec.vec (V c main_arg7)) (idx 0) (idx 1)
    + Cert.Spec.mat (V c main_arg0) (idx 0) (idx 1)

/-- What a last reduction step stores in the output tile, entry by entry. -/
theorem outsAt2_4_at (c : Dev nD) (ha : ∀ j, IsReal (V c main_v1_0 j)) (hw : ∀ j, IsReal (V c main_arg6 j))
    (t : Fin cfg2.N) (h3 : t.val % 4 = 3) (j : S1024x1024.Idx) (i : S8192x1024.Idx)
    (h0 : (i 0).val = 1024 * (t.val / 4) + (j 0).val) (h1 : (i 1).val = (j 1).val) :
    outsAt2_4 V c t j = G2_4 V c i := by
  obtain ⟨p, q, rfl⟩ : ∃ (p q : Fin 1024), j = ix2 p q := ⟨j 0, j 1, eq_ix2 j⟩
  obtain ⟨r, cq, rfl⟩ : ∃ (r : Fin 8192) (cq : Fin 1024), i = ix2 r cq := ⟨i 0, i 1, eq_ix2 i⟩
  rw [outsAt2_4_last V c t h3, k2_pay3_at, acc2_full V c ha hw t h3 p q r cq h0 h1, iblk2_2_at V c t q cq h1,
    iblk2_3_at V c t p q r cq h0 h1]
  rfl

/-- WHAT A LAST REDUCTION STEP WRITES BACK is its block of the output function. -/
theorem flushed2_4_eq (c : Dev nD) (ha : ∀ j, IsReal (V c main_v1_0 j)) (hw : ∀ j, IsReal (V c main_arg6 j))
    (t : Fin cfg2.N) (hf : (cfg2.win 4).flush t = true) :
    (dat2 V c).flushed 4 t = ((cfg2.win 4).blk t).view.read (Elt Ideal) (G2_4 V c) := by
  have h3 : t.val % 4 = 3 := (flush2_4 t).mp hf
  obtain ⟨-, -, -, -, -, -, -, e0, e1⟩ := idx2 t
  show (cfg2.win 4).cut (grid2.coords t) ((dat2 V c).after 4 t) = _
  rw [after2_4]
  funext j
  show outsAt2_4 V c t j = G2_4 V c (((cfg2.win 4).blk t).view.emb j)
  refine outsAt2_4_at V c ha hw t h3 j _ ?_ ?_
  · show win2_4.index t 0 * 1024 + 1 * (j 0).val = 1024 * (t.val / 4) + (j 0).val; rw [e0]; omega
  · show win2_4.index t 1 * 1024 + 1 * (j 1).val = (j 1).val; rw [e1]; omega

/-- An index of the array is in point t's block iff each coordinate is in the block's range on its axis. -/
theorem mem_blk2_4 (t : Fin cfg2.N) (i : S8192x1024.Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v2).slice (win2_4.rect t)).set ↔ _
  rw [View.set_slice_whole, Rect.mem_set_unit]
  exact Iff.rfl

/-- Entry (r, q) is written back by the last step of the reduction of row block r / 1024. -/
theorem cover2_4 (i : S8192x1024.Idx) : ∃ t : Fin cfg2.N, (cfg2.win 4).flush t = true ∧ i ∈ ((cfg2.win 4).blk t).view.set := by
  have h0 : (i 0).val < 8192 := (i 0).isLt
  have h1 : (i 1).val < 1024 := (i 1).isLt
  have hN : cfg2.N = 32 := N_2
  have hlt : 4 * ((i 0).val / 1024) + 3 < cfg2.N := by rw [hN]; omega
  obtain ⟨-, -, -, -, -, -, -, e0, e1⟩ := idx2 ⟨_, hlt⟩
  refine ⟨⟨_, hlt⟩, (flush2_4 _).mpr (by show (4 * ((i 0).val / 1024) + 3) % 4 = 3; omega), ?_⟩
  rw [mem_blk2_4]
  intro a
  match a with
  | ⟨0, _⟩ =>
    show win2_4.index ⟨_, hlt⟩ 0 * 1024 ≤ (i 0).val ∧ (i 0).val < win2_4.index ⟨_, hlt⟩ 0 * 1024 + 1024
    rw [e0]; show (4 * ((i 0).val / 1024) + 3) / 4 * 1024 ≤ (i 0).val ∧ (i 0).val < (4 * ((i 0).val / 1024) + 3) / 4 * 1024 + 1024; omega
  | ⟨1, _⟩ =>
    show win2_4.index ⟨_, hlt⟩ 1 * 1024 ≤ (i 1).val ∧ (i 1).val < win2_4.index ⟨_, hlt⟩ 1 * 1024 + 1024
    rw [e1]; omega

/-- THE ARRAY after the region: the third layer plus the residual. -/
theorem final2_4 (c : Dev nD) (ha : ∀ j, IsReal (V c main_v1_0 j)) (hw : ∀ j, IsReal (V c main_arg6 j)) :
    (dat2 (F := Ideal) V c).arrAt 4 cfg2.N = fun idx : S8192x1024.Idx =>
      Cert.Spec.lin (Cert.Spec.mat (V c main_v1_0)) (Cert.Spec.mat (V c main_arg6)) (Cert.Spec.vec (V c main_arg7)) (idx 0) (idx 1)
        + Cert.Spec.mat (V c main_arg0) (idx 0) (idx 1) :=
  (dat2 (F := Ideal) V c).arrAt_eq_of_cover 4 (G2_4 V c) (flushed2_4_eq V c ha hw) cover2_4

/-- The same with the residual read at the index itself. -/
theorem final2_4' (c : Dev nD) (ha : ∀ j, IsReal (V c main_v1_0 j)) (hw : ∀ j, IsReal (V c main_arg6 j)) :
    (dat2 (F := Ideal) V c).arrAt 4 cfg2.N = fun idx : S8192x1024.Idx =>
      Cert.Spec.lin (Cert.Spec.mat (V c main_v1_0)) (Cert.Spec.mat (V c main_arg6)) (Cert.Spec.vec (V c main_arg7)) (idx 0) (idx 1)
        + ((V c main_arg0 : S8192x1024.Idx → EReal) idx : EReal) := by
  rw [final2_4 V c ha hw]
  funext idx
  have e : (V c main_arg0 : S8192x1024.Idx → EReal) (ix2 (idx 0) (idx 1)) = (V c main_arg0 : S8192x1024.Idx → EReal) idx :=
    congrArg _ (eq_ix2 idx).symm
  show _ + (V c main_arg0 : S8192x1024.Idx → EReal) (ix2 (idx 0) (idx 1)) = _
  rw [e]

end Final

end Cert.KernelIdeal.Hand

end
-- ==== Proof.SerSpec.lean ====
/-
  The series with its two gates read from arbitrary pre-activation arrays: one application of the transposed Jacobian,
  the iterates, the trace terms and the ten-term sum, in the shape of the specification's; the specification's are these at
  its own pre-activations; and everything is row by row, so rows may be renamed.
-/
import proofs.«172335_j35158602285651_2_alg».proof.Proof.Spec

noncomputable section

open scoped BigOperators

namespace Cert.Ser

variable {B B' D H : ℕ}

section Defs

variable (Z1 Z2 : Fin B → Fin H → EReal) (W1 : Fin H → Fin D → EReal) (W2 : Fin H → Fin H → EReal) (W3 : Fin D → Fin H → EReal)

/-- One application of the transposed Jacobian to the row vector `v r`, the gates read from `Z1` and `Z2`. -/
def backZ (v : Fin B → Fin D → EReal) (r : Fin B) (i : Fin D) : EReal :=
  ∑ j : Fin H, Cert.Spec.gate (Z1 r j)
      (∑ k : Fin H, Cert.Spec.gate (Z2 r k) (∑ l : Fin D, v r l * W3 l k) * W2 k j) * W1 j i

/-- The iterates from `u`. -/
def utZ (u : Fin B → Fin D → EReal) : ℕ → Fin B → Fin D → EReal
  | 0 => u
  | n + 1 => backZ Z1 Z2 W1 W2 W3 (utZ u n)

/-- ⟨(n+1)-st iterate, u⟩ at row `r`. -/
def trZ (u : Fin B → Fin D → EReal) (n : ℕ) (r : Fin B) : EReal := ∑ i : Fin D, utZ Z1 Z2 W1 W2 W3 u (n + 1) r i * u r i

/-- The ten-term series with coefficients `c`, summed left to right from zero. -/
def logdetZ (u : Fin B → Fin D → EReal) (c : Fin 10 → EReal) (r : Fin B) : EReal :=
  0 + c 0 * trZ Z1 Z2 W1 W2 W3 u 0 r + c 1 * trZ Z1 Z2 W1 W2 W3 u 1 r + c 2 * trZ Z1 Z2 W1 W2 W3 u 2 r
    + c 3 * trZ Z1 Z2 W1 W2 W3 u 3 r + c 4 * trZ Z1 Z2 W1 W2 W3 u 4 r + c 5 * trZ Z1 Z2 W1 W2 W3 u 5 r
    + c 6 * trZ Z1 Z2 W1 W2 W3 u 6 r + c 7 * trZ Z1 Z2 W1 W2 W3 u 7 r + c 8 * trZ Z1 Z2 W1 W2 W3 u 8 r
    + c 9 * trZ Z1 Z2 W1 W2 W3 u 9 r

end Defs

section AtTheNet

variable (x u : Fin B → Fin D → EReal) (W1 : Fin H → Fin D → EReal) (b1 : Fin H → EReal)
  (W2 : Fin H → Fin H → EReal) (b2 : Fin H → EReal) (W3 : Fin D → Fin H → EReal)

/-- The specification's step is this one at the network's own pre-activations. -/
theorem back_eq (v : Fin B → Fin D → EReal) :
    Cert.Spec.back x W1 b1 W2 b2 W3 v = backZ (Cert.Spec.z1 x W1 b1) (Cert.Spec.z2 x W1 b1 W2 b2) W1 W2 W3 v := rfl

theorem ut_eq (n : ℕ) :
    Cert.Spec.ut x u W1 b1 W2 b2 W3 n = utZ (Cert.Spec.z1 x W1 b1) (Cert.Spec.z2 x W1 b1 W2 b2) W1 W2 W3 u n := by
  induction n with
  | zero => rfl
  | succ n ih =>
    show Cert.Spec.back x W1 b1 W2 b2 W3 (Cert.Spec.ut x u W1 b1 W2 b2 W3 n) = _
    rw [ih, back_eq]
    rfl

theorem tr_eq (n : ℕ) (r : Fin B) :
    Cert.Spec.tr x u W1 b1 W2 b2 W3 n r = trZ (Cert.Spec.z1 x W1 b1) (Cert.Spec.z2 x W1 b1 W2 b2) W1 W2 W3 u n r := by
  unfold Cert.Spec.tr trZ
  rw [ut_eq]

theorem logdet_eq (c : Fin 10 → EReal) (r : Fin B) :
    Cert.Spec.logdet x u W1 b1 W2 b2 W3 c r
      = logdetZ (Cert.Spec.z1 x W1 b1) (Cert.Spec.z2 x W1 b1 W2 b2) W1 W2 W3 u c r := by
  unfold Cert.Spec.logdet logdetZ
  simp only [tr_eq]

end AtTheNet

section Rows

variable (Z1 Z2 : Fin B → Fin H → EReal) (W1 : Fin H → Fin D → EReal) (W2 : Fin H → Fin H → EReal) (W3 : Fin D → Fin H → EReal)
  (u : Fin B → Fin D → EReal) (ρ : Fin B' → Fin B)

/-- The iterates of renamed rows are the iterates' renamed rows. -/
theorem utZ_rows (n : ℕ) :
    utZ (fun p => Z1 (ρ p)) (fun p => Z2 (ρ p)) W1 W2 W3 (fun p => u (ρ p)) n
      = fun p => utZ Z1 Z2 W1 W2 W3 u n (ρ p) := by
  induction n with
  | zero => rfl
  | succ n ih =>
    show backZ _ _ W1 W2 W3 (utZ (fun p => Z1 (ρ p)) (fun p => Z2 (ρ p)) W1 W2 W3 (fun p => u (ρ p)) n) = _
    rw [ih]
    rfl

theorem trZ_rows (n : ℕ) (p : Fin B') :
    trZ (fun p => Z1 (ρ p)) (fun p => Z2 (ρ p)) W1 W2 W3 (fun p => u (ρ p)) n p = trZ Z1 Z2 W1 W2 W3 u n (ρ p) := by
  unfold trZ
  rw [utZ_rows]

theorem logdetZ_rows (c : Fin 10 → EReal) (p : Fin B') :
    logdetZ (fun p => Z1 (ρ p)) (fun p => Z2 (ρ p)) W1 W2 W3 (fun p => u (ρ p)) c p
      = logdetZ Z1 Z2 W1 W2 W3 u c (ρ p) := by
  unfold logdetZ
  simp only [trZ_rows]

end Rows

end Cert.Ser

end
-- ==== Proof.SerOps.lean ====
import proofs.«172335_j35158602285651_2_alg».proof.Proof.Gen.KernelIdeal.Skeleton
import proofs.«172335_j35158602285651_2_alg».proof.Proof.SerSpec
import Idealize.ShloMosaic.Lib.Pipeline.Value
import Idealize.ShloMosaic.Lib.ValueIdx
import Idealize.ShloMosaic.PureOps.Ideal.Laws

noncomputable section

open scoped BigOperators

namespace Cert.Ser

open Cert.KernelIdeal Cert.KernelIdeal.Gen Idealize.ShloMosaic Idealize.SL.Sem
open Idealize.ShloMosaic.ValueIdx

/-! The series kernel's operations read at an entry, at the ideal values: the three contractions, the row sum kept as a
    column, one gated chain of the three, and one series term. -/

/-- A value times a 0/1 pattern is the value gated. -/
theorem mul_mask (z t : EReal) : t * (if 0 < z then 1 else 0) = Cert.Spec.gate z t := by
  unfold Cert.Spec.gate
  by_cases h : 0 < z
  · rw [if_pos h, if_pos h, mul_one]
  · rw [if_neg h, if_neg h, mul_zero]

theorem mm3_l0 (i : S128x4096.Idx) (q : dot_S128x1024_S1024x4096_S128x4096_1_0_0_1_n_n.contr.Idx) : (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide),
    dif_pos (show (0 : Fin S128x1024.rank) ∈ dot_S128x1024_S1024x4096_S128x4096_1_0_0_1_n_n.lhsNonContracting by decide)]
  rfl
theorem mm3_l1 (i : S128x4096.Idx) (q : dot_S128x1024_S1024x4096_S128x4096_1_0_0_1_n_n.contr.Idx) : (dot_S128x1024_S1024x4096_S128x4096_1_0_0_1_n_n.lhsIdx i q 1).val = (q ⟨0, by decide⟩).val :=
  dot_S128x1024_S1024x4096_S128x4096_1_0_0_1_n_n.lhsIdx_val_of_single rfl i q
theorem mm3_r0 (i : S128x4096.Idx) (q : dot_S128x1024_S1024x4096_S128x4096_1_0_0_1_n_n.contr.Idx) : (dot_S128x1024_S1024x4096_S128x4096_1_0_0_1_n_n.rhsIdx i q 0).val = (q ⟨0, by decide⟩).val :=
  dot_S128x1024_S1024x4096_S128x4096_1_0_0_1_n_n.rhsIdx_val_of_single rfl i q
theorem mm3_r1 (i : S128x4096.Idx) (q : dot_S128x1024_S1024x4096_S128x4096_1_0_0_1_n_n.contr.Idx) : (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide),
    dif_pos (show (1 : Fin S1024x4096.rank) ∈ dot_S128x1024_S1024x4096_S128x4096_1_0_0_1_n_n.rhsNonContracting by decide)]
  rfl

/-- This contraction into the zero accumulator, read at an entry: row `p` of the left operand against column `k` of the
    right one. -/
theorem mm3_at (X : FVec Ideal S128x1024 .bf16) (W : FVec Ideal S1024x4096 .bf16) (p : Fin 128) (k : Fin 4096) :
    matmul dot_S128x1024_S1024x4096_S128x4096_1_0_0_1_n_n none X W (constant S128x4096 .f32 0x00000000#32) (ix2 p k) = ∑ l : Fin 1024, X (ix2 p l) * W (ix2 l k) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun l _ => ?_
  have hk := ValueIdx.contrEquiv1_symm_val dot_S128x1024_S1024x4096_S128x4096_1_0_0_1_n_n 1024 rfl rfl l
  have el : dot_S128x1024_S1024x4096_S128x4096_1_0_0_1_n_n.lhsIdx (ix2 p k) ((ValueIdx.contrEquiv1 dot_S128x1024_S1024x4096_S128x4096_1_0_0_1_n_n 1024 rfl rfl).symm l) = ix2 p l :=
    funext fun a => Fin.ext (by
      match a with
      | ⟨0, _⟩ => exact mm3_l0 _ _
      | ⟨1, _⟩ => exact (mm3_l1 _ _).trans hk)
  have er : dot_S128x1024_S1024x4096_S128x4096_1_0_0_1_n_n.rhsIdx (ix2 p k) ((ValueIdx.contrEquiv1 dot_S128x1024_S1024x4096_S128x4096_1_0_0_1_n_n 1024 rfl rfl).symm l) = ix2 l k :=
    funext fun a => Fin.ext (by
      match a with
      | ⟨0, _⟩ => exact (mm3_r0 _ _).trans hk
      | ⟨1, _⟩ => exact mm3_r1 _ _)
  rw [el, er]

theorem mm2_l0 (i : S128x4096.Idx) (q : dot_S128x4096_S4096x4096_S128x4096_1_0_0_1_n_n.contr.Idx) : (dot_S128x4096_S4096x4096_S128x4096_1_0_0_1_n_n.lhsIdx i q 0).val = (i 0).val := by
  unfold DotDims.lhsIdx
  rw [dif_neg (show ¬(0 : Fin S128x4096.rank) ∈ dot_S128x4096_S4096x4096_S128x4096_1_0_0_1_n_n.lhsBatch by decide),
    dif_pos (show (0 : Fin S128x4096.rank) ∈ dot_S128x4096_S4096x4096_S128x4096_1_0_0_1_n_n.lhsNonContracting by decide)]
  rfl
theorem mm2_l1 (i : S128x4096.Idx) (q : dot_S128x4096_S4096x4096_S128x4096_1_0_0_1_n_n.contr.Idx) : (dot_S128x4096_S4096x4096_S128x4096_1_0_0_1_n_n.lhsIdx i q 1).val = (q ⟨0, by decide⟩).val :=
  dot_S128x4096_S4096x4096_S128x4096_1_0_0_1_n_n.lhsIdx_val_of_single rfl i q
theorem mm2_r0 (i : S128x4096.Idx) (q : dot_S128x4096_S4096x4096_S128x4096_1_0_0_1_n_n.contr.Idx) : (dot_S128x4096_S4096x4096_S128x4096_1_0_0_1_n_n.rhsIdx i q 0).val = (q ⟨0, by decide⟩).val :=
  dot_S128x4096_S4096x4096_S128x4096_1_0_0_1_n_n.rhsIdx_val_of_single rfl i q
theorem mm2_r1 (i : S128x4096.Idx) (q : dot_S128x4096_S4096x4096_S128x4096_1_0_0_1_n_n.contr.Idx) : (dot_S128x4096_S4096x4096_S128x4096_1_0_0_1_n_n.rhsIdx i q 1).val = (i 1).val := by
  unfold DotDims.rhsIdx
  rw [dif_neg (show ¬(1 : Fin S4096x4096.rank) ∈ dot_S128x4096_S4096x4096_S128x4096_1_0_0_1_n_n.rhsBatch by decide),
    dif_pos (show (1 : Fin S4096x4096.rank) ∈ dot_S128x4096_S4096x4096_S128x4096_1_0_0_1_n_n.rhsNonContracting by decide)]
  rfl

/-- This contraction into the zero accumulator, read at an entry: row `p` of the left operand against column `k` of the
    right one. -/
theorem mm2_at (X : FVec Ideal S128x4096 .bf16) (W : FVec Ideal S4096x4096 .bf16) (p : Fin 128) (k : Fin 4096) :
    matmul dot_S128x4096_S4096x4096_S128x4096_1_0_0_1_n_n none X W (constant S128x4096 .f32 0x00000000#32) (ix2 p k) = ∑ l : Fin 4096, X (ix2 p l) * W (ix2 l k) := by
  simp only [matmul]
  rw [Ideal.matmul_constant_zero_apply, ← Equiv.sum_comp (ValueIdx.contrEquiv1 dot_S128x4096_S4096x4096_S128x4096_1_0_0_1_n_n 4096 rfl rfl).symm]
  refine Finset.sum_congr rfl fun l _ => ?_
  have hk := ValueIdx.contrEquiv1_symm_val dot_S128x4096_S4096x4096_S128x4096_1_0_0_1_n_n 4096 rfl rfl l
  have el : dot_S128x4096_S4096x4096_S128x4096_1_0_0_1_n_n.lhsIdx (ix2 p k) ((ValueIdx.contrEquiv1 dot_S128x4096_S4096x4096_S128x4096_1_0_0_1_n_n 4096 rfl rfl).symm l) = ix2 p l :=
    funext fun a => Fin.ext (by
      match a with
      | ⟨0, _⟩ => exact mm2_l0 _ _
      | ⟨1, _⟩ => exact (mm2_l1 _ _).trans hk)
  have er : dot_S128x4096_S4096x4096_S128x4096_1_0_0_1_n_n.rhsIdx (ix2 p k) ((ValueIdx.contrEquiv1 dot_S128x4096_S4096x4096_S128x4096_1_0_0_1_n_n 4096 rfl rfl).symm l) = ix2 l k :=
    funext fun a => Fin.ext (by
      match a with
      | ⟨0, _⟩ => exact (mm2_r0 _ _).trans hk
      | ⟨1, _⟩ => exact mm2_r1 _ _)
  rw [el, er]

theorem mm1_l0 (i : S128x1024.Idx) (q : dot_S128x4096_S4096x1024_S128x1024_1_0_0_1_n_n.contr.Idx) : (dot_S128x4096_S4096x1024_S128x1024_1_0_0_1_n_n.lhsIdx i q 0).val = (i 0).val := by
  unfold DotDims.lhsIdx
  rw [dif_neg (show ¬(0 : Fin S128x4096.rank) ∈ dot_S128x4096_S4096x1024_S128x1024_1_0_0_1_n_n.lhsBatch by decide),
    dif_pos (show (0 : Fin S128x4096.rank) ∈ dot_S128x4096_S4096x1024_S128x1024_1_0_0_1_n_n.lhsNonContracting by decide)]
  rfl
theorem mm1_l1 (i : S128x1024.Idx) (q : dot_S128x4096_S4096x1024_S128x1024_1_0_0_1_n_n.contr.Idx) : (dot_S128x4096_S4096x1024_S128x1024_1_0_0_1_n_n.lhsIdx i q 1).val = (q ⟨0, by decide⟩).val :=
  dot_S128x4096_S4096x1024_S128x1024_1_0_0_1_n_n.lhsIdx_val_of_single rfl i q
theorem mm1_r0 (i : S128x1024.Idx) (q : dot_S128x4096_S4096x1024_S128x1024_1_0_0_1_n_n.contr.Idx) : (dot_S128x4096_S4096x1024_S128x1024_1_0_0_1_n_n.rhsIdx i q 0).val = (q ⟨0, by decide⟩).val :=
  dot_S128x4096_S4096x1024_S128x1024_1_0_0_1_n_n.rhsIdx_val_of_single rfl i q
theorem mm1_r1 (i : S128x1024.Idx) (q : dot_S128x4096_S4096x1024_S128x1024_1_0_0_1_n_n.contr.Idx) : (dot_S128x4096_S4096x1024_S128x1024_1_0_0_1_n_n.rhsIdx i q 1).val = (i 1).val := by
  unfold DotDims.rhsIdx
  rw [dif_neg (show ¬(1 : Fin S4096x1024.rank) ∈ dot_S128x4096_S4096x1024_S128x1024_1_0_0_1_n_n.rhsBatch by decide),
    dif_pos (show (1 : Fin S4096x1024.rank) ∈ dot_S128x4096_S4096x1024_S128x1024_1_0_0_1_n_n.rhsNonContracting by decide)]
  rfl

/-- This contraction into the zero accumulator, read at an entry: row `p` of the left operand against column `k` of the
    right one. -/
theorem mm1_at (X : FVec Ideal S128x4096 .bf16) (W : FVec Ideal S4096x1024 .bf16) (p : Fin 128) (k : Fin 1024) :
    matmul dot_S128x4096_S4096x1024_S128x1024_1_0_0_1_n_n none X W (constant S128x1024 .f32 0x00000000#32) (ix2 p k) = ∑ l : Fin 4096, X (ix2 p l) * W (ix2 l k) := by
  simp only [matmul]
  rw [Ideal.matmul_constant_zero_apply, ← Equiv.sum_comp (ValueIdx.contrEquiv1 dot_S128x4096_S4096x1024_S128x1024_1_0_0_1_n_n 4096 rfl rfl).symm]
  refine Finset.sum_congr rfl fun l _ => ?_
  have hk := ValueIdx.contrEquiv1_symm_val dot_S128x4096_S4096x1024_S128x1024_1_0_0_1_n_n 4096 rfl rfl l
  have el : dot_S128x4096_S4096x1024_S128x1024_1_0_0_1_n_n.lhsIdx (ix2 p k) ((ValueIdx.contrEquiv1 dot_S128x4096_S4096x1024_S128x1024_1_0_0_1_n_n 4096 rfl rfl).symm l) = ix2 p l :=
    funext fun a => Fin.ext (by
      match a with
      | ⟨0, _⟩ => exact mm1_l0 _ _
      | ⟨1, _⟩ => exact (mm1_l1 _ _).trans hk)
  have er : dot_S128x4096_S4096x1024_S128x1024_1_0_0_1_n_n.rhsIdx (ix2 p k) ((ValueIdx.contrEquiv1 dot_S128x4096_S4096x1024_S128x1024_1_0_0_1_n_n 4096 rfl rfl).symm l) = ix2 l k :=
    funext fun a => Fin.ext (by
      match a with
      | ⟨0, _⟩ => exact (mm1_r0 _ _).trans hk
      | ⟨1, _⟩ => exact mm1_r1 _ _)
  rw [el, er]

/-- The row sum of a [128,1024] array kept as a [128,1] column, read at row `p`. -/
theorem rowcol_at (M : FVec Ideal S128x1024 .f32) (h : S128x1024.Reduces [1] S128) (hc : S128.ShapeCasts S128x1) (p : Fin 128) :
    shapeCast S128x1 (multiReduction .add [1] S128 M 0x00000000#32 h (.inl rfl) rfl) hc (ix2 p (0 : Fin 1))
      = ∑ i : Fin 1024, M (ix2 p i) := by
  refine (shapeCast_apply _ hc (ix2 p (0 : Fin 1)) (ix1 p) (by
    rw [Shape.rowMajor_val_two, Shape.rowMajor_val_one]
    show p.val = p.val * 1 + 0
    omega)).trans ?_
  refine (Ideal.multiReduction_add_single M _ h _ _ (ix1 p)).trans ?_
  refine Finset.sum_congr rfl fun i _ => congrArg M ?_
  exact funext fun a => Fin.ext (by match a with | ⟨0, _⟩ => rfl | ⟨1, _⟩ => rfl)

section Chain

variable (Z1 Z2 : Fin 128 → Fin 4096 → EReal) (u : Vec Ideal S128x1024 .f32) (w1 : Vec Ideal S4096x1024 .bf16)
  (w2 : Vec Ideal S4096x4096 .bf16) (w3 : Vec Ideal S1024x4096 .bf16)

/-- The n-th iterate at this tile: the gates from `Z1`, `Z2`, the weights and `u` as loaded. -/
abbrev utK (n : ℕ) : Fin 128 → Fin 1024 → EReal :=
  utZ Z1 Z2 (Cert.Spec.mat w1) (Cert.Spec.mat w2) (Cert.Spec.mat w3) (Cert.Spec.mat u) n
/-- The n-th trace term at this tile. -/
abbrev trK (n : ℕ) : Fin 128 → EReal :=
  trZ Z1 Z2 (Cert.Spec.mat w1) (Cert.Spec.mat w2) (Cert.Spec.mat w3) (Cert.Spec.mat u) n

/-- `M` is the 0/1 pattern of "`Z` is positive". -/
def IsMask (Z : Fin 128 → Fin 4096 → EReal) (M : FVec Ideal S128x4096 .bf16) : Prop :=
  ∀ (p : Fin 128) (j : Fin 4096), M (ix2 p j) = if 0 < Z p j then 1 else 0

/-- `X` reads as the n-th iterate. -/
def Reads (n : ℕ) (X : S128x1024.Idx → EReal) : Prop :=
  ∀ (p : Fin 128) (l : Fin 1024), X (ix2 p l) = utK Z1 Z2 u w1 w2 w3 n p l

/-- One gated chain of the three contractions on a row tile `X`. -/
def bstep (X : FVec Ideal S128x1024 .bf16) (M1 M2 : FVec Ideal S128x4096 .bf16) : FVec Ideal S128x1024 .f32 :=
  matmul (φ₂ := .bf16) dot_S128x4096_S4096x1024_S128x1024_1_0_0_1_n_n none
    (mulf (truncf .bf16 (matmul (φ₂ := .bf16) dot_S128x4096_S4096x4096_S128x4096_1_0_0_1_n_n none
      (mulf (truncf .bf16 (matmul (φ₂ := .bf16) dot_S128x1024_S1024x4096_S128x4096_1_0_0_1_n_n none X w3
        (constant S128x4096 .f32 0x00000000#32)) (by decide)) M2) w2 (constant S128x4096 .f32 0x00000000#32)) (by decide)) M1)
    w1 (constant S128x1024 .f32 0x00000000#32)

/-- The chain on the n-th iterate is the next iterate. -/
theorem bstep_at (n : ℕ) (X : FVec Ideal S128x1024 .bf16) (M1 M2 : FVec Ideal S128x4096 .bf16)
    (hX : Reads Z1 Z2 u w1 w2 w3 n X) (hM1 : IsMask Z1 M1) (hM2 : IsMask Z2 M2) (p : Fin 128) (i : Fin 1024) :
    bstep w1 w2 w3 X M1 M2 (ix2 p i) = utK Z1 Z2 u w1 w2 w3 (n + 1) p i := by
  unfold bstep
  rw [mm1_at]
  show _ = backZ Z1 Z2 (Cert.Spec.mat w1) (Cert.Spec.mat w2) (Cert.Spec.mat w3) (utK Z1 Z2 u w1 w2 w3 n) p i
  unfold backZ
  refine Finset.sum_congr rfl fun j _ => ?_
  rw [mulf_apply, truncf_apply, mm2_at, hM1, mul_mask]
  refine congrArg₂ (· * ·) (congrArg (Cert.Spec.gate _) (Finset.sum_congr rfl fun k _ => ?_)) rfl
  rw [mulf_apply, truncf_apply, mm3_at, hM2, mul_mask]
  refine congrArg₂ (· * ·) (congrArg (Cert.Spec.gate _) (Finset.sum_congr rfl fun l _ => ?_)) rfl
  rw [hX]
  rfl

theorem pay7_at (n : ℕ) (v5 v7 : FVec Ideal S128x4096 .bf16) (v28 : FVec Ideal S128x1024 .f32)
    (h28 : Reads Z1 Z2 u w1 w2 w3 n v28) (h5 : IsMask Z1 v5) (h7 : IsMask Z2 v7) :
    Reads Z1 Z2 u w1 w2 w3 (n + 1) (k3_pay7 v5 v7 v28 w3 w2 w1) :=
  fun p i => bstep_at Z1 Z2 u w1 w2 w3 n (truncf .bf16 v28 (by decide)) v5 v7 h28 h5 h7 p i

local notation "Rd" => Reads Z1 Z2 u w1 w2 w3

/-- The row sums of (n+1)-st iterate times `u`, as a column, read as the n-th trace term. -/
theorem rowtr_at (n : ℕ) (U : FVec Ideal S128x1024 .f32) (hU : Rd (n + 1) U) (h : S128x1024.Reduces [1] S128)
    (hc : S128.ShapeCasts S128x1) (p : Fin 128) :
    shapeCast S128x1 (multiReduction .add [1] S128 (mulf U u) 0x00000000#32 h (.inl rfl) rfl) hc (ix2 p (0 : Fin 1))
      = trK Z1 Z2 u w1 w2 w3 n p := by
  rw [rowcol_at]
  unfold trK trZ
  refine Finset.sum_congr rfl fun i _ => ?_
  rw [mulf_apply, hU]
  rfl

theorem pay5_at (m1 m2 : Vec Ideal S128x4096 .bf16) (h1 : IsMask Z1 (k3_pay2 m1)) (h2 : IsMask Z2 (k3_pay3 m2)) :
    Rd 1 (k3_pay5 u m1 m2 w3 w2 w1) :=
  fun p i => bstep_at Z1 Z2 u w1 w2 w3 0 (truncf .bf16 u (by decide)) (k3_pay2 m1) (k3_pay3 m2) (fun _ _ => rfl) h1 h2 p i

theorem pay8_at (v5 v7 : FVec Ideal S128x4096 .bf16) (v8 : FVec Ideal S128x1 .f32) (v28 v29 : FVec Ideal S128x1024 .f32)
    (h28 : Rd 1 v28) (h29 : v29 = mulf v28 u) (h45 : Rd 2 (k3_pay7 v5 v7 v28 w3 w2 w1)) (p : Fin 128) :
    k3_pay8 u v5 v7 v8 v28 v29 w3 w2 w1 (ix2 p (0 : Fin 1))
      = v8 (ix2 p (0 : Fin 1)) + Ideal.ofBits .f32 0x3F800000#32 * trK Z1 Z2 u w1 w2 w3 0 p
          + Ideal.ofBits .f32 0xBF000000#32 * trK Z1 Z2 u w1 w2 w3 1 p := by
  subst h29
  unfold k3_pay8
  simp only [addf_apply, mulf_apply, broadcast_apply]
  rw [rowtr_at Z1 Z2 u w1 w2 w3 0 v28 h28, rowtr_at Z1 Z2 u w1 w2 w3 1 _ h45]
  rfl

theorem pay9_at (n : ℕ) (v5 v7 : FVec Ideal S128x4096 .bf16) (v28 : FVec Ideal S128x1024 .f32)
    (h : Rd n (k3_pay7 v5 v7 v28 w3 w2 w1)) (h5 : IsMask Z1 v5) (h7 : IsMask Z2 v7) :
    Rd (n + 1) (k3_pay9 v5 v7 v28 w3 w2 w1 w3 w2 w1) :=
  fun p i => bstep_at Z1 Z2 u w1 w2 w3 n (truncf .bf16 (k3_pay7 v5 v7 v28 w3 w2 w1) (by decide)) v5 v7 h h5 h7 p i

theorem pay11_at (n : ℕ) (v5 v7 : FVec Ideal S128x4096 .bf16) (v62 : FVec Ideal S128x1024 .f32)
    (h : Rd n v62) (h5 : IsMask Z1 v5) (h7 : IsMask Z2 v7) : Rd (n + 1) (k3_pay11 v5 v7 v62 w3 w2 w1) :=
  fun p i => bstep_at Z1 Z2 u w1 w2 w3 n (truncf .bf16 v62 (by decide)) v5 v7 h h5 h7 p i

theorem pay12_at (n : ℕ) (v5 v7 : FVec Ideal S128x4096 .bf16) (v62 : FVec Ideal S128x1024 .f32)
    (h : Rd n (k3_pay11 v5 v7 v62 w3 w2 w1)) (h5 : IsMask Z1 v5) (h7 : IsMask Z2 v7) :
    Rd (n + 1) (k3_pay12 v5 v7 v62 w3 w2 w1 w3 w2 w1) :=
  fun p i => bstep_at Z1 Z2 u w1 w2 w3 n (truncf .bf16 (k3_pay11 v5 v7 v62 w3 w2 w1) (by decide)) v5 v7 h h5 h7 p i

theorem pay14_at (n : ℕ) (v5 v7 : FVec Ideal S128x4096 .bf16) (v62 : FVec Ideal S128x1024 .f32)
    (h : Rd n (k3_pay12 v5 v7 v62 w3 w2 w1 w3 w2 w1)) : Rd n (k3_pay14 v5 v7 v62 w3 w2 w1 w3 w2 w1) :=
  fun p l => h p l

theorem pay15_at (n : ℕ) (v5 v7 : FVec Ideal S128x4096 .bf16) (v103 : FVec Ideal S128x1024 .bf16)
    (h : Rd n v103) (h5 : IsMask Z1 v5) (h7 : IsMask Z2 v7) : Rd (n + 1) (k3_pay15 v5 v7 v103 w3 w2 w1) :=
  fun p i => bstep_at Z1 Z2 u w1 w2 w3 n v103 v5 v7 h h5 h7 p i

theorem pay16_at (n : ℕ) (v5 v7 : FVec Ideal S128x4096 .bf16) (v103 : FVec Ideal S128x1024 .bf16)
    (h : Rd n (k3_pay15 v5 v7 v103 w3 w2 w1)) (h5 : IsMask Z1 v5) (h7 : IsMask Z2 v7) :
    Rd (n + 1) (k3_pay16 v5 v7 v103 w3 w2 w1 w3 w2 w1) :=
  fun p i => bstep_at Z1 Z2 u w1 w2 w3 n (truncf .bf16 (k3_pay15 v5 v7 v103 w3 w2 w1) (by decide)) v5 v7 h h5 h7 p i

theorem pay18_at (n : ℕ) (v5 v7 : FVec Ideal S128x4096 .bf16) (v103 : FVec Ideal S128x1024 .bf16)
    (h : Rd n (k3_pay16 v5 v7 v103 w3 w2 w1 w3 w2 w1)) : Rd n (k3_pay18 v5 v7 v103 w3 w2 w1 w3 w2 w1) :=
  fun p l => h p l

theorem pay19_at (n : ℕ) (v5 v7 : FVec Ideal S128x4096 .bf16) (v137 : FVec Ideal S128x1024 .bf16)
    (h : Rd n v137) (h5 : IsMask Z1 v5) (h7 : IsMask Z2 v7) :
    Rd (n + 1) (k3_pay19 v5 v7 v137 w3 (constant S128x4096 .f32 0x00000000#32) w2 w1) :=
  fun p i => bstep_at Z1 Z2 u w1 w2 w3 n v137 v5 v7 h h5 h7 p i

theorem pay20_at (n : ℕ) (v5 v7 : FVec Ideal S128x4096 .bf16) (v137 : FVec Ideal S128x1024 .bf16)
    (h : Rd n (k3_pay19 v5 v7 v137 w3 (constant S128x4096 .f32 0x00000000#32) w2 w1)) (h5 : IsMask Z1 v5) (h7 : IsMask Z2 v7) :
    Rd (n + 1) (k3_pay20 v5 v7 v137 w3 (constant S128x4096 .f32 0x00000000#32) w2 w1 w3 w2 w1) :=
  fun p i => bstep_at Z1 Z2 u w1 w2 w3 n (truncf .bf16 (k3_pay19 v5 v7 v137 w3 (constant S128x4096 .f32 0x00000000#32) w2 w1) (by decide)) v5 v7 h h5 h7 p i

/-- The last iterate: its first contraction and gate are the fifth part's last value, the rest is in the root. -/
theorem last_at (n : ℕ) (v5 v7 : FVec Ideal S128x4096 .bf16) (v137 : FVec Ideal S128x1024 .bf16)
    (h : Rd n (k3_pay20 v5 v7 v137 w3 (constant S128x4096 .f32 0x00000000#32) w2 w1 w3 w2 w1)) (h5 : IsMask Z1 v5) (h7 : IsMask Z2 v7) :
    Rd (n + 1) (matmul (φ₂ := .bf16) dot_S128x4096_S4096x1024_S128x1024_1_0_0_1_n_n none
      (mulf (truncf .bf16 (matmul (φ₂ := .bf16) dot_S128x4096_S4096x4096_S128x4096_1_0_0_1_n_n none
        (k3_pay22 v5 v7 v137 w3 (constant S128x4096 .f32 0x00000000#32) w2 w1 w3 w2 w1 w3) w2 (constant S128x4096 .f32 0x00000000#32)) (by decide)) v5)
      w1 (constant S128x1024 .f32 0x00000000#32)) :=
  fun p i => bstep_at Z1 Z2 u w1 w2 w3 n (truncf .bf16 (k3_pay20 v5 v7 v137 w3 (constant S128x4096 .f32 0x00000000#32) w2 w1 w3 w2 w1) (by decide)) v5 v7 h h5 h7 p i

theorem pay10_at (v5 v7 : FVec Ideal S128x4096 .bf16) (v28 : FVec Ideal S128x1024 .f32)
    (h62 : Rd 3 (k3_pay9 v5 v7 v28 w3 w2 w1 w3 w2 w1)) (p : Fin 128) :
    k3_pay10 u v5 v7 v28 w3 w2 w1 w3 w2 w1 (ix2 p (0 : Fin 1)) = trK Z1 Z2 u w1 w2 w3 2 p := by
  unfold k3_pay10
  exact rowtr_at Z1 Z2 u w1 w2 w3 2 _ h62 _ _ p

theorem pay13_at (v5 v7 : FVec Ideal S128x4096 .bf16) (v51 v65 : FVec Ideal S128x1 .f32) (v62 : FVec Ideal S128x1024 .f32)
    (c : Ideal .f32) (h79 : Rd 4 (k3_pay11 v5 v7 v62 w3 w2 w1)) (h96 : Rd 5 (k3_pay12 v5 v7 v62 w3 w2 w1 w3 w2 w1))
    (p : Fin 128) :
    k3_pay13 u v5 v7 v51 v62 v65 c w3 w2 w1 w3 w2 w1 (ix2 p (0 : Fin 1))
      = v51 (ix2 p (0 : Fin 1)) + c * v65 (ix2 p (0 : Fin 1)) + Ideal.ofBits .f32 0xBE800000#32 * trK Z1 Z2 u w1 w2 w3 3 p
          + Ideal.ofBits .f32 0x3E4CCCCD#32 * trK Z1 Z2 u w1 w2 w3 4 p := by
  unfold k3_pay13
  simp only [addf_apply, mulf_apply, broadcast_apply]
  rw [rowtr_at Z1 Z2 u w1 w2 w3 3 _ h79, rowtr_at Z1 Z2 u w1 w2 w3 4 _ h96]
  rfl

theorem pay17_at (v5 v7 : FVec Ideal S128x4096 .bf16) (v102 : FVec Ideal S128x1 .f32) (v103 : FVec Ideal S128x1024 .bf16)
    (h113 : Rd 6 (k3_pay15 v5 v7 v103 w3 w2 w1)) (h130 : Rd 7 (k3_pay16 v5 v7 v103 w3 w2 w1 w3 w2 w1)) (p : Fin 128) :
    k3_pay17 u v5 v7 v102 v103 w3 w2 w1 w3 w2 w1 (ix2 p (0 : Fin 1))
      = v102 (ix2 p (0 : Fin 1)) + Ideal.ofBits .f32 0xBE2AAAAB#32 * trK Z1 Z2 u w1 w2 w3 5 p
          + Ideal.ofBits .f32 0x3E124925#32 * trK Z1 Z2 u w1 w2 w3 6 p := by
  unfold k3_pay17
  simp only [addf_apply, mulf_apply, broadcast_apply]
  rw [rowtr_at Z1 Z2 u w1 w2 w3 5 _ h113, rowtr_at Z1 Z2 u w1 w2 w3 6 _ h130]
  rfl

theorem pay21_at (v5 v7 : FVec Ideal S128x4096 .bf16) (v136 : FVec Ideal S128x1 .f32) (v137 : FVec Ideal S128x1024 .bf16)
    (h147 : Rd 8 (k3_pay19 v5 v7 v137 w3 (constant S128x4096 .f32 0x00000000#32) w2 w1)) (h164 : Rd 9 (k3_pay20 v5 v7 v137 w3 (constant S128x4096 .f32 0x00000000#32) w2 w1 w3 w2 w1))
    (p : Fin 128) :
    k3_pay21 u v5 v7 v136 v137 w3 (constant S128x4096 .f32 0x00000000#32) w2 w1 w3 w2 w1 (ix2 p (0 : Fin 1))
      = v136 (ix2 p (0 : Fin 1)) + Ideal.ofBits .f32 0xBE000000#32 * trK Z1 Z2 u w1 w2 w3 7 p
          + Ideal.ofBits .f32 0x3DE38E39#32 * trK Z1 Z2 u w1 w2 w3 8 p := by
  unfold k3_pay21
  simp only [addf_apply, mulf_apply, broadcast_apply]
  rw [rowtr_at Z1 Z2 u w1 w2 w3 7 _ h147, rowtr_at Z1 Z2 u w1 w2 w3 8 _ h164]
  rfl

theorem pay1_at (v5 v175 : FVec Ideal S128x4096 .bf16) (v170 : FVec Ideal S128x1 .f32)
    (h181 : Rd 10 (matmul (φ₂ := .bf16) dot_S128x4096_S4096x1024_S128x1024_1_0_0_1_n_n none
      (mulf (truncf .bf16 (matmul (φ₂ := .bf16) dot_S128x4096_S4096x4096_S128x4096_1_0_0_1_n_n none v175 w2 (constant S128x4096 .f32 0x00000000#32))
        (by decide)) v5) w1 (constant S128x1024 .f32 0x00000000#32))) (p : Fin 128) :
    k3_pay1 u v5 v170 v175 w2 w1 (ix2 p (0 : Fin 1))
      = v170 (ix2 p (0 : Fin 1)) + Ideal.ofBits .f32 0xBDCCCCCD#32 * trK Z1 Z2 u w1 w2 w3 9 p := by
  unfold k3_pay1
  simp only [addf_apply, mulf_apply, broadcast_apply]
  rw [rowtr_at Z1 Z2 u w1 w2 w3 9 _ h181]
  rfl

end Chain

end Cert.Ser
-- ==== Proof.SerChain.lean ====
import proofs.«172335_j35158602285651_2_alg».proof.Proof.SerOps

noncomputable section

open scoped BigOperators

namespace Cert.Ser

open Cert.KernelIdeal Cert.KernelIdeal.Gen Idealize.ShloMosaic Idealize.SL.Sem
open Idealize.ShloMosaic.ValueIdx

/-! The series kernel's stored value as one function of what its loads return, and that value read at a row: the
    ten-term series with the gates of the two 0/1 patterns. -/

/-- The value the series kernel stores at a grid point, as a function of what its loads return: the row tile `u`, the two
    0/1 patterns `m1`, `m2`, and the three weight matrices (every load of one buffer returns the same array). -/
def chain3 (u : Vec Ideal S128x1024 .f32) (m1 m2 : Vec Ideal S128x4096 .bf16) (w1 : Vec Ideal S4096x1024 .bf16)
    (w2 : Vec Ideal S4096x4096 .bf16) (w3 : Vec Ideal S1024x4096 .bf16) : FVec Ideal S128x1 .f32 :=
  let v5 : FVec Ideal S128x4096 .bf16 := k3_pay2 m1
  let v7 : FVec Ideal S128x4096 .bf16 := k3_pay3 m2
  let v8 : FVec Ideal S128x1 .f32 := k3_pay4 (F := Ideal)
  let v28 : FVec Ideal S128x1024 .f32 := k3_pay5 u m1 m2 w3 w2 w1
  let v29 : FVec Ideal S128x1024 .f32 := k3_pay6 u m1 m2 w3 w2 w1
  let v51 : FVec Ideal S128x1 .f32 := k3_pay8 u v5 v7 v8 v28 v29 w3 w2 w1
  let v62 : FVec Ideal S128x1024 .f32 := k3_pay9 v5 v7 v28 w3 w2 w1 w3 w2 w1
  let v65 : FVec Ideal S128x1 .f32 := k3_pay10 u v5 v7 v28 w3 w2 w1 w3 w2 w1
  let cst_44 : Ideal .f32 := Scalar.ofBits .f32 0x3EAAAAAB#32
  let v102 : FVec Ideal S128x1 .f32 := k3_pay13 u v5 v7 v51 v62 v65 cst_44 w3 w2 w1 w3 w2 w1
  let v103 : FVec Ideal S128x1024 .bf16 := k3_pay14 v5 v7 v62 w3 w2 w1 w3 w2 w1
  let v136 : FVec Ideal S128x1 .f32 := k3_pay17 u v5 v7 v102 v103 w3 w2 w1 w3 w2 w1
  let v137 : FVec Ideal S128x1024 .bf16 := k3_pay18 v5 v7 v103 w3 w2 w1 w3 w2 w1
  let cst_91 : FVec Ideal S128x4096 .f32 := constant S128x4096 .f32 0x00000000#32
  let v170 : FVec Ideal S128x1 .f32 := k3_pay21 u v5 v7 v136 v137 w3 cst_91 w2 w1 w3 w2 w1
  let v175 : FVec Ideal S128x4096 .bf16 := k3_pay22 v5 v7 v137 w3 cst_91 w2 w1 w3 w2 w1 w3
  k3_pay1 u v5 v170 v175 w2 w1

/-- With the two patterns the 0/1 patterns of "`Z1` is positive" and "`Z2` is positive", the stored column at row `p` is
    the series at row `p`. -/
theorem chain3_at (u : Vec Ideal S128x1024 .f32) (m1 m2 : Vec Ideal S128x4096 .bf16) (w1 : Vec Ideal S4096x1024 .bf16)
    (w2 : Vec Ideal S4096x4096 .bf16) (w3 : Vec Ideal S1024x4096 .bf16) (Z1 Z2 : Fin 128 → Fin 4096 → EReal)
    (hm1 : ∀ (p : Fin 128) (j : Fin 4096), m1 (ix2 p j) = if 0 < Z1 p j then 1 else 0)
    (hm2 : ∀ (p : Fin 128) (k : Fin 4096), m2 (ix2 p k) = if 0 < Z2 p k then 1 else 0) (p : Fin 128) :
    chain3 u m1 m2 w1 w2 w3 (ix2 p (0 : Fin 1))
      = logdetZ Z1 Z2 (Cert.Spec.mat w1) (Cert.Spec.mat w2) (Cert.Spec.mat w3) (Cert.Spec.mat u) Cert.Spec.coeff p := by
  have h5 : IsMask Z1 (k3_pay2 m1) := by
    unfold k3_pay2; rw [shapeCast_self]; exact hm1
  have h7 : IsMask Z2 (k3_pay3 m2) := by
    unfold k3_pay3; rw [shapeCast_self]; exact hm2
  have e1 := pay5_at Z1 Z2 u w1 w2 w3 m1 m2 h5 h7
  have e2 := pay7_at Z1 Z2 u w1 w2 w3 1 _ _ _ e1 h5 h7
  have e3 := pay9_at Z1 Z2 u w1 w2 w3 2 _ _ _ e2 h5 h7
  have e4 := pay11_at Z1 Z2 u w1 w2 w3 3 _ _ _ e3 h5 h7
  have e5 := pay12_at Z1 Z2 u w1 w2 w3 4 _ _ _ e4 h5 h7
  have t5 := pay14_at Z1 Z2 u w1 w2 w3 5 _ _ _ e5
  have e6 := pay15_at Z1 Z2 u w1 w2 w3 5 _ _ _ t5 h5 h7
  have e7 := pay16_at Z1 Z2 u w1 w2 w3 6 _ _ _ e6 h5 h7
  have t7 := pay18_at Z1 Z2 u w1 w2 w3 7 _ _ _ e7
  have e8 := pay19_at Z1 Z2 u w1 w2 w3 7 _ _ _ t7 h5 h7
  have e9 := pay20_at Z1 Z2 u w1 w2 w3 8 _ _ _ e8 h5 h7
  have e10 := last_at Z1 Z2 u w1 w2 w3 9 _ _ _ e9 h5 h7
  refine (pay1_at Z1 Z2 u w1 w2 w3 _ _ _ e10 p).trans ?_
  rw [pay21_at Z1 Z2 u w1 w2 w3 _ _ _ _ e8 e9, pay17_at Z1 Z2 u w1 w2 w3 _ _ _ _ e6 e7, pay13_at Z1 Z2 u w1 w2 w3 _ _ _ _ _ _ e4 e5,
    pay10_at Z1 Z2 u w1 w2 w3 _ _ _ e3, pay8_at Z1 Z2 u w1 w2 w3 _ _ _ _ (k3_pay6 u m1 m2 w3 w2 w1) e1 rfl e2]
  have h8 : k3_pay4 (F := Ideal) (ix2 p (0 : Fin 1)) = Ideal.ofBits .f32 0x00000000#32 := rfl
  rw [h8, Ideal.ofBits_zero_f32]
  unfold logdetZ
  simp only [Cert.Spec.coeff, Ideal.ofBits_def]

end Cert.Ser
-- ==== Proof.KI.V3.lean ====
/-
  The series layer's stored pieces read back.  At a half's first tile the three weight matrices are copied from main
  memory into the scratch buffers, each copy delivering the whole matrix; at every tile the output's one stored piece is
  the ten-term chain of the row tile, the two stored patterns and the three matrices as the scratch buffers hold them,
  every load reading a whole buffer.
-/
import proofs.«172335_j35158602285651_2_alg».proof.Proof.KI.R3
import proofs.«172335_j35158602285651_2_alg».proof.Proof.SerChain

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The zero offsets of a whole-buffer rectangle at rank two. -/
theorem hz2_3 : (![0, 0] : Fin 2 → Nat) = fun _ => 0 := funext fun a => by fin_cases a <;> rfl

/-- A load through the whole-shape rectangle (its zero offsets spelt in any way) of what one delivery through the whole
    rectangle left reads the delivered values. -/
theorem readCov_whole_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl _ w

/-- One delivery through the whole rectangle leaves the delivered values. -/
theorem canon_whole {Val : EltTy → Type} [∀ e, Nonempty (Val e)] {S : Shape} {e : EltTy} (w : S.Idx → Val e) :
    View.canon [(⟨Rect.whole S, w⟩ : View.Piece Val S e)] = w :=
  View.canon_unit_zero rfl _ w

/-- The output tile at a tile that is not a half's first: the ten-term chain of the loaded row tile, the two stored
    patterns and the three weight matrices as the scratch buffers hold them. -/
theorem out3_B_eq (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : ¬cond3_0 i)
    (x0 : Vec Ideal S128x1024 .f32) (x1 : Vec Ideal S128x4096 .bf16) (x2 : Vec Ideal S128x4096 .bf16)
    (xs9 : Vec Ideal S4096x1024 .bf16) (xs10 : Vec Ideal S4096x4096 .bf16) (xs11 : Vec Ideal S1024x4096 .bf16) :
    out3_B (F := Ideal) c i arg2 harg2 arg3 harg3 arg4 harg4 arg8 harg8 arg9 harg9 arg10 harg10 arg11 harg11 hc0 x0 x1 x2 xs9 xs10 xs11 = Cert.Ser.chain3 x0 x1 x2 xs9 xs10 xs11 := by
  unfold out3_B
  rw [View.read_writes_eq_canon _ _ _ (cover3_B c i arg2 harg2 arg3 harg3 arg4 harg4 arg8 harg8 arg9 harg9 arg10 harg10 arg11 harg11 hc0 x0 x1 x2 xs9 xs10 xs11)]
  unfold kernelRun3_B
  dsimp only
  sl_unfold_words
  rw [View.canon_cons_unit_zero hz2_3]
  simp only [View.readCov_cons_toLoadRect, View.readAt_eq_ld, harg2.read_unread, harg3.read_unread, harg4.read_unread,
    harg9.read_unread, harg10.read_unread, harg11.read_unread, View.ld_unit_zero (S := S128x1024) hz2_3,
    View.ld_unit_zero (S := S128x4096) hz2_3, View.ld_unit_zero (S := S4096x1024) hz2_3,
    View.ld_unit_zero (S := S4096x4096) hz2_3, View.ld_unit_zero (S := S1024x4096) hz2_3]
  unfold Cert.Ser.chain3
  rfl

/-- At a half's first tile each copy delivers the main-memory matrix into its scratch buffer. -/
theorem sout3_A_9_eq (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i)
    (x0 : Vec Ideal S128x1024 .f32) (x1 : Vec Ideal S128x4096 .bf16) (x2 : Vec Ideal S128x4096 .bf16)
    (fh3 : HbBuf3 (F := Ideal) c hbM3_3) (fh4 : HbBuf3 (F := Ideal) c hbM3_4) (fh5 : HbBuf3 (F := Ideal) c hbM3_5) :
    sout3_A_9 (F := Ideal) c i arg2 harg2 arg3 harg3 arg4 harg4 arg8 harg8 arg9 harg9 arg10 harg10 arg11 harg11 hc0 x0 x1 x2 fh3 fh4 fh5 = fh3 := by
  unfold sout3_A_9
  rw [View.read_writes_eq_canon _ _ _ (scover3_A_9 c i arg2 harg2 arg3 harg3 arg4 harg4 arg8 harg8 arg9 harg9 arg10 harg10 arg11 harg11 hc0 x0 x1 x2 fh3 fh4 fh5)]
  unfold kernelRun3_A
  dsimp only
  sl_unfold_words
  rw [canon_whole]
  rfl

theorem sout3_A_10_eq (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i)
    (x0 : Vec Ideal S128x1024 .f32) (x1 : Vec Ideal S128x4096 .bf16) (x2 : Vec Ideal S128x4096 .bf16)
    (fh3 : HbBuf3 (F := Ideal) c hbM3_3) (fh4 : HbBuf3 (F := Ideal) c hbM3_4) (fh5 : HbBuf3 (F := Ideal) c hbM3_5) :
    sout3_A_10 (F := Ideal) c i arg2 harg2 arg3 harg3 arg4 harg4 arg8 harg8 arg9 harg9 arg10 harg10 arg11 harg11 hc0 x0 x1 x2 fh3 fh4 fh5 = fh4 := by
  unfold sout3_A_10
  rw [View.read_writes_eq_canon _ _ _ (scover3_A_10 c i arg2 harg2 arg3 harg3 arg4 harg4 arg8 harg8 arg9 harg9 arg10 harg10 arg11 harg11 hc0 x0 x1 x2 fh3 fh4 fh5)]
  unfold kernelRun3_A
  dsimp only
  sl_unfold_words
  rw [canon_whole]
  rfl

theorem sout3_A_11_eq (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i)
    (x0 : Vec Ideal S128x1024 .f32) (x1 : Vec Ideal S128x4096 .bf16) (x2 : Vec Ideal S128x4096 .bf16)
    (fh3 : HbBuf3 (F := Ideal) c hbM3_3) (fh4 : HbBuf3 (F := Ideal) c hbM3_4) (fh5 : HbBuf3 (F := Ideal) c hbM3_5) :
    sout3_A_11 (F := Ideal) c i arg2 harg2 arg3 harg3 arg4 harg4 arg8 harg8 arg9 harg9 arg10 harg10 arg11 harg11 hc0 x0 x1 x2 fh3 fh4 fh5 = fh5 := by
  unfold sout3_A_11
  rw [View.read_writes_eq_canon _ _ _ (scover3_A_11 c i arg2 harg2 arg3 harg3 arg4 harg4 arg8 harg8 arg9 harg9 arg10 harg10 arg11 harg11 hc0 x0 x1 x2 fh3 fh4 fh5)]
  unfold kernelRun3_A
  dsimp only
  sl_unfold_words
  rw [canon_whole]
  rfl

/-- The output tile at a half's first tile: the same chain over the three matrices as main memory holds them, each
    read back from the scratch buffer its copy just filled. -/
theorem out3_A_eq (c : Dev nD) (i : grid3.Coords) (arg2 : Memref sig .tc .vmem S128x1024 .f32) (harg2 : arg2.IsWhole) (arg3 : Memref sig .tc .vmem S128x4096 .bf16) (harg3 : arg3.IsWhole) (arg4 : Memref sig .tc .vmem S128x4096 .bf16) (harg4 : arg4.IsWhole) (arg8 : Memref sig .tc .vmem S128x1 .f32) (harg8 : arg8.IsWhole) (arg9 : Memref sig .tc .vmem S4096x1024 .bf16) (harg9 : arg9.IsWhole) (arg10 : Memref sig .tc .vmem S4096x4096 .bf16) (harg10 : arg10.IsWhole) (arg11 : Memref sig .tc .vmem S1024x4096 .bf16) (harg11 : arg11.IsWhole) (hc0 : cond3_0 i)
    (x0 : Vec Ideal S128x1024 .f32) (x1 : Vec Ideal S128x4096 .bf16) (x2 : Vec Ideal S128x4096 .bf16)
    (fh3 : HbBuf3 (F := Ideal) c hbM3_3) (fh4 : HbBuf3 (F := Ideal) c hbM3_4) (fh5 : HbBuf3 (F := Ideal) c hbM3_5) :
    out3_A (F := Ideal) c i arg2 harg2 arg3 harg3 arg4 harg4 arg8 harg8 arg9 harg9 arg10 harg10 arg11 harg11 hc0 x0 x1 x2 fh3 fh4 fh5 = Cert.Ser.chain3 x0 x1 x2 fh3 fh4 fh5 := by
  unfold out3_A
  rw [View.read_writes_eq_canon _ _ _ (cover3_A c i arg2 harg2 arg3 harg3 arg4 harg4 arg8 harg8 arg9 harg9 arg10 harg10 arg11 harg11 hc0 x0 x1 x2 fh3 fh4 fh5)]
  unfold kernelRun3_A
  dsimp only
  sl_unfold_words
  rw [View.canon_cons_unit_zero hz2_3]
  simp only [readCov_whole_unit_zero (S := S4096x1024) _ hz2_3, readCov_whole_unit_zero (S := S4096x4096) _ hz2_3,
    readCov_whole_unit_zero (S := S1024x4096) _ hz2_3, View.readCov_cons_toLoadRect, View.readAt_eq_ld, harg2.read_unread, harg3.read_unread, harg4.read_unread,
    harg9.read_unread, harg10.read_unread, harg11.read_unread, View.ld_unit_zero (S := S128x1024) hz2_3,
    View.ld_unit_zero (S := S128x4096) hz2_3, View.ld_unit_zero (S := S4096x1024) hz2_3,
    View.ld_unit_zero (S := S4096x4096) hz2_3, View.ld_unit_zero (S := S1024x4096) hz2_3]
  unfold Cert.Ser.chain3
  rfl

end Cert.KernelIdeal.Hand

end
-- ==== Proof.KI.F3.lean ====
import proofs.«172335_j35158602285651_2_alg».proof.Proof.KI.R3
import proofs.«172335_j35158602285651_2_alg».proof.Proof.KI.V3
import proofs.«172335_j35158602285651_2_alg».proof.Proof.SerChain
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! From blocks to the array for the series kernel's call: each of the 64 grid points writes one [128,1] block of the
    series, computed from a row tile of u, the two row tiles of 0/1 patterns and the three weight matrices, which every
    point finds in the scratch buffers as the half's first point copied them; the blocks tile the [8192,1] array. -/

section F3
variable (V : (c : Dev nD) → (b : Ref sig .tc) → Buf (Elt Ideal) ((c : Thread nD τ).loc b))

/-- The printed index maps over the grid: point t is block row t of every window. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The grid has 64 points. -/
theorem t_lt3 (t : Fin cfg3.N) : t.val < 64 := lt_of_lt_of_eq t.isLt N_3

/-- The array row of row p of block t. -/
def row3 (t : Fin cfg3.N) (p : Fin 128) : Fin 8192 := ⟨128 * t.val + p.val, by have := t_lt3 t; have := p.isLt; omega⟩

/-- Row tile t of u, and of the two patterns, read at an entry. -/
theorem blk3_0_at (c : Dev nD) (t : Fin cfg3.N) (p : Fin 128) (l : Fin 1024) :
    iblk3 V c 0 t (ix2 p l) = V c main_arg1 (ix2 (row3 t p) l) := by
  obtain ⟨e00, e01, -⟩ := idx_facts3 t
  show V c main_arg1 (((cfg3.win 0).blk t).view.emb (ix2 p l)) = _
  refine congrArg (V c main_arg1) (funext fun a => Fin.ext ?_)
  match a with
  | ⟨0, _⟩ => show win3_0.index t (0 : Fin 2) * 128 + 1 * p.val = 128 * t.val + p.val; omega
  | ⟨1, _⟩ => show win3_0.index t (1 : Fin 2) * 1024 + 1 * l.val = l.val; omega
theorem blk3_1_at (c : Dev nD) (t : Fin cfg3.N) (p : Fin 128) (j : Fin 4096) :
    iblk3 V c 1 t (ix2 p j) = V c main_v0_1 (ix2 (row3 t p) j) := by
  obtain ⟨-, -, e10, e11, -⟩ := idx_facts3 t
  show V c main_v0_1 (((cfg3.win 1).blk t).view.emb (ix2 p j)) = _
  refine congrArg (V c main_v0_1) (funext fun a => Fin.ext ?_)
  match a with
  | ⟨0, _⟩ => show win3_1.index t (0 : Fin 2) * 128 + 1 * p.val = 128 * t.val + p.val; omega
  | ⟨1, _⟩ => show win3_1.index t (1 : Fin 2) * 4096 + 1 * j.val = j.val; omega
theorem blk3_2_at (c : Dev nD) (t : Fin cfg3.N) (p : Fin 128) (j : Fin 4096) :
    iblk3 V c 2 t (ix2 p j) = V c main_v1_1 (ix2 (row3 t p) j) := by
  obtain ⟨-, -, -, -, e20, e21, -⟩ := idx_facts3 t
  show V c main_v1_1 (((cfg3.win 2).blk t).view.emb (ix2 p j)) = _
  refine congrArg (V c main_v1_1) (funext fun a => Fin.ext ?_)
  match a with
  | ⟨0, _⟩ => show win3_2.index t (0 : Fin 2) * 128 + 1 * p.val = 128 * t.val + p.val; omega
  | ⟨1, _⟩ => show win3_2.index t (1 : Fin 2) * 4096 + 1 * j.val = j.val; omega

/-- The stored column at a row, for tiles known by what they read from the arrays: the series at the array's row. -/
theorem point3 (U : S8192x1024.Idx → EReal) (M1 M2 : S8192x4096.Idx → EReal) (x0 : Vec Ideal S128x1024 .f32)
    (x1 x2 : Vec Ideal S128x4096 .bf16) (w1 : Vec Ideal S4096x1024 .bf16) (w2 : Vec Ideal S4096x4096 .bf16)
    (w3 : Vec Ideal S1024x4096 .bf16) (Z1 Z2 : Fin 8192 → Fin 4096 → EReal) (ρ : Fin 128 → Fin 8192)
    (h0 : ∀ p l, x0 (ix2 p l) = U (ix2 (ρ p) l)) (h1 : ∀ p j, x1 (ix2 p j) = M1 (ix2 (ρ p) j))
    (h2 : ∀ p j, x2 (ix2 p j) = M2 (ix2 (ρ p) j))
    (hm1 : ∀ (r : Fin 8192) (j : Fin 4096), M1 (ix2 r j) = if 0 < Z1 r j then 1 else 0)
    (hm2 : ∀ (r : Fin 8192) (k : Fin 4096), M2 (ix2 r k) = if 0 < Z2 r k then 1 else 0) (p : Fin 128) :
    Cert.Ser.chain3 x0 x1 x2 w1 w2 w3 (ix2 p (0 : Fin 1))
      = Cert.Ser.logdetZ Z1 Z2 (Cert.Spec.mat w1) (Cert.Spec.mat w2) (Cert.Spec.mat w3) (Cert.Spec.mat U) Cert.Spec.coeff (ρ p) := by
  rw [Cert.Ser.chain3_at x0 x1 x2 w1 w2 w3 (fun p j => Z1 (ρ p) j) (fun p k => Z2 (ρ p) k)
    (fun p j => (h1 p j).trans (hm1 _ _)) (fun p k => (h2 p k).trans (hm2 _ _)) p]
  have hX0 : Cert.Spec.mat x0 = fun p => Cert.Spec.mat U (ρ p) := funext fun p => funext fun l => h0 p l
  rw [hX0]
  exact Cert.Ser.logdetZ_rows Z1 Z2 _ _ _ (Cert.Spec.mat U) ρ Cert.Spec.coeff p

section Blocks

/-- After any point the three scratch buffers hold the three weight matrices. -/
theorem scAt9_eq (c : Dev nD) : ∀ (n : ℕ), n < cfg3.N → scAt9 V c (n + 1) = V c main_v3
  | 0, h => (scAt9_succ_A V c ⟨0, h⟩ rfl).trans (sout3_A_9_eq _ _ _ _ _ _ _ _ _ _ _ _ _ _ _ _ _ _ _ _ _ _ _)
  | m + 1, h => by
    by_cases h0 : (m + 1) % 32 = 0
    · exact (scAt9_succ_A V c ⟨m + 1, h⟩ h0).trans (sout3_A_9_eq _ _ _ _ _ _ _ _ _ _ _ _ _ _ _ _ _ _ _ _ _ _ _)
    · exact (scAt9_succ_B V c ⟨m + 1, h⟩ h0).trans (scAt9_eq c m (by omega))
theorem scAt10_eq (c : Dev nD) : ∀ (n : ℕ), n < cfg3.N → scAt10 V c (n + 1) = V c main_v4
  | 0, h => (scAt10_succ_A V c ⟨0, h⟩ rfl).trans (sout3_A_10_eq _ _ _ _ _ _ _ _ _ _ _ _ _ _ _ _ _ _ _ _ _ _ _)
  | m + 1, h => by
    by_cases h0 : (m + 1) % 32 = 0
    · exact (scAt10_succ_A V c ⟨m + 1, h⟩ h0).trans (sout3_A_10_eq _ _ _ _ _ _ _ _ _ _ _ _ _ _ _ _ _ _ _ _ _ _ _)
    · exact (scAt10_succ_B V c ⟨m + 1, h⟩ h0).trans (scAt10_eq c m (by omega))
theorem scAt11_eq (c : Dev nD) : ∀ (n : ℕ), n < cfg3.N → scAt11 V c (n + 1) = V c main_v5
  | 0, h => (scAt11_succ_A V c ⟨0, h⟩ rfl).trans (sout3_A_11_eq _ _ _ _ _ _ _ _ _ _ _ _ _ _ _ _ _ _ _ _ _ _ _)
  | m + 1, h => by
    by_cases h0 : (m + 1) % 32 = 0
    · exact (scAt11_succ_A V c ⟨m + 1, h⟩ h0).trans (sout3_A_11_eq _ _ _ _ _ _ _ _ _ _ _ _ _ _ _ _ _ _ _ _ _ _ _)
    · exact (scAt11_succ_B V c ⟨m + 1, h⟩ h0).trans (scAt11_eq c m (by omega))

/-- At every point the output's staging buffer ends with the chain of the three blocks and the three weight matrices. -/
theorem outsAt3_eq (c : Dev nD) (t : Fin cfg3.N) :
    outsAt3 V c t = Cert.Ser.chain3 (iblk3 V c 0 t) (iblk3 V c 1 t) (iblk3 V c 2 t) (V c main_v3) (V c main_v4) (V c main_v5) := by
  unfold outsAt3
  by_cases h0 : t.val % 32 = 0
  · rw [dif_pos h0]
    exact out3_A_eq _ _ _ _ _ _ _ _ _ _ _ _ _ _ _ _ _ _ _ _ _ _ _
  · rw [dif_neg h0, out3_B_eq]
    obtain ⟨m, hm⟩ : ∃ m, t.val = m + 1 := ⟨t.val - 1, by omega⟩
    have hlt : m < cfg3.N := by have := t.isLt; omega
    rw [hm, scAt9_eq V c m hlt, scAt10_eq V c m hlt, scAt11_eq V c m hlt]

/-- The series as an array. -/
def G3 (c : Dev nD) (Z1 Z2 : Fin 8192 → Fin 4096 → EReal) : S8192x1.Idx → EReal := fun idx =>
  Cert.Ser.logdetZ Z1 Z2 (Cert.Spec.mat (V c main_v3)) (Cert.Spec.mat (V c main_v4)) (Cert.Spec.mat (V c main_v5))
        (Cert.Spec.mat (V c main_arg1)) Cert.Spec.coeff (idx 0)

/-- What point t writes back is block t of the series. -/
theorem flushed3_eq (c : Dev nD) (Z1 Z2 : Fin 8192 → Fin 4096 → EReal)
    (hm1 : ∀ (r : Fin 8192) (j : Fin 4096), V c main_v0_1 (ix2 r j) = (if 0 < Z1 r j then (1 : EReal) else (0 : EReal)))
    (hm2 : ∀ (r : Fin 8192) (k : Fin 4096), V c main_v1_1 (ix2 r k) = (if 0 < Z2 r k then (1 : EReal) else (0 : EReal))) (t : Fin cfg3.N) :
    (dat3 V c).flushed 3 t = ((cfg3.win 3).blk t).view.read (Elt Ideal) (G3 V c Z1 Z2) := by
  show (cfg3.win 3).cut (grid3.coords t) ((dat3 V c).after 3 t) = _
  rw [after3_3, outsAt3_eq V c t]
  obtain ⟨-, -, -, -, -, -, e30, e31⟩ := idx_facts3 t
  funext y
  show Cert.Ser.chain3 (iblk3 V c 0 t) (iblk3 V c 1 t) (iblk3 V c 2 t) (V c main_v3) (V c main_v4) (V c main_v5) ((cfg3.win 3).xinj (grid3.coords t) y)
    = G3 V c Z1 Z2 (((cfg3.win 3).blk t).view.emb y)
  have hy : (cfg3.win 3).xinj (grid3.coords t) y = ix2 (⟨(y 0).val, (y 0).isLt⟩ : Fin 128) (0 : Fin 1) :=
    funext fun a => by
      match a with
      | ⟨0, _⟩ => rfl
      | ⟨1, _⟩ => exact Fin.ext (by have h1 : (y 1).val < 1 := (y 1).isLt; show (y 1).val = 0; omega)
  refine ((congrArg (Cert.Ser.chain3 (iblk3 V c 0 t) (iblk3 V c 1 t) (iblk3 V c 2 t) (V c main_v3) (V c main_v4) (V c main_v5)) hy).trans
    (point3 (V c main_arg1) (V c main_v0_1) (V c main_v1_1) (iblk3 V c 0 t) (iblk3 V c 1 t) (iblk3 V c 2 t)
      (V c main_v3) (V c main_v4) (V c main_v5) Z1 Z2 (row3 t) (blk3_0_at V c t) (blk3_1_at V c t) (blk3_2_at V c t) hm1 hm2 _)).trans ?_
  have er : row3 t (⟨(y 0).val, (y 0).isLt⟩ : Fin 128) = ((((cfg3.win 3).blk t).view.emb y) 0 : Fin 8192) := Fin.ext (by
    show 128 * t.val + (y 0).val = win3_3.index t (0 : Fin 2) * 128 + 1 * (y 0).val; omega)
  rw [er]
  rfl

/-- An index of the [8192,1] output is in point t's block iff each coordinate is in the block's range on its axis. -/
theorem mem_blk3_3 (t : Fin cfg3.N) (i : S8192x1.Idx) :
    i ∈ ((cfg3.win 3).blk t).view.set ↔ ∀ a : Fin 2, win3_3.index t a * S128x1.size a ≤ (i a).val
      ∧ (i a).val < win3_3.index t a * S128x1.size a + S128x1.size a := by
  show i ∈ ((View.whole main_v6).slice (win3_3.rect t)).set ↔ _
  rw [View.set_slice_whole, Rect.mem_set_unit]
  exact Iff.rfl

/-- The point whose block holds row r: r / 128. -/
def pointOf3 (i : S8192x1.Idx) : Fin cfg3.N :=
  ⟨(i 0).val / 128, by
    have h0 : (i 0).val < 8192 := (i 0).isLt
    rw [show cfg3.N = 64 from N_3]; omega⟩

/-- The 64 blocks tile the output. -/
theorem tiles3_3 (i : S8192x1.Idx) : ∃ t : Fin cfg3.N, (cfg3.win 3).flush t = true ∧ i ∈ ((cfg3.win 3).blk t).view.set := by
  have h0 : (i 0).val < 8192 := (i 0).isLt
  have h1 : (i 1).val < 1 := (i 1).isLt
  obtain ⟨-, -, -, -, -, -, e30, e31⟩ := idx_facts3 (pointOf3 i)
  have tv : (pointOf3 i).val = (i 0).val / 128 := rfl
  refine ⟨pointOf3 i, flush3_3 _, ?_⟩
  rw [mem_blk3_3]
  intro a
  match a with
  | ⟨0, _⟩ =>
    show win3_3.index (pointOf3 i) (0 : Fin 2) * 128 ≤ (i 0).val ∧ (i 0).val < win3_3.index (pointOf3 i) (0 : Fin 2) * 128 + 128
    omega
  | ⟨1, _⟩ =>
    show win3_3.index (pointOf3 i) (1 : Fin 2) * 1 ≤ (i 1).val ∧ (i 1).val < win3_3.index (pointOf3 i) (1 : Fin 2) * 1 + 1
    omega

/-- After the call the output array is the series, row by row, with the gates of the two stored patterns. -/
theorem final3 (c : Dev nD) (Z1 Z2 : Fin 8192 → Fin 4096 → EReal)
    (hm1 : ∀ (r : Fin 8192) (j : Fin 4096), V c main_v0_1 (ix2 r j) = (if 0 < Z1 r j then (1 : EReal) else (0 : EReal)))
    (hm2 : ∀ (r : Fin 8192) (k : Fin 4096), V c main_v1_1 (ix2 r k) = (if 0 < Z2 r k then (1 : EReal) else (0 : EReal))) :
    (dat3 (F := Ideal) V c).arrAt 3 cfg3.N = fun idx : S8192x1.Idx =>
      Cert.Ser.logdetZ Z1 Z2 (Cert.Spec.mat (V c main_v3)) (Cert.Spec.mat (V c main_v4)) (Cert.Spec.mat (V c main_v5))
        (Cert.Spec.mat (V c main_arg1)) Cert.Spec.coeff (idx 0) :=
  (dat3 V c).arrAt_eq_of_cover 3 (G3 V c Z1 Z2)
    (fun t _ => flushed3_eq V c Z1 Z2 hm1 hm2 t) tiles3_3

end Blocks

end F3

end Cert.KernelIdeal.Hand
-- ==== Proof.PreReal.lean ====
/-
  From the stated precondition to finiteness.  The precondition says of each of the eight float inputs that every
  entry's absolute value is below +infinity, and conjoins the eight.  On the extended reals |x| is the larger of x and
  -x, and that is below the top element exactly when x is neither infinity: every entry of every input is real.
-/
import proofs.«172335_j35158602285651_2_alg».proof.Pre_finite_inputs
import proofs.«172335_j35158602285651_2_alg».proof.Proof.PayReal
import Idealize.ShloMosaic.Lib.ReduceAll
import Idealize.ShloMosaic.Lib.Pipeline.Value
import Idealize.ShloMosaic.Lib.ValueIdx
import Idealize.ShloMosaic.PureOps.Ideal.Laws

noncomputable section

namespace Cert.PayFwd

open Idealize.ShloMosaic Idealize.ShloMosaic.ValueIdx Cert.Pre_finite_inputs

/-- The scalar shape has one index. -/
instance subsingleton_scalar_idx : Subsingleton S_.Idx := ⟨fun a b => funext fun d => d.elim0⟩

/-- The single-precision pattern of +infinity denotes the top element. -/
theorem ofBits_inf : Ideal.ofBits .f32 0x7F800000#32 = ⊤ := by simp [Ideal.ofBits, Ideal.ieee]

/-- An extended real whose absolute value compares below the top element is neither infinity. -/
theorem real_of_abs_lt (x : EReal) (h : Ideal.cmp .olt (max x (-x)) ⊤ = 1#1) : IsReal x := by
  have hlt : max x (-x) < ⊤ := by
    by_contra hn
    have h0 : Ideal.cmp .olt (max x (-x)) ⊤ = BitVec.ofBool false := by
      show BitVec.ofBool (decide (max x (-x) < ⊤)) = _
      rw [decide_eq_false hn]
    rw [h0] at h
    exact absurd h (by decide)
  obtain ⟨h1, h2⟩ := max_lt_iff.mp hlt
  refine ⟨ne_of_lt h1, fun hb => ?_⟩
  rw [hb, EReal.neg_bot] at h2
  exact lt_irrefl _ h2

/-- One input's clause: if "all entries have absolute value below +infinity" holds, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (j : s.Idx) : IsReal (x j) := by
  have hj := Host.reduce_andi_all _ _ hr hu ix0 e j
  rw [cmpf_apply, broadcastInDim_apply _ hb _ j ix0 (fun a => a.elim0)] at hj
  have hj' : Ideal.cmp .olt (max (x j) (-(x j))) (Ideal.ofBits .f32 0x7F800000#32) = 1#1 := hj
  rw [ofBits_inf] at hj'
  exact real_of_abs_lt (x j) hj'

variable [Cert.Pre_finite_inputs.Facts]

/-- The precondition's eight clauses, read back: every entry of every float input is real. -/
theorem real_of_pre (x0 x1 : FVec Ideal S8192x1024 .f32) (x2 : FVec Ideal S4096x1024 .f32) (x3 : FVec Ideal S4096 .f32)
    (x4 : FVec Ideal S4096x4096 .f32) (x5 : FVec Ideal S4096 .f32) (x6 : FVec Ideal S1024x4096 .f32)
    (x7 : FVec Ideal S1024 .f32)
    (h : Cert.Pre_finite_inputs.fn (F := Ideal) x0 x1 x2 x3 x4 x5 x6 x7 = fun _ => 1#1) :
    (∀ j, IsReal (x0 j)) ∧ (∀ j, IsReal (x1 j)) ∧ (∀ j, IsReal (x2 j)) ∧ (∀ j, IsReal (x3 j)) ∧ (∀ j, IsReal (x4 j))
      ∧ (∀ j, IsReal (x5 j)) ∧ (∀ j, IsReal (x6 j)) ∧ (∀ j, IsReal (x7 j)) := by
  have h0 := congrFun h ix0
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  exact ⟨all_real x0 _ _ _ e0, all_real x1 _ _ _ e1, all_real x2 _ _ _ e2, all_real x3 _ _ _ e3,
    all_real x4 _ _ _ e4, all_real x5 _ _ _ e5, all_real x6 _ _ _ e6, all_real x7 _ _ _ e7⟩

end Cert.PayFwd

end
-- ==== Proof.SpecOut.lean ====
/-
  The two results of the specification as whole arrays, functions of the eight argument arrays.
-/
import proofs.«172335_j35158602285651_2_alg».proof.Proof.Spec

noncomputable section

namespace Cert.Spec

open Idealize.ShloMosaic

/-- An array of extended reals of a literal rank-2 or rank-1 shape. -/
abbrev A2 (a b : ℕ) : Type := (⟨2, ![a, b]⟩ : Shape).Idx → EReal
abbrev A1 (a : ℕ) : Type := (⟨1, ![a]⟩ : Shape).Idx → EReal

/-- The block's output y as a [8192,1024] array. -/
def Yv (x0 : A2 8192 1024) (x2 : A2 4096 1024) (x3 : A1 4096) (x4 : A2 4096 4096) (x5 : A1 4096) (x6 : A2 1024 4096) (x7 : A1 1024) :
    (⟨2, ![8192, 1024]⟩ : Shape).Idx → EReal :=
  fun idx => y (mat x0) (mat x2) (vec x3) (mat x4) (vec x5) (mat x6) (vec x7) (idx 0) (idx 1)

/-- The series per row as a [8192,1,1] array. -/
def Lv (x0 x1 : A2 8192 1024) (x2 : A2 4096 1024) (x3 : A1 4096) (x4 : A2 4096 4096) (x5 : A1 4096) (x6 : A2 1024 4096) :
    (⟨3, ![8192, 1, 1]⟩ : Shape).Idx → EReal :=
  fun idx => logdet (mat x0) (mat x1) (mat x2) (vec x3) (mat x4) (vec x5) (mat x6) coeff (idx 0)

end Cert.Spec

end
-- ==== Proof.KI.Value.lean ====
/-
  The idealized kernel's two results as functions of its arguments.  Layer by layer: the first pallas_call leaves
  h1 = relu(x·W1ᵀ + b1) and the 0/1 pattern of its pre-activation; these are real numbers, so the second leaves h2 and its
  pattern, and the third y = (h2·W3ᵀ + b3) + x.  The conversions of the weights are the identity on the extended reals,
  so the series kernel finds the three matrices and the two patterns and leaves, row by row, the ten-term series, which
  the final reshape lays out as [8192,1,1].
-/
import proofs.«172335_j35158602285651_2_alg».proof.Proof.KI.Host
import proofs.«172335_j35158602285651_2_alg».proof.Proof.KI.F0
import proofs.«172335_j35158602285651_2_alg».proof.Proof.KI.F1
import proofs.«172335_j35158602285651_2_alg».proof.Proof.KI.F2
import proofs.«172335_j35158602285651_2_alg».proof.Proof.KI.F3
import proofs.«172335_j35158602285651_2_alg».proof.Proof.PreReal
import proofs.«172335_j35158602285651_2_alg».proof.Proof.SpecOut
import proofs.«172335_j35158602285651_2_alg».proof.Proof.Gen.Pre_finite_inputs
import proofs.«172335_j35158602285651_2_alg».proof.Defs

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.PayFwd Cert.Spec Idealize.ShloMosaic.ValueIdx

variable (m : (ℓ : Loc nD τ sig) → Buf (Elt Ideal) ℓ) (ρ : Dev nD → PrngReg)

/-- The final reshape of a column [8192,1] read at an entry. -/
theorem reshape_col {α : Type} (A : S8192x1.Idx → α) (idx : S8192x1x1.Idx) :
    shapeCast S8192x1x1 A shapeCasts_S8192x1_S8192x1x1 idx = A (ix2 (idx 0) (0 : Fin 1)) :=
  shapeCast_apply A shapeCasts_S8192x1_S8192x1x1 idx (ix2 (idx 0) (0 : Fin 1)) (by
    rw [Shape.rowMajor_val_two, Shape.rowMajor_val_three]
    have h1 : (idx 1).val < 1 := (idx 1).isLt
    have h2 : (idx 2).val < 1 := (idx 2).isLt
    show (idx 0).val * 1 + 0 = ((idx 0).val * 1 + (idx 1).val) * 1 + (idx 2).val
    omega)

section
variable (hpre : Cert.Pre_KernelIdeal m) (c : Dev nD)
include hpre

/-- Every entry of every argument array is a real number. -/
theorem args_real : (∀ j, IsReal (V0 m ρ c main_arg0 j)) ∧ (∀ j, IsReal (V0 m ρ c main_arg1 j)) ∧ (∀ j, IsReal (V0 m ρ c main_arg2 j))
    ∧ (∀ j, IsReal (V0 m ρ c main_arg3 j)) ∧ (∀ j, IsReal (V0 m ρ c main_arg4 j)) ∧ (∀ j, IsReal (V0 m ρ c main_arg5 j))
    ∧ (∀ j, IsReal (V0 m ρ c main_arg6 j)) ∧ (∀ j, IsReal (V0 m ρ c main_arg7 j)) :=
  real_of_pre _ _ _ _ _ _ _ _ (hpre c)

/-- The first layer's activations, -/
theorem V1_h1 : V1 m ρ c main_v0_0 = fun idx : S8192x4096.Idx =>
    h1 (mat (V0 m ρ c main_arg0)) (mat (V0 m ρ c main_arg2)) (vec (V0 m ρ c main_arg3)) (idx 0) (idx 1) :=
  (V1_main_v0_0 m ρ c).trans (final0_3 (V0 m ρ) c (args_real m ρ hpre c).1 (args_real m ρ hpre c).2.2.1)
/-- and the pattern of its positive pre-activations. -/
theorem V1_m1 : V1 m ρ c main_v0_1 = fun idx : S8192x4096.Idx =>
    if 0 < z1 (mat (V0 m ρ c main_arg0)) (mat (V0 m ρ c main_arg2)) (vec (V0 m ρ c main_arg3)) (idx 0) (idx 1) then (1 : EReal) else 0 :=
  (V1_main_v0_1 m ρ c).trans (final0_4 (V0 m ρ) c (args_real m ρ hpre c).1 (args_real m ρ hpre c).2.2.1)

/-- The first layer's activations are real numbers. -/
theorem h1_real (j : S8192x4096.Idx) : IsReal (V1 m ρ c main_v0_0 j) := by
  rw [V1_h1 m ρ hpre c]
  obtain ⟨hx, -, hw, hb, -⟩ := args_real m ρ hpre c
  exact isReal_relu (isReal_add (isReal_sum _ _ fun k _ => isReal_mul (hx _) (hw _)) (hb _))

/-- The second layer's activations, -/
theorem V2_h2 : V2 m ρ c main_v1_0 = fun idx : S8192x4096.Idx =>
    h2 (mat (V0 m ρ c main_arg0)) (mat (V0 m ρ c main_arg2)) (vec (V0 m ρ c main_arg3)) (mat (V0 m ρ c main_arg4)) (vec (V0 m ρ c main_arg5)) (idx 0) (idx 1) := by
  refine (V2_main_v1_0 m ρ c).trans ((final1_3 (V1 m ρ) c (h1_real m ρ hpre c) (fun j => ?_)).trans ?_)
  · rw [keep0 m ρ c main_arg4 (by decide) (by decide)]; exact (args_real m ρ hpre c).2.2.2.2.1 j
  · rw [V1_h1 m ρ hpre c, keep0 m ρ c main_arg4 (by decide) (by decide), keep0 m ρ c main_arg5 (by decide) (by decide)]
    rfl
/-- and its pattern. -/
theorem V2_m2 : V2 m ρ c main_v1_1 = fun idx : S8192x4096.Idx =>
    if 0 < z2 (mat (V0 m ρ c main_arg0)) (mat (V0 m ρ c main_arg2)) (vec (V0 m ρ c main_arg3)) (mat (V0 m ρ c main_arg4)) (vec (V0 m ρ c main_arg5)) (idx 0) (idx 1) then (1 : EReal) else 0 := by
  refine (V2_main_v1_1 m ρ c).trans ((final1_4 (V1 m ρ) c (h1_real m ρ hpre c) (fun j => ?_)).trans ?_)
  · rw [keep0 m ρ c main_arg4 (by decide) (by decide)]; exact (args_real m ρ hpre c).2.2.2.2.1 j
  · rw [V1_h1 m ρ hpre c, keep0 m ρ c main_arg4 (by decide) (by decide), keep0 m ρ c main_arg5 (by decide) (by decide)]
    rfl

theorem h2_real (j : S8192x4096.Idx) : IsReal (V2 m ρ c main_v1_0 j) := by
  rw [V2_h2 m ρ hpre c]
  obtain ⟨hx, -, hw, hb, hw2, hb2, -⟩ := args_real m ρ hpre c
  exact isReal_relu (isReal_add (isReal_sum _ _ fun k _ => isReal_mul
    (isReal_relu (isReal_add (isReal_sum _ _ fun l _ => isReal_mul (hx _) (hw _)) (hb _))) (hw2 _)) (hb2 _))

/-- The first result: y. -/
theorem W6_y : W6 m ρ c main_v2 = Yv (V0 m ρ c main_arg0) (V0 m ρ c main_arg2) (V0 m ρ c main_arg3) (V0 m ρ c main_arg4)
    (V0 m ρ c main_arg5) (V0 m ρ c main_arg6) (V0 m ρ c main_arg7) := by
  refine (W6_main_v2 m ρ c).trans ((final2_4 (V2 m ρ) c (h2_real m ρ hpre c) (fun j => ?_)).trans ?_)
  · rw [keep1 m ρ c main_arg6 (by decide) (by decide), keep0 m ρ c main_arg6 (by decide) (by decide)]
    exact (args_real m ρ hpre c).2.2.2.2.2.2.1 j
  · rw [V2_h2 m ρ hpre c, keep1 m ρ c main_arg6 (by decide) (by decide), keep0 m ρ c main_arg6 (by decide) (by decide),
      keep1 m ρ c main_arg7 (by decide) (by decide), keep0 m ρ c main_arg7 (by decide) (by decide),
      keep1 m ρ c main_arg0 (by decide) (by decide), keep0 m ρ c main_arg0 (by decide) (by decide)]
    funext idx
    obtain ⟨a, b, rfl⟩ : ∃ (a : Fin 8192) (b : Fin 1024), idx = ix2 a b := ⟨idx 0, idx 1, eq_ix2 idx⟩
    exact add_comm _ _

omit hpre in
/-- The series kernel finds the first pattern, -/
theorem V4_m1 : V4 m ρ c main_v0_1 = V1 m ρ c main_v0_1 :=
  (keepH3 m ρ c main_v0_1 (by decide) (by decide) (by decide)).trans
    ((keep2 m ρ c main_v0_1 (by decide)).trans (keep1 m ρ c main_v0_1 (by decide) (by decide)))
omit hpre in
/-- the second, -/
theorem V4_m2 : V4 m ρ c main_v1_1 = V2 m ρ c main_v1_1 :=
  (keepH3 m ρ c main_v1_1 (by decide) (by decide) (by decide)).trans (keep2 m ρ c main_v1_1 (by decide))
omit hpre in
/-- the probe rows, -/
theorem V4_u : V4 m ρ c main_arg1 = V0 m ρ c main_arg1 :=
  (keepH3 m ρ c main_arg1 (by decide) (by decide) (by decide)).trans ((keep2 m ρ c main_arg1 (by decide)).trans
    ((keep1 m ρ c main_arg1 (by decide) (by decide)).trans (keep0 m ρ c main_arg1 (by decide) (by decide))))
omit hpre in
/-- and the three weight matrices, entry for entry. -/
theorem V3_arg (b : Ref sig .tc) (h0 : b ≠ main_v0_0) (h1 : b ≠ main_v0_1) (h2 : b ≠ main_v1_0) (h3 : b ≠ main_v1_1) (h4 : b ≠ main_v2) :
    V3 m ρ c b = V0 m ρ c b :=
  (keep2 m ρ c b h4).trans ((keep1 m ρ c b h2 h3).trans (keep0 m ρ c b h0 h1))
omit hpre in
theorem V4_w1 : mat (V4 m ρ c main_v3) = mat (V0 m ρ c main_arg2) := by
  rw [V4_main_v3, V3_arg m ρ c main_arg2 (by decide) (by decide) (by decide) (by decide) (by decide)]; rfl
omit hpre in
theorem V4_w2 : mat (V4 m ρ c main_v4) = mat (V0 m ρ c main_arg4) := by
  rw [V4_main_v4, V3_arg m ρ c main_arg4 (by decide) (by decide) (by decide) (by decide) (by decide)]; rfl
omit hpre in
theorem V4_w3 : mat (V4 m ρ c main_v5) = mat (V0 m ρ c main_arg6) := by
  rw [V4_main_v5, V3_arg m ρ c main_arg6 (by decide) (by decide) (by decide) (by decide) (by decide)]; rfl

/-- The second result: the series, row by row. -/
theorem W6_l : W6 m ρ c main_v7 = Lv (V0 m ρ c main_arg0) (V0 m ρ c main_arg1) (V0 m ρ c main_arg2) (V0 m ρ c main_arg3)
    (V0 m ρ c main_arg4) (V0 m ρ c main_arg5) (V0 m ρ c main_arg6) := by
  rw [W6_main_v7, V5_main_v6 m ρ c,
    final3 (V4 m ρ) c (z1 (mat (V0 m ρ c main_arg0)) (mat (V0 m ρ c main_arg2)) (vec (V0 m ρ c main_arg3)))
      (z2 (mat (V0 m ρ c main_arg0)) (mat (V0 m ρ c main_arg2)) (vec (V0 m ρ c main_arg3)) (mat (V0 m ρ c main_arg4)) (vec (V0 m ρ c main_arg5)))
      (fun r j => by rw [V4_m1 m ρ c, V1_m1 m ρ hpre c])
      (fun r k => by rw [V4_m2 m ρ c, V2_m2 m ρ hpre c])]
  funext idx
  rw [reshape_col, V4_w1, V4_w2, V4_w3, V4_u]
  exact (Cert.Ser.logdet_eq _ _ _ _ _ _ _ _ _).symm

end

/-- THE VALUE RUN: under the precondition every weakly fair execution terminates with the two results at the
    specification's arrays of the arguments, and the arguments unchanged. -/
theorem value_all (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v2) = Yv (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v7) = Lv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v2 (by decide))).trans (W6_y m ρ hpre c),
     (h c _ (mem_uc main_v7 (by decide))).trans (W6_l m ρ hpre c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.KernelIdeal.Hand

end
-- ==== Proof.RefForward.lean ====
import proofs.«172335_j35158602285651_2_alg».proof.Proof.Spec
import proofs.«172335_j35158602285651_2_alg».proof.Proof.Gen.ReferenceIdeal.Read

noncomputable section

open scoped BigOperators

namespace Cert.RefSpec

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! The reference program's forward pass, one stage at a time, read at an index: the first two affine layers with
    their rectifiers and active sets, and the residual output. -/

/-- Two rank-2 indices are equal when their coordinates are. -/
macro "idx2" : tactic => `(tactic| exact funext fun a => by match a with | ⟨0, _⟩ => rfl | ⟨1, _⟩ => rfl)
/-- Two rank-1 indices are equal when their coordinate is. -/
macro "idx1" : tactic => `(tactic| exact funext fun a => by match a with | ⟨0, _⟩ => rfl)

/-- The maximum with zero is the rectifier. -/
theorem max_zero_eq_relu (z : EReal) : max z 0 = Cert.Spec.relu z := by
  unfold Cert.Spec.relu
  by_cases h : 0 < z
  · rw [if_pos h, max_eq_left h.le]
  · rw [if_neg h, max_eq_right (not_lt.mp h)]

/-- Selecting on the comparison "greater than zero" is the gate. -/
theorem select_gt_zero (z t : EReal) : Scalar.select (Ideal.cmp .ogt z 0) t 0 = Cert.Spec.gate z t := by
  unfold Cert.Spec.gate Scalar.select Ideal.cmp
  by_cases h : 0 < z
  · simp [h]
  · simp [h]

variable (x0 x1 : (⟨S8192x1024, .f32⟩ : BufTy).Contents (Elt Ideal)) (x2 : (⟨S4096x1024, .f32⟩ : BufTy).Contents (Elt Ideal))
  (x3 : (⟨S4096, .f32⟩ : BufTy).Contents (Elt Ideal)) (x4 : (⟨S4096x4096, .f32⟩ : BufTy).Contents (Elt Ideal))
  (x5 : (⟨S4096, .f32⟩ : BufTy).Contents (Elt Ideal)) (x6 : (⟨S1024x4096, .f32⟩ : BufTy).Contents (Elt Ideal))
  (x7 : (⟨S1024, .f32⟩ : BufTy).Contents (Elt Ideal))

/-- The first layer's pre-activation. -/
theorem z1_at (r : Fin 8192) (j : Fin 4096) :
    val_main_v4 (F := Ideal) x0 x2 x3 (ix2 r j) = Cert.Spec.z1 (Cert.Spec.mat x0) (Cert.Spec.mat x2) (Cert.Spec.vec x3) r j := by
  rw [val_main_v4_apply, val_main_v1_apply, val_main_v3_apply, val_main_v2_apply]
  unfold Cert.Spec.z1 Cert.Spec.lin
  refine congrArg₂ (· + ·) (Finset.sum_congr rfl fun k _ => ?_) (congrArg x3 (by idx1))
  rw [val_main_v0_apply]
  exact congrArg₂ (· * ·) (congrArg x0 (by idx2)) (congrArg x2 (by idx2))

/-- The first layer's activation. -/
theorem h1_at (r : Fin 8192) (j : Fin 4096) :
    val_main_v5 (F := Ideal) x0 x2 x3 (ix2 r j) = Cert.Spec.h1 (Cert.Spec.mat x0) (Cert.Spec.mat x2) (Cert.Spec.vec x3) r j := by
  rw [val_main_v5_apply, z1_at, val_main_call0_v0_apply, val_main_call0_cst_apply, Ideal.maximumf_def, Ideal.ofBits_def,
    Ideal.ofBits_zero_f32]
  exact max_zero_eq_relu _

/-- The first layer's active set. -/
theorem m1_at (r : Fin 8192) (j : Fin 4096) :
    val_main_v7 (F := Ideal) x0 x2 x3 (ix2 r j)
      = Ideal.cmp .ogt (Cert.Spec.z1 (Cert.Spec.mat x0) (Cert.Spec.mat x2) (Cert.Spec.vec x3) r j) 0 := by
  rw [val_main_v7_apply, z1_at, val_main_v6_apply, val_main_cst_apply, Ideal.cmpf_def, Ideal.ofBits_def, Ideal.ofBits_zero_f32]

/-- The second layer's pre-activation. -/
theorem z2_at (r : Fin 8192) (j : Fin 4096) :
    val_main_v13 (F := Ideal) x0 x2 x3 x4 x5 (ix2 r j)
      = Cert.Spec.z2 (Cert.Spec.mat x0) (Cert.Spec.mat x2) (Cert.Spec.vec x3) (Cert.Spec.mat x4) (Cert.Spec.vec x5) r j := by
  rw [val_main_v13_apply, val_main_v10_apply, val_main_v12_apply, val_main_v11_apply]
  unfold Cert.Spec.z2 Cert.Spec.lin
  refine congrArg₂ (· + ·) (Finset.sum_congr rfl fun k _ => ?_) (congrArg x5 (by idx1))
  rw [val_main_v9_apply, show lidx_main_v10 (ix2 r j) k = ix2 r k from (by idx2), h1_at]
  exact congrArg (_ * ·) (congrArg x4 (by idx2))

/-- The second layer's activation. -/
theorem h2_at (r : Fin 8192) (j : Fin 4096) :
    val_main_v14 (F := Ideal) x0 x2 x3 x4 x5 (ix2 r j)
      = Cert.Spec.h2 (Cert.Spec.mat x0) (Cert.Spec.mat x2) (Cert.Spec.vec x3) (Cert.Spec.mat x4) (Cert.Spec.vec x5) r j := by
  rw [val_main_v14_apply, z2_at, val_main_call1_v0_apply, val_main_call1_cst_apply, Ideal.maximumf_def, Ideal.ofBits_def,
    Ideal.ofBits_zero_f32]
  exact max_zero_eq_relu _

/-- The second layer's active set. -/
theorem m2_at (r : Fin 8192) (j : Fin 4096) :
    val_main_v16 (F := Ideal) x0 x2 x3 x4 x5 (ix2 r j)
      = Ideal.cmp .ogt (Cert.Spec.z2 (Cert.Spec.mat x0) (Cert.Spec.mat x2) (Cert.Spec.vec x3) (Cert.Spec.mat x4) (Cert.Spec.vec x5) r j) 0 := by
  rw [val_main_v16_apply, z2_at, val_main_v15_apply, val_main_cst_1_apply, Ideal.cmpf_def, Ideal.ofBits_def, Ideal.ofBits_zero_f32]

/-- The block's output: the reference's first result is the specification's `y`. -/
theorem ref_y (r : Fin 8192) (i : Fin 1024) :
    val_main_v23 (F := Ideal) x0 x2 x3 x4 x5 x6 x7 (ix2 r i)
      = Cert.Spec.y (Cert.Spec.mat x0) (Cert.Spec.mat x2) (Cert.Spec.vec x3) (Cert.Spec.mat x4) (Cert.Spec.vec x5) (Cert.Spec.mat x6)
          (Cert.Spec.vec x7) r i := by
  rw [val_main_v23_apply, val_main_v22_apply, val_main_v19_apply, val_main_v21_apply, val_main_v20_apply]
  unfold Cert.Spec.y Cert.Spec.lin
  refine congrArg (x0 (ix2 r i) + ·) (congrArg₂ (· + ·) (Finset.sum_congr rfl fun k _ => ?_) (congrArg x7 (by idx1)))
  rw [val_main_v18_apply, show lidx_main_v19 (ix2 r i) k = ix2 r k from (by idx2), h2_at]
  exact congrArg (_ * ·) (congrArg x6 (by idx2))

end Cert.RefSpec
-- ==== Proof.RefStep.lean ====
import proofs.«172335_j35158602285651_2_alg».proof.Proof.RefForward

noncomputable section

open scoped BigOperators

namespace Cert.RefSpec

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! One application of the transposed Jacobian, and one term of the series, for stages known only through how they
    read at an index: every one of the ten iterations of the reference has this shape. -/

variable (x0 x1 : (⟨S8192x1024, .f32⟩ : BufTy).Contents (Elt Ideal)) (x2 : (⟨S4096x1024, .f32⟩ : BufTy).Contents (Elt Ideal))
  (x3 : (⟨S4096, .f32⟩ : BufTy).Contents (Elt Ideal)) (x4 : (⟨S4096x4096, .f32⟩ : BufTy).Contents (Elt Ideal))
  (x5 : (⟨S4096, .f32⟩ : BufTy).Contents (Elt Ideal)) (x6 : (⟨S1024x4096, .f32⟩ : BufTy).Contents (Elt Ideal))

/-- The specification's iterate (Jᵀ)^n u at this program's arguments. -/
abbrev utS (n : ℕ) : Fin 8192 → Fin 1024 → EReal :=
  Cert.Spec.ut (Cert.Spec.mat x0) (Cert.Spec.mat x1) (Cert.Spec.mat x2) (Cert.Spec.vec x3) (Cert.Spec.mat x4) (Cert.Spec.vec x5)
    (Cert.Spec.mat x6) n

/-- The specification's n-th trace term at this program's arguments. -/
abbrev trS (n : ℕ) : Fin 8192 → EReal :=
  Cert.Spec.tr (Cert.Spec.mat x0) (Cert.Spec.mat x1) (Cert.Spec.mat x2) (Cert.Spec.vec x3) (Cert.Spec.mat x4) (Cert.Spec.vec x5)
    (Cert.Spec.mat x6) n

/-- If `P` reads as the n-th iterate, and `A … E` are the five contractions and gates built on it (each known by how
    it reads at an index), then `E` reads as the next iterate. -/
theorem ut_step (n : ℕ) (P E : (⟨S8192x1024, .f32⟩ : BufTy).Contents (Elt Ideal))
    (A ZA B C ZC D : (⟨S8192x4096, .f32⟩ : BufTy).Contents (Elt Ideal))
    (hP : ∀ (r : Fin 8192) (l : Fin 1024), P (ix2 r l) = utS x0 x1 x2 x3 x4 x5 x6 n r l)
    (hA : ∀ i, A i = ∑ k : Fin 1024, P (lidx_main_v25 i k) * val_main_v18 (F := Ideal) x6 (ridx_main_v25 i k))
    (hZA : ∀ i, ZA i = FloatOps.ofBits (F := Ideal) .f32 0x00000000#32)
    (hB : ∀ i, B i = Scalar.select (val_main_v16 (F := Ideal) x0 x2 x3 x4 x5 i) (A i) (ZA i))
    (hC : ∀ i, C i = ∑ k : Fin 4096, B (lidx_main_v28 i k) * val_main_v9 (F := Ideal) x4 (ridx_main_v28 i k))
    (hZC : ∀ i, ZC i = FloatOps.ofBits (F := Ideal) .f32 0x00000000#32)
    (hD : ∀ i, D i = Scalar.select (val_main_v7 (F := Ideal) x0 x2 x3 i) (C i) (ZC i))
    (hE : ∀ i, E i = ∑ k : Fin 4096, D (lidx_main_v31 i k) * val_main_v0 (F := Ideal) x2 (ridx_main_v31 i k))
    (r : Fin 8192) (i : Fin 1024) : E (ix2 r i) = utS x0 x1 x2 x3 x4 x5 x6 (n + 1) r i := by
  rw [hE]
  show _ = Cert.Spec.back (Cert.Spec.mat x0) (Cert.Spec.mat x2) (Cert.Spec.vec x3) (Cert.Spec.mat x4) (Cert.Spec.vec x5)
    (Cert.Spec.mat x6) (utS x0 x1 x2 x3 x4 x5 x6 n) r i
  unfold Cert.Spec.back
  refine Finset.sum_congr rfl fun j _ => ?_
  rw [show lidx_main_v31 (ix2 r i) j = ix2 r j from (by idx2), hD, m1_at, hZC, Ideal.ofBits_def, Ideal.ofBits_zero_f32,
    select_gt_zero, hC, val_main_v0_apply]
  refine congrArg₂ (· * ·) (congrArg (Cert.Spec.gate _) (Finset.sum_congr rfl fun k _ => ?_)) (congrArg x2 (by idx2))
  rw [show lidx_main_v28 (ix2 r j) k = ix2 r k from (by idx2), hB, m2_at, hZA, Ideal.ofBits_def, Ideal.ofBits_zero_f32,
    select_gt_zero, hA, val_main_v9_apply]
  refine congrArg₂ (· * ·) (congrArg (Cert.Spec.gate _) (Finset.sum_congr rfl fun l _ => ?_)) (congrArg x4 (by idx2))
  rw [show lidx_main_v25 (ix2 r k) l = ix2 r l from (by idx2), hP, val_main_v18_apply]
  exact congrArg (_ * ·) (congrArg x6 (by idx2))

/-- If `E` reads as the (n+1)-st iterate, and `M … Mu` are the product with `u`, its row sum from the zero word, the
    sum as a column, the coefficient's column and their product, then `Mu` reads as the coefficient times the n-th trace
    term. -/
theorem tr_step (n : ℕ) (c : BitVec 32) (E M : (⟨S8192x1024, .f32⟩ : BufTy).Contents (Elt Ideal)) (z : EReal)
    (R : (⟨S8192, .f32⟩ : BufTy).Contents (Elt Ideal)) (Bc Cc Mu : (⟨S8192x1, .f32⟩ : BufTy).Contents (Elt Ideal))
    (hE : ∀ (r : Fin 8192) (i : Fin 1024), E (ix2 r i) = utS x0 x1 x2 x3 x4 x5 x6 (n + 1) r i)
    (hM : ∀ i, M i = FloatOps.mulf (F := Ideal) (φ := .f32) (E i) (x1 i))
    (hz : z = FloatOps.ofBits (F := Ideal) .f32 0x00000000#32)
    (hR : ∀ i, R i = z + ∑ k : Fin 1024, M (idx_main_v33 i k))
    (hBc : ∀ i, Bc i = R (idx_main_v34 i))
    (hCc : ∀ i, Cc i = FloatOps.ofBits (F := Ideal) .f32 c)
    (hMu : ∀ i, Mu i = FloatOps.mulf (F := Ideal) (φ := .f32) (Cc i) (Bc i))
    (r : Fin 8192) : Mu (ix2 r (0 : Fin 1)) = Ideal.ofBits .f32 c * trS x0 x1 x2 x3 x4 x5 x6 n r := by
  rw [hMu, hCc, hBc, hR, hz, Ideal.mulf_def, Ideal.ofBits_def, Ideal.ofBits_def, Ideal.ofBits_zero_f32, zero_add]
  unfold trS Cert.Spec.tr
  refine congrArg (_ * ·) (Finset.sum_congr rfl fun k _ => ?_)
  rw [show idx_main_v33 (idx_main_v34 (ix2 r (0 : Fin 1))) k = ix2 r k from (by idx2), hM, hE, Ideal.mulf_def]
  rfl

end Cert.RefSpec
-- ==== Proof.RefIter.lean ====
import proofs.«172335_j35158602285651_2_alg».proof.Proof.RefStep

noncomputable section

open scoped BigOperators

namespace Cert.RefSpec

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! The ten iterations of the reference: each is the step of the previous module at that iteration's thirteen stages.
    `utK_at`: the K-th iterate (Jᵀ)^K u; `muN_at`: the N-th series term, coefficient times ⟨(Jᵀ)^{N+1} u, u⟩. -/

variable (x0 x1 : (⟨S8192x1024, .f32⟩ : BufTy).Contents (Elt Ideal)) (x2 : (⟨S4096x1024, .f32⟩ : BufTy).Contents (Elt Ideal))
  (x3 : (⟨S4096, .f32⟩ : BufTy).Contents (Elt Ideal)) (x4 : (⟨S4096x4096, .f32⟩ : BufTy).Contents (Elt Ideal))
  (x5 : (⟨S4096, .f32⟩ : BufTy).Contents (Elt Ideal)) (x6 : (⟨S1024x4096, .f32⟩ : BufTy).Contents (Elt Ideal))

/-- Iteration 1: the iterate. -/
theorem ut1_at (r : Fin 8192) (i : Fin 1024) :
    val_main_v31 (F := Ideal) x0 x1 x2 x3 x4 x5 x6 (ix2 r i) = utS x0 x1 x2 x3 x4 x5 x6 1 r i :=
  ut_step x0 x1 x2 x3 x4 x5 x6 0 x1 (val_main_v31 (F := Ideal) x0 x1 x2 x3 x4 x5 x6)
    (val_main_v25 (F := Ideal) x1 x6) (val_main_v26 (F := Ideal)) (val_main_v27 (F := Ideal) x0 x1 x2 x3 x4 x5 x6)
    (val_main_v28 (F := Ideal) x0 x1 x2 x3 x4 x5 x6) (val_main_v29 (F := Ideal)) (val_main_v30 (F := Ideal) x0 x1 x2 x3 x4 x5 x6)
    (fun _ _ => rfl) (val_main_v25_apply x1 x6) (fun i => (val_main_v26_apply (F := Ideal) i).trans (val_main_cst_4_apply (F := Ideal) _))
    (val_main_v27_apply x0 x1 x2 x3 x4 x5 x6) (val_main_v28_apply x0 x1 x2 x3 x4 x5 x6) (fun i => (val_main_v29_apply (F := Ideal) i).trans (val_main_cst_5_apply (F := Ideal) _))
    (val_main_v30_apply x0 x1 x2 x3 x4 x5 x6) (val_main_v31_apply x0 x1 x2 x3 x4 x5 x6) r i

/-- Iteration 1: the series term. -/
theorem mu0_at (r : Fin 8192) :
    val_main_v36 (F := Ideal) x0 x1 x2 x3 x4 x5 x6 (ix2 r (0 : Fin 1)) = Ideal.ofBits .f32 0x3F800000#32 * trS x0 x1 x2 x3 x4 x5 x6 0 r :=
  tr_step x0 x1 x2 x3 x4 x5 x6 0 0x3F800000#32 (val_main_v31 (F := Ideal) x0 x1 x2 x3 x4 x5 x6) (val_main_v32 (F := Ideal) x0 x1 x2 x3 x4 x5 x6)
    (val_main_cst_6 (F := Ideal) (Shape.Idx.first h_S_)) (val_main_v33 (F := Ideal) x0 x1 x2 x3 x4 x5 x6) (val_main_v34 (F := Ideal) x0 x1 x2 x3 x4 x5 x6) (val_main_v35 (F := Ideal)) (val_main_v36 (F := Ideal) x0 x1 x2 x3 x4 x5 x6)
    (ut1_at x0 x1 x2 x3 x4 x5 x6) (val_main_v32_apply x0 x1 x2 x3 x4 x5 x6) (val_main_cst_6_apply (F := Ideal) _) (val_main_v33_apply x0 x1 x2 x3 x4 x5 x6) (val_main_v34_apply x0 x1 x2 x3 x4 x5 x6)
    (fun i => (val_main_v35_apply (F := Ideal) i).trans (val_main_cst_7_apply (F := Ideal) _)) (val_main_v36_apply x0 x1 x2 x3 x4 x5 x6) r

/-- Iteration 2: the iterate. -/
theorem ut2_at (r : Fin 8192) (i : Fin 1024) :
    val_main_v44 (F := Ideal) x0 x1 x2 x3 x4 x5 x6 (ix2 r i) = utS x0 x1 x2 x3 x4 x5 x6 2 r i :=
  ut_step x0 x1 x2 x3 x4 x5 x6 1 (val_main_v31 (F := Ideal) x0 x1 x2 x3 x4 x5 x6) (val_main_v44 (F := Ideal) x0 x1 x2 x3 x4 x5 x6)
    (val_main_v38 (F := Ideal) x0 x1 x2 x3 x4 x5 x6) (val_main_v39 (F := Ideal)) (val_main_v40 (F := Ideal) x0 x1 x2 x3 x4 x5 x6)
    (val_main_v41 (F := Ideal) x0 x1 x2 x3 x4 x5 x6) (val_main_v42 (F := Ideal)) (val_main_v43 (F := Ideal) x0 x1 x2 x3 x4 x5 x6)
    (ut1_at x0 x1 x2 x3 x4 x5 x6) (val_main_v38_apply x0 x1 x2 x3 x4 x5 x6) (fun i => (val_main_v39_apply (F := Ideal) i).trans (val_main_cst_8_apply (F := Ideal) _))
    (val_main_v40_apply x0 x1 x2 x3 x4 x5 x6) (val_main_v41_apply x0 x1 x2 x3 x4 x5 x6) (fun i => (val_main_v42_apply (F := Ideal) i).trans (val_main_cst_9_apply (F := Ideal) _))
    (val_main_v43_apply x0 x1 x2 x3 x4 x5 x6) (val_main_v44_apply x0 x1 x2 x3 x4 x5 x6) r i

/-- Iteration 2: the series term. -/
theorem mu1_at (r : Fin 8192) :
    val_main_v49 (F := Ideal) x0 x1 x2 x3 x4 x5 x6 (ix2 r (0 : Fin 1)) = Ideal.ofBits .f32 0xBF000000#32 * trS x0 x1 x2 x3 x4 x5 x6 1 r :=
  tr_step x0 x1 x2 x3 x4 x5 x6 1 0xBF000000#32 (val_main_v44 (F := Ideal) x0 x1 x2 x3 x4 x5 x6) (val_main_v45 (F := Ideal) x0 x1 x2 x3 x4 x5 x6)
    (val_main_cst_10 (F := Ideal) (Shape.Idx.first h_S_)) (val_main_v46 (F := Ideal) x0 x1 x2 x3 x4 x5 x6) (val_main_v47 (F := Ideal) x0 x1 x2 x3 x4 x5 x6) (val_main_v48 (F := Ideal)) (val_main_v49 (F := Ideal) x0 x1 x2 x3 x4 x5 x6)
    (ut2_at x0 x1 x2 x3 x4 x5 x6) (val_main_v45_apply x0 x1 x2 x3 x4 x5 x6) (val_main_cst_10_apply (F := Ideal) _) (val_main_v46_apply x0 x1 x2 x3 x4 x5 x6) (val_main_v47_apply x0 x1 x2 x3 x4 x5 x6)
    (fun i => (val_main_v48_apply (F := Ideal) i).trans (val_main_cst_11_apply (F := Ideal) _)) (val_main_v49_apply x0 x1 x2 x3 x4 x5 x6) r

/-- Iteration 3: the iterate. -/
theorem ut3_at (r : Fin 8192) (i : Fin 1024) :
    val_main_v57 (F := Ideal) x0 x1 x2 x3 x4 x5 x6 (ix2 r i) = utS x0 x1 x2 x3 x4 x5 x6 3 r i :=
  ut_step x0 x1 x2 x3 x4 x5 x6 2 (val_main_v44 (F := Ideal) x0 x1 x2 x3 x4 x5 x6) (val_main_v57 (F := Ideal) x0 x1 x2 x3 x4 x5 x6)
    (val_main_v51 (F := Ideal) x0 x1 x2 x3 x4 x5 x6) (val_main_v52 (F := Ideal)) (val_main_v53 (F := Ideal) x0 x1 x2 x3 x4 x5 x6)
    (val_main_v54 (F := Ideal) x0 x1 x2 x3 x4 x5 x6) (val_main_v55 (F := Ideal)) (val_main_v56 (F := Ideal) x0 x1 x2 x3 x4 x5 x6)
    (ut2_at x0 x1 x2 x3 x4 x5 x6) (val_main_v51_apply x0 x1 x2 x3 x4 x5 x6) (fun i => (val_main_v52_apply (F := Ideal) i).trans (val_main_cst_12_apply (F := Ideal) _))
    (val_main_v53_apply x0 x1 x2 x3 x4 x5 x6) (val_main_v54_apply x0 x1 x2 x3 x4 x5 x6) (fun i => (val_main_v55_apply (F := Ideal) i).trans (val_main_cst_13_apply (F := Ideal) _))
    (val_main_v56_apply x0 x1 x2 x3 x4 x5 x6) (val_main_v57_apply x0 x1 x2 x3 x4 x5 x6) r i

/-- Iteration 3: the series term. -/
theorem mu2_at (r : Fin 8192) :
    val_main_v62 (F := Ideal) x0 x1 x2 x3 x4 x5 x6 (ix2 r (0 : Fin 1)) = Ideal.ofBits .f32 0x3EAAAAAB#32 * trS x0 x1 x2 x3 x4 x5 x6 2 r :=
  tr_step x0 x1 x2 x3 x4 x5 x6 2 0x3EAAAAAB#32 (val_main_v57 (F := Ideal) x0 x1 x2 x3 x4 x5 x6) (val_main_v58 (F := Ideal) x0 x1 x2 x3 x4 x5 x6)
    (val_main_cst_14 (F := Ideal) (Shape.Idx.first h_S_)) (val_main_v59 (F := Ideal) x0 x1 x2 x3 x4 x5 x6) (val_main_v60 (F := Ideal) x0 x1 x2 x3 x4 x5 x6) (val_main_v61 (F := Ideal)) (val_main_v62 (F := Ideal) x0 x1 x2 x3 x4 x5 x6)
    (ut3_at x0 x1 x2 x3 x4 x5 x6) (val_main_v58_apply x0 x1 x2 x3 x4 x5 x6) (val_main_cst_14_apply (F := Ideal) _) (val_main_v59_apply x0 x1 x2 x3 x4 x5 x6) (val_main_v60_apply x0 x1 x2 x3 x4 x5 x6)
    (fun i => (val_main_v61_apply (F := Ideal) i).trans (val_main_cst_15_apply (F := Ideal) _)) (val_main_v62_apply x0 x1 x2 x3 x4 x5 x6) r

/-- Iteration 4: the iterate. -/
theorem ut4_at (r : Fin 8192) (i : Fin 1024) :
    val_main_v70 (F := Ideal) x0 x1 x2 x3 x4 x5 x6 (ix2 r i) = utS x0 x1 x2 x3 x4 x5 x6 4 r i :=
  ut_step x0 x1 x2 x3 x4 x5 x6 3 (val_main_v57 (F := Ideal) x0 x1 x2 x3 x4 x5 x6) (val_main_v70 (F := Ideal) x0 x1 x2 x3 x4 x5 x6)
    (val_main_v64 (F := Ideal) x0 x1 x2 x3 x4 x5 x6) (val_main_v65 (F := Ideal)) (val_main_v66 (F := Ideal) x0 x1 x2 x3 x4 x5 x6)
    (val_main_v67 (F := Ideal) x0 x1 x2 x3 x4 x5 x6) (val_main_v68 (F := Ideal)) (val_main_v69 (F := Ideal) x0 x1 x2 x3 x4 x5 x6)
    (ut3_at x0 x1 x2 x3 x4 x5 x6) (val_main_v64_apply x0 x1 x2 x3 x4 x5 x6) (fun i => (val_main_v65_apply (F := Ideal) i).trans (val_main_cst_16_apply (F := Ideal) _))
    (val_main_v66_apply x0 x1 x2 x3 x4 x5 x6) (val_main_v67_apply x0 x1 x2 x3 x4 x5 x6) (fun i => (val_main_v68_apply (F := Ideal) i).trans (val_main_cst_17_apply (F := Ideal) _))
    (val_main_v69_apply x0 x1 x2 x3 x4 x5 x6) (val_main_v70_apply x0 x1 x2 x3 x4 x5 x6) r i

/-- Iteration 4: the series term. -/
theorem mu3_at (r : Fin 8192) :
    val_main_v75 (F := Ideal) x0 x1 x2 x3 x4 x5 x6 (ix2 r (0 : Fin 1)) = Ideal.ofBits .f32 0xBE800000#32 * trS x0 x1 x2 x3 x4 x5 x6 3 r :=
  tr_step x0 x1 x2 x3 x4 x5 x6 3 0xBE800000#32 (val_main_v70 (F := Ideal) x0 x1 x2 x3 x4 x5 x6) (val_main_v71 (F := Ideal) x0 x1 x2 x3 x4 x5 x6)
    (val_main_cst_18 (F := Ideal) (Shape.Idx.first h_S_)) (val_main_v72 (F := Ideal) x0 x1 x2 x3 x4 x5 x6) (val_main_v73 (F := Ideal) x0 x1 x2 x3 x4 x5 x6) (val_main_v74 (F := Ideal)) (val_main_v75 (F := Ideal) x0 x1 x2 x3 x4 x5 x6)
    (ut4_at x0 x1 x2 x3 x4 x5 x6) (val_main_v71_apply x0 x1 x2 x3 x4 x5 x6) (val_main_cst_18_apply (F := Ideal) _) (val_main_v72_apply x0 x1 x2 x3 x4 x5 x6) (val_main_v73_apply x0 x1 x2 x3 x4 x5 x6)
    (fun i => (val_main_v74_apply (F := Ideal) i).trans (val_main_cst_19_apply (F := Ideal) _)) (val_main_v75_apply x0 x1 x2 x3 x4 x5 x6) r

/-- Iteration 5: the iterate. -/
theorem ut5_at (r : Fin 8192) (i : Fin 1024) :
    val_main_v83 (F := Ideal) x0 x1 x2 x3 x4 x5 x6 (ix2 r i) = utS x0 x1 x2 x3 x4 x5 x6 5 r i :=
  ut_step x0 x1 x2 x3 x4 x5 x6 4 (val_main_v70 (F := Ideal) x0 x1 x2 x3 x4 x5 x6) (val_main_v83 (F := Ideal) x0 x1 x2 x3 x4 x5 x6)
    (val_main_v77 (F := Ideal) x0 x1 x2 x3 x4 x5 x6) (val_main_v78 (F := Ideal)) (val_main_v79 (F := Ideal) x0 x1 x2 x3 x4 x5 x6)
    (val_main_v80 (F := Ideal) x0 x1 x2 x3 x4 x5 x6) (val_main_v81 (F := Ideal)) (val_main_v82 (F := Ideal) x0 x1 x2 x3 x4 x5 x6)
    (ut4_at x0 x1 x2 x3 x4 x5 x6) (val_main_v77_apply x0 x1 x2 x3 x4 x5 x6) (fun i => (val_main_v78_apply (F := Ideal) i).trans (val_main_cst_20_apply (F := Ideal) _))
    (val_main_v79_apply x0 x1 x2 x3 x4 x5 x6) (val_main_v80_apply x0 x1 x2 x3 x4 x5 x6) (fun i => (val_main_v81_apply (F := Ideal) i).trans (val_main_cst_21_apply (F := Ideal) _))
    (val_main_v82_apply x0 x1 x2 x3 x4 x5 x6) (val_main_v83_apply x0 x1 x2 x3 x4 x5 x6) r i

/-- Iteration 5: the series term. -/
theorem mu4_at (r : Fin 8192) :
    val_main_v88 (F := Ideal) x0 x1 x2 x3 x4 x5 x6 (ix2 r (0 : Fin 1)) = Ideal.ofBits .f32 0x3E4CCCCD#32 * trS x0 x1 x2 x3 x4 x5 x6 4 r :=
  tr_step x0 x1 x2 x3 x4 x5 x6 4 0x3E4CCCCD#32 (val_main_v83 (F := Ideal) x0 x1 x2 x3 x4 x5 x6) (val_main_v84 (F := Ideal) x0 x1 x2 x3 x4 x5 x6)
    (val_main_cst_22 (F := Ideal) (Shape.Idx.first h_S_)) (val_main_v85 (F := Ideal) x0 x1 x2 x3 x4 x5 x6) (val_main_v86 (F := Ideal) x0 x1 x2 x3 x4 x5 x6) (val_main_v87 (F := Ideal)) (val_main_v88 (F := Ideal) x0 x1 x2 x3 x4 x5 x6)
    (ut5_at x0 x1 x2 x3 x4 x5 x6) (val_main_v84_apply x0 x1 x2 x3 x4 x5 x6) (val_main_cst_22_apply (F := Ideal) _) (val_main_v85_apply x0 x1 x2 x3 x4 x5 x6) (val_main_v86_apply x0 x1 x2 x3 x4 x5 x6)
    (fun i => (val_main_v87_apply (F := Ideal) i).trans (val_main_cst_23_apply (F := Ideal) _)) (val_main_v88_apply x0 x1 x2 x3 x4 x5 x6) r

/-- Iteration 6: the iterate. -/
theorem ut6_at (r : Fin 8192) (i : Fin 1024) :
    val_main_v96 (F := Ideal) x0 x1 x2 x3 x4 x5 x6 (ix2 r i) = utS x0 x1 x2 x3 x4 x5 x6 6 r i :=
  ut_step x0 x1 x2 x3 x4 x5 x6 5 (val_main_v83 (F := Ideal) x0 x1 x2 x3 x4 x5 x6) (val_main_v96 (F := Ideal) x0 x1 x2 x3 x4 x5 x6)
    (val_main_v90 (F := Ideal) x0 x1 x2 x3 x4 x5 x6) (val_main_v91 (F := Ideal)) (val_main_v92 (F := Ideal) x0 x1 x2 x3 x4 x5 x6)
    (val_main_v93 (F := Ideal) x0 x1 x2 x3 x4 x5 x6) (val_main_v94 (F := Ideal)) (val_main_v95 (F := Ideal) x0 x1 x2 x3 x4 x5 x6)
    (ut5_at x0 x1 x2 x3 x4 x5 x6) (val_main_v90_apply x0 x1 x2 x3 x4 x5 x6) (fun i => (val_main_v91_apply (F := Ideal) i).trans (val_main_cst_24_apply (F := Ideal) _))
    (val_main_v92_apply x0 x1 x2 x3 x4 x5 x6) (val_main_v93_apply x0 x1 x2 x3 x4 x5 x6) (fun i => (val_main_v94_apply (F := Ideal) i).trans (val_main_cst_25_apply (F := Ideal) _))
    (val_main_v95_apply x0 x1 x2 x3 x4 x5 x6) (val_main_v96_apply x0 x1 x2 x3 x4 x5 x6) r i

/-- Iteration 6: the series term. -/
theorem mu5_at (r : Fin 8192) :
    val_main_v101 (F := Ideal) x0 x1 x2 x3 x4 x5 x6 (ix2 r (0 : Fin 1)) = Ideal.ofBits .f32 0xBE2AAAAB#32 * trS x0 x1 x2 x3 x4 x5 x6 5 r :=
  tr_step x0 x1 x2 x3 x4 x5 x6 5 0xBE2AAAAB#32 (val_main_v96 (F := Ideal) x0 x1 x2 x3 x4 x5 x6) (val_main_v97 (F := Ideal) x0 x1 x2 x3 x4 x5 x6)
    (val_main_cst_26 (F := Ideal) (Shape.Idx.first h_S_)) (val_main_v98 (F := Ideal) x0 x1 x2 x3 x4 x5 x6) (val_main_v99 (F := Ideal) x0 x1 x2 x3 x4 x5 x6) (val_main_v100 (F := Ideal)) (val_main_v101 (F := Ideal) x0 x1 x2 x3 x4 x5 x6)
    (ut6_at x0 x1 x2 x3 x4 x5 x6) (val_main_v97_apply x0 x1 x2 x3 x4 x5 x6) (val_main_cst_26_apply (F := Ideal) _) (val_main_v98_apply x0 x1 x2 x3 x4 x5 x6) (val_main_v99_apply x0 x1 x2 x3 x4 x5 x6)
    (fun i => (val_main_v100_apply (F := Ideal) i).trans (val_main_cst_27_apply (F := Ideal) _)) (val_main_v101_apply x0 x1 x2 x3 x4 x5 x6) r

/-- Iteration 7: the iterate. -/
theorem ut7_at (r : Fin 8192) (i : Fin 1024) :
    val_main_v109 (F := Ideal) x0 x1 x2 x3 x4 x5 x6 (ix2 r i) = utS x0 x1 x2 x3 x4 x5 x6 7 r i :=
  ut_step x0 x1 x2 x3 x4 x5 x6 6 (val_main_v96 (F := Ideal) x0 x1 x2 x3 x4 x5 x6) (val_main_v109 (F := Ideal) x0 x1 x2 x3 x4 x5 x6)
    (val_main_v103 (F := Ideal) x0 x1 x2 x3 x4 x5 x6) (val_main_v104 (F := Ideal)) (val_main_v105 (F := Ideal) x0 x1 x2 x3 x4 x5 x6)
    (val_main_v106 (F := Ideal) x0 x1 x2 x3 x4 x5 x6) (val_main_v107 (F := Ideal)) (val_main_v108 (F := Ideal) x0 x1 x2 x3 x4 x5 x6)
    (ut6_at x0 x1 x2 x3 x4 x5 x6) (val_main_v103_apply x0 x1 x2 x3 x4 x5 x6) (fun i => (val_main_v104_apply (F := Ideal) i).trans (val_main_cst_28_apply (F := Ideal) _))
    (val_main_v105_apply x0 x1 x2 x3 x4 x5 x6) (val_main_v106_apply x0 x1 x2 x3 x4 x5 x6) (fun i => (val_main_v107_apply (F := Ideal) i).trans (val_main_cst_29_apply (F := Ideal) _))
    (val_main_v108_apply x0 x1 x2 x3 x4 x5 x6) (val_main_v109_apply x0 x1 x2 x3 x4 x5 x6) r i

/-- Iteration 7: the series term. -/
theorem mu6_at (r : Fin 8192) :
    val_main_v114 (F := Ideal) x0 x1 x2 x3 x4 x5 x6 (ix2 r (0 : Fin 1)) = Ideal.ofBits .f32 0x3E124925#32 * trS x0 x1 x2 x3 x4 x5 x6 6 r :=
  tr_step x0 x1 x2 x3 x4 x5 x6 6 0x3E124925#32 (val_main_v109 (F := Ideal) x0 x1 x2 x3 x4 x5 x6) (val_main_v110 (F := Ideal) x0 x1 x2 x3 x4 x5 x6)
    (val_main_cst_30 (F := Ideal) (Shape.Idx.first h_S_)) (val_main_v111 (F := Ideal) x0 x1 x2 x3 x4 x5 x6) (val_main_v112 (F := Ideal) x0 x1 x2 x3 x4 x5 x6) (val_main_v113 (F := Ideal)) (val_main_v114 (F := Ideal) x0 x1 x2 x3 x4 x5 x6)
    (ut7_at x0 x1 x2 x3 x4 x5 x6) (val_main_v110_apply x0 x1 x2 x3 x4 x5 x6) (val_main_cst_30_apply (F := Ideal) _) (val_main_v111_apply x0 x1 x2 x3 x4 x5 x6) (val_main_v112_apply x0 x1 x2 x3 x4 x5 x6)
    (fun i => (val_main_v113_apply (F := Ideal) i).trans (val_main_cst_31_apply (F := Ideal) _)) (val_main_v114_apply x0 x1 x2 x3 x4 x5 x6) r

/-- Iteration 8: the iterate. -/
theorem ut8_at (r : Fin 8192) (i : Fin 1024) :
    val_main_v122 (F := Ideal) x0 x1 x2 x3 x4 x5 x6 (ix2 r i) = utS x0 x1 x2 x3 x4 x5 x6 8 r i :=
  ut_step x0 x1 x2 x3 x4 x5 x6 7 (val_main_v109 (F := Ideal) x0 x1 x2 x3 x4 x5 x6) (val_main_v122 (F := Ideal) x0 x1 x2 x3 x4 x5 x6)
    (val_main_v116 (F := Ideal) x0 x1 x2 x3 x4 x5 x6) (val_main_v117 (F := Ideal)) (val_main_v118 (F := Ideal) x0 x1 x2 x3 x4 x5 x6)
    (val_main_v119 (F := Ideal) x0 x1 x2 x3 x4 x5 x6) (val_main_v120 (F := Ideal)) (val_main_v121 (F := Ideal) x0 x1 x2 x3 x4 x5 x6)
    (ut7_at x0 x1 x2 x3 x4 x5 x6) (val_main_v116_apply x0 x1 x2 x3 x4 x5 x6) (fun i => (val_main_v117_apply (F := Ideal) i).trans (val_main_cst_32_apply (F := Ideal) _))
    (val_main_v118_apply x0 x1 x2 x3 x4 x5 x6) (val_main_v119_apply x0 x1 x2 x3 x4 x5 x6) (fun i => (val_main_v120_apply (F := Ideal) i).trans (val_main_cst_33_apply (F := Ideal) _))
    (val_main_v121_apply x0 x1 x2 x3 x4 x5 x6) (val_main_v122_apply x0 x1 x2 x3 x4 x5 x6) r i

/-- Iteration 8: the series term. -/
theorem mu7_at (r : Fin 8192) :
    val_main_v127 (F := Ideal) x0 x1 x2 x3 x4 x5 x6 (ix2 r (0 : Fin 1)) = Ideal.ofBits .f32 0xBE000000#32 * trS x0 x1 x2 x3 x4 x5 x6 7 r :=
  tr_step x0 x1 x2 x3 x4 x5 x6 7 0xBE000000#32 (val_main_v122 (F := Ideal) x0 x1 x2 x3 x4 x5 x6) (val_main_v123 (F := Ideal) x0 x1 x2 x3 x4 x5 x6)
    (val_main_cst_34 (F := Ideal) (Shape.Idx.first h_S_)) (val_main_v124 (F := Ideal) x0 x1 x2 x3 x4 x5 x6) (val_main_v125 (F := Ideal) x0 x1 x2 x3 x4 x5 x6) (val_main_v126 (F := Ideal)) (val_main_v127 (F := Ideal) x0 x1 x2 x3 x4 x5 x6)
    (ut8_at x0 x1 x2 x3 x4 x5 x6) (val_main_v123_apply x0 x1 x2 x3 x4 x5 x6) (val_main_cst_34_apply (F := Ideal) _) (val_main_v124_apply x0 x1 x2 x3 x4 x5 x6) (val_main_v125_apply x0 x1 x2 x3 x4 x5 x6)
    (fun i => (val_main_v126_apply (F := Ideal) i).trans (val_main_cst_35_apply (F := Ideal) _)) (val_main_v127_apply x0 x1 x2 x3 x4 x5 x6) r

/-- Iteration 9: the iterate. -/
theorem ut9_at (r : Fin 8192) (i : Fin 1024) :
    val_main_v135 (F := Ideal) x0 x1 x2 x3 x4 x5 x6 (ix2 r i) = utS x0 x1 x2 x3 x4 x5 x6 9 r i :=
  ut_step x0 x1 x2 x3 x4 x5 x6 8 (val_main_v122 (F := Ideal) x0 x1 x2 x3 x4 x5 x6) (val_main_v135 (F := Ideal) x0 x1 x2 x3 x4 x5 x6)
    (val_main_v129 (F := Ideal) x0 x1 x2 x3 x4 x5 x6) (val_main_v130 (F := Ideal)) (val_main_v131 (F := Ideal) x0 x1 x2 x3 x4 x5 x6)
    (val_main_v132 (F := Ideal) x0 x1 x2 x3 x4 x5 x6) (val_main_v133 (F := Ideal)) (val_main_v134 (F := Ideal) x0 x1 x2 x3 x4 x5 x6)
    (ut8_at x0 x1 x2 x3 x4 x5 x6) (val_main_v129_apply x0 x1 x2 x3 x4 x5 x6) (fun i => (val_main_v130_apply (F := Ideal) i).trans (val_main_cst_36_apply (F := Ideal) _))
    (val_main_v131_apply x0 x1 x2 x3 x4 x5 x6) (val_main_v132_apply x0 x1 x2 x3 x4 x5 x6) (fun i => (val_main_v133_apply (F := Ideal) i).trans (val_main_cst_37_apply (F := Ideal) _))
    (val_main_v134_apply x0 x1 x2 x3 x4 x5 x6) (val_main_v135_apply x0 x1 x2 x3 x4 x5 x6) r i

/-- Iteration 9: the series term. -/
theorem mu8_at (r : Fin 8192) :
    val_main_v140 (F := Ideal) x0 x1 x2 x3 x4 x5 x6 (ix2 r (0 : Fin 1)) = Ideal.ofBits .f32 0x3DE38E39#32 * trS x0 x1 x2 x3 x4 x5 x6 8 r :=
  tr_step x0 x1 x2 x3 x4 x5 x6 8 0x3DE38E39#32 (val_main_v135 (F := Ideal) x0 x1 x2 x3 x4 x5 x6) (val_main_v136 (F := Ideal) x0 x1 x2 x3 x4 x5 x6)
    (val_main_cst_38 (F := Ideal) (Shape.Idx.first h_S_)) (val_main_v137 (F := Ideal) x0 x1 x2 x3 x4 x5 x6) (val_main_v138 (F := Ideal) x0 x1 x2 x3 x4 x5 x6) (val_main_v139 (F := Ideal)) (val_main_v140 (F := Ideal) x0 x1 x2 x3 x4 x5 x6)
    (ut9_at x0 x1 x2 x3 x4 x5 x6) (val_main_v136_apply x0 x1 x2 x3 x4 x5 x6) (val_main_cst_38_apply (F := Ideal) _) (val_main_v137_apply x0 x1 x2 x3 x4 x5 x6) (val_main_v138_apply x0 x1 x2 x3 x4 x5 x6)
    (fun i => (val_main_v139_apply (F := Ideal) i).trans (val_main_cst_39_apply (F := Ideal) _)) (val_main_v140_apply x0 x1 x2 x3 x4 x5 x6) r

/-- Iteration 10: the iterate. -/
theorem ut10_at (r : Fin 8192) (i : Fin 1024) :
    val_main_v148 (F := Ideal) x0 x1 x2 x3 x4 x5 x6 (ix2 r i) = utS x0 x1 x2 x3 x4 x5 x6 10 r i :=
  ut_step x0 x1 x2 x3 x4 x5 x6 9 (val_main_v135 (F := Ideal) x0 x1 x2 x3 x4 x5 x6) (val_main_v148 (F := Ideal) x0 x1 x2 x3 x4 x5 x6)
    (val_main_v142 (F := Ideal) x0 x1 x2 x3 x4 x5 x6) (val_main_v143 (F := Ideal)) (val_main_v144 (F := Ideal) x0 x1 x2 x3 x4 x5 x6)
    (val_main_v145 (F := Ideal) x0 x1 x2 x3 x4 x5 x6) (val_main_v146 (F := Ideal)) (val_main_v147 (F := Ideal) x0 x1 x2 x3 x4 x5 x6)
    (ut9_at x0 x1 x2 x3 x4 x5 x6) (val_main_v142_apply x0 x1 x2 x3 x4 x5 x6) (fun i => (val_main_v143_apply (F := Ideal) i).trans (val_main_cst_40_apply (F := Ideal) _))
    (val_main_v144_apply x0 x1 x2 x3 x4 x5 x6) (val_main_v145_apply x0 x1 x2 x3 x4 x5 x6) (fun i => (val_main_v146_apply (F := Ideal) i).trans (val_main_cst_41_apply (F := Ideal) _))
    (val_main_v147_apply x0 x1 x2 x3 x4 x5 x6) (val_main_v148_apply x0 x1 x2 x3 x4 x5 x6) r i

/-- Iteration 10: the series term. -/
theorem mu9_at (r : Fin 8192) :
    val_main_v153 (F := Ideal) x0 x1 x2 x3 x4 x5 x6 (ix2 r (0 : Fin 1)) = Ideal.ofBits .f32 0xBDCCCCCD#32 * trS x0 x1 x2 x3 x4 x5 x6 9 r :=
  tr_step x0 x1 x2 x3 x4 x5 x6 9 0xBDCCCCCD#32 (val_main_v148 (F := Ideal) x0 x1 x2 x3 x4 x5 x6) (val_main_v149 (F := Ideal) x0 x1 x2 x3 x4 x5 x6)
    (val_main_cst_42 (F := Ideal) (Shape.Idx.first h_S_)) (val_main_v150 (F := Ideal) x0 x1 x2 x3 x4 x5 x6) (val_main_v151 (F := Ideal) x0 x1 x2 x3 x4 x5 x6) (val_main_v152 (F := Ideal)) (val_main_v153 (F := Ideal) x0 x1 x2 x3 x4 x5 x6)
    (ut10_at x0 x1 x2 x3 x4 x5 x6) (val_main_v149_apply x0 x1 x2 x3 x4 x5 x6) (val_main_cst_42_apply (F := Ideal) _) (val_main_v150_apply x0 x1 x2 x3 x4 x5 x6) (val_main_v151_apply x0 x1 x2 x3 x4 x5 x6)
    (fun i => (val_main_v152_apply (F := Ideal) i).trans (val_main_cst_43_apply (F := Ideal) _)) (val_main_v153_apply x0 x1 x2 x3 x4 x5 x6) r

end Cert.RefSpec
-- ==== Proof.RefLogdet.lean ====
import proofs.«172335_j35158602285651_2_alg».proof.Proof.RefIter

noncomputable section

open scoped BigOperators

namespace Cert.RefSpec

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! The reference's second result: the ten series terms added left to right onto the zero word, as a [8192,1,1] array. -/

variable (x0 x1 : (⟨S8192x1024, .f32⟩ : BufTy).Contents (Elt Ideal)) (x2 : (⟨S4096x1024, .f32⟩ : BufTy).Contents (Elt Ideal))
  (x3 : (⟨S4096, .f32⟩ : BufTy).Contents (Elt Ideal)) (x4 : (⟨S4096x4096, .f32⟩ : BufTy).Contents (Elt Ideal))
  (x5 : (⟨S4096, .f32⟩ : BufTy).Contents (Elt Ideal)) (x6 : (⟨S1024x4096, .f32⟩ : BufTy).Contents (Elt Ideal))

/-- The reshape reads row `r` of the column. -/
theorem idx155 (r : Fin 8192) : idx_main_v155 (ix3 r (0 : Fin 1) (0 : Fin 1)) = ix2 r (0 : Fin 1) :=
  funext fun a => by
    match a with
    | ⟨0, _⟩ => exact Fin.ext (show ((r.val * 1 + 0) * 1 + 0) / 1 = r.val by omega)
    | ⟨1, _⟩ => rfl

/-- The reference's second result is the specification's `logdet`. -/
theorem ref_logdet (r : Fin 8192) :
    val_main_v155 (F := Ideal) x0 x1 x2 x3 x4 x5 x6 (ix3 r (0 : Fin 1) (0 : Fin 1))
      = Cert.Spec.logdet (Cert.Spec.mat x0) (Cert.Spec.mat x1) (Cert.Spec.mat x2) (Cert.Spec.vec x3) (Cert.Spec.mat x4)
          (Cert.Spec.vec x5) (Cert.Spec.mat x6) Cert.Spec.coeff r := by
  rw [val_main_v155_apply, idx155, val_main_v154_apply, val_main_v141_apply, val_main_v128_apply, val_main_v115_apply,
    val_main_v102_apply, val_main_v89_apply, val_main_v76_apply, val_main_v63_apply, val_main_v50_apply, val_main_v37_apply,
    val_main_v24_apply, val_main_cst_3_apply, mu0_at, mu1_at, mu2_at, mu3_at, mu4_at, mu5_at, mu6_at, mu7_at, mu8_at, mu9_at]
  simp only [Ideal.addf_def, Ideal.ofBits_def, Ideal.ofBits_zero_f32]
  unfold Cert.Spec.logdet
  simp only [Cert.Spec.coeff]

end Cert.RefSpec
-- ==== Proof.RefOut.lean ====
/-
  The reference's run with its two results named by the specification: what its read-at-an-index lemmas give entry by
  entry, gathered into equalities of whole arrays.
-/
import proofs.«172335_j35158602285651_2_alg».proof.Proof.SpecOut
import proofs.«172335_j35158602285651_2_alg».proof.Proof.RefLogdet

noncomputable section

namespace Cert.RefSpec

open Idealize.ShloMosaic Idealize.ShloMosaic.TcCoe Idealize.SL.Sem Idealize.ShloMosaic.ValueIdx
open Cert.ReferenceIdeal Cert.ReferenceIdeal.Gen

/-- The first result, as an array, is the specification's y. -/
theorem ref_y_fun (x0 : Cert.Spec.A2 8192 1024) (x2 : Cert.Spec.A2 4096 1024) (x3 : Cert.Spec.A1 4096) (x4 : Cert.Spec.A2 4096 4096)
    (x5 : Cert.Spec.A1 4096) (x6 : Cert.Spec.A2 1024 4096) (x7 : Cert.Spec.A1 1024) :
    Cert.ReferenceIdeal.Read.val_main_v23 (F := Ideal) x0 x2 x3 x4 x5 x6 x7 = Cert.Spec.Yv x0 x2 x3 x4 x5 x6 x7 := by
  funext idx
  obtain ⟨a, b, rfl⟩ : ∃ (a : Fin 8192) (b : Fin 1024), idx = ix2 a b := ⟨idx 0, idx 1, eq_ix2 idx⟩
  exact ref_y x0 x2 x3 x4 x5 x6 x7 a b

/-- The second result, as an array, is the specification's series. -/
theorem ref_l_fun (x0 x1 : Cert.Spec.A2 8192 1024) (x2 : Cert.Spec.A2 4096 1024) (x3 : Cert.Spec.A1 4096) (x4 : Cert.Spec.A2 4096 4096)
    (x5 : Cert.Spec.A1 4096) (x6 : Cert.Spec.A2 1024 4096) :
    Cert.ReferenceIdeal.Read.val_main_v155 (F := Ideal) x0 x1 x2 x3 x4 x5 x6 = Cert.Spec.Lv x0 x1 x2 x3 x4 x5 x6 := by
  funext idx
  obtain ⟨a, rfl⟩ : ∃ a : Fin 8192, idx = ix3 a (0 : Fin 1) (0 : Fin 1) :=
    ⟨idx 0, funext fun d => by
      match d with
      | ⟨0, _⟩ => rfl
      | ⟨1, _⟩ => exact Fin.eq_zero (idx 1)
      | ⟨2, _⟩ => exact Fin.eq_zero (idx 2)⟩
  exact ref_logdet x0 x1 x2 x3 x4 x5 x6 a

/-- The reference's run: every weakly fair execution terminates with the two results at the specification's arrays of
    the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = Cert.Spec.Yv (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v155) = Cert.Spec.Lv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).1.trans ((Cert.ReferenceIdeal.Read.val_main_v23_eq (F := Ideal) _ _ _ _ _ _ _).trans (ref_y_fun _ _ _ _ _ _ _)),
     (h c).2.1.trans ((Cert.ReferenceIdeal.Read.val_main_v155_eq (F := Ideal) m c).trans (ref_l_fun _ _ _ _ _ _ _)),
     (h c).2.2⟩) (Cert.ReferenceIdeal.Value.run (F := Ideal) m ρ)

end Cert.RefSpec

end
-- ==== Proof.Alg.lean ====
/-
  The two idealized programs agree.  The kernel's run ends with its two results at the specification's arrays of its
  arguments; the reference's run ends with its two results at the same arrays of ITS arguments, which are the kernel's.
-/
import proofs.«172335_j35158602285651_2_alg».proof.Defs
import proofs.«172335_j35158602285651_2_alg».proof.Proof.KI.Value
import proofs.«172335_j35158602285651_2_alg».proof.Proof.RefOut
import proofs.«172335_j35158602285651_2_alg».proof.Proof.Gen.KernelIdeal
import proofs.«172335_j35158602285651_2_alg».proof.Proof.Gen.ReferenceIdeal
import proofs.«172335_j35158602285651_2_alg».proof.Proof.Gen.Pre_finite_inputs

noncomputable section

namespace Cert.Proof.Alg

open Idealize.ShloMosaic Idealize.ShloMosaic.TcCoe Idealize.SL.Sem

theorem algebraic : Cert.algebraic_KernelIdeal_ReferenceIdeal := by
  intro m ρ m' ρ' hpre hagree
  refine ⟨fun c => Cert.Spec.Yv (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.Lv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.value_all m ρ hpre, ?_⟩
  refine (θ_run Cert.ReferenceIdeal.defs _ _).mono (fun _ h c => ?_) (Cert.RefSpec.ref_run m' ρ')
  obtain ⟨h0, h1, h2, h3, h4, h5, h6, h7⟩ := hagree c
  dsimp only
  rw [← h0, ← h1, ← h2, ← h3, ← h4, ← h5, ← h6, ← h7]
  exact h c

end Cert.Proof.Alg

end
-- ==== Proof.lean ====
/-
  A residual block y = x + g(x) — g three affine layers with two rectifiers — together with a ten-term power series of
  log det(I + J_g) per row, computed by four Pallas kernels (three tiled matrix products accumulated block by block, each
  operand split into a bfloat16 high and low part; one kernel that keeps the three weight matrices resident and applies
  the transposed Jacobian ten times to a row tile), against a plain reference that applies the vector-Jacobian product
  of g ten times.  On the extended reals, for finite inputs, the two compute the same arrays: the low parts vanish, the
  blockwise sums are the whole contractions, the stored 0/1 patterns gate exactly where the reference's selects do.
  The three frames: the reference's is its run; the kernel's two are the run of its four regions and the host
  operations between them.  The six rounding round-trips the idealization removed are identities.
-/
import proofs.«172335_j35158602285651_2_alg».proof.Defs
import proofs.«172335_j35158602285651_2_alg».proof.Proof.Gen.Kernel
import proofs.«172335_j35158602285651_2_alg».proof.Proof.Gen.KernelIdeal
import proofs.«172335_j35158602285651_2_alg».proof.Proof.Gen.ReferenceIdeal
import proofs.«172335_j35158602285651_2_alg».proof.Proof.Gen.Pre_finite_inputs
import proofs.«172335_j35158602285651_2_alg».proof.Proof.Gen.ReferenceIdeal.Run
import proofs.«172335_j35158602285651_2_alg».proof.Proof.Gen.ReferenceIdeal.Read
import proofs.«172335_j35158602285651_2_alg».proof.Proof.Easy
import proofs.«172335_j35158602285651_2_alg».proof.Proof.KB.Fold
import proofs.«172335_j35158602285651_2_alg».proof.Proof.KI.Fold
import proofs.«172335_j35158602285651_2_alg».proof.Proof.Alg

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_all (F := Bits) m ρ,
    fun m ρ _ => Cert.KernelIdeal.Hand.frame_all (F := Ideal) m ρ,
    Cert.Proof.Easy.frame_ri, Cert.Proof.Easy.preserves, Cert.Proof.Alg.algebraic⟩

end Cert.Proof

end
